-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x45x12 : Shape := ⟨4, ![8192, 1, 45, 12]⟩
abbrev S5x64 : Shape := ⟨2, ![5, 64]⟩
abbrev S1x64 : Shape := ⟨2, ![1, 64]⟩
abbrev S320x64 : Shape := ⟨2, ![320, 64]⟩
abbrev S22272x128 : Shape := ⟨2, ![22272, 128]⟩
abbrev S1x128 : Shape := ⟨2, ![1, 128]⟩
abbrev S128x128 : Shape := ⟨2, ![128, 128]⟩
abbrev S128x22 : Shape := ⟨2, ![128, 22]⟩
abbrev S1x22 : Shape := ⟨2, ![1, 22]⟩
abbrev S_ : Shape := ⟨0, ![]⟩

class Facts : Prop where
  bcast_S_S8192x1x45x12 : S_.BroadcastsInDim S8192x1x45x12 (![] : Fin 0 → Fin S8192x1x45x12.rank)
  reducesTo_S8192x1x45x12_S_d0_1_2_3 : S8192x1x45x12.ReducesTo [0, 1, 2, 3] S_
  h_S_ : 0 < S_.numel
  bcast_S_S5x64 : S_.BroadcastsInDim S5x64 (![] : Fin 0 → Fin S5x64.rank)
  reducesTo_S5x64_S_d0_1 : S5x64.ReducesTo [0, 1] S_
  bcast_S_S1x64 : S_.BroadcastsInDim S1x64 (![] : Fin 0 → Fin S1x64.rank)
  reducesTo_S1x64_S_d0_1 : S1x64.ReducesTo [0, 1] S_
  bcast_S_S320x64 : S_.BroadcastsInDim S320x64 (![] : Fin 0 → Fin S320x64.rank)
  reducesTo_S320x64_S_d0_1 : S320x64.ReducesTo [0, 1] S_
  bcast_S_S22272x128 : S_.BroadcastsInDim S22272x128 (![] : Fin 0 → Fin S22272x128.rank)
  reducesTo_S22272x128_S_d0_1 : S22272x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128x22 : S_.BroadcastsInDim S128x22 (![] : Fin 0 → Fin S128x22.rank)
  reducesTo_S128x22_S_d0_1 : S128x22.ReducesTo [0, 1] S_
  bcast_S_S1x22 : S_.BroadcastsInDim S1x22 (![] : Fin 0 → Fin S1x22.rank)
  reducesTo_S1x22_S_d0_1 : S1x22.ReducesTo [0, 1] S_

variable [Facts]

def fn_part4 {F : FTy → Type} [FloatOps F] (main_arg14 : FVec F S1x22 .f32) (main_v63 : IVec S_ 1) (main_v67 : IVec S_ 1) : IVec S_ 1 :=
  let main_v68 : IVec S_ 1 := andi main_v63 main_v67
  let main_v69 : FVec F S1x22 .f32 := Host.absf main_arg14
  let main_cst_26 : FVec F S_ .f32 := constant S_ .f32 0x7F800000#32
  let main_v70 : FVec F S1x22 .f32 := broadcastInDim S1x22 ![] bcast_S_S1x22 main_cst_26
  let main_v71 : IVec S1x22 1 := cmpf .olt main_v69 main_v70
  let main_c_27 : IVec S_ 1 := constantI S_ 1 1#1
  let main_v72 : IVec S_ 1 := (fun x v => Host.reduce IntOp.andi x v reducesTo_S1x22_S_d0_1 h_S_) main_v71 main_c_27
  let main_v73 : IVec S_ 1 := andi main_v68 main_v72
  main_v73

def fn_part3 {F : FTy → Type} [FloatOps F] (main_arg11 : FVec F S128x128 .f32) (main_arg12 : FVec F S1x128 .f32) (main_arg13 : FVec F S128x22 .f32) (main_arg14 : FVec F S1x22 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S1x128 .f32 := Host.absf main_arg12
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S128x22 .f32 := Host.absf main_arg13
  let main_cst_24 : FVec F S_ .f32 := constant S_ .f32 0x7F800000#32
  let main_v65 : FVec F S128x22 .f32 := broadcastInDim S128x22 ![] bcast_S_S128x22 main_cst_24
  let main_v66 : IVec S128x22 1 := cmpf .olt main_v64 main_v65
  let main_c_25 : IVec S_ 1 := constantI S_ 1 1#1
  let main_v67 : IVec S_ 1 := (fun x v => Host.reduce IntOp.andi x v reducesTo_S128x22_S_d0_1 h_S_) main_v66 main_c_25
  fn_part4 (F := F) main_arg14 main_v63 main_v67

def fn_part2 {F : FTy → Type} [FloatOps F] (main_arg7 : FVec F S320x64 .f32) (main_arg8 : FVec F S1x64 .f32) (main_arg9 : FVec F S22272x128 .f32) (main_arg10 : FVec F S1x128 .f32) (main_arg11 : FVec F S128x128 .f32) (main_arg12 : FVec F S1x128 .f32) (main_arg13 : FVec F S128x22 .f32) (main_arg14 : FVec F S1x22 .f32) (main_v33 : IVec S_ 1) : IVec S_ 1 :=
  let main_v34 : FVec F S320x64 .f32 := Host.absf main_arg7
  let main_cst_12 : FVec F S_ .f32 := constant S_ .f32 0x7F800000#32
  let main_v35 : FVec F S320x64 .f32 := broadcastInDim S320x64 ![] bcast_S_S320x64 main_cst_12
  let main_v36 : IVec S320x64 1 := cmpf .olt main_v34 main_v35
  let main_c_13 : IVec S_ 1 := constantI S_ 1 1#1
  let main_v37 : IVec S_ 1 := (fun x v => Host.reduce IntOp.andi x v reducesTo_S320x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S22272x128 .f32 := Host.absf main_arg9
  let main_cst_16 : FVec F S_ .f32 := constant S_ .f32 0x7F800000#32
  let main_v45 : FVec F S22272x128 .f32 := broadcastInDim S22272x128 ![] bcast_S_S22272x128 main_cst_16
  let main_v46 : IVec S22272x128 1 := cmpf .olt main_v44 main_v45
  let main_c_17 : IVec S_ 1 := constantI S_ 1 1#1
  let main_v47 : IVec S_ 1 := (fun x v => Host.reduce IntOp.andi x v reducesTo_S22272x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_arg12 main_arg13 main_arg14 main_v48 main_v49 main_v50

def fn_part1 {F : FTy → Type} [FloatOps F] (main_arg4 : FVec F S1x64 .f32) (main_arg5 : FVec F S320x64 .f32) (main_arg6 : FVec F S1x64 .f32) (main_arg7 : FVec F S320x64 .f32) (main_arg8 : FVec F S1x64 .f32) (main_arg9 : FVec F S22272x128 .f32) (main_arg10 : FVec F S1x128 .f32) (main_arg11 : FVec F S128x128 .f32) (main_arg12 : FVec F S1x128 .f32) (main_arg13 : FVec F S128x22 .f32) (main_arg14 : FVec F S1x22 .f32) (main_v13 : IVec S_ 1) (main_v16 : IVec S320x64 1) : IVec S_ 1 :=
  let main_c_5 : IVec S_ 1 := constantI S_ 1 1#1
  let main_v17 : IVec S_ 1 := (fun x v => Host.reduce IntOp.andi x v reducesTo_S320x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S320x64 .f32 := Host.absf main_arg5
  let main_cst_8 : FVec F S_ .f32 := constant S_ .f32 0x7F800000#32
  let main_v25 : FVec F S320x64 .f32 := broadcastInDim S320x64 ![] bcast_S_S320x64 main_cst_8
  let main_v26 : IVec S320x64 1 := cmpf .olt main_v24 main_v25
  let main_c_9 : IVec S_ 1 := constantI S_ 1 1#1
  let main_v27 : IVec S_ 1 := (fun x v => Host.reduce IntOp.andi x v reducesTo_S320x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x1x45x12 .f32) (main_arg1 : FVec F S5x64 .f32) (main_arg2 : FVec F S1x64 .f32) (main_arg3 : FVec F S320x64 .f32) (main_arg4 : FVec F S1x64 .f32) (main_arg5 : FVec F S320x64 .f32) (main_arg6 : FVec F S1x64 .f32) (main_arg7 : FVec F S320x64 .f32) (main_arg8 : FVec F S1x64 .f32) (main_arg9 : FVec F S22272x128 .f32) (main_arg10 : FVec F S1x128 .f32) (main_arg11 : FVec F S128x128 .f32) (main_arg12 : FVec F S1x128 .f32) (main_arg13 : FVec F S128x22 .f32) (main_arg14 : FVec F S1x22 .f32) : IVec S_ 1 :=
  let main_v0 : FVec F S8192x1x45x12 .f32 := Host.absf main_arg0
  let main_cst : FVec F S_ .f32 := constant S_ .f32 0x7F800000#32
  let main_v1 : FVec F S8192x1x45x12 .f32 := broadcastInDim S8192x1x45x12 ![] bcast_S_S8192x1x45x12 main_cst
  let main_v2 : IVec S8192x1x45x12 1 := cmpf .olt main_v0 main_v1
  let main_c : IVec S_ 1 := constantI S_ 1 1#1
  let main_v3 : IVec S_ 1 := (fun x v => Host.reduce IntOp.andi x v reducesTo_S8192x1x45x12_S_d0_1_2_3 h_S_) main_v2 main_c
  let main_v4 : FVec F S5x64 .f32 := Host.absf main_arg1
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S320x64 .f32 := Host.absf main_arg3
  let main_cst_4 : FVec F S_ .f32 := constant S_ .f32 0x7F800000#32
  let main_v15 : FVec F S320x64 .f32 := broadcastInDim S320x64 ![] bcast_S_S320x64 main_cst_4
  let main_v16 : IVec S320x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x1x45x12 : Shape := ⟨4, ![8192, 1, 45, 12]⟩
abbrev S5x64 : Shape := ⟨2, ![5, 64]⟩
abbrev S1x64 : Shape := ⟨2, ![1, 64]⟩
abbrev S320x64 : Shape := ⟨2, ![320, 64]⟩
abbrev S22272x128 : Shape := ⟨2, ![22272, 128]⟩
abbrev S1x128 : Shape := ⟨2, ![1, 128]⟩
abbrev S128x128 : Shape := ⟨2, ![128, 128]⟩
abbrev S128x22 : Shape := ⟨2, ![128, 22]⟩
abbrev S1x22 : Shape := ⟨2, ![1, 22]⟩
abbrev S8192x45x12 : Shape := ⟨3, ![8192, 45, 12]⟩
abbrev S12x8192x45 : Shape := ⟨3, ![12, 8192, 45]⟩
abbrev S_ : Shape := ⟨0, ![]⟩
abbrev S12x8192x48 : Shape := ⟨3, ![12, 8192, 48]⟩
abbrev S8x64 : Shape := ⟨2, ![8, 64]⟩
abbrev S8x1x64 : Shape := ⟨3, ![8, 1, 64]⟩
abbrev S8x4x64 : Shape := ⟨3, ![8, 4, 64]⟩
abbrev S8x256 : Shape := ⟨2, ![8, 256]⟩
abbrev S48x256 : Shape := ⟨2, ![48, 256]⟩
abbrev S48x2816 : Shape := ⟨2, ![48, 2816]⟩
abbrev S5x64x64 : Shape := ⟨3, ![5, 64, 64]⟩
abbrev S8x64x64 : Shape := ⟨3, ![8, 64, 64]⟩
abbrev S8x64x1x64 : Shape := ⟨4, ![8, 64, 1, 64]⟩
abbrev S8x64x4x64 : Shape := ⟨4, ![8, 64, 4, 64]⟩
abbrev S512x256 : Shape := ⟨2, ![512, 256]⟩
abbrev S256x256 : Shape := ⟨2, ![256, 256]⟩
abbrev S29x12x64x128 : Shape := ⟨4, ![29, 12, 64, 128]⟩
abbrev S12x29x64x128 : Shape := ⟨4, ![12, 29, 64, 128]⟩
abbrev S12x32x64x128 : Shape := ⟨4, ![12, 32, 64, 128]⟩
abbrev S24576x128 : Shape := ⟨2, ![24576, 128]⟩
abbrev S1x1x1x64 : Shape := ⟨4, ![1, 1, 1, 64]⟩
abbrev S1x1x4x64 : Shape := ⟨4, ![1, 1, 4, 64]⟩
abbrev S1x256 : Shape := ⟨2, ![1, 256]⟩
abbrev S8192x22 : Shape := ⟨2, ![8192, 22]⟩
abbrev S12x128x48 : Shape := ⟨3, ![12, 128, 48]⟩
abbrev S1536x48 : Shape := ⟨2, ![1536, 48]⟩
abbrev S1536x256 : Shape := ⟨2, ![1536, 256]⟩
abbrev S128x256 : Shape := ⟨2, ![128, 256]⟩
abbrev S256x128 : Shape := ⟨2, ![256, 128]⟩

abbrev nBuf : Space → Nat
  | .hbm => 164
  | .vmem => 21
  | .smem => 0
  | _ => 0

abbrev hbmTy0_0 (i : Nat) : BufTy := match i % 128 with
  | 0 => ⟨S8192x1x45x12, .f32⟩
  | 1 => ⟨S5x64, .f32⟩
  | 2 => ⟨S1x64, .f32⟩
  | 3 => ⟨S320x64, .f32⟩
  | 4 => ⟨S1x64, .f32⟩
  | 5 => ⟨S320x64, .f32⟩
  | 6 => ⟨S1x64, .f32⟩
  | 7 => ⟨S320x64, .f32⟩
  | 8 => ⟨S1x64, .f32⟩
  | 9 => ⟨S22272x128, .f32⟩
  | 10 => ⟨S1x128, .f32⟩
  | 11 => ⟨S128x128, .f32⟩
  | 12 => ⟨S1x128, .f32⟩
  | 13 => ⟨S128x22, .f32⟩
  | 14 => ⟨S1x22, .f32⟩
  | 15 => ⟨S8192x45x12, .f32⟩
  | 16 => ⟨S12x8192x45, .f32⟩
  | 17 => ⟨S_, .i32⟩
  | 18 => ⟨S_, .f32⟩
  | 19 => ⟨S12x8192x48, .f32⟩
  | 20 => ⟨S_, .i32⟩
  | 21 => ⟨S_, .f32⟩
  | 22 => ⟨S8x64, .f32⟩
  | 23 => ⟨S_, .i32⟩
  | 24 => ⟨S_, .f32⟩
  | 25 => ⟨S8x64, .f32⟩
  | 26 => ⟨S_, .i32⟩
  | 27 => ⟨S_, .f32⟩
  | 28 => ⟨S8x64, .f32⟩
  | 29 => ⟨S_, .i32⟩
  | 30 => ⟨S_, .f32⟩
  | 31 => ⟨S8x64, .f32⟩
  | 32 => ⟨S8x1x64, .f32⟩
  | 33 => ⟨S8x1x64, .f32⟩
  | 34 => ⟨S8x1x64, .f32⟩
  | 35 => ⟨S8x1x64, .f32⟩
  | 36 => ⟨S8x4x64, .f32⟩
  | 37 => ⟨S8x256, .f32⟩
  | 38 => ⟨S_, .i32⟩
  | 39 => ⟨S_, .f32⟩
  | 40 => ⟨S48x256, .f32⟩
  | 41 => ⟨S_, .i32⟩
  | 42 => ⟨S_, .f32⟩
  | 43 => ⟨S48x256, .f32⟩
  | 44 => ⟨S_, .i32⟩
  | 45 => ⟨S_, .f32⟩
  | 46 => ⟨S48x256, .f32⟩
  | 47 => ⟨S_, .i32⟩
  | 48 => ⟨S_, .f32⟩
  | 49 => ⟨S48x256, .f32⟩
  | 50 => ⟨S_, .i32⟩
  | 51 => ⟨S_, .f32⟩
  | 52 => ⟨S48x256, .f32⟩
  | 53 => ⟨S_, .i32⟩
  | 54 => ⟨S_, .f32⟩
  | 55 => ⟨S48x256, .f32⟩
  | 56 => ⟨S_, .i32⟩
  | 57 => ⟨S_, .f32⟩
  | 58 => ⟨S48x256, .f32⟩
  | 59 => ⟨S_, .i32⟩
  | 60 => ⟨S_, .f32⟩
  | 61 => ⟨S48x256, .f32⟩
  | 62 => ⟨S_, .i32⟩
  | 63 => ⟨S_, .f32⟩
  | 64 => ⟨S48x256, .f32⟩
  | 65 => ⟨S_, .i32⟩
  | 66 => ⟨S_, .f32⟩
  | 67 => ⟨S48x256, .f32⟩
  | 68 => ⟨S_, .i32⟩
  | 69 => ⟨S_, .f32⟩
  | 70 => ⟨S48x256, .f32⟩
  | 71 => ⟨S48x2816, .f32⟩
  | 72 => ⟨S48x2816, .bf16⟩
  | 73 => ⟨S5x64x64, .f32⟩
  | 74 => ⟨S_, .i32⟩
  | 75 => ⟨S_, .f32⟩
  | 76 => ⟨S8x64x64, .f32⟩
  | 77 => ⟨S_, .i32⟩
  | 78 => ⟨S_, .f32⟩
  | 79 => ⟨S8x64x64, .f32⟩
  | 80 => ⟨S_, .i32⟩
  | 81 => ⟨S_, .f32⟩
  | 82 => ⟨S8x64x64, .f32⟩
  | 83 => ⟨S_, .i32⟩
  | 84 => ⟨S_, .f32⟩
  | 85 => ⟨S8x64x64, .f32⟩
  | 86 => ⟨S8x64x1x64, .f32⟩
  | 87 => ⟨S8x64x1x64, .f32⟩
  | 88 => ⟨S8x64x1x64, .f32⟩
  | 89 => ⟨S8x64x1x64, .f32⟩
  | 90 => ⟨S8x64x4x64, .f32⟩
  | 91 => ⟨S512x256, .f32⟩
  | 92 => ⟨S256x256, .f32⟩
  | 93 => ⟨S256x256, .f32⟩
  | 94 => ⟨S5x64x64, .f32⟩
  | 95 => ⟨S_, .i32⟩
  | 96 => ⟨S_, .f32⟩
  | 97 => ⟨S8x64x64, .f32⟩
  | 98 => ⟨S_, .i32⟩
  | 99 => ⟨S_, .f32⟩
  | 100 => ⟨S8x64x64, .f32⟩
  | 101 => ⟨S_, .i32⟩
  | 102 => ⟨S_, .f32⟩
  | 103 => ⟨S8x64x64, .f32⟩
  | 104 => ⟨S_, .i32⟩
  | 105 => ⟨S_, .f32⟩
  | 106 => ⟨S8x64x64, .f32⟩
  | 107 => ⟨S8x64x1x64, .f32⟩
  | 108 => ⟨S8x64x1x64, .f32⟩
  | 109 => ⟨S8x64x1x64, .f32⟩
  | 110 => ⟨S8x64x1x64, .f32⟩
  | 111 => ⟨S8x64x4x64, .f32⟩
  | 112 => ⟨S512x256, .f32⟩
  | 113 => ⟨S256x256, .f32⟩
  | 114 => ⟨S256x256, .f32⟩
  | 115 => ⟨S5x64x64, .f32⟩
  | 116 => ⟨S_, .i32⟩
  | 117 => ⟨S_, .f32⟩
  | 118 => ⟨S8x64x64, .f32⟩
  | 119 => ⟨S_, .i32⟩
  | 120 => ⟨S_, .f32⟩
  | 121 => ⟨S8x64x64, .f32⟩
  | 122 => ⟨S_, .i32⟩
  | 123 => ⟨S_, .f32⟩
  | 124 => ⟨S8x64x64, .f32⟩
  | 125 => ⟨S_, .i32⟩
  | 126 => ⟨S_, .f32⟩
  | 127 => ⟨S8x64x64, .f32⟩
  | _ => ⟨S8192x1x45x12, .f32⟩

abbrev hbmTy0_1 (i : Nat) : BufTy := match i % 128 with
  | 0 => ⟨S8x64x1x64, .f32⟩
  | 1 => ⟨S8x64x1x64, .f32⟩
  | 2 => ⟨S8x64x1x64, .f32⟩
  | 3 => ⟨S8x64x1x64, .f32⟩
  | 4 => ⟨S8x64x4x64, .f32⟩
  | 5 => ⟨S512x256, .f32⟩
  | 6 => ⟨S256x256, .f32⟩
  | 7 => ⟨S256x256, .f32⟩
  | 8 => ⟨S29x12x64x128, .f32⟩
  | 9 => ⟨S12x29x64x128, .f32⟩
  | 10 => ⟨S_, .i32⟩
  | 11 => ⟨S_, .f32⟩
  | 12 => ⟨S12x32x64x128, .f32⟩
  | 13 => ⟨S24576x128, .f32⟩
  | 14 => ⟨S1x1x1x64, .f32⟩
  | 15 => ⟨S1x1x4x64, .f32⟩
  | 16 => ⟨S1x256, .f32⟩
  | 17 => ⟨S256x256, .bf16⟩
  | 18 => ⟨S256x256, .bf16⟩
  | 19 => ⟨S1x1x1x64, .f32⟩
  | 20 => ⟨S1x1x4x64, .f32⟩
  | 21 => ⟨S1x256, .f32⟩
  | 22 => ⟨S256x256, .bf16⟩
  | 23 => ⟨S256x256, .bf16⟩
  | 24 => ⟨S1x1x1x64, .f32⟩
  | 25 => ⟨S1x1x4x64, .f32⟩
  | 26 => ⟨S1x256, .f32⟩
  | 27 => ⟨S256x256, .bf16⟩
  | 28 => ⟨S256x256, .bf16⟩
  | 29 => ⟨S1x1x1x64, .f32⟩
  | 30 => ⟨S1x1x4x64, .f32⟩
  | 31 => ⟨S1x256, .f32⟩
  | 32 => ⟨S24576x128, .bf16⟩
  | 33 => ⟨S128x128, .bf16⟩
  | 34 => ⟨S128x22, .bf16⟩
  | 35 => ⟨S8192x22, .f32⟩
  | _ => ⟨S8192x1x45x12, .f32⟩

abbrev hbmTy (i : Nat) : BufTy := match i / 128 with
  | 0 => hbmTy0_0 i
  | 1 => hbmTy0_1 i
  | _ => ⟨S8192x1x45x12, .f32⟩

abbrev bufTy : (tb : Table) → Fin (tcTables nBuf tb) → BufTy
  | .hbm, ⟨i, _⟩ => hbmTy i
  | .local _ .vmem, ⟨0, _⟩ => ⟨S12x128x48, .f32⟩
  | .local _ .vmem, ⟨1, _⟩ => ⟨S12x128x48, .f32⟩
  | .local _ .vmem, ⟨2, _⟩ => ⟨S48x2816, .bf16⟩
  | .local _ .vmem, ⟨3, _⟩ => ⟨S1x256, .f32⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S256x256, .bf16⟩
  | .local _ .vmem, ⟨12, _⟩ => ⟨S1x256, .f32⟩
  | .local _ .vmem, ⟨13, _⟩ => ⟨S24576x128, .bf16⟩
  | .local _ .vmem, ⟨14, _⟩ => ⟨S1x128, .f32⟩
  | .local _ .vmem, ⟨15, _⟩ => ⟨S128x128, .bf16⟩
  | .local _ .vmem, ⟨16, _⟩ => ⟨S1x128, .f32⟩
  | .local _ .vmem, ⟨17, _⟩ => ⟨S128x22, .bf16⟩
  | .local _ .vmem, ⟨18, _⟩ => ⟨S1x22, .f32⟩
  | .local _ .vmem, ⟨19, _⟩ => ⟨S128x22, .f32⟩
  | .local _ .vmem, ⟨20, _⟩ => ⟨S128x22, .f32⟩
  | _, _ => ⟨S8192x1x45x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_v3 : Ref sig .tc := ⟨.hbm, 22, rfl⟩
abbrev main_c_1 : Ref sig .tc := ⟨.hbm, 23, rfl⟩
abbrev main_call2_v0 : Ref sig .tc := ⟨.hbm, 24, rfl⟩
abbrev main_v4 : Ref sig .tc := ⟨.hbm, 25, rfl⟩
abbrev main_c_2 : Ref sig .tc := ⟨.hbm, 26, rfl⟩
abbrev main_call3_v0 : Ref sig .tc := ⟨.hbm, 27, rfl⟩
abbrev main_v5 : Ref sig .tc := ⟨.hbm, 28, rfl⟩
abbrev main_c_3 : Ref sig .tc := ⟨.hbm, 29, rfl⟩
abbrev main_call4_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_4 : Ref sig .tc := ⟨.hbm, 38, rfl⟩
abbrev main_call5_v0 : Ref sig .tc := ⟨.hbm, 39, rfl⟩
abbrev main_v13 : Ref sig .tc := ⟨.hbm, 40, rfl⟩
abbrev main_c_5 : Ref sig .tc := ⟨.hbm, 41, rfl⟩
abbrev main_call6_v0 : Ref sig .tc := ⟨.hbm, 42, rfl⟩
abbrev main_v14 : Ref sig .tc := ⟨.hbm, 43, rfl⟩
abbrev main_c_6 : Ref sig .tc := ⟨.hbm, 44, rfl⟩
abbrev main_call7_v0 : Ref sig .tc := ⟨.hbm, 45, rfl⟩
abbrev main_v15 : Ref sig .tc := ⟨.hbm, 46, rfl⟩
abbrev main_c_7 : Ref sig .tc := ⟨.hbm, 47, rfl⟩
abbrev main_call8_v0 : Ref sig .tc := ⟨.hbm, 48, rfl⟩
abbrev main_v16 : Ref sig .tc := ⟨.hbm, 49, rfl⟩
abbrev main_c_8 : Ref sig .tc := ⟨.hbm, 50, rfl⟩
abbrev main_call9_v0 : Ref sig .tc := ⟨.hbm, 51, rfl⟩
abbrev main_v17 : Ref sig .tc := ⟨.hbm, 52, rfl⟩
abbrev main_c_9 : Ref sig .tc := ⟨.hbm, 53, rfl⟩
abbrev main_call10_v0 : Ref sig .tc := ⟨.hbm, 54, rfl⟩
abbrev main_v18 : Ref sig .tc := ⟨.hbm, 55, rfl⟩
abbrev main_c_10 : Ref sig .tc := ⟨.hbm, 56, rfl⟩
abbrev main_call11_v0 : Ref sig .tc := ⟨.hbm, 57, rfl⟩
abbrev main_v19 : Ref sig .tc := ⟨.hbm, 58, rfl⟩
abbrev main_c_11 : Ref sig .tc := ⟨.hbm, 59, rfl⟩
abbrev main_call12_v0 : Ref sig .tc := ⟨.hbm, 60, rfl⟩
abbrev main_v20 : Ref sig .tc := ⟨.hbm, 61, rfl⟩
abbrev main_c_12 : Ref sig .tc := ⟨.hbm, 62, rfl⟩
abbrev main_call13_v0 : Ref sig .tc := ⟨.hbm, 63, rfl⟩
abbrev main_v21 : Ref sig .tc := ⟨.hbm, 64, rfl⟩
abbrev main_c_13 : Ref sig .tc := ⟨.hbm, 65, rfl⟩
abbrev main_call14_v0 : Ref sig .tc := ⟨.hbm, 66, rfl⟩
abbrev main_v22 : Ref sig .tc := ⟨.hbm, 67, rfl⟩
abbrev main_c_14 : Ref sig .tc := ⟨.hbm, 68, rfl⟩
abbrev main_call15_v0 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c_15 : Ref sig .tc := ⟨.hbm, 74, rfl⟩
abbrev main_call16_v0 : Ref sig .tc := ⟨.hbm, 75, rfl⟩
abbrev main_v27 : Ref sig .tc := ⟨.hbm, 76, rfl⟩
abbrev main_c_16 : Ref sig .tc := ⟨.hbm, 77, rfl⟩
abbrev main_call17_v0 : Ref sig .tc := ⟨.hbm, 78, rfl⟩
abbrev main_v28 : Ref sig .tc := ⟨.hbm, 79, rfl⟩
abbrev main_c_17 : Ref sig .tc := ⟨.hbm, 80, rfl⟩
abbrev main_call18_v0 : Ref sig .tc := ⟨.hbm, 81, rfl⟩
abbrev main_v29 : Ref sig .tc := ⟨.hbm, 82, rfl⟩
abbrev main_c_18 : Ref sig .tc := ⟨.hbm, 83, rfl⟩
abbrev main_call19_v0 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_c_19 : Ref sig .tc := ⟨.hbm, 95, rfl⟩
abbrev main_call20_v0 : Ref sig .tc := ⟨.hbm, 96, rfl⟩
abbrev main_v40 : Ref sig .tc := ⟨.hbm, 97, rfl⟩
abbrev main_c_20 : Ref sig .tc := ⟨.hbm, 98, rfl⟩
abbrev main_call21_v0 : Ref sig .tc := ⟨.hbm, 99, rfl⟩
abbrev main_v41 : Ref sig .tc := ⟨.hbm, 100, rfl⟩
abbrev main_c_21 : Ref sig .tc := ⟨.hbm, 101, rfl⟩
abbrev main_call22_v0 : Ref sig .tc := ⟨.hbm, 102, rfl⟩
abbrev main_v42 : Ref sig .tc := ⟨.hbm, 103, rfl⟩
abbrev main_c_22 : Ref sig .tc := ⟨.hbm, 104, rfl⟩
abbrev main_call23_v0 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_c_23 : Ref sig .tc := ⟨.hbm, 116, rfl⟩
abbrev main_call24_v0 : Ref sig .tc := ⟨.hbm, 117, rfl⟩
abbrev main_v53 : Ref sig .tc := ⟨.hbm, 118, rfl⟩
abbrev main_c_24 : Ref sig .tc := ⟨.hbm, 119, rfl⟩
abbrev main_call25_v0 : Ref sig .tc := ⟨.hbm, 120, rfl⟩
abbrev main_v54 : Ref sig .tc := ⟨.hbm, 121, rfl⟩
abbrev main_c_25 : Ref sig .tc := ⟨.hbm, 122, rfl⟩
abbrev main_call26_v0 : Ref sig .tc := ⟨.hbm, 123, rfl⟩
abbrev main_v55 : Ref sig .tc := ⟨.hbm, 124, rfl⟩
abbrev main_c_26 : Ref sig .tc := ⟨.hbm, 125, rfl⟩
abbrev main_call27_v0 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_c_27 : Ref sig .tc := ⟨.hbm, 138, rfl⟩
abbrev main_call28_v0 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12x128x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S24576x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x22 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x22 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S128x22 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S8192x1x45x12_S8192x45x12 : S8192x1x45x12.ShapeCasts S8192x45x12
  transposes_S8192x45x12_S12x8192x45_2_0_1 : S8192x45x12.Transposes [2, 0, 1] S12x8192x45
  pads_S12x8192x45_S12x8192x48_000_000_030 : S12x8192x45.Pads (![0, 0, 0] : Fin 3 → Nat) ![0, 0, 3] ![0, 0, 0] S12x8192x48
  h_S_ : 0 < S_.numel
  pads_S5x64_S8x64_030_000 : S5x64.Pads (![0, 0] : Fin 2 → Nat) ![3, 0] ![0, 0] S8x64
  pads_S5x64_S8x64_120_000 : S5x64.Pads (![1, 0] : Fin 2 → Nat) ![2, 0] ![0, 0] S8x64
  pads_S5x64_S8x64_210_000 : S5x64.Pads (![2, 0] : Fin 2 → Nat) ![1, 0] ![0, 0] S8x64
  pads_S5x64_S8x64_300_000 : S5x64.Pads (![3, 0] : Fin 2 → Nat) ![0, 0] ![0, 0] S8x64
  bcast_S8x64_S8x1x64_0_2 : S8x64.BroadcastsInDim S8x1x64 (![0, 2] : Fin 2 → Fin S8x1x64.rank)
  concatenates_S8x1x64_S8x1x64_S8x1x64_S8x1x64_S8x4x64_d1 : Shape.Concatenates [S8x1x64, S8x1x64, S8x1x64, S8x1x64] S8x4x64 1
  shapeCasts_S8x4x64_S8x256 : S8x4x64.ShapeCasts S8x256
  pads_S8x256_S48x256_0400_000 : S8x256.Pads (![0, 0] : Fin 2 → Nat) ![40, 0] ![0, 0] S48x256
  pads_S8x256_S48x256_4360_000 : S8x256.Pads (![4, 0] : Fin 2 → Nat) ![36, 0] ![0, 0] S48x256
  pads_S8x256_S48x256_8320_000 : S8x256.Pads (![8, 0] : Fin 2 → Nat) ![32, 0] ![0, 0] S48x256
  pads_S8x256_S48x256_12280_000 : S8x256.Pads (![12, 0] : Fin 2 → Nat) ![28, 0] ![0, 0] S48x256
  pads_S8x256_S48x256_16240_000 : S8x256.Pads (![16, 0] : Fin 2 → Nat) ![24, 0] ![0, 0] S48x256
  pads_S8x256_S48x256_20200_000 : S8x256.Pads (![20, 0] : Fin 2 → Nat) ![20, 0] ![0, 0] S48x256
  pads_S8x256_S48x256_24160_000 : S8x256.Pads (![24, 0] : Fin 2 → Nat) ![16, 0] ![0, 0] S48x256
  pads_S8x256_S48x256_28120_000 : S8x256.Pads (![28, 0] : Fin 2 → Nat) ![12, 0] ![0, 0] S48x256
  pads_S8x256_S48x256_3280_000 : S8x256.Pads (![32, 0] : Fin 2 → Nat) ![8, 0] ![0, 0] S48x256
  pads_S8x256_S48x256_3640_000 : S8x256.Pads (![36, 0] : Fin 2 → Nat) ![4, 0] ![0, 0] S48x256
  pads_S8x256_S48x256_4000_000 : S8x256.Pads (![40, 0] : Fin 2 → Nat) ![0, 0] ![0, 0] S48x256
  concatenates_S48x256_S48x256_S48x256_S48x256_S48x256_S48x256_S48x256_S48x256_S48x256_S48x256_S48x256_S48x2816_d1 : Shape.Concatenates [S48x256, S48x256, S48x256, S48x256, S48x256, S48x256, S48x256, S48x256, S48x256, S48x256, S48x256] S48x2816 1
  bitsLt_bf16_f32 : FTy.bits .bf16 < FTy.bits .f32
  shapeCasts_S320x64_S5x64x64 : S320x64.ShapeCasts S5x64x64
  pads_S5x64x64_S8x64x64_030_000_000 : S5x64x64.Pads (![0, 0, 0] : Fin 3 → Nat) ![3, 0, 0] ![0, 0, 0] S8x64x64
  pads_S5x64x64_S8x64x64_120_000_000 : S5x64x64.Pads (![1, 0, 0] : Fin 3 → Nat) ![2, 0, 0] ![0, 0, 0] S8x64x64
  pads_S5x64x64_S8x64x64_210_000_000 : S5x64x64.Pads (![2, 0, 0] : Fin 3 → Nat) ![1, 0, 0] ![0, 0, 0] S8x64x64
  pads_S5x64x64_S8x64x64_300_000_000 : S5x64x64.Pads (![3, 0, 0] : Fin 3 → Nat) ![0, 0, 0] ![0, 0, 0] S8x64x64
  bcast_S8x64x64_S8x64x1x64_0_1_3 : S8x64x64.BroadcastsInDim S8x64x1x64 (![0, 1, 3] : Fin 3 → Fin S8x64x1x64.rank)
  concatenates_S8x64x1x64_S8x64x1x64_S8x64x1x64_S8x64x1x64_S8x64x4x64_d2 : Shape.Concatenates [S8x64x1x64, S8x64x1x64, S8x64x1x64, S8x64x1x64] S8x64x4x64 2
  shapeCasts_S8x64x4x64_S512x256 : S8x64x4x64.ShapeCasts S512x256
  slices_S512x256_S256x256_0_0 : S512x256.Slices ![0, 0] S256x256
  slices_S512x256_S256x256_256_0 : S512x256.Slices ![256, 0] S256x256
  shapeCasts_S22272x128_S29x12x64x128 : S22272x128.ShapeCasts S29x12x64x128
  transposes_S29x12x64x128_S12x29x64x128_1_0_2_3 : S29x12x64x128.Transposes [1, 0, 2, 3] S12x29x64x128
  pads_S12x29x64x128_S12x32x64x128_000_030_000_000 : S12x29x64x128.Pads (![0, 0, 0, 0] : Fin 4 → Nat) ![0, 3, 0, 0] ![0, 0, 0, 0] S12x32x64x128
  shapeCasts_S12x32x64x128_S24576x128 : S12x32x64x128.ShapeCasts S24576x128
  shapeCasts_S1x64_S1x1x1x64 : S1x64.ShapeCasts S1x1x1x64
  bcast_S1x1x1x64_S1x1x4x64_0_1_2_3 : S1x1x1x64.BroadcastsInDim S1x1x4x64 (![0, 1, 2, 3] : Fin 4 → Fin S1x1x4x64.rank)
  shapeCasts_S1x1x4x64_S1x256 : S1x1x4x64.ShapeCasts S1x256
  inb_S12x128x48_S12x128x48_0_0_0 : ∀ a, (![0, 0, 0] : Fin 3 → Nat) a + S12x128x48.size a ≤ S12x128x48.size a
  h_S12x128x48 : 0 < S12x128x48.numel
  shapeCasts_S12x128x48_S12x128x48 : S12x128x48.ShapeCasts S12x128x48
  shapeCasts_S12x128x48_S1536x48 : S12x128x48.ShapeCasts S1536x48
  inb_S1x256_S1x256_0_0 : ∀ a, (![0, 0] : Fin 2 → Nat) a + S1x256.size a ≤ S1x256.size a
  h_S1x256 : 0 < S1x256.numel
  inb_S48x2816_S48x256_0_0 : ∀ a, (![0, 0] : Fin 2 → Nat) a + S48x256.size a ≤ S48x2816.size a
  h_S48x256 : 0 < S48x256.numel
  shapeCasts_S48x256_S48x256 : S48x256.ShapeCasts S48x256
  broadcasts_S1x256_S1536x256 : S1x256.Broadcasts S1536x256
  inb_S48x2816_S48x256_0_256 : ∀ a, (![0, 256] : Fin 2 → Nat) a + S48x256.size a ≤ S48x2816.size a
  inb_S48x2816_S48x256_0_512 : ∀ a, (![0, 512] : Fin 2 → Nat) a + S48x256.size a ≤ S48x2816.size a
  inb_S48x2816_S48x256_0_768 : ∀ a, (![0, 768] : Fin 2 → Nat) a + S48x256.size a ≤ S48x2816.size a
  inb_S48x2816_S48x256_0_1024 : ∀ a, (![0, 1024] : Fin 2 → Nat) a + S48x256.size a ≤ S48x2816.size a
  inb_S48x2816_S48x256_0_1280 : ∀ a, (![0, 1280] : Fin 2 → Nat) a + S48x256.size a ≤ S48x2816.size a
  inb_S48x2816_S48x256_0_1536 : ∀ a, (![0, 1536] : Fin 2 → Nat) a + S48x256.size a ≤ S48x2816.size a
  inb_S48x2816_S48x256_0_1792 : ∀ a, (![0, 1792] : Fin 2 → Nat) a + S48x256.size a ≤ S48x2816.size a
  inb_S48x2816_S48x256_0_2048 : ∀ a, (![0, 2048] : Fin 2 → Nat) a + S48x256.size a ≤ S48x2816.size a
  inb_S48x2816_S48x256_0_2304 : ∀ a, (![0, 2304] : Fin 2 → Nat) a + S48x256.size a ≤ S48x2816.size a
  inb_S48x2816_S48x256_0_2560 : ∀ a, (![0, 2560] : Fin 2 → Nat) a + S48x256.size a ≤ S48x2816.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S1536x256_o0_0_S128x256 : S1536x256.Slices ![0, 0] S128x256
  inb_S24576x128_S256x128_0_0 : ∀ a, (![0, 0] : Fin 2 → Nat) a + S256x128.size a ≤ S24576x128.size a
  h_S256x128 : 0 < S256x128.numel
  shapeCasts_S256x128_S256x128 : S256x128.ShapeCasts S256x128
  inb_S24576x128_S256x128_256_0 : ∀ a, (![256, 0] : Fin 2 → Nat) a + S256x128.size a ≤ S24576x128.size a
  inb_S24576x128_S256x128_512_0 : ∀ a, (![512, 0] : Fin 2 → Nat) a + S256x128.size a ≤ S24576x128.size a
  inb_S24576x128_S256x128_768_0 : ∀ a, (![768, 0] : Fin 2 → Nat) a + S256x128.size a ≤ S24576x128.size a
  inb_S24576x128_S256x128_1024_0 : ∀ a, (![1024, 0] : Fin 2 → Nat) a + S256x128.size a ≤ S24576x128.size a
  inb_S24576x128_S256x128_1280_0 : ∀ a, (![1280, 0] : Fin 2 → Nat) a + S256x128.size a ≤ S24576x128.size a
  inb_S24576x128_S256x128_1536_0 : ∀ a, (![1536, 0] : Fin 2 → Nat) a + S256x128.size a ≤ S24576x128.size a
  inb_S24576x128_S256x128_1792_0 : ∀ a, (![1792, 0] : Fin 2 → Nat) a + S256x128.size a ≤ S24576x128.size a
  slices_S1536x256_o128_0_S128x256 : S1536x256.Slices ![128, 0] S128x256
  inb_S24576x128_S256x128_2048_0 : ∀ a, (![2048, 0] : Fin 2 → Nat) a + S256x128.size a ≤ S24576x128.size a
  inb_S24576x128_S256x128_2304_0 : ∀ a, (![2304, 0] : Fin 2 → Nat) a + S256x128.size a ≤ S24576x128.size a
  inb_S24576x128_S256x128_2560_0 : ∀ a, (![2560, 0] : Fin 2 → Nat) a + S256x128.size a ≤ S24576x128.size a
  inb_S24576x128_S256x128_2816_0 : ∀ a, (![2816, 0] : Fin 2 → Nat) a + S256x128.size a ≤ S24576x128.size a
  inb_S24576x128_S256x128_3072_0 : ∀ a, (![3072, 0] : Fin 2 → Nat) a + S256x128.size a ≤ S24576x128.size a
  inb_S24576x128_S256x128_3328_0 : ∀ a, (![3328, 0] : Fin 2 → Nat) a + S256x128.size a ≤ S24576x128.size a
  inb_S24576x128_S256x128_3584_0 : ∀ a, (![3584, 0] : Fin 2 → Nat) a + S256x128.size a ≤ S24576x128.size a
  inb_S24576x128_S256x128_3840_0 : ∀ a, (![3840, 0] : Fin 2 → Nat) a + S256x128.size a ≤ S24576x128.size a
  slices_S1536x256_o256_0_S128x256 : S1536x256.Slices ![256, 0] S128x256
  inb_S24576x128_S256x128_4096_0 : ∀ a, (![4096, 0] : Fin 2 → Nat) a + S256x128.size a ≤ S24576x128.size a
  inb_S24576x128_S256x128_4352_0 : ∀ a, (![4352, 0] : Fin 2 → Nat) a + S256x128.size a ≤ S24576x128.size a
  inb_S24576x128_S256x128_4608_0 : ∀ a, (![4608, 0] : Fin 2 → Nat) a + S256x128.size a ≤ S24576x128.size a
  inb_S24576x128_S256x128_4864_0 : ∀ a, (![4864, 0] : Fin 2 → Nat) a + S256x128.size a ≤ S24576x128.size a
  inb_S24576x128_S256x128_5120_0 : ∀ a, (![5120, 0] : Fin 2 → Nat) a + S256x128.size a ≤ S24576x128.size a
  inb_S24576x128_S256x128_5376_0 : ∀ a, (![5376, 0] : Fin 2 → Nat) a + S256x128.size a ≤ S24576x128.size a
  inb_S24576x128_S256x128_5632_0 : ∀ a, (![5632, 0] : Fin 2 → Nat) a + S256x128.size a ≤ S24576x128.size a
  inb_S24576x128_S256x128_5888_0 : ∀ a, (![5888, 0] : Fin 2 → Nat) a + S256x128.size a ≤ S24576x128.size a
  slices_S1536x256_o384_0_S128x256 : S1536x256.Slices ![384, 0] S128x256
  inb_S24576x128_S256x128_6144_0 : ∀ a, (![6144, 0] : Fin 2 → Nat) a + S256x128.size a ≤ S24576x128.size a
  inb_S24576x128_S256x128_6400_0 : ∀ a, (![6400, 0] : Fin 2 → Nat) a + S256x128.size a ≤ S24576x128.size a
  inb_S24576x128_S256x128_6656_0 : ∀ a, (![6656, 0] : Fin 2 → Nat) a + S256x128.size a ≤ S24576x128.size a
  inb_S24576x128_S256x128_6912_0 : ∀ a, (![6912, 0] : Fin 2 → Nat) a + S256x128.size a ≤ S24576x128.size a
  inb_S24576x128_S256x128_7168_0 : ∀ a, (![7168, 0] : Fin 2 → Nat) a + S256x128.size a ≤ S24576x128.size a
  inb_S24576x128_S256x128_7424_0 : ∀ a, (![7424, 0] : Fin 2 → Nat) a + S256x128.size a ≤ S24576x128.size a
  inb_S24576x128_S256x128_7680_0 : ∀ a, (![7680, 0] : Fin 2 → Nat) a + S256x128.size a ≤ S24576x128.size a
  inb_S24576x128_S256x128_7936_0 : ∀ a, (![7936, 0] : Fin 2 → Nat) a + S256x128.size a ≤ S24576x128.size a
  slices_S1536x256_o512_0_S128x256 : S1536x256.Slices ![512, 0] S128x256
  inb_S24576x128_S256x128_8192_0 : ∀ a, (![8192, 0] : Fin 2 → Nat) a + S256x128.size a ≤ S24576x128.size a
  inb_S24576x128_S256x128_8448_0 : ∀ a, (![8448, 0] : Fin 2 → Nat) a + S256x128.size a ≤ S24576x128.size a
  inb_S24576x128_S256x128_8704_0 : ∀ a, (![8704, 0] : Fin 2 → Nat) a + S256x128.size a ≤ S24576x128.size a
  inb_S24576x128_S256x128_8960_0 : ∀ a, (![8960, 0] : Fin 2 → Nat) a + S256x128.size a ≤ S24576x128.size a
  inb_S24576x128_S256x128_9216_0 : ∀ a, (![9216, 0] : Fin 2 → Nat) a + S256x128.size a ≤ S24576x128.size a
  inb_S24576x128_S256x128_9472_0 : ∀ a, (![9472, 0] : Fin 2 → Nat) a + S256x128.size a ≤ S24576x128.size a
  inb_S24576x128_S256x128_9728_0 : ∀ a, (![9728, 0] : Fin 2 → Nat) a + S256x128.size a ≤ S24576x128.size a
  inb_S24576x128_S256x128_9984_0 : ∀ a, (![9984, 0] : Fin 2 → Nat) a + S256x128.size a ≤ S24576x128.size a
  slices_S1536x256_o640_0_S128x256 : S1536x256.Slices ![640, 0] S128x256
  inb_S24576x128_S256x128_10240_0 : ∀ a, (![10240, 0] : Fin 2 → Nat) a + S256x128.size a ≤ S24576x128.size a
  inb_S24576x128_S256x128_10496_0 : ∀ a, (![10496, 0] : Fin 2 → Nat) a + S256x128.size a ≤ S24576x128.size a
  inb_S24576x128_S256x128_10752_0 : ∀ a, (![10752, 0] : Fin 2 → Nat) a + S256x128.size a ≤ S24576x128.size a
  inb_S24576x128_S256x128_11008_0 : ∀ a, (![11008, 0] : Fin 2 → Nat) a + S256x128.size a ≤ S24576x128.size a
  inb_S24576x128_S256x128_11264_0 : ∀ a, (![11264, 0] : Fin 2 → Nat) a + S256x128.size a ≤ S24576x128.size a
  inb_S24576x128_S256x128_11520_0 : ∀ a, (![11520, 0] : Fin 2 → Nat) a + S256x128.size a ≤ S24576x128.size a
  inb_S24576x128_S256x128_11776_0 : ∀ a, (![11776, 0] : Fin 2 → Nat) a + S256x128.size a ≤ S24576x128.size a
  inb_S24576x128_S256x128_12032_0 : ∀ a, (![12032, 0] : Fin 2 → Nat) a + S256x128.size a ≤ S24576x128.size a
  slices_S1536x256_o768_0_S128x256 : S1536x256.Slices ![768, 0] S128x256
  inb_S24576x128_S256x128_12288_0 : ∀ a, (![12288, 0] : Fin 2 → Nat) a + S256x128.size a ≤ S24576x128.size a
  inb_S24576x128_S256x128_12544_0 : ∀ a, (![12544, 0] : Fin 2 → Nat) a + S256x128.size a ≤ S24576x128.size a
  inb_S24576x128_S256x128_12800_0 : ∀ a, (![12800, 0] : Fin 2 → Nat) a + S256x128.size a ≤ S24576x128.size a
  inb_S24576x128_S256x128_13056_0 : ∀ a, (![13056, 0] : Fin 2 → Nat) a + S256x128.size a ≤ S24576x128.size a
  inb_S24576x128_S256x128_13312_0 : ∀ a, (![13312, 0] : Fin 2 → Nat) a + S256x128.size a ≤ S24576x128.size a
  inb_S24576x128_S256x128_13568_0 : ∀ a, (![13568, 0] : Fin 2 → Nat) a + S256x128.size a ≤ S24576x128.size a
  inb_S24576x128_S256x128_13824_0 : ∀ a, (![13824, 0] : Fin 2 → Nat) a + S256x128.size a ≤ S24576x128.size a
  inb_S24576x128_S256x128_14080_0 : ∀ a, (![14080, 0] : Fin 2 → Nat) a + S256x128.size a ≤ S24576x128.size a
  slices_S1536x256_o896_0_S128x256 : S1536x256.Slices ![896, 0] S128x256
  inb_S24576x128_S256x128_14336_0 : ∀ a, (![14336, 0] : Fin 2 → Nat) a + S256x128.size a ≤ S24576x128.size a
  inb_S24576x128_S256x128_14592_0 : ∀ a, (![14592, 0] : Fin 2 → Nat) a + S256x128.size a ≤ S24576x128.size a
  inb_S24576x128_S256x128_14848_0 : ∀ a, (![14848, 0] : Fin 2 → Nat) a + S256x128.size a ≤ S24576x128.size a
  inb_S24576x128_S256x128_15104_0 : ∀ a, (![15104, 0] : Fin 2 → Nat) a + S256x128.size a ≤ S24576x128.size a
  inb_S24576x128_S256x128_15360_0 : ∀ a, (![15360, 0] : Fin 2 → Nat) a + S256x128.size a ≤ S24576x128.size a
  inb_S24576x128_S256x128_15616_0 : ∀ a, (![15616, 0] : Fin 2 → Nat) a + S256x128.size a ≤ S24576x128.size a
  inb_S24576x128_S256x128_15872_0 : ∀ a, (![15872, 0] : Fin 2 → Nat) a + S256x128.size a ≤ S24576x128.size a
  inb_S24576x128_S256x128_16128_0 : ∀ a, (![16128, 0] : Fin 2 → Nat) a + S256x128.size a ≤ S24576x128.size a
  slices_S1536x256_o1024_0_S128x256 : S1536x256.Slices ![1024, 0] S128x256
  inb_S24576x128_S256x128_16384_0 : ∀ a, (![16384, 0] : Fin 2 → Nat) a + S256x128.size a ≤ S24576x128.size a
  inb_S24576x128_S256x128_16640_0 : ∀ a, (![16640, 0] : Fin 2 → Nat) a + S256x128.size a ≤ S24576x128.size a
  inb_S24576x128_S256x128_16896_0 : ∀ a, (![16896, 0] : Fin 2 → Nat) a + S256x128.size a ≤ S24576x128.size a
  inb_S24576x128_S256x128_17152_0 : ∀ a, (![17152, 0] : Fin 2 → Nat) a + S256x128.size a ≤ S24576x128.size a
  inb_S24576x128_S256x128_17408_0 : ∀ a, (![17408, 0] : Fin 2 → Nat) a + S256x128.size a ≤ S24576x128.size a
  inb_S24576x128_S256x128_17664_0 : ∀ a, (![17664, 0] : Fin 2 → Nat) a + S256x128.size a ≤ S24576x128.size a
  inb_S24576x128_S256x128_17920_0 : ∀ a, (![17920, 0] : Fin 2 → Nat) a + S256x128.size a ≤ S24576x128.size a
  inb_S24576x128_S256x128_18176_0 : ∀ a, (![18176, 0] : Fin 2 → Nat) a + S256x128.size a ≤ S24576x128.size a
  slices_S1536x256_o1152_0_S128x256 : S1536x256.Slices ![1152, 0] S128x256
  inb_S24576x128_S256x128_18432_0 : ∀ a, (![18432, 0] : Fin 2 → Nat) a + S256x128.size a ≤ S24576x128.size a
  inb_S24576x128_S256x128_18688_0 : ∀ a, (![18688, 0] : Fin 2 → Nat) a + S256x128.size a ≤ S24576x128.size a
  inb_S24576x128_S256x128_18944_0 : ∀ a, (![18944, 0] : Fin 2 → Nat) a + S256x128.size a ≤ S24576x128.size a
  inb_S24576x128_S256x128_19200_0 : ∀ a, (![19200, 0] : Fin 2 → Nat) a + S256x128.size a ≤ S24576x128.size a
  inb_S24576x128_S256x128_19456_0 : ∀ a, (![19456, 0] : Fin 2 → Nat) a + S256x128.size a ≤ S24576x128.size a
  inb_S24576x128_S256x128_19712_0 : ∀ a, (![19712, 0] : Fin 2 → Nat) a + S256x128.size a ≤ S24576x128.size a
  inb_S24576x128_S256x128_19968_0 : ∀ a, (![19968, 0] : Fin 2 → Nat) a + S256x128.size a ≤ S24576x128.size a
  inb_S24576x128_S256x128_20224_0 : ∀ a, (![20224, 0] : Fin 2 → Nat) a + S256x128.size a ≤ S24576x128.size a
  slices_S1536x256_o1280_0_S128x256 : S1536x256.Slices ![1280, 0] S128x256
  inb_S24576x128_S256x128_20480_0 : ∀ a, (![20480, 0] : Fin 2 → Nat) a + S256x128.size a ≤ S24576x128.size a
  inb_S24576x128_S256x128_20736_0 : ∀ a, (![20736, 0] : Fin 2 → Nat) a + S256x128.size a ≤ S24576x128.size a
  inb_S24576x128_S256x128_20992_0 : ∀ a, (![20992, 0] : Fin 2 → Nat) a + S256x128.size a ≤ S24576x128.size a
  inb_S24576x128_S256x128_21248_0 : ∀ a, (![21248, 0] : Fin 2 → Nat) a + S256x128.size a ≤ S24576x128.size a
  inb_S24576x128_S256x128_21504_0 : ∀ a, (![21504, 0] : Fin 2 → Nat) a + S256x128.size a ≤ S24576x128.size a
  inb_S24576x128_S256x128_21760_0 : ∀ a, (![21760, 0] : Fin 2 → Nat) a + S256x128.size a ≤ S24576x128.size a
  inb_S24576x128_S256x128_22016_0 : ∀ a, (![22016, 0] : Fin 2 → Nat) a + S256x128.size a ≤ S24576x128.size a
  inb_S24576x128_S256x128_22272_0 : ∀ a, (![22272, 0] : Fin 2 → Nat) a + S256x128.size a ≤ S24576x128.size a
  slices_S1536x256_o1408_0_S128x256 : S1536x256.Slices ![1408, 0] S128x256
  inb_S24576x128_S256x128_22528_0 : ∀ a, (![22528, 0] : Fin 2 → Nat) a + S256x128.size a ≤ S24576x128.size a
  inb_S24576x128_S256x128_22784_0 : ∀ a, (![22784, 0] : Fin 2 → Nat) a + S256x128.size a ≤ S24576x128.size a
  inb_S24576x128_S256x128_23040_0 : ∀ a, (![23040, 0] : Fin 2 → Nat) a + S256x128.size a ≤ S24576x128.size a
  inb_S24576x128_S256x128_23296_0 : ∀ a, (![23296, 0] : Fin 2 → Nat) a + S256x128.size a ≤ S24576x128.size a
  inb_S24576x128_S256x128_23552_0 : ∀ a, (![23552, 0] : Fin 2 → Nat) a + S256x128.size a ≤ S24576x128.size a
  inb_S24576x128_S256x128_23808_0 : ∀ a, (![23808, 0] : Fin 2 → Nat) a + S256x128.size a ≤ S24576x128.size a
  inb_S24576x128_S256x128_24064_0 : ∀ a, (![24064, 0] : Fin 2 → Nat) a + S256x128.size a ≤ S24576x128.size a
  inb_S24576x128_S256x128_24320_0 : ∀ a, (![24320, 0] : Fin 2 → Nat) a + S256x128.size a ≤ S24576x128.size a
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x22_S128x22_0_0 : ∀ a, (![0, 0] : Fin 2 → Nat) a + S128x22.size a ≤ S128x22.size a
  h_S128x22 : 0 < S128x22.numel
  shapeCasts_S128x22_S128x22 : S128x22.ShapeCasts S128x22
  inb_S1x22_S1x22_0_0 : ∀ a, (![0, 0] : Fin 2 → Nat) a + S1x22.size a ≤ S1x22.size a
  h_S1x22 : 0 < S1x22.numel
  broadcasts_S1x22_S128x22 : S1x22.Broadcasts S128x22
  dot_S1536x48_S48x256_S1536x256_1_0_0_1_n_n_wf : DotDims.WF S1536x48 S48x256 S1536x256 [1] [0] [0] [1] [] []
  dot_S1536x256_S256x256_S1536x256_1_0_0_1_n_n_wf : DotDims.WF S1536x256 S256x256 S1536x256 [1] [0] [0] [1] [] []
  dot_S128x256_S256x128_S128x128_1_0_0_1_n_n_wf : DotDims.WF S128x256 S256x128 S128x128 [1] [0] [0] [1] [] []
  dot_S128x128_S128x128_S128x128_1_0_0_1_n_n_wf : DotDims.WF S128x128 S128x128 S128x128 [1] [0] [0] [1] [] []
  dot_S128x128_S128x22_S128x22_1_0_0_1_n_n_wf : DotDims.WF S128x128 S128x22 S128x22 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x128x48.size a ≤ S12x8192x48.size a
  hwx0_0 : ∀ i : grid0.Coords, EltTy.bits .f32 = 32 ∨ (Rect.block (s := S12x8192x48) S12x128x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x2816.size a ≤ S48x2816.size a
  hwx0_1 : ∀ i : grid0.Coords, EltTy.bits .bf16 = 32 ∨ (Rect.block (s := S48x2816) S48x2816.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S24576x128.size a ≤ S24576x128.size a
  hwx0_12 : ∀ i : grid0.Coords, EltTy.bits .bf16 = 32 ∨ (Rect.block (s := S24576x128) S24576x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x22.size a ≤ S128x22.size a
  hwx0_16 : ∀ i : grid0.Coords, EltTy.bits .bf16 = 32 ∨ (Rect.block (s := S128x22) S128x22.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x22.size a ≤ S1x22.size a
  hwx0_17 : ∀ i : grid0.Coords, EltTy.bits .f32 = 32 ∨ (Rect.block (s := S1x22) S1x22.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128x22.size a ≤ S8192x22.size a
  hwx0_18 : ∀ i : grid0.Coords, EltTy.bits .f32 = 32 ∨ (Rect.block (s := S8192x22) S128x22.size (cc0_transform_18 i) (hinb0_18 i)).WholeWords (EltTy.packing .f32)

variable [Facts₀]

def dot_S1536x48_S48x256_S1536x256_1_0_0_1_n_n : DotDims S1536x48 S48x256 S1536x256 where
  lhsContracting := [1]
  rhsContracting := [0]
  lhsNonContracting := [0]
  rhsNonContracting := [1]
  lhsBatch := []
  rhsBatch := []
  wf := dot_S1536x48_S48x256_S1536x256_1_0_0_1_n_n_wf
def dot_S1536x256_S256x256_S1536x256_1_0_0_1_n_n : DotDims S1536x256 S256x256 S1536x256 where
  lhsContracting := [1]
  rhsContracting := [0]
  lhsNonContracting := [0]
  rhsNonContracting := [1]
  lhsBatch := []
  rhsBatch := []
  wf := dot_S1536x256_S256x256_S1536x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x22_S128x22_1_0_0_1_n_n : DotDims S128x128 S128x22 S128x22 where
  lhsContracting := [1]
  rhsContracting := [0]
  lhsNonContracting := [0]
  rhsNonContracting := [1]
  lhsBatch := []
  rhsBatch := []
  wf := dot_S128x128_S128x22_S128x22_1_0_0_1_n_n_wf

abbrev win0_0 : Pipeline.Window sig grid0 :=
  Pipeline.Window.ofSpec (Memref.whole main_v2) S12x128x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S48x2816.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v71) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v72) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v73) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v76) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v77) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v78) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v82) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v83) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v86) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v87) S24576x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v88) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg12) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v89) S128x22.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg14) S1x22.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v90) S128x22.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S8192x1x45x12 : Shape := ⟨4, ![8192, 1, 45, 12]⟩
abbrev S5x64 : Shape := ⟨2, ![5, 64]⟩
abbrev S1x64 : Shape := ⟨2, ![1, 64]⟩
abbrev S320x64 : Shape := ⟨2, ![320, 64]⟩
abbrev S22272x128 : Shape := ⟨2, ![22272, 128]⟩
abbrev S1x128 : Shape := ⟨2, ![1, 128]⟩
abbrev S128x128 : Shape := ⟨2, ![128, 128]⟩
abbrev S128x22 : Shape := ⟨2, ![128, 22]⟩
abbrev S1x22 : Shape := ⟨2, ![1, 22]⟩
abbrev S8192x45x12 : Shape := ⟨3, ![8192, 45, 12]⟩
abbrev S_ : Shape := ⟨0, ![]⟩
abbrev S8192x45x16 : Shape := ⟨3, ![8192, 45, 16]⟩
abbrev S8192x29x768 : Shape := ⟨3, ![8192, 29, 768]⟩
abbrev S8192x22272 : Shape := ⟨2, ![8192, 22272]⟩
abbrev S8192x22 : Shape := ⟨2, ![8192, 22]⟩
abbrev S8x45x16 : Shape := ⟨3, ![8, 45, 16]⟩
abbrev S8x29x768 : Shape := ⟨3, ![8, 29, 768]⟩
abbrev S8x41x16 : Shape := ⟨3, ![8, 41, 16]⟩
abbrev S8x41x16x1 : Shape := ⟨4, ![8, 41, 16, 1]⟩
abbrev S64 : Shape := ⟨1, ![64]⟩
abbrev S1x1x1x64 : Shape := ⟨4, ![1, 1, 1, 64]⟩
abbrev S8x41x16x64 : Shape := ⟨4, ![8, 41, 16, 64]⟩
abbrev S8x656x64 : Shape := ⟨3, ![8, 656, 64]⟩
abbrev S5248x64 : Shape := ⟨2, ![5248, 64]⟩
abbrev S64x64 : Shape := ⟨2, ![64, 64]⟩
abbrev S8x592x64 : Shape := ⟨3, ![8, 592, 64]⟩
abbrev S1x1x64 : Shape := ⟨3, ![1, 1, 64]⟩
abbrev S4736x64 : Shape := ⟨2, ![4736, 64]⟩
abbrev S8x528x64 : Shape := ⟨3, ![8, 528, 64]⟩
abbrev S4224x64 : Shape := ⟨2, ![4224, 64]⟩
abbrev S8x464x64 : Shape := ⟨3, ![8, 464, 64]⟩
abbrev S8x29x16x64 : Shape := ⟨4, ![8, 29, 16, 64]⟩
abbrev S8x29x12x64 : Shape := ⟨4, ![8, 29, 12, 64]⟩
abbrev S128x11136 : Shape := ⟨2, ![128, 11136]⟩
abbrev S11136x128 : Shape := ⟨2, ![11136, 128]⟩

abbrev nBuf : Space → Nat
  | .hbm => 22
  | .vmem => 24
  | .smem => 0
  | _ => 0

abbrev bufTy : (tb : Table) → Fin (tcTables nBuf tb) → BufTy
  | .hbm, ⟨0, _⟩ => ⟨S8192x1x45x12, .f32⟩
  | .hbm, ⟨1, _⟩ => ⟨S5x64, .f32⟩
  | .hbm, ⟨2, _⟩ => ⟨S1x64, .f32⟩
  | .hbm, ⟨3, _⟩ => ⟨S320x64, .f32⟩
  | .hbm, ⟨4, _⟩ => ⟨S1x64, .f32⟩
  | .hbm, ⟨5, _⟩ => ⟨S320x64, .f32⟩
  | .hbm, ⟨6, _⟩ => ⟨S1x64, .f32⟩
  | .hbm, ⟨7, _⟩ => ⟨S320x64, .f32⟩
  | .hbm, ⟨8, _⟩ => ⟨S1x64, .f32⟩
  | .hbm, ⟨9, _⟩ => ⟨S22272x128, .f32⟩
  | .hbm, ⟨10, _⟩ => ⟨S1x128, .f32⟩
  | .hbm, ⟨11, _⟩ => ⟨S128x128, .f32⟩
  | .hbm, ⟨12, _⟩ => ⟨S1x128, .f32⟩
  | .hbm, ⟨13, _⟩ => ⟨S128x22, .f32⟩
  | .hbm, ⟨14, _⟩ => ⟨S1x22, .f32⟩
  | .hbm, ⟨15, _⟩ => ⟨S8192x45x12, .f32⟩
  | .hbm, ⟨16, _⟩ => ⟨S_, .i32⟩
  | .hbm, ⟨17, _⟩ => ⟨S_, .f32⟩
  | .hbm, ⟨18, _⟩ => ⟨S8192x45x16, .f32⟩
  | .hbm, ⟨19, _⟩ => ⟨S8192x29x768, .f32⟩
  | .hbm, ⟨20, _⟩ => ⟨S8192x22272, .f32⟩
  | .hbm, ⟨21, _⟩ => ⟨S8192x22, .f32⟩
  | .local _ .vmem, ⟨0, _⟩ => ⟨S8x45x16, .f32⟩
  | .local _ .vmem, ⟨1, _⟩ => ⟨S8x45x16, .f32⟩
  | .local _ .vmem, ⟨2, _⟩ => ⟨S5x64, .f32⟩
  | .local _ .vmem, ⟨3, _⟩ => ⟨S1x64, .f32⟩
  | .local _ .vmem, ⟨4, _⟩ => ⟨S320x64, .f32⟩
  | .local _ .vmem, ⟨5, _⟩ => ⟨S1x64, .f32⟩
  | .local _ .vmem, ⟨6, _⟩ => ⟨S320x64, .f32⟩
  | .local _ .vmem, ⟨7, _⟩ => ⟨S1x64, .f32⟩
  | .local _ .vmem, ⟨8, _⟩ => ⟨S320x64, .f32⟩
  | .local _ .vmem, ⟨9, _⟩ => ⟨S1x64, .f32⟩
  | .local _ .vmem, ⟨10, _⟩ => ⟨S8x29x768, .f32⟩
  | .local _ .vmem, ⟨11, _⟩ => ⟨S8x29x768, .f32⟩
  | .local _ .vmem, ⟨12, _⟩ => ⟨S128x11136, .f32⟩
  | .local _ .vmem, ⟨13, _⟩ => ⟨S128x11136, .f32⟩
  | .local _ .vmem, ⟨14, _⟩ => ⟨S11136x128, .f32⟩
  | .local _ .vmem, ⟨15, _⟩ => ⟨S11136x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S128x22, .f32⟩
  | .local _ .vmem, ⟨20, _⟩ => ⟨S1x22, .f32⟩
  | .local _ .vmem, ⟨21, _⟩ => ⟨S128x22, .f32⟩
  | .local _ .vmem, ⟨22, _⟩ => ⟨S128x22, .f32⟩
  | .local _ .vmem, ⟨23, _⟩ => ⟨S128x128, .f32⟩
  | _, _ => ⟨S8192x1x45x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_c : Ref sig .tc := ⟨.hbm, 16, rfl⟩
abbrev main_call0_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x45x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S320x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x29x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![64, 2], ![false, false]⟩

def k1_cond2 (i : grid1.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x11136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S11136x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x22 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x22 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S128x22 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S8192x1x45x12_S8192x45x12 : S8192x1x45x12.ShapeCasts S8192x45x12
  pads_S8192x45x12_S8192x45x16_000_000_040 : S8192x45x12.Pads (![0, 0, 0] : Fin 3 → Nat) ![0, 0, 4] ![0, 0, 0] S8192x45x16
  h_S_ : 0 < S_.numel
  shapeCasts_S8192x29x768_S8192x22272 : S8192x29x768.ShapeCasts S8192x22272
  inb_S8x45x16_S8x45x16_0_0_0 : ∀ a, (![0, 0, 0] : Fin 3 → Nat) a + S8x45x16.size a ≤ S8x45x16.size a
  h_S8x45x16 : 0 < S8x45x16.numel
  shapeCasts_S8x45x16_S8x45x16 : S8x45x16.ShapeCasts S8x45x16
  inb_S5x64_S5x64_0_0 : ∀ a, (![0, 0] : Fin 2 → Nat) a + S5x64.size a ≤ S5x64.size a
  h_S5x64 : 0 < S5x64.numel
  slices_S8x45x16_o0_0_0_S8x41x16 : S8x45x16.Slices ![0, 0, 0] S8x41x16
  shapeCasts_S8x41x16_S8x41x16x1 : S8x41x16.ShapeCasts S8x41x16x1
  slices_S5x64_o0_0_S1x64 : S5x64.Slices ![0, 0] S1x64
  shapeCasts_S1x64_S64 : S1x64.ShapeCasts S64
  shapeCasts_S64_S1x1x1x64 : S64.ShapeCasts S1x1x1x64
  broadcasts_S8x41x16x1_S8x41x16x64 : S8x41x16x1.Broadcasts S8x41x16x64
  broadcasts_S1x1x1x64_S8x41x16x64 : S1x1x1x64.Broadcasts S8x41x16x64
  slices_S8x45x16_o0_1_0_S8x41x16 : S8x45x16.Slices ![0, 1, 0] S8x41x16
  slices_S5x64_o1_0_S1x64 : S5x64.Slices ![1, 0] S1x64
  slices_S8x45x16_o0_2_0_S8x41x16 : S8x45x16.Slices ![0, 2, 0] S8x41x16
  slices_S5x64_o2_0_S1x64 : S5x64.Slices ![2, 0] S1x64
  slices_S8x45x16_o0_3_0_S8x41x16 : S8x45x16.Slices ![0, 3, 0] S8x41x16
  slices_S5x64_o3_0_S1x64 : S5x64.Slices ![3, 0] S1x64
  slices_S8x45x16_o0_4_0_S8x41x16 : S8x45x16.Slices ![0, 4, 0] S8x41x16
  slices_S5x64_o4_0_S1x64 : S5x64.Slices ![4, 0] S1x64
  inb_S1x64_S1x64_0_0 : ∀ a, (![0, 0] : Fin 2 → Nat) a + S1x64.size a ≤ S1x64.size a
  h_S1x64 : 0 < S1x64.numel
  shapeCasts_S1x64_S1x1x1x64 : S1x64.ShapeCasts S1x1x1x64
  shapeCasts_S8x41x16x64_S8x656x64 : S8x41x16x64.ShapeCasts S8x656x64
  shapeCasts_S8x656x64_S5248x64 : S8x656x64.ShapeCasts S5248x64
  inb_S320x64_S64x64_0_0 : ∀ a, (![0, 0] : Fin 2 → Nat) a + S64x64.size a ≤ S320x64.size a
  h_S64x64 : 0 < S64x64.numel
  shapeCasts_S5248x64_S8x656x64 : S5248x64.ShapeCasts S8x656x64
  slices_S8x656x64_o0_0_0_S8x592x64 : S8x656x64.Slices ![0, 0, 0] S8x592x64
  inb_S320x64_S64x64_64_0 : ∀ a, (![64, 0] : Fin 2 → Nat) a + S64x64.size a ≤ S320x64.size a
  slices_S8x656x64_o0_16_0_S8x592x64 : S8x656x64.Slices ![0, 16, 0] S8x592x64
  inb_S320x64_S64x64_128_0 : ∀ a, (![128, 0] : Fin 2 → Nat) a + S64x64.size a ≤ S320x64.size a
  slices_S8x656x64_o0_32_0_S8x592x64 : S8x656x64.Slices ![0, 32, 0] S8x592x64
  inb_S320x64_S64x64_192_0 : ∀ a, (![192, 0] : Fin 2 → Nat) a + S64x64.size a ≤ S320x64.size a
  slices_S8x656x64_o0_48_0_S8x592x64 : S8x656x64.Slices ![0, 48, 0] S8x592x64
  inb_S320x64_S64x64_256_0 : ∀ a, (![256, 0] : Fin 2 → Nat) a + S64x64.size a ≤ S320x64.size a
  slices_S8x656x64_o0_64_0_S8x592x64 : S8x656x64.Slices ![0, 64, 0] S8x592x64
  shapeCasts_S1x64_S1x1x64 : S1x64.ShapeCasts S1x1x64
  broadcasts_S1x1x64_S8x592x64 : S1x1x64.Broadcasts S8x592x64
  shapeCasts_S8x592x64_S4736x64 : S8x592x64.ShapeCasts S4736x64
  shapeCasts_S4736x64_S8x592x64 : S4736x64.ShapeCasts S8x592x64
  slices_S8x592x64_o0_0_0_S8x528x64 : S8x592x64.Slices ![0, 0, 0] S8x528x64
  slices_S8x592x64_o0_16_0_S8x528x64 : S8x592x64.Slices ![0, 16, 0] S8x528x64
  slices_S8x592x64_o0_32_0_S8x528x64 : S8x592x64.Slices ![0, 32, 0] S8x528x64
  slices_S8x592x64_o0_48_0_S8x528x64 : S8x592x64.Slices ![0, 48, 0] S8x528x64
  slices_S8x592x64_o0_64_0_S8x528x64 : S8x592x64.Slices ![0, 64, 0] S8x528x64
  broadcasts_S1x1x64_S8x528x64 : S1x1x64.Broadcasts S8x528x64
  shapeCasts_S8x528x64_S4224x64 : S8x528x64.ShapeCasts S4224x64
  shapeCasts_S4224x64_S8x528x64 : S4224x64.ShapeCasts S8x528x64
  slices_S8x528x64_o0_0_0_S8x464x64 : S8x528x64.Slices ![0, 0, 0] S8x464x64
  slices_S8x528x64_o0_16_0_S8x464x64 : S8x528x64.Slices ![0, 16, 0] S8x464x64
  slices_S8x528x64_o0_32_0_S8x464x64 : S8x528x64.Slices ![0, 32, 0] S8x464x64
  slices_S8x528x64_o0_48_0_S8x464x64 : S8x528x64.Slices ![0, 48, 0] S8x464x64
  slices_S8x528x64_o0_64_0_S8x464x64 : S8x528x64.Slices ![0, 64, 0] S8x464x64
  broadcasts_S1x1x64_S8x464x64 : S1x1x64.Broadcasts S8x464x64
  shapeCasts_S8x464x64_S8x29x16x64 : S8x464x64.ShapeCasts S8x29x16x64
  slices_S8x29x16x64_o0_0_0_0_S8x29x12x64 : S8x29x16x64.Slices ![0, 0, 0, 0] S8x29x12x64
  shapeCasts_S8x29x12x64_S8x29x768 : S8x29x12x64.ShapeCasts S8x29x768
  inb_S8x29x768_S8x29x768_0_0_0 : ∀ a, (![0, 0, 0] : Fin 3 → Nat) a + S8x29x768.size a ≤ S8x29x768.size a
  h_S8x29x768 : 0 < S8x29x768.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x11136_S128x11136_0_0 : ∀ a, (![0, 0] : Fin 2 → Nat) a + S128x11136.size a ≤ S128x11136.size a
  h_S128x11136 : 0 < S128x11136.numel
  shapeCasts_S128x11136_S128x11136 : S128x11136.ShapeCasts S128x11136
  inb_S11136x128_S11136x128_0_0 : ∀ a, (![0, 0] : Fin 2 → Nat) a + S11136x128.size a ≤ S11136x128.size a
  h_S11136x128 : 0 < S11136x128.numel
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x22_S128x22_0_0 : ∀ a, (![0, 0] : Fin 2 → Nat) a + S128x22.size a ≤ S128x22.size a
  h_S128x22 : 0 < S128x22.numel
  inb_S1x22_S1x22_0_0 : ∀ a, (![0, 0] : Fin 2 → Nat) a + S1x22.size a ≤ S1x22.size a
  h_S1x22 : 0 < S1x22.numel
  broadcasts_S1x22_S128x22 : S1x22.Broadcasts S128x22
  dot_S5248x64_S64x64_S5248x64_1_0_0_1_n_n_wf : DotDims.WF S5248x64 S64x64 S5248x64 [1] [0] [0] [1] [] []
  dot_S4736x64_S64x64_S4736x64_1_0_0_1_n_n_wf : DotDims.WF S4736x64 S64x64 S4736x64 [1] [0] [0] [1] [] []
  dot_S4224x64_S64x64_S4224x64_1_0_0_1_n_n_wf : DotDims.WF S4224x64 S64x64 S4224x64 [1] [0] [0] [1] [] []
  dot_S128x11136_S11136x128_S128x128_1_0_0_1_n_n_wf : DotDims.WF S128x11136 S11136x128 S128x128 [1] [0] [0] [1] [] []
  dot_S128x128_S128x128_S128x128_1_0_0_1_n_n_wf : DotDims.WF S128x128 S128x128 S128x128 [1] [0] [0] [1] [] []
  dot_S128x128_S128x22_S128x22_1_0_0_1_n_n_wf : DotDims.WF S128x128 S128x22 S128x22 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x45x16.size a ≤ S8192x45x16.size a
  hwx0_0 : ∀ i : grid0.Coords, EltTy.bits .f32 = 32 ∨ (Rect.block (s := S8192x45x16) S8x45x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x64.size a ≤ S320x64.size a
  hwx0_3 : ∀ i : grid0.Coords, EltTy.bits .f32 = 32 ∨ (Rect.block (s := S320x64) S320x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S320x64.size a ≤ S320x64.size a
  hwx0_5 : ∀ i : grid0.Coords, EltTy.bits .f32 = 32 ∨ (Rect.block (s := S320x64) S320x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S320x64.size a ≤ S320x64.size a
  hwx0_7 : ∀ i : grid0.Coords, EltTy.bits .f32 = 32 ∨ (Rect.block (s := S320x64) S320x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x29x768.size a ≤ S8192x29x768.size a
  hwx0_9 : ∀ i : grid0.Coords, EltTy.bits .f32 = 32 ∨ (Rect.block (s := S8192x29x768) S8x29x768.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x11136.size a ≤ S8192x22272.size a
  hwx1_0 : ∀ i : grid1.Coords, EltTy.bits .f32 = 32 ∨ (Rect.block (s := S8192x22272) S128x11136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S11136x128.size a ≤ S22272x128.size a
  hwx1_1 : ∀ i : grid1.Coords, EltTy.bits .f32 = 32 ∨ (Rect.block (s := S22272x128) S11136x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x22.size a ≤ S128x22.size a
  hwx1_5 : ∀ i : grid1.Coords, EltTy.bits .f32 = 32 ∨ (Rect.block (s := S128x22) S128x22.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x22.size a ≤ S1x22.size a
  hwx1_6 : ∀ i : grid1.Coords, EltTy.bits .f32 = 32 ∨ (Rect.block (s := S1x22) S1x22.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x22.size a ≤ S8192x22.size a
  hwx1_7 : ∀ i : grid1.Coords, EltTy.bits .f32 = 32 ∨ (Rect.block (s := S8192x22) S128x22.size (cc1_transform_7 i) (hinb1_7 i)).WholeWords (EltTy.packing .f32)

variable [Facts₀]

def dot_S5248x64_S64x64_S5248x64_1_0_0_1_n_n : DotDims S5248x64 S64x64 S5248x64 where
  lhsContracting := [1]
  rhsContracting := [0]
  lhsNonContracting := [0]
  rhsNonContracting := [1]
  lhsBatch := []
  rhsBatch := []
  wf := dot_S5248x64_S64x64_S5248x64_1_0_0_1_n_n_wf
def dot_S4736x64_S64x64_S4736x64_1_0_0_1_n_n : DotDims S4736x64 S64x64 S4736x64 where
  lhsContracting := [1]
  rhsContracting := [0]
  lhsNonContracting := [0]
  rhsNonContracting := [1]
  lhsBatch := []
  rhsBatch := []
  wf := dot_S4736x64_S64x64_S4736x64_1_0_0_1_n_n_wf
def dot_S4224x64_S64x64_S4224x64_1_0_0_1_n_n : DotDims S4224x64 S64x64 S4224x64 where
  lhsContracting := [1]
  rhsContracting := [0]
  lhsNonContracting := [0]
  rhsNonContracting := [1]
  lhsBatch := []
  rhsBatch := []
  wf := dot_S4224x64_S64x64_S4224x64_1_0_0_1_n_n_wf
def dot_S128x11136_S11136x128_S128x128_1_0_0_1_n_n : DotDims S128x11136 S11136x128 S128x128 where
  lhsContracting := [1]
  rhsContracting := [0]
  lhsNonContracting := [0]
  rhsNonContracting := [1]
  lhsBatch := []
  rhsBatch := []
  wf := dot_S128x11136_S11136x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x22_S128x22_1_0_0_1_n_n : DotDims S128x128 S128x22 S128x22 where
  lhsContracting := [1]
  rhsContracting := [0]
  lhsNonContracting := [0]
  rhsNonContracting := [1]
  lhsBatch := []
  rhsBatch := []
  wf := dot_S128x128_S128x22_S128x22_1_0_0_1_n_n_wf

abbrev win0_0 : Pipeline.Window sig grid0 :=
  Pipeline.Window.ofSpec (Memref.whole main_call0_v1) S8x45x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S320x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S320x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v2) S8x29x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_call0_v3) S128x11136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S11136x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x22.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S1x22.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0) S128x22.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== Proof.KOutBits.lean ====
/-
  The value the kernel body stores, as a function of its eighteen input blocks.

  The body is one straight line: every input window is read through literal rectangles, a pure
  value is computed from what was read before, and one whole-block store closes it. Each value the
  body names is given here as a definition of its own over exactly the input blocks it depends on
  (block K is the operand of window K): a load is the block restricted to its rectangle, any other
  value is the skeleton's payload applied to the values read before it, in program order. The last
  definition is the stored block.
-/
import proofs.«156904_g2000200884589374_pallasbulk_247_2_alg».proof.Proof.Gen.Kernel.Skeleton
import Idealize.ShloMosaic.Lib.Pipeline.FrameBody

noncomputable section

namespace Cert.Kernel.Hand

open Idealize.ShloMosaic Cert.Kernel Cert.Kernel.Gen

variable {F : FTy → Type} [FloatOps F]

/-- `v0`: block 0 read through its rectangle. -/
def kv0 (x0 : Vec F S12x128x48 .f32) : Vec F S12x128x48 .f32 :=
  View.ld x0 (Rect.unit (s := S12x128x48) ![0, 0, 0] S12x128x48.size inb_S12x128x48_S12x128x48_0_0_0)
/-- `v4`: block 2 read through its rectangle. -/
def kv4 (x2 : Vec F S1x256 .f32) : Vec F S1x256 .f32 :=
  View.ld x2 (Rect.unit (s := S1x256) ![0, 0] S1x256.size inb_S1x256_S1x256_0_0)
/-- `v5`: block 1 read through its rectangle. -/
def kv5 (x1 : Vec F S48x2816 .bf16) : Vec F S48x256 .bf16 :=
  View.ld x1 (Rect.unit (s := S48x2816) ![0, 0] S48x256.size inb_S48x2816_S48x256_0_0)
/-- `v13`: block 1 read through its rectangle. -/
def kv13 (x1 : Vec F S48x2816 .bf16) : Vec F S48x256 .bf16 :=
  View.ld x1 (Rect.unit (s := S48x2816) ![0, 256] S48x256.size inb_S48x2816_S48x256_0_256)
/-- `v21`: block 1 read through its rectangle. -/
def kv21 (x1 : Vec F S48x2816 .bf16) : Vec F S48x256 .bf16 :=
  View.ld x1 (Rect.unit (s := S48x2816) ![0, 512] S48x256.size inb_S48x2816_S48x256_0_512)
/-- `v29`: block 1 read through its rectangle. -/
def kv29 (x1 : Vec F S48x2816 .bf16) : Vec F S48x256 .bf16 :=
  View.ld x1 (Rect.unit (s := S48x2816) ![0, 768] S48x256.size inb_S48x2816_S48x256_0_768)
def kv3 (x0 : Vec F S12x128x48 .f32) : FVec F S1536x48 .bf16 :=
  k0_pay2 (kv0 x0)
def kv12 (x0 : Vec F S12x128x48 .f32) (x1 : Vec F S48x2816 .bf16) (x2 : Vec F S1x256 .f32) : FVec F S1536x256 .bf16 :=
  k0_pay3 (kv0 x0) (kv4 x2) (kv5 x1)
def kv20 (x0 : Vec F S12x128x48 .f32) (x1 : Vec F S48x2816 .bf16) (x2 : Vec F S1x256 .f32) : FVec F S1536x256 .bf16 :=
  k0_pay4 (kv0 x0) (kv4 x2) (kv13 x1)
def kv28 (x0 : Vec F S12x128x48 .f32) (x1 : Vec F S48x2816 .bf16) (x2 : Vec F S1x256 .f32) : FVec F S1536x256 .bf16 :=
  k0_pay5 (kv0 x0) (kv4 x2) (kv21 x1)
def kv36 (x0 : Vec F S12x128x48 .f32) (x1 : Vec F S48x2816 .bf16) (x2 : Vec F S1x256 .f32) : FVec F S1536x256 .bf16 :=
  k0_pay6 (kv0 x0) (kv4 x2) (kv29 x1)
/-- `v37`: block 1 read through its rectangle. -/
def kv37 (x1 : Vec F S48x2816 .bf16) : Vec F S48x256 .bf16 :=
  View.ld x1 (Rect.unit (s := S48x2816) ![0, 1024] S48x256.size inb_S48x2816_S48x256_0_1024)
/-- `v45`: block 1 read through its rectangle. -/
def kv45 (x1 : Vec F S48x2816 .bf16) : Vec F S48x256 .bf16 :=
  View.ld x1 (Rect.unit (s := S48x2816) ![0, 1280] S48x256.size inb_S48x2816_S48x256_0_1280)
/-- `v53`: block 1 read through its rectangle. -/
def kv53 (x1 : Vec F S48x2816 .bf16) : Vec F S48x256 .bf16 :=
  View.ld x1 (Rect.unit (s := S48x2816) ![0, 1536] S48x256.size inb_S48x2816_S48x256_0_1536)
/-- `v61`: block 1 read through its rectangle. -/
def kv61 (x1 : Vec F S48x2816 .bf16) : Vec F S48x256 .bf16 :=
  View.ld x1 (Rect.unit (s := S48x2816) ![0, 1792] S48x256.size inb_S48x2816_S48x256_0_1792)
/-- `v69`: block 1 read through its rectangle. -/
def kv69 (x1 : Vec F S48x2816 .bf16) : Vec F S48x256 .bf16 :=
  View.ld x1 (Rect.unit (s := S48x2816) ![0, 2048] S48x256.size inb_S48x2816_S48x256_0_2048)
def kv44 (x0 : Vec F S12x128x48 .f32) (x1 : Vec F S48x2816 .bf16) (x2 : Vec F S1x256 .f32) : FVec F S1536x256 .bf16 :=
  k0_pay7 (kv3 x0) (kv4 x2) (kv37 x1)
def kv52 (x0 : Vec F S12x128x48 .f32) (x1 : Vec F S48x2816 .bf16) (x2 : Vec F S1x256 .f32) : FVec F S1536x256 .bf16 :=
  k0_pay8 (kv3 x0) (kv4 x2) (kv45 x1)
def kv60 (x0 : Vec F S12x128x48 .f32) (x1 : Vec F S48x2816 .bf16) (x2 : Vec F S1x256 .f32) : FVec F S1536x256 .bf16 :=
  k0_pay9 (kv3 x0) (kv4 x2) (kv53 x1)
def kv68 (x0 : Vec F S12x128x48 .f32) (x1 : Vec F S48x2816 .bf16) (x2 : Vec F S1x256 .f32) : FVec F S1536x256 .bf16 :=
  k0_pay10 (kv3 x0) (kv4 x2) (kv61 x1)
def kv76 (x0 : Vec F S12x128x48 .f32) (x1 : Vec F S48x2816 .bf16) (x2 : Vec F S1x256 .f32) : FVec F S1536x256 .bf16 :=
  k0_pay11 (kv3 x0) (kv4 x2) (kv69 x1)
/-- `v77`: block 1 read through its rectangle. -/
def kv77 (x1 : Vec F S48x2816 .bf16) : Vec F S48x256 .bf16 :=
  View.ld x1 (Rect.unit (s := S48x2816) ![0, 2304] S48x256.size inb_S48x2816_S48x256_0_2304)
/-- `v85`: block 1 read through its rectangle. -/
def kv85 (x1 : Vec F S48x2816 .bf16) : Vec F S48x256 .bf16 :=
  View.ld x1 (Rect.unit (s := S48x2816) ![0, 2560] S48x256.size inb_S48x2816_S48x256_0_2560)
/-- `v93`: block 3 read through its rectangle. -/
def kv93 (x3 : Vec F S256x256 .bf16) : Vec F S256x256 .bf16 :=
  View.ld x3 (Rect.unit (s := S256x256) ![0, 0] S256x256.size inb_S256x256_S256x256_0_0)
/-- `v95`: block 4 read through its rectangle. -/
def kv95 (x4 : Vec F S256x256 .bf16) : Vec F S256x256 .bf16 :=
  View.ld x4 (Rect.unit (s := S256x256) ![0, 0] S256x256.size inb_S256x256_S256x256_0_0)
/-- `v97`: block 5 read through its rectangle. -/
def kv97 (x5 : Vec F S1x256 .f32) : Vec F S1x256 .f32 :=
  View.ld x5 (Rect.unit (s := S1x256) ![0, 0] S1x256.size inb_S1x256_S1x256_0_0)
def kv84 (x0 : Vec F S12x128x48 .f32) (x1 : Vec F S48x2816 .bf16) (x2 : Vec F S1x256 .f32) : FVec F S1536x256 .bf16 :=
  k0_pay12 (kv3 x0) (kv4 x2) (kv77 x1)
def kv92 (x0 : Vec F S12x128x48 .f32) (x1 : Vec F S48x2816 .bf16) (x2 : Vec F S1x256 .f32) : FVec F S1536x256 .bf16 :=
  k0_pay13 (kv3 x0) (kv4 x2) (kv85 x1)
def kv94 (x3 : Vec F S256x256 .bf16) : FVec F S256x256 .bf16 :=
  k0_pay14 (kv93 x3)
def kv96 (x4 : Vec F S256x256 .bf16) : FVec F S256x256 .bf16 :=
  k0_pay15 (kv95 x4)
def kv105 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay16 (kv12 x0 x1 x2) (kv20 x0 x1 x2) (kv93 x3) (kv95 x4) (kv97 x5)
def kv113 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay17 (kv20 x0 x1 x2) (kv28 x0 x1 x2) (kv93 x3) (kv95 x4) (kv97 x5)
def kv114 (x0 : Vec F S12x128x48 .f32) (x1 : Vec F S48x2816 .bf16) (x2 : Vec F S1x256 .f32) (x3 : Vec F S256x256 .bf16) : FVec F S1536x256 .f32 :=
  k0_pay18 (kv28 x0 x1 x2) (kv93 x3)
def kv115 (x0 : Vec F S12x128x48 .f32) (x1 : Vec F S48x2816 .bf16) (x2 : Vec F S1x256 .f32) (x4 : Vec F S256x256 .bf16) : FVec F S1536x256 .f32 :=
  k0_pay19 (kv36 x0 x1 x2) (kv95 x4)
def kv121 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay20 (kv97 x5) (kv114 x0 x1 x2 x3) (kv115 x0 x1 x2 x4)
def kv129 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay21 (kv36 x0 x1 x2) (kv44 x0 x1 x2) (kv94 x3) (kv96 x4) (kv97 x5)
def kv137 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay22 (kv44 x0 x1 x2) (kv52 x0 x1 x2) (kv94 x3) (kv96 x4) (kv97 x5)
def kv145 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay23 (kv52 x0 x1 x2) (kv60 x0 x1 x2) (kv94 x3) (kv96 x4) (kv97 x5)
def kv153 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay24 (kv60 x0 x1 x2) (kv68 x0 x1 x2) (kv94 x3) (kv96 x4) (kv97 x5)
def kv158 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .f32 :=
  k0_pay25 (kv68 x0 x1 x2) (kv76 x0 x1 x2) (kv94 x3) (kv96 x4) (kv97 x5)
def kv159  : FVec F S1536x256 .f32 :=
  k0_pay26 (F := F)
/-- `v178`: block 6 read through its rectangle. -/
def kv178 (x6 : Vec F S256x256 .bf16) : Vec F S256x256 .bf16 :=
  View.ld x6 (Rect.unit (s := S256x256) ![0, 0] S256x256.size inb_S256x256_S256x256_0_0)
/-- `v180`: block 7 read through its rectangle. -/
def kv180 (x7 : Vec F S256x256 .bf16) : Vec F S256x256 .bf16 :=
  View.ld x7 (Rect.unit (s := S256x256) ![0, 0] S256x256.size inb_S256x256_S256x256_0_0)
/-- `v182`: block 8 read through its rectangle. -/
def kv182 (x8 : Vec F S1x256 .f32) : Vec F S1x256 .f32 :=
  View.ld x8 (Rect.unit (s := S1x256) ![0, 0] S1x256.size inb_S1x256_S1x256_0_0)
/-- `cst_86`: a constant of the body. -/
def kcst_86 : FVec F S1536x256 .f32 := constant S1536x256 .f32 0x00000000#32
def kv161 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay27 (kv158 x0 x1 x2 x3 x4 x5) (kv159 (F := F))
def kv169 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay28 (kv76 x0 x1 x2) (kv84 x0 x1 x2) (kv94 x3) (kv96 x4) (kv97 x5)
def kv177 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay29 (kv84 x0 x1 x2) (kv92 x0 x1 x2) (kv94 x3) (kv96 x4) (kv97 x5)
def kv179 (x6 : Vec F S256x256 .bf16) : FVec F S256x256 .bf16 :=
  k0_pay30 (kv178 x6)
def kv181 (x7 : Vec F S256x256 .bf16) : FVec F S256x256 .bf16 :=
  k0_pay31 (kv180 x7)
def kv190 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay32 (kv105 x0 x1 x2 x3 x4 x5) (kv113 x0 x1 x2 x3 x4 x5) (kv178 x6) (kv180 x7) (kv182 x8)
def kv198 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay33 (kv113 x0 x1 x2 x3 x4 x5) (kv121 x0 x1 x2 x3 x4 x5) (kv178 x6) (kv180 x7) (kv182 x8)
def kv199 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) : FVec F S1536x256 .f32 :=
  k0_pay34 (kv121 x0 x1 x2 x3 x4 x5) (kv178 x6)
/-- `cst_102`: a constant of the body. -/
def kcst_102 : F .f32 := Scalar.ofBits .f32 0x00000000#32
def kv206 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay35 (kv129 x0 x1 x2 x3 x4 x5) (kv181 x7) (kv182 x8) (kv199 x0 x1 x2 x3 x4 x5 x6) (kcst_86 (F := F))
def kv214 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay36 (kv129 x0 x1 x2 x3 x4 x5) (kv137 x0 x1 x2 x3 x4 x5) (kv179 x6) (kv181 x7) (kv182 x8)
def kv222 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay37 (kv137 x0 x1 x2 x3 x4 x5) (kv145 x0 x1 x2 x3 x4 x5) (kv179 x6) (kv181 x7) (kv182 x8)
def kv230 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay38 (kv145 x0 x1 x2 x3 x4 x5) (kv153 x0 x1 x2 x3 x4 x5) (kv179 x6) (kv181 x7) (kv182 x8)
def kv238 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay39 (kv153 x0 x1 x2 x3 x4 x5) (kv161 x0 x1 x2 x3 x4 x5) (kv179 x6) (kv181 x7) (kv182 x8)
def kv243 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .f32 :=
  k0_pay40 (kv161 x0 x1 x2 x3 x4 x5) (kv169 x0 x1 x2 x3 x4 x5) (kv179 x6) (kv181 x7) (kv182 x8)
/-- `v255`: block 9 read through its rectangle. -/
def kv255 (x9 : Vec F S256x256 .bf16) : Vec F S256x256 .bf16 :=
  View.ld x9 (Rect.unit (s := S256x256) ![0, 0] S256x256.size inb_S256x256_S256x256_0_0)
/-- `v257`: block 10 read through its rectangle. -/
def kv257 (x10 : Vec F S256x256 .bf16) : Vec F S256x256 .bf16 :=
  View.ld x10 (Rect.unit (s := S256x256) ![0, 0] S256x256.size inb_S256x256_S256x256_0_0)
/-- `v259`: block 11 read through its rectangle. -/
def kv259 (x11 : Vec F S1x256 .f32) : Vec F S1x256 .f32 :=
  View.ld x11 (Rect.unit (s := S1x256) ![0, 0] S1x256.size inb_S1x256_S1x256_0_0)
def kv246 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay41 (kv243 x0 x1 x2 x3 x4 x5 x6 x7 x8) (kcst_102 (F := F))
def kv254 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay42 (kv169 x0 x1 x2 x3 x4 x5) (kv177 x0 x1 x2 x3 x4 x5) (kv179 x6) (kv181 x7) (kv182 x8)
def kv256 (x9 : Vec F S256x256 .bf16) : FVec F S256x256 .bf16 :=
  k0_pay43 (kv255 x9)
def kv258 (x10 : Vec F S256x256 .bf16) : FVec F S256x256 .bf16 :=
  k0_pay44 (kv257 x10)
def kv267 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay45 (kv190 x0 x1 x2 x3 x4 x5 x6 x7 x8) (kv198 x0 x1 x2 x3 x4 x5 x6 x7 x8) (kv255 x9) (kv257 x10) (kv259 x11)
def kv275 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay46 (kv198 x0 x1 x2 x3 x4 x5 x6 x7 x8) (kv206 x0 x1 x2 x3 x4 x5 x6 x7 x8) (kv255 x9) (kv257 x10) (kv259 x11)
def kv283 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay47 (kv206 x0 x1 x2 x3 x4 x5 x6 x7 x8) (kv214 x0 x1 x2 x3 x4 x5 x6 x7 x8) (kv255 x9) (kv257 x10) (kv259 x11)
def kv284 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) : FVec F S1536x256 .f32 :=
  k0_pay48 (kv214 x0 x1 x2 x3 x4 x5 x6 x7 x8) (kv255 x9)
/-- `v325`: block 12 read through its rectangle. -/
def kv325 (x12 : Vec F S24576x128 .bf16) : Vec F S256x128 .bf16 :=
  View.ld x12 (Rect.unit (s := S24576x128) ![0, 0] S256x128.size inb_S24576x128_S256x128_0_0)
def kv291 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay49 (kv222 x0 x1 x2 x3 x4 x5 x6 x7 x8) (kv258 x10) (kv259 x11) (kv284 x0 x1 x2 x3 x4 x5 x6 x7 x8 x9)
def kv299 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay50 (kv222 x0 x1 x2 x3 x4 x5 x6 x7 x8) (kv230 x0 x1 x2 x3 x4 x5 x6 x7 x8) (kv256 x9) (kv258 x10) (kv259 x11)
def kv307 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay51 (kv230 x0 x1 x2 x3 x4 x5 x6 x7 x8) (kv238 x0 x1 x2 x3 x4 x5 x6 x7 x8) (kv256 x9) (kv258 x10) (kv259 x11)
def kv315 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay52 (kv238 x0 x1 x2 x3 x4 x5 x6 x7 x8) (kv246 x0 x1 x2 x3 x4 x5 x6 x7 x8) (kv256 x9) (kv258 x10) (kv259 x11)
def kv323 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay53 (kv246 x0 x1 x2 x3 x4 x5 x6 x7 x8) (kv254 x0 x1 x2 x3 x4 x5 x6 x7 x8) (kv256 x9) (kv258 x10) (kv259 x11)
def kv327 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay54 (kv267 x0 x1 x2 x3 x4 x5 x6 x7 x8 x9 x10 x11) (kv325 x12)
/-- `v329`: block 12 read through its rectangle. -/
def kv329 (x12 : Vec F S24576x128 .bf16) : Vec F S256x128 .bf16 :=
  View.ld x12 (Rect.unit (s := S24576x128) ![256, 0] S256x128.size inb_S24576x128_S256x128_256_0)
/-- `v334`: block 12 read through its rectangle. -/
def kv334 (x12 : Vec F S24576x128 .bf16) : Vec F S256x128 .bf16 :=
  View.ld x12 (Rect.unit (s := S24576x128) ![512, 0] S256x128.size inb_S24576x128_S256x128_512_0)
/-- `v339`: block 12 read through its rectangle. -/
def kv339 (x12 : Vec F S24576x128 .bf16) : Vec F S256x128 .bf16 :=
  View.ld x12 (Rect.unit (s := S24576x128) ![768, 0] S256x128.size inb_S24576x128_S256x128_768_0)
/-- `v344`: block 12 read through its rectangle. -/
def kv344 (x12 : Vec F S24576x128 .bf16) : Vec F S256x128 .bf16 :=
  View.ld x12 (Rect.unit (s := S24576x128) ![1024, 0] S256x128.size inb_S24576x128_S256x128_1024_0)
/-- `v349`: block 12 read through its rectangle. -/
def kv349 (x12 : Vec F S24576x128 .bf16) : Vec F S256x128 .bf16 :=
  View.ld x12 (Rect.unit (s := S24576x128) ![1280, 0] S256x128.size inb_S24576x128_S256x128_1280_0)
/-- `v354`: block 12 read through its rectangle. -/
def kv354 (x12 : Vec F S24576x128 .bf16) : Vec F S256x128 .bf16 :=
  View.ld x12 (Rect.unit (s := S24576x128) ![1536, 0] S256x128.size inb_S24576x128_S256x128_1536_0)
/-- `v359`: block 12 read through its rectangle. -/
def kv359 (x12 : Vec F S24576x128 .bf16) : Vec F S256x128 .bf16 :=
  View.ld x12 (Rect.unit (s := S24576x128) ![1792, 0] S256x128.size inb_S24576x128_S256x128_1792_0)
/-- `v364`: block 12 read through its rectangle. -/
def kv364 (x12 : Vec F S24576x128 .bf16) : Vec F S256x128 .bf16 :=
  View.ld x12 (Rect.unit (s := S24576x128) ![2048, 0] S256x128.size inb_S24576x128_S256x128_2048_0)
def kv362 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay55 (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv327 x0 x1 x2 x3 x4 x5 x6 x7 x8 x9 x10 x11 x12) (kv329 x12) (kv334 x12) (kv339 x12) (kv344 x12) (kv349 x12) (kv354 x12) (kv359 x12)
def kv363 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay56 (kv267 x0 x1 x2 x3 x4 x5 x6 x7 x8 x9 x10 x11)
/-- `v369`: block 12 read through its rectangle. -/
def kv369 (x12 : Vec F S24576x128 .bf16) : Vec F S256x128 .bf16 :=
  View.ld x12 (Rect.unit (s := S24576x128) ![2304, 0] S256x128.size inb_S24576x128_S256x128_2304_0)
/-- `v374`: block 12 read through its rectangle. -/
def kv374 (x12 : Vec F S24576x128 .bf16) : Vec F S256x128 .bf16 :=
  View.ld x12 (Rect.unit (s := S24576x128) ![2560, 0] S256x128.size inb_S24576x128_S256x128_2560_0)
/-- `v379`: block 12 read through its rectangle. -/
def kv379 (x12 : Vec F S24576x128 .bf16) : Vec F S256x128 .bf16 :=
  View.ld x12 (Rect.unit (s := S24576x128) ![2816, 0] S256x128.size inb_S24576x128_S256x128_2816_0)
/-- `v384`: block 12 read through its rectangle. -/
def kv384 (x12 : Vec F S24576x128 .bf16) : Vec F S256x128 .bf16 :=
  View.ld x12 (Rect.unit (s := S24576x128) ![3072, 0] S256x128.size inb_S24576x128_S256x128_3072_0)
/-- `v389`: block 12 read through its rectangle. -/
def kv389 (x12 : Vec F S24576x128 .bf16) : Vec F S256x128 .bf16 :=
  View.ld x12 (Rect.unit (s := S24576x128) ![3328, 0] S256x128.size inb_S24576x128_S256x128_3328_0)
/-- `v394`: block 12 read through its rectangle. -/
def kv394 (x12 : Vec F S24576x128 .bf16) : Vec F S256x128 .bf16 :=
  View.ld x12 (Rect.unit (s := S24576x128) ![3584, 0] S256x128.size inb_S24576x128_S256x128_3584_0)
/-- `v399`: block 12 read through its rectangle. -/
def kv399 (x12 : Vec F S24576x128 .bf16) : Vec F S256x128 .bf16 :=
  View.ld x12 (Rect.unit (s := S24576x128) ![3840, 0] S256x128.size inb_S24576x128_S256x128_3840_0)
def kv402 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay57 (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv362 x0 x1 x2 x3 x4 x5 x6 x7 x8 x9 x10 x11 x12) (kv363 x0 x1 x2 x3 x4 x5 x6 x7 x8 x9 x10 x11) (kv364 x12) (kv369 x12) (kv374 x12) (kv379 x12) (kv384 x12) (kv389 x12) (kv394 x12) (kv399 x12)
/-- `v404`: block 12 read through its rectangle. -/
def kv404 (x12 : Vec F S24576x128 .bf16) : Vec F S256x128 .bf16 :=
  View.ld x12 (Rect.unit (s := S24576x128) ![4096, 0] S256x128.size inb_S24576x128_S256x128_4096_0)
/-- `v409`: block 12 read through its rectangle. -/
def kv409 (x12 : Vec F S24576x128 .bf16) : Vec F S256x128 .bf16 :=
  View.ld x12 (Rect.unit (s := S24576x128) ![4352, 0] S256x128.size inb_S24576x128_S256x128_4352_0)
/-- `v414`: block 12 read through its rectangle. -/
def kv414 (x12 : Vec F S24576x128 .bf16) : Vec F S256x128 .bf16 :=
  View.ld x12 (Rect.unit (s := S24576x128) ![4608, 0] S256x128.size inb_S24576x128_S256x128_4608_0)
/-- `v419`: block 12 read through its rectangle. -/
def kv419 (x12 : Vec F S24576x128 .bf16) : Vec F S256x128 .bf16 :=
  View.ld x12 (Rect.unit (s := S24576x128) ![4864, 0] S256x128.size inb_S24576x128_S256x128_4864_0)
/-- `v424`: block 12 read through its rectangle. -/
def kv424 (x12 : Vec F S24576x128 .bf16) : Vec F S256x128 .bf16 :=
  View.ld x12 (Rect.unit (s := S24576x128) ![5120, 0] S256x128.size inb_S24576x128_S256x128_5120_0)
/-- `v429`: block 12 read through its rectangle. -/
def kv429 (x12 : Vec F S24576x128 .bf16) : Vec F S256x128 .bf16 :=
  View.ld x12 (Rect.unit (s := S24576x128) ![5376, 0] S256x128.size inb_S24576x128_S256x128_5376_0)
/-- `v434`: block 12 read through its rectangle. -/
def kv434 (x12 : Vec F S24576x128 .bf16) : Vec F S256x128 .bf16 :=
  View.ld x12 (Rect.unit (s := S24576x128) ![5632, 0] S256x128.size inb_S24576x128_S256x128_5632_0)
/-- `v439`: block 12 read through its rectangle. -/
def kv439 (x12 : Vec F S24576x128 .bf16) : Vec F S256x128 .bf16 :=
  View.ld x12 (Rect.unit (s := S24576x128) ![5888, 0] S256x128.size inb_S24576x128_S256x128_5888_0)
def kv437 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay58 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv402 x0 x1 x2 x3 x4 x5 x6 x7 x8 x9 x10 x11 x12) (kv404 x12) (kv409 x12) (kv414 x12) (kv419 x12) (kv424 x12) (kv429 x12) (kv434 x12)
def kv438 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay59 (kv323 x0 x1 x2 x3 x4 x5 x6 x7 x8 x9 x10 x11)
/-- `v444`: block 12 read through its rectangle. -/
def kv444 (x12 : Vec F S24576x128 .bf16) : Vec F S256x128 .bf16 :=
  View.ld x12 (Rect.unit (s := S24576x128) ![6144, 0] S256x128.size inb_S24576x128_S256x128_6144_0)
/-- `v449`: block 12 read through its rectangle. -/
def kv449 (x12 : Vec F S24576x128 .bf16) : Vec F S256x128 .bf16 :=
  View.ld x12 (Rect.unit (s := S24576x128) ![6400, 0] S256x128.size inb_S24576x128_S256x128_6400_0)
/-- `v454`: block 12 read through its rectangle. -/
def kv454 (x12 : Vec F S24576x128 .bf16) : Vec F S256x128 .bf16 :=
  View.ld x12 (Rect.unit (s := S24576x128) ![6656, 0] S256x128.size inb_S24576x128_S256x128_6656_0)
/-- `v459`: block 12 read through its rectangle. -/
def kv459 (x12 : Vec F S24576x128 .bf16) : Vec F S256x128 .bf16 :=
  View.ld x12 (Rect.unit (s := S24576x128) ![6912, 0] S256x128.size inb_S24576x128_S256x128_6912_0)
/-- `v464`: block 12 read through its rectangle. -/
def kv464 (x12 : Vec F S24576x128 .bf16) : Vec F S256x128 .bf16 :=
  View.ld x12 (Rect.unit (s := S24576x128) ![7168, 0] S256x128.size inb_S24576x128_S256x128_7168_0)
/-- `v469`: block 12 read through its rectangle. -/
def kv469 (x12 : Vec F S24576x128 .bf16) : Vec F S256x128 .bf16 :=
  View.ld x12 (Rect.unit (s := S24576x128) ![7424, 0] S256x128.size inb_S24576x128_S256x128_7424_0)
/-- `v474`: block 12 read through its rectangle. -/
def kv474 (x12 : Vec F S24576x128 .bf16) : Vec F S256x128 .bf16 :=
  View.ld x12 (Rect.unit (s := S24576x128) ![7680, 0] S256x128.size inb_S24576x128_S256x128_7680_0)
def kv477 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay60 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv437 x0 x1 x2 x3 x4 x5 x6 x7 x8 x9 x10 x11 x12) (kv438 x0 x1 x2 x3 x4 x5 x6 x7 x8 x9 x10 x11) (kv439 x12) (kv444 x12) (kv449 x12) (kv454 x12) (kv459 x12) (kv464 x12) (kv469 x12) (kv474 x12)
/-- `v479`: block 12 read through its rectangle. -/
def kv479 (x12 : Vec F S24576x128 .bf16) : Vec F S256x128 .bf16 :=
  View.ld x12 (Rect.unit (s := S24576x128) ![7936, 0] S256x128.size inb_S24576x128_S256x128_7936_0)
/-- `v484`: block 12 read through its rectangle. -/
def kv484 (x12 : Vec F S24576x128 .bf16) : Vec F S256x128 .bf16 :=
  View.ld x12 (Rect.unit (s := S24576x128) ![8192, 0] S256x128.size inb_S24576x128_S256x128_8192_0)
/-- `v489`: block 12 read through its rectangle. -/
def kv489 (x12 : Vec F S24576x128 .bf16) : Vec F S256x128 .bf16 :=
  View.ld x12 (Rect.unit (s := S24576x128) ![8448, 0] S256x128.size inb_S24576x128_S256x128_8448_0)
/-- `v494`: block 12 read through its rectangle. -/
def kv494 (x12 : Vec F S24576x128 .bf16) : Vec F S256x128 .bf16 :=
  View.ld x12 (Rect.unit (s := S24576x128) ![8704, 0] S256x128.size inb_S24576x128_S256x128_8704_0)
/-- `v499`: block 12 read through its rectangle. -/
def kv499 (x12 : Vec F S24576x128 .bf16) : Vec F S256x128 .bf16 :=
  View.ld x12 (Rect.unit (s := S24576x128) ![8960, 0] S256x128.size inb_S24576x128_S256x128_8960_0)
/-- `v504`: block 12 read through its rectangle. -/
def kv504 (x12 : Vec F S24576x128 .bf16) : Vec F S256x128 .bf16 :=
  View.ld x12 (Rect.unit (s := S24576x128) ![9216, 0] S256x128.size inb_S24576x128_S256x128_9216_0)
/-- `v509`: block 12 read through its rectangle. -/
def kv509 (x12 : Vec F S24576x128 .bf16) : Vec F S256x128 .bf16 :=
  View.ld x12 (Rect.unit (s := S24576x128) ![9472, 0] S256x128.size inb_S24576x128_S256x128_9472_0)
/-- `v514`: block 12 read through its rectangle. -/
def kv514 (x12 : Vec F S24576x128 .bf16) : Vec F S256x128 .bf16 :=
  View.ld x12 (Rect.unit (s := S24576x128) ![9728, 0] S256x128.size inb_S24576x128_S256x128_9728_0)
def kv512 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay61 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv323 x0 x1 x2 x3 x4 x5 x6 x7 x8 x9 x10 x11) (kv477 x0 x1 x2 x3 x4 x5 x6 x7 x8 x9 x10 x11 x12) (kv479 x12) (kv484 x12) (kv489 x12) (kv494 x12) (kv499 x12) (kv504 x12) (kv509 x12)
def kv513 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay62 (kv315 x0 x1 x2 x3 x4 x5 x6 x7 x8 x9 x10 x11)
/-- `v519`: block 12 read through its rectangle. -/
def kv519 (x12 : Vec F S24576x128 .bf16) : Vec F S256x128 .bf16 :=
  View.ld x12 (Rect.unit (s := S24576x128) ![9984, 0] S256x128.size inb_S24576x128_S256x128_9984_0)
/-- `v524`: block 12 read through its rectangle. -/
def kv524 (x12 : Vec F S24576x128 .bf16) : Vec F S256x128 .bf16 :=
  View.ld x12 (Rect.unit (s := S24576x128) ![10240, 0] S256x128.size inb_S24576x128_S256x128_10240_0)
/-- `v529`: block 12 read through its rectangle. -/
def kv529 (x12 : Vec F S24576x128 .bf16) : Vec F S256x128 .bf16 :=
  View.ld x12 (Rect.unit (s := S24576x128) ![10496, 0] S256x128.size inb_S24576x128_S256x128_10496_0)
/-- `v534`: block 12 read through its rectangle. -/
def kv534 (x12 : Vec F S24576x128 .bf16) : Vec F S256x128 .bf16 :=
  View.ld x12 (Rect.unit (s := S24576x128) ![10752, 0] S256x128.size inb_S24576x128_S256x128_10752_0)
/-- `v539`: block 12 read through its rectangle. -/
def kv539 (x12 : Vec F S24576x128 .bf16) : Vec F S256x128 .bf16 :=
  View.ld x12 (Rect.unit (s := S24576x128) ![11008, 0] S256x128.size inb_S24576x128_S256x128_11008_0)
/-- `v544`: block 12 read through its rectangle. -/
def kv544 (x12 : Vec F S24576x128 .bf16) : Vec F S256x128 .bf16 :=
  View.ld x12 (Rect.unit (s := S24576x128) ![11264, 0] S256x128.size inb_S24576x128_S256x128_11264_0)
/-- `v549`: block 12 read through its rectangle. -/
def kv549 (x12 : Vec F S24576x128 .bf16) : Vec F S256x128 .bf16 :=
  View.ld x12 (Rect.unit (s := S24576x128) ![11520, 0] S256x128.size inb_S24576x128_S256x128_11520_0)
def kv552 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay63 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv323 x0 x1 x2 x3 x4 x5 x6 x7 x8 x9 x10 x11) (kv512 x0 x1 x2 x3 x4 x5 x6 x7 x8 x9 x10 x11 x12) (kv513 x0 x1 x2 x3 x4 x5 x6 x7 x8 x9 x10 x11) (kv514 x12) (kv519 x12) (kv524 x12) (kv529 x12) (kv534 x12) (kv539 x12) (kv544 x12) (kv549 x12)
/-- `v554`: block 12 read through its rectangle. -/
def kv554 (x12 : Vec F S24576x128 .bf16) : Vec F S256x128 .bf16 :=
  View.ld x12 (Rect.unit (s := S24576x128) ![11776, 0] S256x128.size inb_S24576x128_S256x128_11776_0)
/-- `v559`: block 12 read through its rectangle. -/
def kv559 (x12 : Vec F S24576x128 .bf16) : Vec F S256x128 .bf16 :=
  View.ld x12 (Rect.unit (s := S24576x128) ![12032, 0] S256x128.size inb_S24576x128_S256x128_12032_0)
/-- `v564`: block 12 read through its rectangle. -/
def kv564 (x12 : Vec F S24576x128 .bf16) : Vec F S256x128 .bf16 :=
  View.ld x12 (Rect.unit (s := S24576x128) ![12288, 0] S256x128.size inb_S24576x128_S256x128_12288_0)
/-- `v569`: block 12 read through its rectangle. -/
def kv569 (x12 : Vec F S24576x128 .bf16) : Vec F S256x128 .bf16 :=
  View.ld x12 (Rect.unit (s := S24576x128) ![12544, 0] S256x128.size inb_S24576x128_S256x128_12544_0)
/-- `v574`: block 12 read through its rectangle. -/
def kv574 (x12 : Vec F S24576x128 .bf16) : Vec F S256x128 .bf16 :=
  View.ld x12 (Rect.unit (s := S24576x128) ![12800, 0] S256x128.size inb_S24576x128_S256x128_12800_0)
/-- `v579`: block 12 read through its rectangle. -/
def kv579 (x12 : Vec F S24576x128 .bf16) : Vec F S256x128 .bf16 :=
  View.ld x12 (Rect.unit (s := S24576x128) ![13056, 0] S256x128.size inb_S24576x128_S256x128_13056_0)
/-- `v584`: block 12 read through its rectangle. -/
def kv584 (x12 : Vec F S24576x128 .bf16) : Vec F S256x128 .bf16 :=
  View.ld x12 (Rect.unit (s := S24576x128) ![13312, 0] S256x128.size inb_S24576x128_S256x128_13312_0)
/-- `v589`: block 12 read through its rectangle. -/
def kv589 (x12 : Vec F S24576x128 .bf16) : Vec F S256x128 .bf16 :=
  View.ld x12 (Rect.unit (s := S24576x128) ![13568, 0] S256x128.size inb_S24576x128_S256x128_13568_0)
def kv587 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay64 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv315 x0 x1 x2 x3 x4 x5 x6 x7 x8 x9 x10 x11) (kv323 x0 x1 x2 x3 x4 x5 x6 x7 x8 x9 x10 x11) (kv552 x0 x1 x2 x3 x4 x5 x6 x7 x8 x9 x10 x11 x12) (kv554 x12) (kv559 x12) (kv564 x12) (kv569 x12) (kv574 x12) (kv579 x12) (kv584 x12)
def kv588 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay65 (kv307 x0 x1 x2 x3 x4 x5 x6 x7 x8 x9 x10 x11)
/-- `v594`: block 12 read through its rectangle. -/
def kv594 (x12 : Vec F S24576x128 .bf16) : Vec F S256x128 .bf16 :=
  View.ld x12 (Rect.unit (s := S24576x128) ![13824, 0] S256x128.size inb_S24576x128_S256x128_13824_0)
/-- `v599`: block 12 read through its rectangle. -/
def kv599 (x12 : Vec F S24576x128 .bf16) : Vec F S256x128 .bf16 :=
  View.ld x12 (Rect.unit (s := S24576x128) ![14080, 0] S256x128.size inb_S24576x128_S256x128_14080_0)
/-- `v604`: block 12 read through its rectangle. -/
def kv604 (x12 : Vec F S24576x128 .bf16) : Vec F S256x128 .bf16 :=
  View.ld x12 (Rect.unit (s := S24576x128) ![14336, 0] S256x128.size inb_S24576x128_S256x128_14336_0)
/-- `v609`: block 12 read through its rectangle. -/
def kv609 (x12 : Vec F S24576x128 .bf16) : Vec F S256x128 .bf16 :=
  View.ld x12 (Rect.unit (s := S24576x128) ![14592, 0] S256x128.size inb_S24576x128_S256x128_14592_0)
/-- `v614`: block 12 read through its rectangle. -/
def kv614 (x12 : Vec F S24576x128 .bf16) : Vec F S256x128 .bf16 :=
  View.ld x12 (Rect.unit (s := S24576x128) ![14848, 0] S256x128.size inb_S24576x128_S256x128_14848_0)
/-- `v619`: block 12 read through its rectangle. -/
def kv619 (x12 : Vec F S24576x128 .bf16) : Vec F S256x128 .bf16 :=
  View.ld x12 (Rect.unit (s := S24576x128) ![15104, 0] S256x128.size inb_S24576x128_S256x128_15104_0)
/-- `v624`: block 12 read through its rectangle. -/
def kv624 (x12 : Vec F S24576x128 .bf16) : Vec F S256x128 .bf16 :=
  View.ld x12 (Rect.unit (s := S24576x128) ![15360, 0] S256x128.size inb_S24576x128_S256x128_15360_0)
def kv627 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay66 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv315 x0 x1 x2 x3 x4 x5 x6 x7 x8 x9 x10 x11) (kv323 x0 x1 x2 x3 x4 x5 x6 x7 x8 x9 x10 x11) (kv587 x0 x1 x2 x3 x4 x5 x6 x7 x8 x9 x10 x11 x12) (kv588 x0 x1 x2 x3 x4 x5 x6 x7 x8 x9 x10 x11) (kv589 x12) (kv594 x12) (kv599 x12) (kv604 x12) (kv609 x12) (kv614 x12) (kv619 x12) (kv624 x12)
/-- `v629`: block 12 read through its rectangle. -/
def kv629 (x12 : Vec F S24576x128 .bf16) : Vec F S256x128 .bf16 :=
  View.ld x12 (Rect.unit (s := S24576x128) ![15616, 0] S256x128.size inb_S24576x128_S256x128_15616_0)
/-- `v634`: block 12 read through its rectangle. -/
def kv634 (x12 : Vec F S24576x128 .bf16) : Vec F S256x128 .bf16 :=
  View.ld x12 (Rect.unit (s := S24576x128) ![15872, 0] S256x128.size inb_S24576x128_S256x128_15872_0)
/-- `v639`: block 12 read through its rectangle. -/
def kv639 (x12 : Vec F S24576x128 .bf16) : Vec F S256x128 .bf16 :=
  View.ld x12 (Rect.unit (s := S24576x128) ![16128, 0] S256x128.size inb_S24576x128_S256x128_16128_0)
/-- `v644`: block 12 read through its rectangle. -/
def kv644 (x12 : Vec F S24576x128 .bf16) : Vec F S256x128 .bf16 :=
  View.ld x12 (Rect.unit (s := S24576x128) ![16384, 0] S256x128.size inb_S24576x128_S256x128_16384_0)
/-- `v649`: block 12 read through its rectangle. -/
def kv649 (x12 : Vec F S24576x128 .bf16) : Vec F S256x128 .bf16 :=
  View.ld x12 (Rect.unit (s := S24576x128) ![16640, 0] S256x128.size inb_S24576x128_S256x128_16640_0)
/-- `v654`: block 12 read through its rectangle. -/
def kv654 (x12 : Vec F S24576x128 .bf16) : Vec F S256x128 .bf16 :=
  View.ld x12 (Rect.unit (s := S24576x128) ![16896, 0] S256x128.size inb_S24576x128_S256x128_16896_0)
/-- `v659`: block 12 read through its rectangle. -/
def kv659 (x12 : Vec F S24576x128 .bf16) : Vec F S256x128 .bf16 :=
  View.ld x12 (Rect.unit (s := S24576x128) ![17152, 0] S256x128.size inb_S24576x128_S256x128_17152_0)
/-- `v664`: block 12 read through its rectangle. -/
def kv664 (x12 : Vec F S24576x128 .bf16) : Vec F S256x128 .bf16 :=
  View.ld x12 (Rect.unit (s := S24576x128) ![17408, 0] S256x128.size inb_S24576x128_S256x128_17408_0)
def kv662 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay67 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv627 x0 x1 x2 x3 x4 x5 x6 x7 x8 x9 x10 x11 x12) (kv629 x12) (kv634 x12) (kv639 x12) (kv644 x12) (kv649 x12) (kv654 x12) (kv659 x12)
def kv663 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay68 (kv299 x0 x1 x2 x3 x4 x5 x6 x7 x8 x9 x10 x11)
/-- `v669`: block 12 read through its rectangle. -/
def kv669 (x12 : Vec F S24576x128 .bf16) : Vec F S256x128 .bf16 :=
  View.ld x12 (Rect.unit (s := S24576x128) ![17664, 0] S256x128.size inb_S24576x128_S256x128_17664_0)
/-- `v674`: block 12 read through its rectangle. -/
def kv674 (x12 : Vec F S24576x128 .bf16) : Vec F S256x128 .bf16 :=
  View.ld x12 (Rect.unit (s := S24576x128) ![17920, 0] S256x128.size inb_S24576x128_S256x128_17920_0)
/-- `v679`: block 12 read through its rectangle. -/
def kv679 (x12 : Vec F S24576x128 .bf16) : Vec F S256x128 .bf16 :=
  View.ld x12 (Rect.unit (s := S24576x128) ![18176, 0] S256x128.size inb_S24576x128_S256x128_18176_0)
/-- `v684`: block 12 read through its rectangle. -/
def kv684 (x12 : Vec F S24576x128 .bf16) : Vec F S256x128 .bf16 :=
  View.ld x12 (Rect.unit (s := S24576x128) ![18432, 0] S256x128.size inb_S24576x128_S256x128_18432_0)
/-- `v689`: block 12 read through its rectangle. -/
def kv689 (x12 : Vec F S24576x128 .bf16) : Vec F S256x128 .bf16 :=
  View.ld x12 (Rect.unit (s := S24576x128) ![18688, 0] S256x128.size inb_S24576x128_S256x128_18688_0)
/-- `v694`: block 12 read through its rectangle. -/
def kv694 (x12 : Vec F S24576x128 .bf16) : Vec F S256x128 .bf16 :=
  View.ld x12 (Rect.unit (s := S24576x128) ![18944, 0] S256x128.size inb_S24576x128_S256x128_18944_0)
/-- `v699`: block 12 read through its rectangle. -/
def kv699 (x12 : Vec F S24576x128 .bf16) : Vec F S256x128 .bf16 :=
  View.ld x12 (Rect.unit (s := S24576x128) ![19200, 0] S256x128.size inb_S24576x128_S256x128_19200_0)
def kv702 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay69 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv662 x0 x1 x2 x3 x4 x5 x6 x7 x8 x9 x10 x11 x12) (kv663 x0 x1 x2 x3 x4 x5 x6 x7 x8 x9 x10 x11) (kv664 x12) (kv669 x12) (kv674 x12) (kv679 x12) (kv684 x12) (kv689 x12) (kv694 x12) (kv699 x12)
/-- `v704`: block 12 read through its rectangle. -/
def kv704 (x12 : Vec F S24576x128 .bf16) : Vec F S256x128 .bf16 :=
  View.ld x12 (Rect.unit (s := S24576x128) ![19456, 0] S256x128.size inb_S24576x128_S256x128_19456_0)
/-- `v709`: block 12 read through its rectangle. -/
def kv709 (x12 : Vec F S24576x128 .bf16) : Vec F S256x128 .bf16 :=
  View.ld x12 (Rect.unit (s := S24576x128) ![19712, 0] S256x128.size inb_S24576x128_S256x128_19712_0)
/-- `v714`: block 12 read through its rectangle. -/
def kv714 (x12 : Vec F S24576x128 .bf16) : Vec F S256x128 .bf16 :=
  View.ld x12 (Rect.unit (s := S24576x128) ![19968, 0] S256x128.size inb_S24576x128_S256x128_19968_0)
/-- `v719`: block 12 read through its rectangle. -/
def kv719 (x12 : Vec F S24576x128 .bf16) : Vec F S256x128 .bf16 :=
  View.ld x12 (Rect.unit (s := S24576x128) ![20224, 0] S256x128.size inb_S24576x128_S256x128_20224_0)
/-- `v724`: block 12 read through its rectangle. -/
def kv724 (x12 : Vec F S24576x128 .bf16) : Vec F S256x128 .bf16 :=
  View.ld x12 (Rect.unit (s := S24576x128) ![20480, 0] S256x128.size inb_S24576x128_S256x128_20480_0)
/-- `v729`: block 12 read through its rectangle. -/
def kv729 (x12 : Vec F S24576x128 .bf16) : Vec F S256x128 .bf16 :=
  View.ld x12 (Rect.unit (s := S24576x128) ![20736, 0] S256x128.size inb_S24576x128_S256x128_20736_0)
/-- `v734`: block 12 read through its rectangle. -/
def kv734 (x12 : Vec F S24576x128 .bf16) : Vec F S256x128 .bf16 :=
  View.ld x12 (Rect.unit (s := S24576x128) ![20992, 0] S256x128.size inb_S24576x128_S256x128_20992_0)
/-- `v739`: block 12 read through its rectangle. -/
def kv739 (x12 : Vec F S24576x128 .bf16) : Vec F S256x128 .bf16 :=
  View.ld x12 (Rect.unit (s := S24576x128) ![21248, 0] S256x128.size inb_S24576x128_S256x128_21248_0)
def kv737 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay70 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv702 x0 x1 x2 x3 x4 x5 x6 x7 x8 x9 x10 x11 x12) (kv704 x12) (kv709 x12) (kv714 x12) (kv719 x12) (kv724 x12) (kv729 x12) (kv734 x12)
def kv738 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay71 (kv291 x0 x1 x2 x3 x4 x5 x6 x7 x8 x9 x10 x11)
/-- `v744`: block 12 read through its rectangle. -/
def kv744 (x12 : Vec F S24576x128 .bf16) : Vec F S256x128 .bf16 :=
  View.ld x12 (Rect.unit (s := S24576x128) ![21504, 0] S256x128.size inb_S24576x128_S256x128_21504_0)
/-- `v749`: block 12 read through its rectangle. -/
def kv749 (x12 : Vec F S24576x128 .bf16) : Vec F S256x128 .bf16 :=
  View.ld x12 (Rect.unit (s := S24576x128) ![21760, 0] S256x128.size inb_S24576x128_S256x128_21760_0)
/-- `v754`: block 12 read through its rectangle. -/
def kv754 (x12 : Vec F S24576x128 .bf16) : Vec F S256x128 .bf16 :=
  View.ld x12 (Rect.unit (s := S24576x128) ![22016, 0] S256x128.size inb_S24576x128_S256x128_22016_0)
/-- `v759`: block 12 read through its rectangle. -/
def kv759 (x12 : Vec F S24576x128 .bf16) : Vec F S256x128 .bf16 :=
  View.ld x12 (Rect.unit (s := S24576x128) ![22272, 0] S256x128.size inb_S24576x128_S256x128_22272_0)
/-- `v764`: block 12 read through its rectangle. -/
def kv764 (x12 : Vec F S24576x128 .bf16) : Vec F S256x128 .bf16 :=
  View.ld x12 (Rect.unit (s := S24576x128) ![22528, 0] S256x128.size inb_S24576x128_S256x128_22528_0)
/-- `v769`: block 12 read through its rectangle. -/
def kv769 (x12 : Vec F S24576x128 .bf16) : Vec F S256x128 .bf16 :=
  View.ld x12 (Rect.unit (s := S24576x128) ![22784, 0] S256x128.size inb_S24576x128_S256x128_22784_0)
/-- `v774`: block 12 read through its rectangle. -/
def kv774 (x12 : Vec F S24576x128 .bf16) : Vec F S256x128 .bf16 :=
  View.ld x12 (Rect.unit (s := S24576x128) ![23040, 0] S256x128.size inb_S24576x128_S256x128_23040_0)
def kv777 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay72 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv737 x0 x1 x2 x3 x4 x5 x6 x7 x8 x9 x10 x11 x12) (kv738 x0 x1 x2 x3 x4 x5 x6 x7 x8 x9 x10 x11) (kv739 x12) (kv744 x12) (kv749 x12) (kv754 x12) (kv759 x12) (kv764 x12) (kv769 x12) (kv774 x12)
/-- `v779`: block 12 read through its rectangle. -/
def kv779 (x12 : Vec F S24576x128 .bf16) : Vec F S256x128 .bf16 :=
  View.ld x12 (Rect.unit (s := S24576x128) ![23296, 0] S256x128.size inb_S24576x128_S256x128_23296_0)
/-- `v784`: block 12 read through its rectangle. -/
def kv784 (x12 : Vec F S24576x128 .bf16) : Vec F S256x128 .bf16 :=
  View.ld x12 (Rect.unit (s := S24576x128) ![23552, 0] S256x128.size inb_S24576x128_S256x128_23552_0)
/-- `v789`: block 12 read through its rectangle. -/
def kv789 (x12 : Vec F S24576x128 .bf16) : Vec F S256x128 .bf16 :=
  View.ld x12 (Rect.unit (s := S24576x128) ![23808, 0] S256x128.size inb_S24576x128_S256x128_23808_0)
/-- `v794`: block 12 read through its rectangle. -/
def kv794 (x12 : Vec F S24576x128 .bf16) : Vec F S256x128 .bf16 :=
  View.ld x12 (Rect.unit (s := S24576x128) ![24064, 0] S256x128.size inb_S24576x128_S256x128_24064_0)
/-- `v799`: block 12 read through its rectangle. -/
def kv799 (x12 : Vec F S24576x128 .bf16) : Vec F S256x128 .bf16 :=
  View.ld x12 (Rect.unit (s := S24576x128) ![24320, 0] S256x128.size inb_S24576x128_S256x128_24320_0)
/-- `v803`: block 13 read through its rectangle. -/
def kv803 (x13 : Vec F S1x128 .f32) : Vec F S1x128 .f32 :=
  View.ld x13 (Rect.unit (s := S1x128) ![0, 0] S1x128.size inb_S1x128_S1x128_0_0)
/-- `v809`: block 14 read through its rectangle. -/
def kv809 (x14 : Vec F S128x128 .bf16) : Vec F S128x128 .bf16 :=
  View.ld x14 (Rect.unit (s := S128x128) ![0, 0] S128x128.size inb_S128x128_S128x128_0_0)
/-- `v812`: block 15 read through its rectangle. -/
def kv812 (x15 : Vec F S1x128 .f32) : Vec F S1x128 .f32 :=
  View.ld x15 (Rect.unit (s := S1x128) ![0, 0] S1x128.size inb_S1x128_S1x128_0_0)
def kv814 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) : FVec F S128x128 .f32 :=
  k0_pay73 (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv777 x0 x1 x2 x3 x4 x5 x6 x7 x8 x9 x10 x11 x12) (kv779 x12) (kv784 x12) (kv789 x12) (kv794 x12) (kv799 x12) (kv803 x13) (kv809 x14) (kv812 x15)
/-- `v818`: block 16 read through its rectangle. -/
def kv818 (x16 : Vec F S128x22 .bf16) : Vec F S128x22 .bf16 :=
  View.ld x16 (Rect.unit (s := S128x22) ![0, 0] S128x22.size inb_S128x22_S128x22_0_0)
/-- `v821`: block 17 read through its rectangle. -/
def kv821 (x17 : Vec F S1x22 .f32) : Vec F S1x22 .f32 :=
  View.ld x17 (Rect.unit (s := S1x22) ![0, 0] S1x22.size inb_S1x22_S1x22_0_0)

/-- The block the body stores (its one store, the whole output block), from the eighteen input blocks. -/
def kout (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) (x16 : Vec F S128x22 .bf16) (x17 : Vec F S1x22 .f32) : Vec F S128x22 .f32 :=
  k0_pay1 (kv814 x0 x1 x2 x3 x4 x5 x6 x7 x8 x9 x10 x11 x12 x13 x14 x15) (kv818 x16) (kv821 x17)

end Cert.Kernel.Hand

end
-- ==== Proof.KBodyBits.lean ====
/-
  The kernel body's triple: run on whole staging memrefs, the eighteen inputs' at read contents
  `x0 … x17` and the output's at anything, the body returns holding the inputs' as they were and the
  output's at `kout x0 … x17` — its one store covers the output block, so what the block holds
  afterwards is the canon of that single piece.
-/
import proofs.«156904_g2000200884589374_pallasbulk_247_2_alg».proof.Proof.KOutBits
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of the body's one store: the whole output block. -/
abbrev rOut : Rect S128x22 := Rect.unit (s := S128x22) ![0, 0] S128x22.size inb_S128x22_S128x22_0_0

/-- The output block after the body, as the canon of its one store. -/
def koutC (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) (x16 : Vec F S128x22 .bf16) (x17 : Vec F S1x22 .f32) : Vec F S128x22 .f32 :=
  View.canon [⟨rOut, kout x0 x1 x2 x3 x4 x5 x6 x7 x8 x9 x10 x11 x12 x13 x14 x15 x16 x17⟩]

/-- The one store is the whole block, so it covers it. -/
theorem coverOut (p0 : Vec F S128x22 .f32) (y : S128x22.Idx) :
    ∃ pc ∈ ([⟨rOut, p0⟩] : List (View.Piece (Elt F) S128x22 .f32)), y ∈ pc.1.set :=
  View.cover_of_tiled [⟨rOut, p0⟩] S128x22.size (by rfl) y

/-- The canon of the single whole-block piece is its payload. -/
theorem koutC_eq (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) (x16 : Vec F S128x22 .bf16) (x17 : Vec F S1x22 .f32) : koutC x0 x1 x2 x3 x4 x5 x6 x7 x8 x9 x10 x11 x12 x13 x14 x15 x16 x17 = kout x0 x1 x2 x3 x4 x5 x6 x7 x8 x9 x10 x11 x12 x13 x14 x15 x16 x17 :=
  View.canon_unit_zero (by funext a; fin_cases a <;> rfl) _ _

set_option maxHeartbeats 400000 in
/-- The body on whole staging memrefs: the inputs' contents are read, never written; the output's ends at
    `koutC` of the inputs'. -/
theorem sound_kernel (c : Dev nD) (E : Set ℕ) (i : grid0.Coords) (arg1 : Memref sig .tc .vmem S12x128x48 .f32) (harg1 : arg1.IsWhole) (arg2 : Memref sig .tc .vmem S48x2816 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S24576x128 .bf16) (harg13 : arg13.IsWhole) (arg14 : Memref sig .tc .vmem S1x128 .f32) (harg14 : arg14.IsWhole) (arg15 : Memref sig .tc .vmem S128x128 .bf16) (harg15 : arg15.IsWhole) (arg16 : Memref sig .tc .vmem S1x128 .f32) (harg16 : arg16.IsWhole) (arg17 : Memref sig .tc .vmem S128x22 .bf16) (harg17 : arg17.IsWhole) (arg18 : Memref sig .tc .vmem S1x22 .f32) (harg18 : arg18.IsWhole) (arg19 : Memref sig .tc .vmem S128x22 .f32) (harg19 : arg19.IsWhole)
    (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) (x16 : Vec F S128x22 .bf16) (x17 : Vec F S1x22 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (koutC x0 x1 x2 x3 x4 x5 x6 x7 x8 x9 x10 x11 x12 x13 x14 x15 x16 x17)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  exact View.read_writes_eq_canon _ _ _ (coverOut _)

end Cert.Kernel.Hand

end
-- ==== Proof.KFrameBits.lean ====
/-
  The frame of the program: @main is fifty-nine stretches of host operations and then one region
  over a grid of 64 points. What the region finds in each array is the fold of the host operations
  over the launch memory (`V`); no host operation writes an argument array, so each is found as
  launched. At every point each of the eighteen input windows' staging buffers holds that window's
  block of its array, fetched there or not, and the body leaves in the output window's buffer the
  canon of its one store, `koutC` of the eighteen input blocks. With that as proof data the
  library's frame run gives the run of @main: it terminates, every array of the pipeline ends at
  what the library computes from the proof data and every other unscoped buffer as the region
  found it; read at the fifteen argument arrays, that is the frame claim.
-/
import proofs.«156904_g2000200884589374_pallasbulk_247_2_alg».proof.Proof.KBodyBits
import proofs.«156904_g2000200884589374_pallasbulk_247_2_alg».proof.Proof.Gen.Kernel.Launch
import proofs.«156904_g2000200884589374_pallasbulk_247_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the fifty-nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any
    proof data whose array is `V`'s and whose body leaves the block in place: unfetched, the window's index has
    not moved; every window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: an argument array a window stages ends at its entry contents (an input is never
    written back), any other by the post's clause for the buffers no window stages; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 13).trans (((dats 0 c).arrAt_in 13 rfl _).trans ((hA c 13).trans (V_main_arg10 m c))),
      ((h c).2 main_arg11 (Pipeline.mem_restRefs_of main_arg11 (by decide) (by decide))).trans (V_main_arg11 m c),
      ((h c).1 15).trans (((dats 0 c).arrAt_in 15 rfl _).trans ((hA c 15).trans (V_main_arg12 m c))),
      ((h c).2 main_arg13 (Pipeline.mem_restRefs_of main_arg13 (by decide) (by decide))).trans (V_main_arg13 m c),
      ((h c).1 17).trans (((dats 0 c).arrAt_in 17 rfl _).trans ((hA c 17).trans (V_main_arg14 m c)))⟩) h

/-! ## The pipeline's proof data -/

/-- The proof data of the one pipeline on core `c`: the arrays as the region finds them; after the body at point
    `t` each input's buffer at its block and the output's at `koutC` of the input blocks; the invariant the scoped
    rest and the core's random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => koutC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨n + 19, h⟩ => absurd h (Nat.not_lt.2 (Nat.le_add_left 19 n))
  Φ _ := Pipeline.ΦA spec0 c
  q _ := fullShare
  owed _ := 0

/-- The proof data's arrays are the region-entry contents (projected, so that `V`, a long fold, is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = koutC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
/-- What the body leaves in the output window's buffer is `kout` of the input blocks: the one store is the whole block. -/
theorem after18_eq (c : Dev nD) (t : Fin cfg0.N) : (dats m 0 c).after 18 t = kout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) :=
  (after0_18 m c t).trans (koutC_eq ..)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 1000000 in
/-- The body at any point: the inputs' memrefs hold their blocks, so the body's triple applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main on the TensorCores terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.KOut.lean ====
/-
  The value the kernel body stores, as a function of its eighteen input blocks.

  The body is one straight line: every input window is read through literal rectangles, a pure
  value is computed from what was read before, and one whole-block store closes it. Each value the
  body names is given here as a definition of its own over exactly the input blocks it depends on
  (block K is the operand of window K): a load is the block restricted to its rectangle, any other
  value is the skeleton's payload applied to the values read before it, in program order. The last
  definition is the stored block.
-/
import proofs.«156904_g2000200884589374_pallasbulk_247_2_alg».proof.Proof.Gen.KernelIdeal.Skeleton
import Idealize.ShloMosaic.Lib.Pipeline.FrameBody

noncomputable section

namespace Cert.KernelIdeal.Hand

open Idealize.ShloMosaic Cert.KernelIdeal Cert.KernelIdeal.Gen

variable {F : FTy → Type} [FloatOps F]

/-- `v0`: block 0 read through its rectangle. -/
def kv0 (x0 : Vec F S12x128x48 .f32) : Vec F S12x128x48 .f32 :=
  View.ld x0 (Rect.unit (s := S12x128x48) ![0, 0, 0] S12x128x48.size inb_S12x128x48_S12x128x48_0_0_0)
/-- `v4`: block 2 read through its rectangle. -/
def kv4 (x2 : Vec F S1x256 .f32) : Vec F S1x256 .f32 :=
  View.ld x2 (Rect.unit (s := S1x256) ![0, 0] S1x256.size inb_S1x256_S1x256_0_0)
/-- `v5`: block 1 read through its rectangle. -/
def kv5 (x1 : Vec F S48x2816 .bf16) : Vec F S48x256 .bf16 :=
  View.ld x1 (Rect.unit (s := S48x2816) ![0, 0] S48x256.size inb_S48x2816_S48x256_0_0)
/-- `v13`: block 1 read through its rectangle. -/
def kv13 (x1 : Vec F S48x2816 .bf16) : Vec F S48x256 .bf16 :=
  View.ld x1 (Rect.unit (s := S48x2816) ![0, 256] S48x256.size inb_S48x2816_S48x256_0_256)
/-- `v21`: block 1 read through its rectangle. -/
def kv21 (x1 : Vec F S48x2816 .bf16) : Vec F S48x256 .bf16 :=
  View.ld x1 (Rect.unit (s := S48x2816) ![0, 512] S48x256.size inb_S48x2816_S48x256_0_512)
/-- `v29`: block 1 read through its rectangle. -/
def kv29 (x1 : Vec F S48x2816 .bf16) : Vec F S48x256 .bf16 :=
  View.ld x1 (Rect.unit (s := S48x2816) ![0, 768] S48x256.size inb_S48x2816_S48x256_0_768)
def kv3 (x0 : Vec F S12x128x48 .f32) : FVec F S1536x48 .bf16 :=
  k0_pay2 (kv0 x0)
def kv12 (x0 : Vec F S12x128x48 .f32) (x1 : Vec F S48x2816 .bf16) (x2 : Vec F S1x256 .f32) : FVec F S1536x256 .bf16 :=
  k0_pay3 (kv0 x0) (kv4 x2) (kv5 x1)
def kv20 (x0 : Vec F S12x128x48 .f32) (x1 : Vec F S48x2816 .bf16) (x2 : Vec F S1x256 .f32) : FVec F S1536x256 .bf16 :=
  k0_pay4 (kv0 x0) (kv4 x2) (kv13 x1)
def kv28 (x0 : Vec F S12x128x48 .f32) (x1 : Vec F S48x2816 .bf16) (x2 : Vec F S1x256 .f32) : FVec F S1536x256 .bf16 :=
  k0_pay5 (kv0 x0) (kv4 x2) (kv21 x1)
def kv36 (x0 : Vec F S12x128x48 .f32) (x1 : Vec F S48x2816 .bf16) (x2 : Vec F S1x256 .f32) : FVec F S1536x256 .bf16 :=
  k0_pay6 (kv0 x0) (kv4 x2) (kv29 x1)
/-- `v37`: block 1 read through its rectangle. -/
def kv37 (x1 : Vec F S48x2816 .bf16) : Vec F S48x256 .bf16 :=
  View.ld x1 (Rect.unit (s := S48x2816) ![0, 1024] S48x256.size inb_S48x2816_S48x256_0_1024)
/-- `v45`: block 1 read through its rectangle. -/
def kv45 (x1 : Vec F S48x2816 .bf16) : Vec F S48x256 .bf16 :=
  View.ld x1 (Rect.unit (s := S48x2816) ![0, 1280] S48x256.size inb_S48x2816_S48x256_0_1280)
/-- `v53`: block 1 read through its rectangle. -/
def kv53 (x1 : Vec F S48x2816 .bf16) : Vec F S48x256 .bf16 :=
  View.ld x1 (Rect.unit (s := S48x2816) ![0, 1536] S48x256.size inb_S48x2816_S48x256_0_1536)
/-- `v61`: block 1 read through its rectangle. -/
def kv61 (x1 : Vec F S48x2816 .bf16) : Vec F S48x256 .bf16 :=
  View.ld x1 (Rect.unit (s := S48x2816) ![0, 1792] S48x256.size inb_S48x2816_S48x256_0_1792)
/-- `v69`: block 1 read through its rectangle. -/
def kv69 (x1 : Vec F S48x2816 .bf16) : Vec F S48x256 .bf16 :=
  View.ld x1 (Rect.unit (s := S48x2816) ![0, 2048] S48x256.size inb_S48x2816_S48x256_0_2048)
def kv44 (x0 : Vec F S12x128x48 .f32) (x1 : Vec F S48x2816 .bf16) (x2 : Vec F S1x256 .f32) : FVec F S1536x256 .bf16 :=
  k0_pay7 (kv3 x0) (kv4 x2) (kv37 x1)
def kv52 (x0 : Vec F S12x128x48 .f32) (x1 : Vec F S48x2816 .bf16) (x2 : Vec F S1x256 .f32) : FVec F S1536x256 .bf16 :=
  k0_pay8 (kv3 x0) (kv4 x2) (kv45 x1)
def kv60 (x0 : Vec F S12x128x48 .f32) (x1 : Vec F S48x2816 .bf16) (x2 : Vec F S1x256 .f32) : FVec F S1536x256 .bf16 :=
  k0_pay9 (kv3 x0) (kv4 x2) (kv53 x1)
def kv68 (x0 : Vec F S12x128x48 .f32) (x1 : Vec F S48x2816 .bf16) (x2 : Vec F S1x256 .f32) : FVec F S1536x256 .bf16 :=
  k0_pay10 (kv3 x0) (kv4 x2) (kv61 x1)
def kv76 (x0 : Vec F S12x128x48 .f32) (x1 : Vec F S48x2816 .bf16) (x2 : Vec F S1x256 .f32) : FVec F S1536x256 .bf16 :=
  k0_pay11 (kv3 x0) (kv4 x2) (kv69 x1)
/-- `v77`: block 1 read through its rectangle. -/
def kv77 (x1 : Vec F S48x2816 .bf16) : Vec F S48x256 .bf16 :=
  View.ld x1 (Rect.unit (s := S48x2816) ![0, 2304] S48x256.size inb_S48x2816_S48x256_0_2304)
/-- `v85`: block 1 read through its rectangle. -/
def kv85 (x1 : Vec F S48x2816 .bf16) : Vec F S48x256 .bf16 :=
  View.ld x1 (Rect.unit (s := S48x2816) ![0, 2560] S48x256.size inb_S48x2816_S48x256_0_2560)
/-- `v93`: block 3 read through its rectangle. -/
def kv93 (x3 : Vec F S256x256 .bf16) : Vec F S256x256 .bf16 :=
  View.ld x3 (Rect.unit (s := S256x256) ![0, 0] S256x256.size inb_S256x256_S256x256_0_0)
/-- `v95`: block 4 read through its rectangle. -/
def kv95 (x4 : Vec F S256x256 .bf16) : Vec F S256x256 .bf16 :=
  View.ld x4 (Rect.unit (s := S256x256) ![0, 0] S256x256.size inb_S256x256_S256x256_0_0)
/-- `v97`: block 5 read through its rectangle. -/
def kv97 (x5 : Vec F S1x256 .f32) : Vec F S1x256 .f32 :=
  View.ld x5 (Rect.unit (s := S1x256) ![0, 0] S1x256.size inb_S1x256_S1x256_0_0)
def kv84 (x0 : Vec F S12x128x48 .f32) (x1 : Vec F S48x2816 .bf16) (x2 : Vec F S1x256 .f32) : FVec F S1536x256 .bf16 :=
  k0_pay12 (kv3 x0) (kv4 x2) (kv77 x1)
def kv92 (x0 : Vec F S12x128x48 .f32) (x1 : Vec F S48x2816 .bf16) (x2 : Vec F S1x256 .f32) : FVec F S1536x256 .bf16 :=
  k0_pay13 (kv3 x0) (kv4 x2) (kv85 x1)
def kv94 (x3 : Vec F S256x256 .bf16) : FVec F S256x256 .bf16 :=
  k0_pay14 (kv93 x3)
def kv96 (x4 : Vec F S256x256 .bf16) : FVec F S256x256 .bf16 :=
  k0_pay15 (kv95 x4)
def kv105 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay16 (kv12 x0 x1 x2) (kv20 x0 x1 x2) (kv93 x3) (kv95 x4) (kv97 x5)
def kv113 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay17 (kv20 x0 x1 x2) (kv28 x0 x1 x2) (kv93 x3) (kv95 x4) (kv97 x5)
def kv114 (x0 : Vec F S12x128x48 .f32) (x1 : Vec F S48x2816 .bf16) (x2 : Vec F S1x256 .f32) (x3 : Vec F S256x256 .bf16) : FVec F S1536x256 .f32 :=
  k0_pay18 (kv28 x0 x1 x2) (kv93 x3)
def kv115 (x0 : Vec F S12x128x48 .f32) (x1 : Vec F S48x2816 .bf16) (x2 : Vec F S1x256 .f32) (x4 : Vec F S256x256 .bf16) : FVec F S1536x256 .f32 :=
  k0_pay19 (kv36 x0 x1 x2) (kv95 x4)
def kv121 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay20 (kv97 x5) (kv114 x0 x1 x2 x3) (kv115 x0 x1 x2 x4)
def kv129 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay21 (kv36 x0 x1 x2) (kv44 x0 x1 x2) (kv94 x3) (kv96 x4) (kv97 x5)
def kv137 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay22 (kv44 x0 x1 x2) (kv52 x0 x1 x2) (kv94 x3) (kv96 x4) (kv97 x5)
def kv145 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay23 (kv52 x0 x1 x2) (kv60 x0 x1 x2) (kv94 x3) (kv96 x4) (kv97 x5)
def kv153 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay24 (kv60 x0 x1 x2) (kv68 x0 x1 x2) (kv94 x3) (kv96 x4) (kv97 x5)
def kv158 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .f32 :=
  k0_pay25 (kv68 x0 x1 x2) (kv76 x0 x1 x2) (kv94 x3) (kv96 x4) (kv97 x5)
def kv159  : FVec F S1536x256 .f32 :=
  k0_pay26 (F := F)
/-- `v178`: block 6 read through its rectangle. -/
def kv178 (x6 : Vec F S256x256 .bf16) : Vec F S256x256 .bf16 :=
  View.ld x6 (Rect.unit (s := S256x256) ![0, 0] S256x256.size inb_S256x256_S256x256_0_0)
/-- `v180`: block 7 read through its rectangle. -/
def kv180 (x7 : Vec F S256x256 .bf16) : Vec F S256x256 .bf16 :=
  View.ld x7 (Rect.unit (s := S256x256) ![0, 0] S256x256.size inb_S256x256_S256x256_0_0)
/-- `v182`: block 8 read through its rectangle. -/
def kv182 (x8 : Vec F S1x256 .f32) : Vec F S1x256 .f32 :=
  View.ld x8 (Rect.unit (s := S1x256) ![0, 0] S1x256.size inb_S1x256_S1x256_0_0)
/-- `cst_86`: a constant of the body. -/
def kcst_86 : FVec F S1536x256 .f32 := constant S1536x256 .f32 0x00000000#32
def kv161 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay27 (kv158 x0 x1 x2 x3 x4 x5) (kv159 (F := F))
def kv169 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay28 (kv76 x0 x1 x2) (kv84 x0 x1 x2) (kv94 x3) (kv96 x4) (kv97 x5)
def kv177 (x0 : Vec F S12x128x48 .f32) (x1 : Vec F S48x2816 .bf16) (x2 : Vec F S1x256 .f32) (x3 : Vec F S256x256 .bf16) (x4 : Vec F S256x256 .bf16) (x5 : Vec F S1x256 .f32) : FVec F S1536x256 .bf16 :=
  k0_pay29 (kv84 x0 x1 x2) (kv92 x0 x1 x2) (kv94 x3) (kv96 x4) (kv97 x5)
def kv179 (x6 : Vec F S256x256 .bf16) : FVec F S256x256 .bf16 :=
  k0_pay30 (kv178 x6)
def kv181 (x7 : Vec F S256x256 .bf16) : FVec F S256x256 .bf16 :=
  k0_pay31 (kv180 x7)
def kv190 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay32 (kv105 x0 x1 x2 x3 x4 x5) (kv113 x0 x1 x2 x3 x4 x5) (kv178 x6) (kv180 x7) (kv182 x8)
def kv198 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay33 (kv113 x0 x1 x2 x3 x4 x5) (kv121 x0 x1 x2 x3 x4 x5) (kv178 x6) (kv180 x7) (kv182 x8)
def kv199 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) : FVec F S1536x256 .f32 :=
  k0_pay34 (kv121 x0 x1 x2 x3 x4 x5) (kv178 x6)
/-- `cst_102`: a constant of the body. -/
def kcst_102 : F .f32 := Scalar.ofBits .f32 0x00000000#32
def kv206 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay35 (kv129 x0 x1 x2 x3 x4 x5) (kv181 x7) (kv182 x8) (kv199 x0 x1 x2 x3 x4 x5 x6) (kcst_86 (F := F))
def kv214 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay36 (kv129 x0 x1 x2 x3 x4 x5) (kv137 x0 x1 x2 x3 x4 x5) (kv179 x6) (kv181 x7) (kv182 x8)
def kv222 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay37 (kv137 x0 x1 x2 x3 x4 x5) (kv145 x0 x1 x2 x3 x4 x5) (kv179 x6) (kv181 x7) (kv182 x8)
def kv230 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay38 (kv145 x0 x1 x2 x3 x4 x5) (kv153 x0 x1 x2 x3 x4 x5) (kv179 x6) (kv181 x7) (kv182 x8)
def kv238 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay39 (kv153 x0 x1 x2 x3 x4 x5) (kv161 x0 x1 x2 x3 x4 x5) (kv179 x6) (kv181 x7) (kv182 x8)
def kv243 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .f32 :=
  k0_pay40 (kv161 x0 x1 x2 x3 x4 x5) (kv169 x0 x1 x2 x3 x4 x5) (kv179 x6) (kv181 x7) (kv182 x8)
/-- `v255`: block 9 read through its rectangle. -/
def kv255 (x9 : Vec F S256x256 .bf16) : Vec F S256x256 .bf16 :=
  View.ld x9 (Rect.unit (s := S256x256) ![0, 0] S256x256.size inb_S256x256_S256x256_0_0)
/-- `v257`: block 10 read through its rectangle. -/
def kv257 (x10 : Vec F S256x256 .bf16) : Vec F S256x256 .bf16 :=
  View.ld x10 (Rect.unit (s := S256x256) ![0, 0] S256x256.size inb_S256x256_S256x256_0_0)
/-- `v259`: block 11 read through its rectangle. -/
def kv259 (x11 : Vec F S1x256 .f32) : Vec F S1x256 .f32 :=
  View.ld x11 (Rect.unit (s := S1x256) ![0, 0] S1x256.size inb_S1x256_S1x256_0_0)
def kv246 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay41 (kv243 x0 x1 x2 x3 x4 x5 x6 x7 x8) (kcst_102 (F := F))
def kv254 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) : FVec F S1536x256 .bf16 :=
  k0_pay42 (kv169 x0 x1 x2 x3 x4 x5) (kv177 x0 x1 x2 x3 x4 x5) (kv179 x6) (kv181 x7) (kv182 x8)
def kv256 (x9 : Vec F S256x256 .bf16) : FVec F S256x256 .bf16 :=
  k0_pay43 (kv255 x9)
def kv258 (x10 : Vec F S256x256 .bf16) : FVec F S256x256 .bf16 :=
  k0_pay44 (kv257 x10)
def kv267 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay45 (kv190 x0 x1 x2 x3 x4 x5 x6 x7 x8) (kv198 x0 x1 x2 x3 x4 x5 x6 x7 x8) (kv255 x9) (kv257 x10) (kv259 x11)
def kv275 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay46 (kv198 x0 x1 x2 x3 x4 x5 x6 x7 x8) (kv206 x0 x1 x2 x3 x4 x5 x6 x7 x8) (kv255 x9) (kv257 x10) (kv259 x11)
def kv283 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay47 (kv206 x0 x1 x2 x3 x4 x5 x6 x7 x8) (kv214 x0 x1 x2 x3 x4 x5 x6 x7 x8) (kv255 x9) (kv257 x10) (kv259 x11)
def kv284 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) : FVec F S1536x256 .f32 :=
  k0_pay48 (kv214 x0 x1 x2 x3 x4 x5 x6 x7 x8) (kv255 x9)
/-- `v325`: block 12 read through its rectangle. -/
def kv325 (x12 : Vec F S24576x128 .bf16) : Vec F S256x128 .bf16 :=
  View.ld x12 (Rect.unit (s := S24576x128) ![0, 0] S256x128.size inb_S24576x128_S256x128_0_0)
def kv291 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay49 (kv222 x0 x1 x2 x3 x4 x5 x6 x7 x8) (kv258 x10) (kv259 x11) (kv284 x0 x1 x2 x3 x4 x5 x6 x7 x8 x9)
def kv299 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay50 (kv222 x0 x1 x2 x3 x4 x5 x6 x7 x8) (kv230 x0 x1 x2 x3 x4 x5 x6 x7 x8) (kv256 x9) (kv258 x10) (kv259 x11)
def kv307 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay51 (kv230 x0 x1 x2 x3 x4 x5 x6 x7 x8) (kv238 x0 x1 x2 x3 x4 x5 x6 x7 x8) (kv256 x9) (kv258 x10) (kv259 x11)
def kv315 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay52 (kv238 x0 x1 x2 x3 x4 x5 x6 x7 x8) (kv246 x0 x1 x2 x3 x4 x5 x6 x7 x8) (kv256 x9) (kv258 x10) (kv259 x11)
def kv323 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S1536x256 .bf16 :=
  k0_pay53 (kv246 x0 x1 x2 x3 x4 x5 x6 x7 x8) (kv254 x0 x1 x2 x3 x4 x5 x6 x7 x8) (kv256 x9) (kv258 x10) (kv259 x11)
def kv327 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay54 (kv267 x0 x1 x2 x3 x4 x5 x6 x7 x8 x9 x10 x11) (kv325 x12)
/-- `v329`: block 12 read through its rectangle. -/
def kv329 (x12 : Vec F S24576x128 .bf16) : Vec F S256x128 .bf16 :=
  View.ld x12 (Rect.unit (s := S24576x128) ![256, 0] S256x128.size inb_S24576x128_S256x128_256_0)
/-- `v334`: block 12 read through its rectangle. -/
def kv334 (x12 : Vec F S24576x128 .bf16) : Vec F S256x128 .bf16 :=
  View.ld x12 (Rect.unit (s := S24576x128) ![512, 0] S256x128.size inb_S24576x128_S256x128_512_0)
/-- `v339`: block 12 read through its rectangle. -/
def kv339 (x12 : Vec F S24576x128 .bf16) : Vec F S256x128 .bf16 :=
  View.ld x12 (Rect.unit (s := S24576x128) ![768, 0] S256x128.size inb_S24576x128_S256x128_768_0)
/-- `v344`: block 12 read through its rectangle. -/
def kv344 (x12 : Vec F S24576x128 .bf16) : Vec F S256x128 .bf16 :=
  View.ld x12 (Rect.unit (s := S24576x128) ![1024, 0] S256x128.size inb_S24576x128_S256x128_1024_0)
/-- `v349`: block 12 read through its rectangle. -/
def kv349 (x12 : Vec F S24576x128 .bf16) : Vec F S256x128 .bf16 :=
  View.ld x12 (Rect.unit (s := S24576x128) ![1280, 0] S256x128.size inb_S24576x128_S256x128_1280_0)
/-- `v354`: block 12 read through its rectangle. -/
def kv354 (x12 : Vec F S24576x128 .bf16) : Vec F S256x128 .bf16 :=
  View.ld x12 (Rect.unit (s := S24576x128) ![1536, 0] S256x128.size inb_S24576x128_S256x128_1536_0)
/-- `v359`: block 12 read through its rectangle. -/
def kv359 (x12 : Vec F S24576x128 .bf16) : Vec F S256x128 .bf16 :=
  View.ld x12 (Rect.unit (s := S24576x128) ![1792, 0] S256x128.size inb_S24576x128_S256x128_1792_0)
/-- `v364`: block 12 read through its rectangle. -/
def kv364 (x12 : Vec F S24576x128 .bf16) : Vec F S256x128 .bf16 :=
  View.ld x12 (Rect.unit (s := S24576x128) ![2048, 0] S256x128.size inb_S24576x128_S256x128_2048_0)
def kv362 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay55 (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv327 x0 x1 x2 x3 x4 x5 x6 x7 x8 x9 x10 x11 x12) (kv329 x12) (kv334 x12) (kv339 x12) (kv344 x12) (kv349 x12) (kv354 x12) (kv359 x12)
def kv363 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay56 (kv267 x0 x1 x2 x3 x4 x5 x6 x7 x8 x9 x10 x11)
/-- `v369`: block 12 read through its rectangle. -/
def kv369 (x12 : Vec F S24576x128 .bf16) : Vec F S256x128 .bf16 :=
  View.ld x12 (Rect.unit (s := S24576x128) ![2304, 0] S256x128.size inb_S24576x128_S256x128_2304_0)
/-- `v374`: block 12 read through its rectangle. -/
def kv374 (x12 : Vec F S24576x128 .bf16) : Vec F S256x128 .bf16 :=
  View.ld x12 (Rect.unit (s := S24576x128) ![2560, 0] S256x128.size inb_S24576x128_S256x128_2560_0)
/-- `v379`: block 12 read through its rectangle. -/
def kv379 (x12 : Vec F S24576x128 .bf16) : Vec F S256x128 .bf16 :=
  View.ld x12 (Rect.unit (s := S24576x128) ![2816, 0] S256x128.size inb_S24576x128_S256x128_2816_0)
/-- `v384`: block 12 read through its rectangle. -/
def kv384 (x12 : Vec F S24576x128 .bf16) : Vec F S256x128 .bf16 :=
  View.ld x12 (Rect.unit (s := S24576x128) ![3072, 0] S256x128.size inb_S24576x128_S256x128_3072_0)
/-- `v389`: block 12 read through its rectangle. -/
def kv389 (x12 : Vec F S24576x128 .bf16) : Vec F S256x128 .bf16 :=
  View.ld x12 (Rect.unit (s := S24576x128) ![3328, 0] S256x128.size inb_S24576x128_S256x128_3328_0)
/-- `v394`: block 12 read through its rectangle. -/
def kv394 (x12 : Vec F S24576x128 .bf16) : Vec F S256x128 .bf16 :=
  View.ld x12 (Rect.unit (s := S24576x128) ![3584, 0] S256x128.size inb_S24576x128_S256x128_3584_0)
/-- `v399`: block 12 read through its rectangle. -/
def kv399 (x12 : Vec F S24576x128 .bf16) : Vec F S256x128 .bf16 :=
  View.ld x12 (Rect.unit (s := S24576x128) ![3840, 0] S256x128.size inb_S24576x128_S256x128_3840_0)
def kv402 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay57 (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv362 x0 x1 x2 x3 x4 x5 x6 x7 x8 x9 x10 x11 x12) (kv363 x0 x1 x2 x3 x4 x5 x6 x7 x8 x9 x10 x11) (kv364 x12) (kv369 x12) (kv374 x12) (kv379 x12) (kv384 x12) (kv389 x12) (kv394 x12) (kv399 x12)
/-- `v404`: block 12 read through its rectangle. -/
def kv404 (x12 : Vec F S24576x128 .bf16) : Vec F S256x128 .bf16 :=
  View.ld x12 (Rect.unit (s := S24576x128) ![4096, 0] S256x128.size inb_S24576x128_S256x128_4096_0)
/-- `v409`: block 12 read through its rectangle. -/
def kv409 (x12 : Vec F S24576x128 .bf16) : Vec F S256x128 .bf16 :=
  View.ld x12 (Rect.unit (s := S24576x128) ![4352, 0] S256x128.size inb_S24576x128_S256x128_4352_0)
/-- `v414`: block 12 read through its rectangle. -/
def kv414 (x12 : Vec F S24576x128 .bf16) : Vec F S256x128 .bf16 :=
  View.ld x12 (Rect.unit (s := S24576x128) ![4608, 0] S256x128.size inb_S24576x128_S256x128_4608_0)
/-- `v419`: block 12 read through its rectangle. -/
def kv419 (x12 : Vec F S24576x128 .bf16) : Vec F S256x128 .bf16 :=
  View.ld x12 (Rect.unit (s := S24576x128) ![4864, 0] S256x128.size inb_S24576x128_S256x128_4864_0)
/-- `v424`: block 12 read through its rectangle. -/
def kv424 (x12 : Vec F S24576x128 .bf16) : Vec F S256x128 .bf16 :=
  View.ld x12 (Rect.unit (s := S24576x128) ![5120, 0] S256x128.size inb_S24576x128_S256x128_5120_0)
/-- `v429`: block 12 read through its rectangle. -/
def kv429 (x12 : Vec F S24576x128 .bf16) : Vec F S256x128 .bf16 :=
  View.ld x12 (Rect.unit (s := S24576x128) ![5376, 0] S256x128.size inb_S24576x128_S256x128_5376_0)
/-- `v434`: block 12 read through its rectangle. -/
def kv434 (x12 : Vec F S24576x128 .bf16) : Vec F S256x128 .bf16 :=
  View.ld x12 (Rect.unit (s := S24576x128) ![5632, 0] S256x128.size inb_S24576x128_S256x128_5632_0)
/-- `v439`: block 12 read through its rectangle. -/
def kv439 (x12 : Vec F S24576x128 .bf16) : Vec F S256x128 .bf16 :=
  View.ld x12 (Rect.unit (s := S24576x128) ![5888, 0] S256x128.size inb_S24576x128_S256x128_5888_0)
def kv437 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay58 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv402 x0 x1 x2 x3 x4 x5 x6 x7 x8 x9 x10 x11 x12) (kv404 x12) (kv409 x12) (kv414 x12) (kv419 x12) (kv424 x12) (kv429 x12) (kv434 x12)
def kv438 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay59 (kv323 x0 x1 x2 x3 x4 x5 x6 x7 x8 x9 x10 x11)
/-- `v444`: block 12 read through its rectangle. -/
def kv444 (x12 : Vec F S24576x128 .bf16) : Vec F S256x128 .bf16 :=
  View.ld x12 (Rect.unit (s := S24576x128) ![6144, 0] S256x128.size inb_S24576x128_S256x128_6144_0)
/-- `v449`: block 12 read through its rectangle. -/
def kv449 (x12 : Vec F S24576x128 .bf16) : Vec F S256x128 .bf16 :=
  View.ld x12 (Rect.unit (s := S24576x128) ![6400, 0] S256x128.size inb_S24576x128_S256x128_6400_0)
/-- `v454`: block 12 read through its rectangle. -/
def kv454 (x12 : Vec F S24576x128 .bf16) : Vec F S256x128 .bf16 :=
  View.ld x12 (Rect.unit (s := S24576x128) ![6656, 0] S256x128.size inb_S24576x128_S256x128_6656_0)
/-- `v459`: block 12 read through its rectangle. -/
def kv459 (x12 : Vec F S24576x128 .bf16) : Vec F S256x128 .bf16 :=
  View.ld x12 (Rect.unit (s := S24576x128) ![6912, 0] S256x128.size inb_S24576x128_S256x128_6912_0)
/-- `v464`: block 12 read through its rectangle. -/
def kv464 (x12 : Vec F S24576x128 .bf16) : Vec F S256x128 .bf16 :=
  View.ld x12 (Rect.unit (s := S24576x128) ![7168, 0] S256x128.size inb_S24576x128_S256x128_7168_0)
/-- `v469`: block 12 read through its rectangle. -/
def kv469 (x12 : Vec F S24576x128 .bf16) : Vec F S256x128 .bf16 :=
  View.ld x12 (Rect.unit (s := S24576x128) ![7424, 0] S256x128.size inb_S24576x128_S256x128_7424_0)
/-- `v474`: block 12 read through its rectangle. -/
def kv474 (x12 : Vec F S24576x128 .bf16) : Vec F S256x128 .bf16 :=
  View.ld x12 (Rect.unit (s := S24576x128) ![7680, 0] S256x128.size inb_S24576x128_S256x128_7680_0)
def kv477 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay60 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv437 x0 x1 x2 x3 x4 x5 x6 x7 x8 x9 x10 x11 x12) (kv438 x0 x1 x2 x3 x4 x5 x6 x7 x8 x9 x10 x11) (kv439 x12) (kv444 x12) (kv449 x12) (kv454 x12) (kv459 x12) (kv464 x12) (kv469 x12) (kv474 x12)
/-- `v479`: block 12 read through its rectangle. -/
def kv479 (x12 : Vec F S24576x128 .bf16) : Vec F S256x128 .bf16 :=
  View.ld x12 (Rect.unit (s := S24576x128) ![7936, 0] S256x128.size inb_S24576x128_S256x128_7936_0)
/-- `v484`: block 12 read through its rectangle. -/
def kv484 (x12 : Vec F S24576x128 .bf16) : Vec F S256x128 .bf16 :=
  View.ld x12 (Rect.unit (s := S24576x128) ![8192, 0] S256x128.size inb_S24576x128_S256x128_8192_0)
/-- `v489`: block 12 read through its rectangle. -/
def kv489 (x12 : Vec F S24576x128 .bf16) : Vec F S256x128 .bf16 :=
  View.ld x12 (Rect.unit (s := S24576x128) ![8448, 0] S256x128.size inb_S24576x128_S256x128_8448_0)
/-- `v494`: block 12 read through its rectangle. -/
def kv494 (x12 : Vec F S24576x128 .bf16) : Vec F S256x128 .bf16 :=
  View.ld x12 (Rect.unit (s := S24576x128) ![8704, 0] S256x128.size inb_S24576x128_S256x128_8704_0)
/-- `v499`: block 12 read through its rectangle. -/
def kv499 (x12 : Vec F S24576x128 .bf16) : Vec F S256x128 .bf16 :=
  View.ld x12 (Rect.unit (s := S24576x128) ![8960, 0] S256x128.size inb_S24576x128_S256x128_8960_0)
/-- `v504`: block 12 read through its rectangle. -/
def kv504 (x12 : Vec F S24576x128 .bf16) : Vec F S256x128 .bf16 :=
  View.ld x12 (Rect.unit (s := S24576x128) ![9216, 0] S256x128.size inb_S24576x128_S256x128_9216_0)
/-- `v509`: block 12 read through its rectangle. -/
def kv509 (x12 : Vec F S24576x128 .bf16) : Vec F S256x128 .bf16 :=
  View.ld x12 (Rect.unit (s := S24576x128) ![9472, 0] S256x128.size inb_S24576x128_S256x128_9472_0)
/-- `v514`: block 12 read through its rectangle. -/
def kv514 (x12 : Vec F S24576x128 .bf16) : Vec F S256x128 .bf16 :=
  View.ld x12 (Rect.unit (s := S24576x128) ![9728, 0] S256x128.size inb_S24576x128_S256x128_9728_0)
def kv512 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay61 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv323 x0 x1 x2 x3 x4 x5 x6 x7 x8 x9 x10 x11) (kv477 x0 x1 x2 x3 x4 x5 x6 x7 x8 x9 x10 x11 x12) (kv479 x12) (kv484 x12) (kv489 x12) (kv494 x12) (kv499 x12) (kv504 x12) (kv509 x12)
def kv513 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay62 (kv315 x0 x1 x2 x3 x4 x5 x6 x7 x8 x9 x10 x11)
/-- `v519`: block 12 read through its rectangle. -/
def kv519 (x12 : Vec F S24576x128 .bf16) : Vec F S256x128 .bf16 :=
  View.ld x12 (Rect.unit (s := S24576x128) ![9984, 0] S256x128.size inb_S24576x128_S256x128_9984_0)
/-- `v524`: block 12 read through its rectangle. -/
def kv524 (x12 : Vec F S24576x128 .bf16) : Vec F S256x128 .bf16 :=
  View.ld x12 (Rect.unit (s := S24576x128) ![10240, 0] S256x128.size inb_S24576x128_S256x128_10240_0)
/-- `v529`: block 12 read through its rectangle. -/
def kv529 (x12 : Vec F S24576x128 .bf16) : Vec F S256x128 .bf16 :=
  View.ld x12 (Rect.unit (s := S24576x128) ![10496, 0] S256x128.size inb_S24576x128_S256x128_10496_0)
/-- `v534`: block 12 read through its rectangle. -/
def kv534 (x12 : Vec F S24576x128 .bf16) : Vec F S256x128 .bf16 :=
  View.ld x12 (Rect.unit (s := S24576x128) ![10752, 0] S256x128.size inb_S24576x128_S256x128_10752_0)
/-- `v539`: block 12 read through its rectangle. -/
def kv539 (x12 : Vec F S24576x128 .bf16) : Vec F S256x128 .bf16 :=
  View.ld x12 (Rect.unit (s := S24576x128) ![11008, 0] S256x128.size inb_S24576x128_S256x128_11008_0)
/-- `v544`: block 12 read through its rectangle. -/
def kv544 (x12 : Vec F S24576x128 .bf16) : Vec F S256x128 .bf16 :=
  View.ld x12 (Rect.unit (s := S24576x128) ![11264, 0] S256x128.size inb_S24576x128_S256x128_11264_0)
/-- `v549`: block 12 read through its rectangle. -/
def kv549 (x12 : Vec F S24576x128 .bf16) : Vec F S256x128 .bf16 :=
  View.ld x12 (Rect.unit (s := S24576x128) ![11520, 0] S256x128.size inb_S24576x128_S256x128_11520_0)
def kv552 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay63 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv323 x0 x1 x2 x3 x4 x5 x6 x7 x8 x9 x10 x11) (kv512 x0 x1 x2 x3 x4 x5 x6 x7 x8 x9 x10 x11 x12) (kv513 x0 x1 x2 x3 x4 x5 x6 x7 x8 x9 x10 x11) (kv514 x12) (kv519 x12) (kv524 x12) (kv529 x12) (kv534 x12) (kv539 x12) (kv544 x12) (kv549 x12)
/-- `v554`: block 12 read through its rectangle. -/
def kv554 (x12 : Vec F S24576x128 .bf16) : Vec F S256x128 .bf16 :=
  View.ld x12 (Rect.unit (s := S24576x128) ![11776, 0] S256x128.size inb_S24576x128_S256x128_11776_0)
/-- `v559`: block 12 read through its rectangle. -/
def kv559 (x12 : Vec F S24576x128 .bf16) : Vec F S256x128 .bf16 :=
  View.ld x12 (Rect.unit (s := S24576x128) ![12032, 0] S256x128.size inb_S24576x128_S256x128_12032_0)
/-- `v564`: block 12 read through its rectangle. -/
def kv564 (x12 : Vec F S24576x128 .bf16) : Vec F S256x128 .bf16 :=
  View.ld x12 (Rect.unit (s := S24576x128) ![12288, 0] S256x128.size inb_S24576x128_S256x128_12288_0)
/-- `v569`: block 12 read through its rectangle. -/
def kv569 (x12 : Vec F S24576x128 .bf16) : Vec F S256x128 .bf16 :=
  View.ld x12 (Rect.unit (s := S24576x128) ![12544, 0] S256x128.size inb_S24576x128_S256x128_12544_0)
/-- `v574`: block 12 read through its rectangle. -/
def kv574 (x12 : Vec F S24576x128 .bf16) : Vec F S256x128 .bf16 :=
  View.ld x12 (Rect.unit (s := S24576x128) ![12800, 0] S256x128.size inb_S24576x128_S256x128_12800_0)
/-- `v579`: block 12 read through its rectangle. -/
def kv579 (x12 : Vec F S24576x128 .bf16) : Vec F S256x128 .bf16 :=
  View.ld x12 (Rect.unit (s := S24576x128) ![13056, 0] S256x128.size inb_S24576x128_S256x128_13056_0)
/-- `v584`: block 12 read through its rectangle. -/
def kv584 (x12 : Vec F S24576x128 .bf16) : Vec F S256x128 .bf16 :=
  View.ld x12 (Rect.unit (s := S24576x128) ![13312, 0] S256x128.size inb_S24576x128_S256x128_13312_0)
/-- `v589`: block 12 read through its rectangle. -/
def kv589 (x12 : Vec F S24576x128 .bf16) : Vec F S256x128 .bf16 :=
  View.ld x12 (Rect.unit (s := S24576x128) ![13568, 0] S256x128.size inb_S24576x128_S256x128_13568_0)
def kv587 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay64 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv315 x0 x1 x2 x3 x4 x5 x6 x7 x8 x9 x10 x11) (kv323 x0 x1 x2 x3 x4 x5 x6 x7 x8 x9 x10 x11) (kv552 x0 x1 x2 x3 x4 x5 x6 x7 x8 x9 x10 x11 x12) (kv554 x12) (kv559 x12) (kv564 x12) (kv569 x12) (kv574 x12) (kv579 x12) (kv584 x12)
def kv588 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay65 (kv307 x0 x1 x2 x3 x4 x5 x6 x7 x8 x9 x10 x11)
/-- `v594`: block 12 read through its rectangle. -/
def kv594 (x12 : Vec F S24576x128 .bf16) : Vec F S256x128 .bf16 :=
  View.ld x12 (Rect.unit (s := S24576x128) ![13824, 0] S256x128.size inb_S24576x128_S256x128_13824_0)
/-- `v599`: block 12 read through its rectangle. -/
def kv599 (x12 : Vec F S24576x128 .bf16) : Vec F S256x128 .bf16 :=
  View.ld x12 (Rect.unit (s := S24576x128) ![14080, 0] S256x128.size inb_S24576x128_S256x128_14080_0)
/-- `v604`: block 12 read through its rectangle. -/
def kv604 (x12 : Vec F S24576x128 .bf16) : Vec F S256x128 .bf16 :=
  View.ld x12 (Rect.unit (s := S24576x128) ![14336, 0] S256x128.size inb_S24576x128_S256x128_14336_0)
/-- `v609`: block 12 read through its rectangle. -/
def kv609 (x12 : Vec F S24576x128 .bf16) : Vec F S256x128 .bf16 :=
  View.ld x12 (Rect.unit (s := S24576x128) ![14592, 0] S256x128.size inb_S24576x128_S256x128_14592_0)
/-- `v614`: block 12 read through its rectangle. -/
def kv614 (x12 : Vec F S24576x128 .bf16) : Vec F S256x128 .bf16 :=
  View.ld x12 (Rect.unit (s := S24576x128) ![14848, 0] S256x128.size inb_S24576x128_S256x128_14848_0)
/-- `v619`: block 12 read through its rectangle. -/
def kv619 (x12 : Vec F S24576x128 .bf16) : Vec F S256x128 .bf16 :=
  View.ld x12 (Rect.unit (s := S24576x128) ![15104, 0] S256x128.size inb_S24576x128_S256x128_15104_0)
/-- `v624`: block 12 read through its rectangle. -/
def kv624 (x12 : Vec F S24576x128 .bf16) : Vec F S256x128 .bf16 :=
  View.ld x12 (Rect.unit (s := S24576x128) ![15360, 0] S256x128.size inb_S24576x128_S256x128_15360_0)
def kv627 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay66 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv299 x0 x1 x2 x3 x4 x5 x6 x7 x8 x9 x10 x11) (kv315 x0 x1 x2 x3 x4 x5 x6 x7 x8 x9 x10 x11) (kv323 x0 x1 x2 x3 x4 x5 x6 x7 x8 x9 x10 x11) (kv587 x0 x1 x2 x3 x4 x5 x6 x7 x8 x9 x10 x11 x12) (kv588 x0 x1 x2 x3 x4 x5 x6 x7 x8 x9 x10 x11) (kv589 x12) (kv594 x12) (kv599 x12) (kv604 x12) (kv609 x12) (kv614 x12) (kv619 x12) (kv624 x12)
/-- `v629`: block 12 read through its rectangle. -/
def kv629 (x12 : Vec F S24576x128 .bf16) : Vec F S256x128 .bf16 :=
  View.ld x12 (Rect.unit (s := S24576x128) ![15616, 0] S256x128.size inb_S24576x128_S256x128_15616_0)
/-- `v634`: block 12 read through its rectangle. -/
def kv634 (x12 : Vec F S24576x128 .bf16) : Vec F S256x128 .bf16 :=
  View.ld x12 (Rect.unit (s := S24576x128) ![15872, 0] S256x128.size inb_S24576x128_S256x128_15872_0)
/-- `v639`: block 12 read through its rectangle. -/
def kv639 (x12 : Vec F S24576x128 .bf16) : Vec F S256x128 .bf16 :=
  View.ld x12 (Rect.unit (s := S24576x128) ![16128, 0] S256x128.size inb_S24576x128_S256x128_16128_0)
/-- `v644`: block 12 read through its rectangle. -/
def kv644 (x12 : Vec F S24576x128 .bf16) : Vec F S256x128 .bf16 :=
  View.ld x12 (Rect.unit (s := S24576x128) ![16384, 0] S256x128.size inb_S24576x128_S256x128_16384_0)
/-- `v649`: block 12 read through its rectangle. -/
def kv649 (x12 : Vec F S24576x128 .bf16) : Vec F S256x128 .bf16 :=
  View.ld x12 (Rect.unit (s := S24576x128) ![16640, 0] S256x128.size inb_S24576x128_S256x128_16640_0)
/-- `v654`: block 12 read through its rectangle. -/
def kv654 (x12 : Vec F S24576x128 .bf16) : Vec F S256x128 .bf16 :=
  View.ld x12 (Rect.unit (s := S24576x128) ![16896, 0] S256x128.size inb_S24576x128_S256x128_16896_0)
/-- `v659`: block 12 read through its rectangle. -/
def kv659 (x12 : Vec F S24576x128 .bf16) : Vec F S256x128 .bf16 :=
  View.ld x12 (Rect.unit (s := S24576x128) ![17152, 0] S256x128.size inb_S24576x128_S256x128_17152_0)
/-- `v664`: block 12 read through its rectangle. -/
def kv664 (x12 : Vec F S24576x128 .bf16) : Vec F S256x128 .bf16 :=
  View.ld x12 (Rect.unit (s := S24576x128) ![17408, 0] S256x128.size inb_S24576x128_S256x128_17408_0)
def kv662 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay67 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv627 x0 x1 x2 x3 x4 x5 x6 x7 x8 x9 x10 x11 x12) (kv629 x12) (kv634 x12) (kv639 x12) (kv644 x12) (kv649 x12) (kv654 x12) (kv659 x12)
def kv663 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay68 (kv299 x0 x1 x2 x3 x4 x5 x6 x7 x8 x9 x10 x11)
/-- `v669`: block 12 read through its rectangle. -/
def kv669 (x12 : Vec F S24576x128 .bf16) : Vec F S256x128 .bf16 :=
  View.ld x12 (Rect.unit (s := S24576x128) ![17664, 0] S256x128.size inb_S24576x128_S256x128_17664_0)
/-- `v674`: block 12 read through its rectangle. -/
def kv674 (x12 : Vec F S24576x128 .bf16) : Vec F S256x128 .bf16 :=
  View.ld x12 (Rect.unit (s := S24576x128) ![17920, 0] S256x128.size inb_S24576x128_S256x128_17920_0)
/-- `v679`: block 12 read through its rectangle. -/
def kv679 (x12 : Vec F S24576x128 .bf16) : Vec F S256x128 .bf16 :=
  View.ld x12 (Rect.unit (s := S24576x128) ![18176, 0] S256x128.size inb_S24576x128_S256x128_18176_0)
/-- `v684`: block 12 read through its rectangle. -/
def kv684 (x12 : Vec F S24576x128 .bf16) : Vec F S256x128 .bf16 :=
  View.ld x12 (Rect.unit (s := S24576x128) ![18432, 0] S256x128.size inb_S24576x128_S256x128_18432_0)
/-- `v689`: block 12 read through its rectangle. -/
def kv689 (x12 : Vec F S24576x128 .bf16) : Vec F S256x128 .bf16 :=
  View.ld x12 (Rect.unit (s := S24576x128) ![18688, 0] S256x128.size inb_S24576x128_S256x128_18688_0)
/-- `v694`: block 12 read through its rectangle. -/
def kv694 (x12 : Vec F S24576x128 .bf16) : Vec F S256x128 .bf16 :=
  View.ld x12 (Rect.unit (s := S24576x128) ![18944, 0] S256x128.size inb_S24576x128_S256x128_18944_0)
/-- `v699`: block 12 read through its rectangle. -/
def kv699 (x12 : Vec F S24576x128 .bf16) : Vec F S256x128 .bf16 :=
  View.ld x12 (Rect.unit (s := S24576x128) ![19200, 0] S256x128.size inb_S24576x128_S256x128_19200_0)
def kv702 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay69 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv291 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv662 x0 x1 x2 x3 x4 x5 x6 x7 x8 x9 x10 x11 x12) (kv663 x0 x1 x2 x3 x4 x5 x6 x7 x8 x9 x10 x11) (kv664 x12) (kv669 x12) (kv674 x12) (kv679 x12) (kv684 x12) (kv689 x12) (kv694 x12) (kv699 x12)
/-- `v704`: block 12 read through its rectangle. -/
def kv704 (x12 : Vec F S24576x128 .bf16) : Vec F S256x128 .bf16 :=
  View.ld x12 (Rect.unit (s := S24576x128) ![19456, 0] S256x128.size inb_S24576x128_S256x128_19456_0)
/-- `v709`: block 12 read through its rectangle. -/
def kv709 (x12 : Vec F S24576x128 .bf16) : Vec F S256x128 .bf16 :=
  View.ld x12 (Rect.unit (s := S24576x128) ![19712, 0] S256x128.size inb_S24576x128_S256x128_19712_0)
/-- `v714`: block 12 read through its rectangle. -/
def kv714 (x12 : Vec F S24576x128 .bf16) : Vec F S256x128 .bf16 :=
  View.ld x12 (Rect.unit (s := S24576x128) ![19968, 0] S256x128.size inb_S24576x128_S256x128_19968_0)
/-- `v719`: block 12 read through its rectangle. -/
def kv719 (x12 : Vec F S24576x128 .bf16) : Vec F S256x128 .bf16 :=
  View.ld x12 (Rect.unit (s := S24576x128) ![20224, 0] S256x128.size inb_S24576x128_S256x128_20224_0)
/-- `v724`: block 12 read through its rectangle. -/
def kv724 (x12 : Vec F S24576x128 .bf16) : Vec F S256x128 .bf16 :=
  View.ld x12 (Rect.unit (s := S24576x128) ![20480, 0] S256x128.size inb_S24576x128_S256x128_20480_0)
/-- `v729`: block 12 read through its rectangle. -/
def kv729 (x12 : Vec F S24576x128 .bf16) : Vec F S256x128 .bf16 :=
  View.ld x12 (Rect.unit (s := S24576x128) ![20736, 0] S256x128.size inb_S24576x128_S256x128_20736_0)
/-- `v734`: block 12 read through its rectangle. -/
def kv734 (x12 : Vec F S24576x128 .bf16) : Vec F S256x128 .bf16 :=
  View.ld x12 (Rect.unit (s := S24576x128) ![20992, 0] S256x128.size inb_S24576x128_S256x128_20992_0)
/-- `v739`: block 12 read through its rectangle. -/
def kv739 (x12 : Vec F S24576x128 .bf16) : Vec F S256x128 .bf16 :=
  View.ld x12 (Rect.unit (s := S24576x128) ![21248, 0] S256x128.size inb_S24576x128_S256x128_21248_0)
def kv737 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay70 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv702 x0 x1 x2 x3 x4 x5 x6 x7 x8 x9 x10 x11 x12) (kv704 x12) (kv709 x12) (kv714 x12) (kv719 x12) (kv724 x12) (kv729 x12) (kv734 x12)
def kv738 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) : FVec F S128x256 .bf16 :=
  k0_pay71 (kv291 x0 x1 x2 x3 x4 x5 x6 x7 x8 x9 x10 x11)
/-- `v744`: block 12 read through its rectangle. -/
def kv744 (x12 : Vec F S24576x128 .bf16) : Vec F S256x128 .bf16 :=
  View.ld x12 (Rect.unit (s := S24576x128) ![21504, 0] S256x128.size inb_S24576x128_S256x128_21504_0)
/-- `v749`: block 12 read through its rectangle. -/
def kv749 (x12 : Vec F S24576x128 .bf16) : Vec F S256x128 .bf16 :=
  View.ld x12 (Rect.unit (s := S24576x128) ![21760, 0] S256x128.size inb_S24576x128_S256x128_21760_0)
/-- `v754`: block 12 read through its rectangle. -/
def kv754 (x12 : Vec F S24576x128 .bf16) : Vec F S256x128 .bf16 :=
  View.ld x12 (Rect.unit (s := S24576x128) ![22016, 0] S256x128.size inb_S24576x128_S256x128_22016_0)
/-- `v759`: block 12 read through its rectangle. -/
def kv759 (x12 : Vec F S24576x128 .bf16) : Vec F S256x128 .bf16 :=
  View.ld x12 (Rect.unit (s := S24576x128) ![22272, 0] S256x128.size inb_S24576x128_S256x128_22272_0)
/-- `v764`: block 12 read through its rectangle. -/
def kv764 (x12 : Vec F S24576x128 .bf16) : Vec F S256x128 .bf16 :=
  View.ld x12 (Rect.unit (s := S24576x128) ![22528, 0] S256x128.size inb_S24576x128_S256x128_22528_0)
/-- `v769`: block 12 read through its rectangle. -/
def kv769 (x12 : Vec F S24576x128 .bf16) : Vec F S256x128 .bf16 :=
  View.ld x12 (Rect.unit (s := S24576x128) ![22784, 0] S256x128.size inb_S24576x128_S256x128_22784_0)
/-- `v774`: block 12 read through its rectangle. -/
def kv774 (x12 : Vec F S24576x128 .bf16) : Vec F S256x128 .bf16 :=
  View.ld x12 (Rect.unit (s := S24576x128) ![23040, 0] S256x128.size inb_S24576x128_S256x128_23040_0)
def kv777 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) : FVec F S128x128 .f32 :=
  k0_pay72 (kv267 x0 x1 x2 x3 x4 x5 x6 x7 x8 x9 x10 x11) (kv275 x0 x1 x2 x3 x4 x5 x6 x7 x8 x9 x10 x11) (kv283 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv737 x0 x1 x2 x3 x4 x5 x6 x7 x8 x9 x10 x11 x12) (kv738 x0 x1 x2 x3 x4 x5 x6 x7 x8 x9 x10 x11) (kv739 x12) (kv744 x12) (kv749 x12) (kv754 x12) (kv759 x12) (kv764 x12) (kv769 x12) (kv774 x12)
/-- `v779`: block 12 read through its rectangle. -/
def kv779 (x12 : Vec F S24576x128 .bf16) : Vec F S256x128 .bf16 :=
  View.ld x12 (Rect.unit (s := S24576x128) ![23296, 0] S256x128.size inb_S24576x128_S256x128_23296_0)
/-- `v784`: block 12 read through its rectangle. -/
def kv784 (x12 : Vec F S24576x128 .bf16) : Vec F S256x128 .bf16 :=
  View.ld x12 (Rect.unit (s := S24576x128) ![23552, 0] S256x128.size inb_S24576x128_S256x128_23552_0)
/-- `v789`: block 12 read through its rectangle. -/
def kv789 (x12 : Vec F S24576x128 .bf16) : Vec F S256x128 .bf16 :=
  View.ld x12 (Rect.unit (s := S24576x128) ![23808, 0] S256x128.size inb_S24576x128_S256x128_23808_0)
/-- `v794`: block 12 read through its rectangle. -/
def kv794 (x12 : Vec F S24576x128 .bf16) : Vec F S256x128 .bf16 :=
  View.ld x12 (Rect.unit (s := S24576x128) ![24064, 0] S256x128.size inb_S24576x128_S256x128_24064_0)
/-- `v799`: block 12 read through its rectangle. -/
def kv799 (x12 : Vec F S24576x128 .bf16) : Vec F S256x128 .bf16 :=
  View.ld x12 (Rect.unit (s := S24576x128) ![24320, 0] S256x128.size inb_S24576x128_S256x128_24320_0)
/-- `v803`: block 13 read through its rectangle. -/
def kv803 (x13 : Vec F S1x128 .f32) : Vec F S1x128 .f32 :=
  View.ld x13 (Rect.unit (s := S1x128) ![0, 0] S1x128.size inb_S1x128_S1x128_0_0)
/-- `v809`: block 14 read through its rectangle. -/
def kv809 (x14 : Vec F S128x128 .bf16) : Vec F S128x128 .bf16 :=
  View.ld x14 (Rect.unit (s := S128x128) ![0, 0] S128x128.size inb_S128x128_S128x128_0_0)
/-- `v812`: block 15 read through its rectangle. -/
def kv812 (x15 : Vec F S1x128 .f32) : Vec F S1x128 .f32 :=
  View.ld x15 (Rect.unit (s := S1x128) ![0, 0] S1x128.size inb_S1x128_S1x128_0_0)
def kv814 (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) : FVec F S128x128 .f32 :=
  k0_pay73 (kv291 x0 x1 x2 x3 x4 x5 x6 x7 x8 x9 x10 x11) (kv299 x0 x1 x2 x3 x4 x5 x6 x7 x8 x9 x10 x11) (kv307 x0 x1 x2 x3 x4 x5 x6 x7 x8 x9 x10 x11) (kv315 x0 x1 x2 x3 x4 x5 x6 x7 x8 x9 x10 x11) (kv323 x0 x1 x2 x3 x4 x5 x6 x7 x8 x9 x10 x11) (kv777 x0 x1 x2 x3 x4 x5 x6 x7 x8 x9 x10 x11 x12) (kv779 x12) (kv784 x12) (kv789 x12) (kv794 x12) (kv799 x12) (kv803 x13) (kv809 x14) (kv812 x15)
/-- `v818`: block 16 read through its rectangle. -/
def kv818 (x16 : Vec F S128x22 .bf16) : Vec F S128x22 .bf16 :=
  View.ld x16 (Rect.unit (s := S128x22) ![0, 0] S128x22.size inb_S128x22_S128x22_0_0)
/-- `v821`: block 17 read through its rectangle. -/
def kv821 (x17 : Vec F S1x22 .f32) : Vec F S1x22 .f32 :=
  View.ld x17 (Rect.unit (s := S1x22) ![0, 0] S1x22.size inb_S1x22_S1x22_0_0)

/-- The block the body stores (its one store, the whole output block), from the eighteen input blocks. -/
def kout (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) (x16 : Vec F S128x22 .bf16) (x17 : Vec F S1x22 .f32) : Vec F S128x22 .f32 :=
  k0_pay1 (kv814 x0 x1 x2 x3 x4 x5 x6 x7 x8 x9 x10 x11 x12 x13 x14 x15) (kv818 x16) (kv821 x17)

end Cert.KernelIdeal.Hand

end
-- ==== Proof.KBody.lean ====
/-
  The kernel body's triple: run on whole staging memrefs, the eighteen inputs' at read contents
  `x0 … x17` and the output's at anything, the body returns holding the inputs' as they were and the
  output's at `kout x0 … x17` — its one store covers the output block, so what the block holds
  afterwards is the canon of that single piece.
-/
import proofs.«156904_g2000200884589374_pallasbulk_247_2_alg».proof.Proof.KOut
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of the body's one store: the whole output block. -/
abbrev rOut : Rect S128x22 := Rect.unit (s := S128x22) ![0, 0] S128x22.size inb_S128x22_S128x22_0_0

/-- The output block after the body, as the canon of its one store. -/
def koutC (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) (x16 : Vec F S128x22 .bf16) (x17 : Vec F S1x22 .f32) : Vec F S128x22 .f32 :=
  View.canon [⟨rOut, kout x0 x1 x2 x3 x4 x5 x6 x7 x8 x9 x10 x11 x12 x13 x14 x15 x16 x17⟩]

/-- The one store is the whole block, so it covers it. -/
theorem coverOut (p0 : Vec F S128x22 .f32) (y : S128x22.Idx) :
    ∃ pc ∈ ([⟨rOut, p0⟩] : List (View.Piece (Elt F) S128x22 .f32)), y ∈ pc.1.set :=
  View.cover_of_tiled [⟨rOut, p0⟩] S128x22.size (by rfl) y

/-- The canon of the single whole-block piece is its payload. -/
theorem koutC_eq (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) (x16 : Vec F S128x22 .bf16) (x17 : Vec F S1x22 .f32) : koutC x0 x1 x2 x3 x4 x5 x6 x7 x8 x9 x10 x11 x12 x13 x14 x15 x16 x17 = kout x0 x1 x2 x3 x4 x5 x6 x7 x8 x9 x10 x11 x12 x13 x14 x15 x16 x17 :=
  View.canon_unit_zero (by funext a; fin_cases a <;> rfl) _ _

set_option maxHeartbeats 400000 in
/-- The body on whole staging memrefs: the inputs' contents are read, never written; the output's ends at
    `koutC` of the inputs'. -/
theorem sound_kernel (c : Dev nD) (E : Set ℕ) (i : grid0.Coords) (arg1 : Memref sig .tc .vmem S12x128x48 .f32) (harg1 : arg1.IsWhole) (arg2 : Memref sig .tc .vmem S48x2816 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x256 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S1x256 .f32) (harg12 : arg12.IsWhole) (arg13 : Memref sig .tc .vmem S24576x128 .bf16) (harg13 : arg13.IsWhole) (arg14 : Memref sig .tc .vmem S1x128 .f32) (harg14 : arg14.IsWhole) (arg15 : Memref sig .tc .vmem S128x128 .bf16) (harg15 : arg15.IsWhole) (arg16 : Memref sig .tc .vmem S1x128 .f32) (harg16 : arg16.IsWhole) (arg17 : Memref sig .tc .vmem S128x22 .bf16) (harg17 : arg17.IsWhole) (arg18 : Memref sig .tc .vmem S1x22 .f32) (harg18 : arg18.IsWhole) (arg19 : Memref sig .tc .vmem S128x22 .f32) (harg19 : arg19.IsWhole)
    (x0 : Vec F S12x128x48 .f32) (x1 : Vec F S48x2816 .bf16) (x2 : Vec F S1x256 .f32) (x3 : Vec F S256x256 .bf16) (x4 : Vec F S256x256 .bf16) (x5 : Vec F S1x256 .f32) (x6 : Vec F S256x256 .bf16) (x7 : Vec F S256x256 .bf16) (x8 : Vec F S1x256 .f32) (x9 : Vec F S256x256 .bf16) (x10 : Vec F S256x256 .bf16) (x11 : Vec F S1x256 .f32) (x12 : Vec F S24576x128 .bf16) (x13 : Vec F S1x128 .f32) (x14 : Vec F S128x128 .bf16) (x15 : Vec F S1x128 .f32) (x16 : Vec F S128x22 .bf16) (x17 : Vec F S1x22 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (koutC x0 x1 x2 x3 x4 x5 x6 x7 x8 x9 x10 x11 x12 x13 x14 x15 x16 x17)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
  subst hf0 hf1 hf2 hf3 hf4 hf5 hf6 hf7 hf8 hf9 hf10 hf11 hf12 hf13 hf14 hf15 hf16 hf17
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  iexists _; isplitr
  swap; · iexact H18
  ipureintro
  exact View.read_writes_eq_canon _ _ _ (coverOut _)

end Cert.KernelIdeal.Hand

end
-- ==== Proof.KFrame.lean ====
/-
  The frame of the program: @main is fifty-nine stretches of host operations and then one region
  over a grid of 64 points. What the region finds in each array is the fold of the host operations
  over the launch memory (`V`); no host operation writes an argument array, so each is found as
  launched. At every point each of the eighteen input windows' staging buffers holds that window's
  block of its array, fetched there or not, and the body leaves in the output window's buffer the
  canon of its one store, `koutC` of the eighteen input blocks. With that as proof data the
  library's frame run gives the run of @main: it terminates, every array of the pipeline ends at
  what the library computes from the proof data and every other unscoped buffer as the region
  found it; read at the fifteen argument arrays, that is the frame claim.
-/
import proofs.«156904_g2000200884589374_pallasbulk_247_2_alg».proof.Proof.KBody
import proofs.«156904_g2000200884589374_pallasbulk_247_2_alg».proof.Proof.Gen.KernelIdeal.Launch
import proofs.«156904_g2000200884589374_pallasbulk_247_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the fifty-nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any
    proof data whose array is `V`'s and whose body leaves the block in place: unfetched, the window's index has
    not moved; every window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: an argument array a window stages ends at its entry contents (an input is never
    written back), any other by the post's clause for the buffers no window stages; each is then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 13).trans (((dats 0 c).arrAt_in 13 rfl _).trans ((hA c 13).trans (V_main_arg10 m c))),
      ((h c).2 main_arg11 (Pipeline.mem_restRefs_of main_arg11 (by decide) (by decide))).trans (V_main_arg11 m c),
      ((h c).1 15).trans (((dats 0 c).arrAt_in 15 rfl _).trans ((hA c 15).trans (V_main_arg12 m c))),
      ((h c).2 main_arg13 (Pipeline.mem_restRefs_of main_arg13 (by decide) (by decide))).trans (V_main_arg13 m c),
      ((h c).1 17).trans (((dats 0 c).arrAt_in 17 rfl _).trans ((hA c 17).trans (V_main_arg14 m c)))⟩) h

/-! ## The pipeline's proof data -/

/-- The proof data of the one pipeline on core `c`: the arrays as the region finds them; after the body at point
    `t` each input's buffer at its block and the output's at `koutC` of the input blocks; the invariant the scoped
    rest and the core's random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => koutC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨n + 19, h⟩ => absurd h (Nat.not_lt.2 (Nat.le_add_left 19 n))
  Φ _ := Pipeline.ΦA spec0 c
  q _ := fullShare
  owed _ := 0

/-- The proof data's arrays are the region-entry contents (projected, so that `V`, a long fold, is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = koutC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
/-- What the body leaves in the output window's buffer is `kout` of the input blocks: the one store is the whole block. -/
theorem after18_eq (c : Dev nD) (t : Fin cfg0.N) : (dats m 0 c).after 18 t = kout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) :=
  (after0_18 m c t).trans (koutC_eq ..)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 1000000 in
/-- The body at any point: the inputs' memrefs hold their blocks, so the body's triple applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main on the TensorCores terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.KArray.lean ====
/-
  From blocks to arrays. Point t of the grid handles images 128 t … 128 t + 127: input window 0's
  block there is rows 128 t … 128 t + 127 of the middle axis of its array, every other input
  window's block is its whole array, and the output window's block is rows 128 t … 128 t + 127 of
  the result. The 64 output blocks tile the result's 8192 rows (row n lies in the block of point
  n / 128) and no two meet, so the result array after the run is the function whose restriction to
  each block is what that point's body stored.
-/
import proofs.«156904_g2000200884589374_pallasbulk_247_2_alg».proof.Proof.KFrame
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The grid's points and the rows they handle -/

/-- The grid has 64 points. -/
theorem point_lt : ∀ t : Fin cfg0.N, t.val < 64 :=
  (by decide +kernel : ∀ t : Fin grid0.N, t.val < 64)

/-- Row b of point t's block is row 128 t + b of the 8192. -/
theorem row_lt (t : Fin cfg0.N) (b : Fin 128) : 128 * t.val + b.val < 8192 := by
  have ht := point_lt t; have hb := b.isLt; omega

/-! ## The input windows' blocks, read at an index -/

/-- Window 0's block at point t is at block index (0, t, 0). -/
theorem idx0_facts : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

/-- Window 0's block at point t, at (w, b, R), is its array at (w, 128 t + b, R). -/
theorem iblk0_apply (c : Dev nD) (t : Fin cfg0.N) (w : Fin 12) (b : Fin 128) (R : Fin 48) :
    (iblk m c 0 t : Vec F S12x128x48 .f32) (ix3 w b R)
      = (V m c main_v2 : S12x8192x48.Idx → Elt F .f32) (ix3 w ⟨128 * t.val + b.val, row_lt t b⟩ R) := by
  obtain ⟨e0, e1, e2⟩ := idx0_facts t
  show V m c main_v2 (((cfg0.win 0).blk t).view.emb (ix3 w b R)) = V m c main_v2 (ix3 w ⟨128 * t.val + b.val, row_lt t b⟩ R)
  have h : ((cfg0.win 0).blk t).view.emb (ix3 w b R) = ix3 w ⟨128 * t.val + b.val, row_lt t b⟩ R := by
    funext a; apply Fin.ext
    match a with
    | ⟨0, _⟩ => show win0_0.index t (0 : Fin 3) * 12 + 1 * w.val = w.val; omega
    | ⟨1, _⟩ => show win0_0.index t (1 : Fin 3) * 128 + 1 * b.val = 128 * t.val + b.val; omega
    | ⟨2, _⟩ => show win0_0.index t (2 : Fin 3) * 48 + 1 * R.val = R.val; omega
  rw [h]

/-- Window 1's block is the whole of its array at every point. -/
theorem idx1_zero : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem iblk1_apply (c : Dev nD) (t : Fin cfg0.N) (y : S48x2816.Idx) :
    (iblk m c 1 t : Vec F S48x2816 .bf16) y = (V m c main_v25 : S48x2816.Idx → Elt F .bf16) y := by
  obtain ⟨e0, e1⟩ := idx1_zero t
  show V m c main_v25 (((cfg0.win 1).blk t).view.emb y) = V m c main_v25 y
  have h : ((cfg0.win 1).blk t).view.emb y = y := by
    funext a; apply Fin.ext
    match a with
    | ⟨0, _⟩ => show win0_1.index t (0 : Fin 2) * 48 + 1 * (y 0).val = (y 0).val; omega
    | ⟨1, _⟩ => show win0_1.index t (1 : Fin 2) * 2816 + 1 * (y 1).val = (y 1).val; omega
  rw [h]
/-- Window 2's block is the whole of its array at every point. -/
theorem idx2_zero : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem iblk2_apply (c : Dev nD) (t : Fin cfg0.N) (y : S1x256.Idx) :
    (iblk m c 2 t : Vec F S1x256 .f32) y = (V m c main_v71 : S1x256.Idx → Elt F .f32) y := by
  obtain ⟨e0, e1⟩ := idx2_zero t
  show V m c main_v71 (((cfg0.win 2).blk t).view.emb y) = V m c main_v71 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 256 + 1 * (y 1).val = (y 1).val; omega
  rw [h]
/-- Window 3's block is the whole of its array at every point. -/
theorem idx3_zero : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem iblk3_apply (c : Dev nD) (t : Fin cfg0.N) (y : S256x256.Idx) :
    (iblk m c 3 t : Vec F S256x256 .bf16) y = (V m c main_v72 : S256x256.Idx → Elt F .bf16) y := by
  obtain ⟨e0, e1⟩ := idx3_zero t
  show V m c main_v72 (((cfg0.win 3).blk t).view.emb y) = V m c main_v72 y
  have h : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 256 + 1 * (y 1).val = (y 1).val; omega
  rw [h]
/-- Window 4's block is the whole of its array at every point. -/
theorem idx4_zero : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem iblk4_apply (c : Dev nD) (t : Fin cfg0.N) (y : S256x256.Idx) :
    (iblk m c 4 t : Vec F S256x256 .bf16) y = (V m c main_v73 : S256x256.Idx → Elt F .bf16) y := by
  obtain ⟨e0, e1⟩ := idx4_zero t
  show V m c main_v73 (((cfg0.win 4).blk t).view.emb y) = V m c main_v73 y
  have h : ((cfg0.win 4).blk t).view.emb y = y := by
    funext a; apply Fin.ext
    match a with
    | ⟨0, _⟩ => show win0_4.index t (0 : Fin 2) * 256 + 1 * (y 0).val = (y 0).val; omega
    | ⟨1, _⟩ => show win0_4.index t (1 : Fin 2) * 256 + 1 * (y 1).val = (y 1).val; omega
  rw [h]
/-- Window 5's block is the whole of its array at every point. -/
theorem idx5_zero : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem iblk5_apply (c : Dev nD) (t : Fin cfg0.N) (y : S1x256.Idx) :
    (iblk m c 5 t : Vec F S1x256 .f32) y = (V m c main_v76 : S1x256.Idx → Elt F .f32) y := by
  obtain ⟨e0, e1⟩ := idx5_zero t
  show V m c main_v76 (((cfg0.win 5).blk t).view.emb y) = V m c main_v76 y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 256 + 1 * (y 1).val = (y 1).val; omega
  rw [h]
/-- Window 6's block is the whole of its array at every point. -/
theorem idx6_zero : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem iblk6_apply (c : Dev nD) (t : Fin cfg0.N) (y : S256x256.Idx) :
    (iblk m c 6 t : Vec F S256x256 .bf16) y = (V m c main_v77 : S256x256.Idx → Elt F .bf16) y := by
  obtain ⟨e0, e1⟩ := idx6_zero t
  show V m c main_v77 (((cfg0.win 6).blk t).view.emb y) = V m c main_v77 y
  have h : ((cfg0.win 6).blk t).view.emb y = y := by
    funext a; apply Fin.ext
    match a with
    | ⟨0, _⟩ => show win0_6.index t (0 : Fin 2) * 256 + 1 * (y 0).val = (y 0).val; omega
    | ⟨1, _⟩ => show win0_6.index t (1 : Fin 2) * 256 + 1 * (y 1).val = (y 1).val; omega
  rw [h]
/-- Window 7's block is the whole of its array at every point. -/
theorem idx7_zero : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem iblk7_apply (c : Dev nD) (t : Fin cfg0.N) (y : S256x256.Idx) :
    (iblk m c 7 t : Vec F S256x256 .bf16) y = (V m c main_v78 : S256x256.Idx → Elt F .bf16) y := by
  obtain ⟨e0, e1⟩ := idx7_zero t
  show V m c main_v78 (((cfg0.win 7).blk t).view.emb y) = V m c main_v78 y
  have h : ((cfg0.win 7).blk t).view.emb y = y := by
    funext a; apply Fin.ext
    match a with
    | ⟨0, _⟩ => show win0_7.index t (0 : Fin 2) * 256 + 1 * (y 0).val = (y 0).val; omega
    | ⟨1, _⟩ => show win0_7.index t (1 : Fin 2) * 256 + 1 * (y 1).val = (y 1).val; omega
  rw [h]
/-- Window 8's block is the whole of its array at every point. -/
theorem idx8_zero : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem iblk8_apply (c : Dev nD) (t : Fin cfg0.N) (y : S1x256.Idx) :
    (iblk m c 8 t : Vec F S1x256 .f32) y = (V m c main_v81 : S1x256.Idx → Elt F .f32) y := by
  obtain ⟨e0, e1⟩ := idx8_zero t
  show V m c main_v81 (((cfg0.win 8).blk t).view.emb y) = V m c main_v81 y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 256 + 1 * (y 1).val = (y 1).val; omega
  rw [h]
/-- Window 9's block is the whole of its array at every point. -/
theorem idx9_zero : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem iblk9_apply (c : Dev nD) (t : Fin cfg0.N) (y : S256x256.Idx) :
    (iblk m c 9 t : Vec F S256x256 .bf16) y = (V m c main_v82 : S256x256.Idx → Elt F .bf16) y := by
  obtain ⟨e0, e1⟩ := idx9_zero t
  show V m c main_v82 (((cfg0.win 9).blk t).view.emb y) = V m c main_v82 y
  have h : ((cfg0.win 9).blk t).view.emb y = y := by
    funext a; apply Fin.ext
    match a with
    | ⟨0, _⟩ => show win0_9.index t (0 : Fin 2) * 256 + 1 * (y 0).val = (y 0).val; omega
    | ⟨1, _⟩ => show win0_9.index t (1 : Fin 2) * 256 + 1 * (y 1).val = (y 1).val; omega
  rw [h]
/-- Window 10's block is the whole of its array at every point. -/
theorem idx10_zero : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem iblk10_apply (c : Dev nD) (t : Fin cfg0.N) (y : S256x256.Idx) :
    (iblk m c 10 t : Vec F S256x256 .bf16) y = (V m c main_v83 : S256x256.Idx → Elt F .bf16) y := by
  obtain ⟨e0, e1⟩ := idx10_zero t
  show V m c main_v83 (((cfg0.win 10).blk t).view.emb y) = V m c main_v83 y
  have h : ((cfg0.win 10).blk t).view.emb y = y := by
    funext a; apply Fin.ext
    match a with
    | ⟨0, _⟩ => show win0_10.index t (0 : Fin 2) * 256 + 1 * (y 0).val = (y 0).val; omega
    | ⟨1, _⟩ => show win0_10.index t (1 : Fin 2) * 256 + 1 * (y 1).val = (y 1).val; omega
  rw [h]
/-- Window 11's block is the whole of its array at every point. -/
theorem idx11_zero : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem iblk11_apply (c : Dev nD) (t : Fin cfg0.N) (y : S1x256.Idx) :
    (iblk m c 11 t : Vec F S1x256 .f32) y = (V m c main_v86 : S1x256.Idx → Elt F .f32) y := by
  obtain ⟨e0, e1⟩ := idx11_zero t
  show V m c main_v86 (((cfg0.win 11).blk t).view.emb y) = V m c main_v86 y
  have h : ((cfg0.win 11).blk t).view.emb y = y := by
    funext a; apply Fin.ext
    match a with
    | ⟨0, _⟩ => show win0_11.index t (0 : Fin 2) * 1 + 1 * (y 0).val = (y 0).val; omega
    | ⟨1, _⟩ => show win0_11.index t (1 : Fin 2) * 256 + 1 * (y 1).val = (y 1).val; omega
  rw [h]
/-- Window 12's block is the whole of its array at every point. -/
theorem idx12_zero : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem iblk12_apply (c : Dev nD) (t : Fin cfg0.N) (y : S24576x128.Idx) :
    (iblk m c 12 t : Vec F S24576x128 .bf16) y = (V m c main_v87 : S24576x128.Idx → Elt F .bf16) y := by
  obtain ⟨e0, e1⟩ := idx12_zero t
  show V m c main_v87 (((cfg0.win 12).blk t).view.emb y) = V m c main_v87 y
  have h : ((cfg0.win 12).blk t).view.emb y = y := by
    funext a; apply Fin.ext
    match a with
    | ⟨0, _⟩ => show win0_12.index t (0 : Fin 2) * 24576 + 1 * (y 0).val = (y 0).val; omega
    | ⟨1, _⟩ => show win0_12.index t (1 : Fin 2) * 128 + 1 * (y 1).val = (y 1).val; omega
  rw [h]
/-- Window 13's block is the whole of its array at every point. -/
theorem idx13_zero : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem iblk13_apply (c : Dev nD) (t : Fin cfg0.N) (y : S1x128.Idx) :
    (iblk m c 13 t : Vec F S1x128 .f32) y = (V m c main_arg10 : S1x128.Idx → Elt F .f32) y := by
  obtain ⟨e0, e1⟩ := idx13_zero t
  show V m c main_arg10 (((cfg0.win 13).blk t).view.emb y) = V m c main_arg10 y
  have h : ((cfg0.win 13).blk t).view.emb y = y := by
    funext a; apply Fin.ext
    match a with
    | ⟨0, _⟩ => show win0_13.index t (0 : Fin 2) * 1 + 1 * (y 0).val = (y 0).val; omega
    | ⟨1, _⟩ => show win0_13.index t (1 : Fin 2) * 128 + 1 * (y 1).val = (y 1).val; omega
  rw [h]
/-- Window 14's block is the whole of its array at every point. -/
theorem idx14_zero : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem iblk14_apply (c : Dev nD) (t : Fin cfg0.N) (y : S128x128.Idx) :
    (iblk m c 14 t : Vec F S128x128 .bf16) y = (V m c main_v88 : S128x128.Idx → Elt F .bf16) y := by
  obtain ⟨e0, e1⟩ := idx14_zero t
  show V m c main_v88 (((cfg0.win 14).blk t).view.emb y) = V m c main_v88 y
  have h : ((cfg0.win 14).blk t).view.emb y = y := by
    funext a; apply Fin.ext
    match a with
    | ⟨0, _⟩ => show win0_14.index t (0 : Fin 2) * 128 + 1 * (y 0).val = (y 0).val; omega
    | ⟨1, _⟩ => show win0_14.index t (1 : Fin 2) * 128 + 1 * (y 1).val = (y 1).val; omega
  rw [h]
/-- Window 15's block is the whole of its array at every point. -/
theorem idx15_zero : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem iblk15_apply (c : Dev nD) (t : Fin cfg0.N) (y : S1x128.Idx) :
    (iblk m c 15 t : Vec F S1x128 .f32) y = (V m c main_arg12 : S1x128.Idx → Elt F .f32) y := by
  obtain ⟨e0, e1⟩ := idx15_zero t
  show V m c main_arg12 (((cfg0.win 15).blk t).view.emb y) = V m c main_arg12 y
  have h : ((cfg0.win 15).blk t).view.emb y = y := by
    funext a; apply Fin.ext
    match a with
    | ⟨0, _⟩ => show win0_15.index t (0 : Fin 2) * 1 + 1 * (y 0).val = (y 0).val; omega
    | ⟨1, _⟩ => show win0_15.index t (1 : Fin 2) * 128 + 1 * (y 1).val = (y 1).val; omega
  rw [h]
/-- Window 16's block is the whole of its array at every point. -/
theorem idx16_zero : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem iblk16_apply (c : Dev nD) (t : Fin cfg0.N) (y : S128x22.Idx) :
    (iblk m c 16 t : Vec F S128x22 .bf16) y = (V m c main_v89 : S128x22.Idx → Elt F .bf16) y := by
  obtain ⟨e0, e1⟩ := idx16_zero t
  show V m c main_v89 (((cfg0.win 16).blk t).view.emb y) = V m c main_v89 y
  have h : ((cfg0.win 16).blk t).view.emb y = y := by
    funext a; apply Fin.ext
    match a with
    | ⟨0, _⟩ => show win0_16.index t (0 : Fin 2) * 128 + 1 * (y 0).val = (y 0).val; omega
    | ⟨1, _⟩ => show win0_16.index t (1 : Fin 2) * 22 + 1 * (y 1).val = (y 1).val; omega
  rw [h]
/-- Window 17's block is the whole of its array at every point. -/
theorem idx17_zero : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)
theorem iblk17_apply (c : Dev nD) (t : Fin cfg0.N) (y : S1x22.Idx) :
    (iblk m c 17 t : Vec F S1x22 .f32) y = (V m c main_arg14 : S1x22.Idx → Elt F .f32) y := by
  obtain ⟨e0, e1⟩ := idx17_zero t
  show V m c main_arg14 (((cfg0.win 17).blk t).view.emb y) = V m c main_arg14 y
  have h : ((cfg0.win 17).blk t).view.emb y = y := by
    funext a; apply Fin.ext
    match a with
    | ⟨0, _⟩ => show win0_17.index t (0 : Fin 2) * 1 + 1 * (y 0).val = (y 0).val; omega
    | ⟨1, _⟩ => show win0_17.index t (1 : Fin 2) * 22 + 1 * (y 1).val = (y 1).val; omega
  rw [h]

/-! ## The result array, block by block -/

/-- The output window's block at point t is at block index (t, 0). -/
theorem idx18_facts : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)

/-- Every block row index is some point's. -/
theorem idx18_onto : ∀ q0 : Fin 64, ∃ t : Fin cfg0.N, win0_18.index t (0 : Fin 2) = q0.val ∧ win0_18.index t (1 : Fin 2) = 0 :=
  (by decide +kernel : ∀ q0 : Fin 64, ∃ t : Fin grid0.N, win0_18.index t (0 : Fin 2) = q0.val ∧ win0_18.index t (1 : Fin 2) = 0)

/-- An index of the result is in point t's block iff each coordinate is in the block's range on its axis. -/
theorem mem_blk18 (t : Fin cfg0.N) (i : S8192x22.Idx) :
    i ∈ ((cfg0.win 18).blk t).view.set ↔ ∀ a : Fin 2, win0_18.index t a * S128x22.size a ≤ (i a).val ∧ (i a).val < win0_18.index t a * S128x22.size a + S128x22.size a := by
  show i ∈ ((View.whole main_v90).slice (win0_18.rect t)).set ↔ _
  rw [View.set_slice_whole, Rect.mem_set_unit]
  exact Iff.rfl

/-- What point t writes back is block t of G, for any G that the stored block agrees with row by row. -/
theorem flushed18_eq (c : Dev nD) (G : S8192x22.Idx → Elt F .f32)
    (hG : ∀ (t : Fin cfg0.N) (b : Fin 128) (o : Fin 22),
      kout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 b o) = G (ix2 ⟨128 * t.val + b.val, row_lt t b⟩ o))
    (t : Fin cfg0.N) :
    (dats m 0 c).flushed 18 t = ((cfg0.win 18).blk t).view.read (Elt F) G := by
  show (cfg0.win 18).cut (grid0.coords t) ((dats m 0 c).after 18 t) = _
  rw [after18_eq]
  obtain ⟨e0, e1⟩ := idx18_facts t
  funext j
  show kout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) j = G (((cfg0.win 18).blk t).view.emb j)
  have hj : ((cfg0.win 18).blk t).view.emb j = ix2 ⟨128 * t.val + (j 0).val, row_lt t (j 0)⟩ (j 1) := by
    funext a; apply Fin.ext
    match a with
    | ⟨0, _⟩ => show win0_18.index t (0 : Fin 2) * 128 + 1 * (j 0).val = 128 * t.val + (j 0).val; omega
    | ⟨1, _⟩ => show win0_18.index t (1 : Fin 2) * 22 + 1 * (j 1).val = (j 1).val; omega
  rw [hj]
  exact (congrArg (fun y => kout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y) (eq_ix2 j)).trans (hG t (j 0) (j 1))

/-- Every index of the result is in the block of the point its row belongs to. -/
theorem cover18 (i : S8192x22.Idx) : ∃ t : Fin cfg0.N, (cfg0.win 18).flush t = true ∧ i ∈ ((cfg0.win 18).blk t).view.set := by
  have hi0 : (i 0).val < 8192 := (i 0).isLt
  have hi1 : (i 1).val < 22 := (i 1).isLt
  obtain ⟨t, q0, q1⟩ := idx18_onto ⟨(i 0).val / 128, by omega⟩
  have q0' : win0_18.index t (0 : Fin 2) = (i 0).val / 128 := q0
  refine ⟨t, flush0_18 t, ?_⟩
  rw [mem_blk18]
  intro a
  match a with
  | ⟨0, _⟩ => show win0_18.index t (0 : Fin 2) * 128 ≤ (i 0).val ∧ (i 0).val < win0_18.index t (0 : Fin 2) * 128 + 128; omega
  | ⟨1, _⟩ => show win0_18.index t (1 : Fin 2) * 22 ≤ (i 1).val ∧ (i 1).val < win0_18.index t (1 : Fin 2) * 22 + 22; omega

/-- The result array after the run is G, for any G that each point's stored block agrees with row by row. -/
theorem final18 (c : Dev nD) (G : S8192x22.Idx → Elt F .f32)
    (hG : ∀ (t : Fin cfg0.N) (b : Fin 128) (o : Fin 22),
      kout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 b o) = G (ix2 ⟨128 * t.val + b.val, row_lt t b⟩ o)) :
    (dats m 0 c).arrAt 18 cfg0.N = G :=
  (dats m 0 c).arrAt_eq_of_cover 18 G (fun t _ => flushed18_eq m c G hG t) cover18

/-! ## The run, with the result array named -/

/-- The frame run re-posted: the result array at what the library computes from the proof data, the fifteen
    argument arrays unchanged. -/
theorem run_named : θ_run defs (onTc (τ := τ) (main (F := F))) ⟨m, fun _ => 0, ρ⟩ (fun r => ∀ c : Dev nD,
      r.2.mem ((c : Thread nD τ).loc main_v90) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)) :=
  (θ_run defs _ _).mono (fun r h c => ⟨(h c).1 18,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 13).trans (((dats m 0 c).arrAt_in 13 rfl _).trans ((A_eq m c 13).trans (V_main_arg10 m c))),
      ((h c).2 main_arg11 (Pipeline.mem_restRefs_of main_arg11 (by decide) (by decide))).trans (V_main_arg11 m c),
      ((h c).1 15).trans (((dats m 0 c).arrAt_in 15 rfl _).trans ((A_eq m c 15).trans (V_main_arg12 m c))),
      ((h c).2 main_arg13 (Pipeline.mem_restRefs_of main_arg13 (by decide) (by decide))).trans (V_main_arg13 m c),
      ((h c).1 17).trans (((dats m 0 c).arrAt_in 17 rfl _).trans ((A_eq m c 17).trans (V_main_arg14 m c)))⟩)
    (run_main m ρ)

end Cert.KernelIdeal.Hand

end
-- ==== Proof.Spec.lean ====
/-
  The network both programs compute, written once, index by index, over the extended reals.

  The input and the weights are read through TOTAL extensions to the natural numbers (zero outside
  the array), so that a program's zero padding of an axis IS the extension: the kernel pads the
  height axis 45 → 48, the reference pads the width axis 12 → 16, and both then compute the same
  formulas at the extra positions too. Four convolutions along the height axis (five taps, 64
  channels, a bias, a clip at zero), then three dense layers (the first two clipped at zero).
-/
import Idealize.ShloMosaic.PureOps.Ideal
import Idealize.ShloMosaic.Lib.ValueIdx

noncomputable section

namespace Cert.Spec

open Idealize.ShloMosaic Idealize.ShloMosaic.ValueIdx

/-- The fifteen argument arrays, as extended-real functions of their multi-indices. -/
structure Args where
  x   : (⟨4, ![8192, 1, 45, 12]⟩ : Shape).Idx → EReal
  w1  : (⟨2, ![5, 64]⟩ : Shape).Idx → EReal
  b1  : (⟨2, ![1, 64]⟩ : Shape).Idx → EReal
  w2  : (⟨2, ![320, 64]⟩ : Shape).Idx → EReal
  b2  : (⟨2, ![1, 64]⟩ : Shape).Idx → EReal
  w3  : (⟨2, ![320, 64]⟩ : Shape).Idx → EReal
  b3  : (⟨2, ![1, 64]⟩ : Shape).Idx → EReal
  w4  : (⟨2, ![320, 64]⟩ : Shape).Idx → EReal
  b4  : (⟨2, ![1, 64]⟩ : Shape).Idx → EReal
  f1w : (⟨2, ![22272, 128]⟩ : Shape).Idx → EReal
  f1b : (⟨2, ![1, 128]⟩ : Shape).Idx → EReal
  f2w : (⟨2, ![128, 128]⟩ : Shape).Idx → EReal
  f2b : (⟨2, ![1, 128]⟩ : Shape).Idx → EReal
  f3w : (⟨2, ![128, 22]⟩ : Shape).Idx → EReal
  f3b : (⟨2, ![1, 22]⟩ : Shape).Idx → EReal

/-- A matrix read at natural-number coordinates, zero outside it. -/
def mat {r c : Nat} (a : (⟨2, ![r, c]⟩ : Shape).Idx → EReal) (i j : Nat) : EReal :=
  if h : i < r ∧ j < c then a (ix2 ⟨i, h.1⟩ ⟨j, h.2⟩) else 0

/-- A one-row matrix (a bias) read at a natural-number column, zero outside it. -/
def row {c : Nat} (a : (⟨2, ![1, c]⟩ : Shape).Idx → EReal) (j : Nat) : EReal :=
  if h : j < c then a (ix2 (0 : Fin 1) ⟨j, h⟩) else 0

/-- The input image n at height h and width w (its one channel), zero outside the array. -/
def xN (p : Args) (n h w : Nat) : EReal :=
  if hh : n < 8192 ∧ h < 45 ∧ w < 12 then p.x (ix4 ⟨n, hh.1⟩ (0 : Fin 1) ⟨h, hh.2.1⟩ ⟨w, hh.2.2⟩) else 0

/-- First convolution: five taps along the height, one input channel. -/
def c1 (p : Args) (n h w c : Nat) : EReal :=
  max ((∑ k ∈ Finset.range 5, xN p n (h + k) w * mat p.w1 k c) + row p.b1 c) 0

/-- A later convolution over an activation a: five taps along the height, 64 input channels; row
    k * 64 + ci of the weight is tap k, input channel ci. -/
def conv (a : Nat → Nat → Nat → Nat → EReal) (w : (⟨2, ![320, 64]⟩ : Shape).Idx → EReal)
    (b : (⟨2, ![1, 64]⟩ : Shape).Idx → EReal) (n h wd c : Nat) : EReal :=
  max ((∑ k ∈ Finset.range 5, ∑ ci ∈ Finset.range 64, a n (h + k) wd ci * mat w (k * 64 + ci) c) + row b c) 0

def c2 (p : Args) : Nat → Nat → Nat → Nat → EReal := conv (c1 p) p.w2 p.b2
def c3 (p : Args) : Nat → Nat → Nat → Nat → EReal := conv (c2 p) p.w3 p.b3
def c4 (p : Args) : Nat → Nat → Nat → Nat → EReal := conv (c3 p) p.w4 p.b4

/-- First dense layer over the 29 × 12 × 64 features in (height, width, channel) order. -/
def d1 (p : Args) (n o : Nat) : EReal :=
  max ((∑ h ∈ Finset.range 29, ∑ w ∈ Finset.range 12, ∑ c ∈ Finset.range 64,
      c4 p n h w c * mat p.f1w (h * 768 + w * 64 + c) o) + row p.f1b o) 0

def d2 (p : Args) (n o : Nat) : EReal :=
  max ((∑ i ∈ Finset.range 128, d1 p n i * mat p.f2w i o) + row p.f2b o) 0

def d3 (p : Args) (n o : Nat) : EReal :=
  (∑ i ∈ Finset.range 128, d2 p n i * mat p.f3w i o) + row p.f3b o

/-- The result array [8192, 22]. -/
def net (p : Args) : (⟨2, ![8192, 22]⟩ : Shape).Idx → EReal := fun j => d3 p (j 0).val (j 1).val

end Cert.Spec

/-! ## The operand arrays the kernel's host side builds from the arguments -/

namespace Cert.Spec

open Idealize.ShloMosaic Idealize.ShloMosaic.ValueIdx

/-- The banded first-layer weight [48, 2816]: column q = 256 j + 64 d + c is output height 4 j + d,
    channel c; row R is input height R; the entry is tap R − (4 j + d) when that is one of the five. -/
def band1 (p : Args) (R q : Nat) : EReal :=
  if 4 * (q / 256) + (q % 256) / 64 ≤ R ∧ R < 4 * (q / 256) + (q % 256) / 64 + 5
  then mat p.w1 (R - (4 * (q / 256) + (q % 256) / 64)) (q % 64) else 0

/-- A later layer's tap matrix [512, 256]: row R = 64 r + ci is height r (0..7) of two adjacent
    four-height chunks, input channel ci; column q = 64 d + co is output height d (0..3) of the first
    chunk, output channel co; the entry is tap r − d when that is one of the five. Rows 0..255 are the
    first chunk's matrix, rows 256..511 the second's. -/
def tap (w : (⟨2, ![320, 64]⟩ : Shape).Idx → EReal) (R q : Nat) : EReal :=
  if q / 64 ≤ R / 64 ∧ R / 64 < q / 64 + 5
  then mat w ((R / 64 - q / 64) * 64 + R % 64) (q % 64) else 0

/-- A bias [1, 64] laid four times side by side [1, 256]. -/
def tile4 (b : (⟨2, ![1, 64]⟩ : Shape).Idx → EReal) (q : Nat) : EReal := row b (q % 64)

/-- The first dense weight re-ordered [24576, 128]: row R = 2048 w + 64 h + c (h over 32 heights, the
    last three of them zero rows) is feature (h, w, c). -/
def f1perm (p : Args) (R o : Nat) : EReal :=
  if (R % 2048) / 64 < 29 then mat p.f1w (((R % 2048) / 64) * 768 + (R / 2048) * 64 + R % 64) o else 0

end Cert.Spec

end
-- ==== Proof.KArgs.lean ====
/-
  The fifteen argument arrays of the program, read off a memory on one core, as the arguments of
  the network (Cert.Spec.Args): an f32 buffer at the ideal instance is an extended-real function of
  its multi-index.
-/
import proofs.«156904_g2000200884589374_pallasbulk_247_2_alg».proof.KernelIdeal
import proofs.«156904_g2000200884589374_pallasbulk_247_2_alg».proof.Proof.Spec
import Idealize.ShloMosaic.PureOps.Ideal

noncomputable section

namespace Cert.KernelIdeal.Hand

open Idealize.ShloMosaic Idealize.SL.Sem Cert.KernelIdeal

/-- Core c's argument arrays in the memory m. -/
def args (m : (ℓ : Loc nD τ sig) → Buf (Elt Ideal) ℓ) (c : Dev nD) : Cert.Spec.Args where
  x   := m ((c.tc : Thread nD τ).loc main_arg0)
  w1  := m ((c.tc : Thread nD τ).loc main_arg1)
  b1  := m ((c.tc : Thread nD τ).loc main_arg2)
  w2  := m ((c.tc : Thread nD τ).loc main_arg3)
  b2  := m ((c.tc : Thread nD τ).loc main_arg4)
  w3  := m ((c.tc : Thread nD τ).loc main_arg5)
  b3  := m ((c.tc : Thread nD τ).loc main_arg6)
  w4  := m ((c.tc : Thread nD τ).loc main_arg7)
  b4  := m ((c.tc : Thread nD τ).loc main_arg8)
  f1w := m ((c.tc : Thread nD τ).loc main_arg9)
  f1b := m ((c.tc : Thread nD τ).loc main_arg10)
  f2w := m ((c.tc : Thread nD τ).loc main_arg11)
  f2b := m ((c.tc : Thread nD τ).loc main_arg12)
  f3w := m ((c.tc : Thread nD τ).loc main_arg13)
  f3b := m ((c.tc : Thread nD τ).loc main_arg14)

/-- The statement the run is owed: the result array is the network of the arguments. -/
example (m : (ℓ : Loc nD τ sig) → Buf (Elt Ideal) ℓ) (c : Dev nD) : Prop :=
  m ((c.tc : Thread nD τ).loc main_v90) = Cert.Spec.net (args m c)

end Cert.KernelIdeal.Hand

end
-- ==== Proof.KHostV.lean ====
/-
  The arrays the fused kernel's operands are read from, as the host operations before the call
  leave them: the fold of those operations over the launch memory, and two facts every later file
  uses — the padding value is zero at the extended reals, and an eleven-operand concatenation
  reads each operand at its own reference.
-/
import proofs.«156904_g2000200884589374_pallasbulk_247_2_alg».proof.Proof.Gen.KernelIdeal.Launch
import proofs.«156904_g2000200884589374_pallasbulk_247_2_alg».proof.Proof.KArgs
import Idealize.ShloMosaic.Lib.KernelVsHost
import Idealize.ShloMosaic.Lib.ValueLayout
import Idealize.ShloMosaic.Lib.IdealHost

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

section Generic
variable {F : FTy → Type} [FloatOps F]
variable (m : (ℓ : Loc nD τ sig) → Buf (Elt F) ℓ)

/-- Core c's buffers when the kernel is called: after every host operation before the call. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58]) (fun b => m (c, b)) b

/-- The scalar every pad fills with: the integer zero converted. -/
abbrev zpad : S_.Idx → F .f32 := sitofp .f32 (constantI S_ 32 0#32)

end Generic

/-- At the extended reals the padding scalar is zero. -/
theorem zpad_apply (i : S_.Idx) : (zpad (F := Ideal)) i = 0 := by
  show (((0#32 : BitVec 32).toInt : ℝ) : EReal) = 0
  simp

section Nary
variable {nD : Nat} {τ : Topo} {sig : RefSig} {Val : EltTy → Type}
variable {x0 x1 x2 x3 x4 x5 x6 x7 x8 x9 x10 y : Ref sig .tc}

/-- A concatenation of eleven literal operands: the result with each operand's contents at its own
    reference. -/
theorem nary11_result'
    (f : ((k : Fin 11) → ((![x0, x1, x2, x3, x4, x5, x6, x7, x8, x9, x10] : Fin 11 → Ref sig .tc) k).ty.Contents Val) → y.ty.Contents Val)
    (hxs hy) (G : Valuation τ sig Val) :
    (StableHlo.nary (τ := τ) ![x0, x1, x2, x3, x4, x5, x6, x7, x8, x9, x10] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (Fin.cons (G (Proc.devRef .tc x8))
          (Fin.cons (G (Proc.devRef .tc x9)) (Fin.cons (G (Proc.devRef .tc x10)) (fun i => i.elim0)))))))))))) := by
  rw [StableHlo.nary_result]; congr 1; funext k; fin_cases k <;> rfl

end Nary

end Cert.KernelIdeal.HandHost

end
-- ==== Proof.KHostX.lean ====
/-
  The input operand: the image array [8192, 1, 45, 12] with its unit axis dropped, transposed to
  (width, image, height), and the height axis padded from 45 to 48 with the padding scalar. Read at
  (w, n, R) it is the image n at height R and width w below height 45, and the padding scalar from
  there on — at the extended reals, the zero extension of the input.
-/
import proofs.«156904_g2000200884589374_pallasbulk_247_2_alg».proof.Proof.KHostV

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

/-- The three layout operations applied to the image array a, with padding scalar z. -/
def xTerm {α : Type} (a : S8192x1x45x12.Idx → α) (z : S_.Idx → α) : S12x8192x48.Idx → α :=
  pad S12x8192x48 ![0, 0, 0] ![0, 0, 3] ![0, 0, 0]
    (transpose S12x8192x45 [2, 0, 1] (shapeCast S8192x45x12 a shapeCasts_S8192x1x45x12_S8192x45x12)
      transposes_S8192x45x12_S12x8192x45_2_0_1)
    z pads_S12x8192x45_S12x8192x48_000_000_030 h_S_

/-- Below height 45 the operand holds the image entry. -/
theorem xTerm_inside {α : Type} (a : S8192x1x45x12.Idx → α) (z : S_.Idx → α) (w : Fin 12) (n : Fin 8192) (R : Fin 48)
    (h : R.val < 45) : xTerm a z (ix3 w n R) = a (ix4 n (0 : Fin 1) (⟨R.val, h⟩ : Fin 45) w) := by
  unfold xTerm
  refine (pad_apply_of_inside _ _ _ _ z _ h_S_ (ix3 w n R) (ix3 w n (⟨R.val, h⟩ : Fin 45)) (fun b => ?_)).trans ?_
  · match b with
    | ⟨0, _⟩ => show w.val = 0 + w.val * (0 + 1); omega
    | ⟨1, _⟩ => show n.val = 0 + n.val * (0 + 1); omega
    | ⟨2, _⟩ => show R.val = 0 + R.val * (0 + 1); omega
  refine (transpose_apply _ _ _ (ix3 w n (⟨R.val, h⟩ : Fin 45)) (ix3 n (⟨R.val, h⟩ : Fin 45) w)
    (fun b => match b with | ⟨0, _⟩ => rfl | ⟨1, _⟩ => rfl | ⟨2, _⟩ => rfl)).trans ?_
  refine shapeCast_apply _ _ (ix3 n (⟨R.val, h⟩ : Fin 45) w) (ix4 n (0 : Fin 1) (⟨R.val, h⟩ : Fin 45) w) ?_
  rw [Shape.rowMajor_val_three, Shape.rowMajor_val_four]
  show ((n.val * 1 + 0) * 45 + R.val) * 12 + w.val = (n.val * 45 + R.val) * 12 + w.val
  omega

/-- From height 45 on the operand holds the padding scalar. -/
theorem xTerm_outside {α : Type} (a : S8192x1x45x12.Idx → α) (z : S_.Idx → α) (w : Fin 12) (n : Fin 8192) (R : Fin 48)
    (h : 45 ≤ R.val) : xTerm a z (ix3 w n R) = z (Shape.Idx.first h_S_) := by
  unfold xTerm
  refine pad_apply_of_not_inside _ _ _ _ z _ h_S_ (ix3 w n R) (2 : Fin 3) (fun hin => ?_)
  have h3 : (R.val - 0) / (0 + 1) < 45 := hin.2.2
  omega

section Run
variable {F : FTy → Type} [FloatOps F]
variable (m : (ℓ : Loc nD τ sig) → Buf (Elt F) ℓ)

set_option maxHeartbeats 1000000 in
/-- The input operand as the host operations leave it. -/
theorem V_main_v2_eq (c : Dev nD) :
    (V m c main_v2 : S12x8192x48.Idx → F .f32) = xTerm (m ((c : Thread nD τ).loc main_arg0)) zpad := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

end Run

/-- The input operand at (w, n, R) is the zero-extended input at image n, height R, width w. -/
theorem V_main_v2 (m : (ℓ : Loc nD τ sig) → Buf (Elt Ideal) ℓ) (c : Dev nD) (w : Fin 12) (n : Fin 8192) (R : Fin 48) :
    (V m c main_v2 : S12x8192x48.Idx → EReal) (ix3 w n R) = Cert.Spec.xN (Hand.args m c) n.val R.val w.val := by
  rw [V_main_v2_eq]
  unfold Cert.Spec.xN
  by_cases h : R.val < 45
  · rw [xTerm_inside _ _ w n R h, dif_pos ⟨n.isLt, h, w.isLt⟩]
    rfl
  · rw [xTerm_outside _ _ w n R (by omega), zpad_apply, dif_neg (fun hh => h hh.2.1)]

end Cert.KernelIdeal.HandHost

end
-- ==== Proof.KHostBandLib.lean ====
/-
  The first layer's banded weight. The weight [5, 64] (tap, channel) is padded on the tap axis
  to eight rows with d = 0..3 rows in front; the four padded arrays are laid side by side on a new
  middle axis and flattened to [8, 256], so that entry (r, 64 d + c) is tap r - d of channel c. That
  array is padded to 48 rows with 4 j rows in front for j = 0..10, and the eleven results are laid
  side by side to [48, 2816]: entry (R, 256 j + 64 d + c) is tap R - (4 j + d) of channel c when that
  is one of the five taps, and the padding scalar otherwise.
-/
import proofs.«156904_g2000200884589374_pallasbulk_247_2_alg».proof.Proof.KHostV

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

/-- The eight-row array [8, 256] built from the weight a, with padding scalar z. -/
def rowTerm {α : Type} (a : S5x64.Idx → α) (z : S_.Idx → α) : S8x256.Idx → α :=
  shapeCast S8x256
    (concatenate S8x4x64 1
      [ ⟨S8x1x64, (broadcastInDim S8x1x64 ![0, 2] bcast_S8x64_S8x1x64_0_2 (pad S8x64 ![0, 0] ![3, 0] ![0, 0] a z pads_S5x64_S8x64_030_000 h_S_))⟩,
        ⟨S8x1x64, (broadcastInDim S8x1x64 ![0, 2] bcast_S8x64_S8x1x64_0_2 (pad S8x64 ![1, 0] ![2, 0] ![0, 0] a z pads_S5x64_S8x64_120_000 h_S_))⟩,
        ⟨S8x1x64, (broadcastInDim S8x1x64 ![0, 2] bcast_S8x64_S8x1x64_0_2 (pad S8x64 ![2, 0] ![1, 0] ![0, 0] a z pads_S5x64_S8x64_210_000 h_S_))⟩,
        ⟨S8x1x64, (broadcastInDim S8x1x64 ![0, 2] bcast_S8x64_S8x1x64_0_2 (pad S8x64 ![3, 0] ![0, 0] ![0, 0] a z pads_S5x64_S8x64_300_000 h_S_))⟩ ]
      concatenates_S8x1x64_S8x1x64_S8x1x64_S8x1x64_S8x4x64_d1)
    shapeCasts_S8x4x64_S8x256

/-- The banded matrix [48, 2816] built from the weight a, with padding scalar z. -/
def bandTerm {α : Type} (a : S5x64.Idx → α) (z : S_.Idx → α) : S48x2816.Idx → α :=
  concatenate S48x2816 1
    [ ⟨S48x256, (pad S48x256 ![0, 0] ![40, 0] ![0, 0] (rowTerm a z) z pads_S8x256_S48x256_0400_000 h_S_)⟩,
      ⟨S48x256, (pad S48x256 ![4, 0] ![36, 0] ![0, 0] (rowTerm a z) z pads_S8x256_S48x256_4360_000 h_S_)⟩,
      ⟨S48x256, (pad S48x256 ![8, 0] ![32, 0] ![0, 0] (rowTerm a z) z pads_S8x256_S48x256_8320_000 h_S_)⟩,
      ⟨S48x256, (pad S48x256 ![12, 0] ![28, 0] ![0, 0] (rowTerm a z) z pads_S8x256_S48x256_12280_000 h_S_)⟩,
      ⟨S48x256, (pad S48x256 ![16, 0] ![24, 0] ![0, 0] (rowTerm a z) z pads_S8x256_S48x256_16240_000 h_S_)⟩,
      ⟨S48x256, (pad S48x256 ![20, 0] ![20, 0] ![0, 0] (rowTerm a z) z pads_S8x256_S48x256_20200_000 h_S_)⟩,
      ⟨S48x256, (pad S48x256 ![24, 0] ![16, 0] ![0, 0] (rowTerm a z) z pads_S8x256_S48x256_24160_000 h_S_)⟩,
      ⟨S48x256, (pad S48x256 ![28, 0] ![12, 0] ![0, 0] (rowTerm a z) z pads_S8x256_S48x256_28120_000 h_S_)⟩,
      ⟨S48x256, (pad S48x256 ![32, 0] ![8, 0] ![0, 0] (rowTerm a z) z pads_S8x256_S48x256_3280_000 h_S_)⟩,
      ⟨S48x256, (pad S48x256 ![36, 0] ![4, 0] ![0, 0] (rowTerm a z) z pads_S8x256_S48x256_3640_000 h_S_)⟩,
      ⟨S48x256, (pad S48x256 ![40, 0] ![0, 0] ![0, 0] (rowTerm a z) z pads_S8x256_S48x256_4000_000 h_S_)⟩ ]
    concatenates_S48x256_S48x256_S48x256_S48x256_S48x256_S48x256_S48x256_S48x256_S48x256_S48x256_S48x256_S48x2816_d1

section Pieces
variable {α : Type}

theorem ix2_congr {n0 n1 : Nat} {a a' : Fin n0} {b b' : Fin n1} (ha : a = a') (hb : b = b') : ix2 a b = ix2 a' b' := by
  subst ha; subst hb; rfl

/-- A pad of the tap axis of the weight with lo rows in front, read inside the weight. -/
theorem padW_inside (lo hi : Nat) (P : S5x64.Pads (![lo, 0] : Fin 2 → Nat) ![hi, 0] ![0, 0] S8x64)
    (x : S5x64.Idx → α) (z : S_.Idx → α) (r : Fin 8) (c : Fin 64) (h1 : lo ≤ r.val) (h2 : r.val - lo < 5) :
    pad S8x64 ![lo, 0] ![hi, 0] ![0, 0] x z P h_S_ (ix2 r c) = x (ix2 (⟨r.val - lo, h2⟩ : Fin 5) c) := by
  refine pad_apply_of_inside _ _ _ x z P h_S_ (ix2 r c) (ix2 (⟨r.val - lo, h2⟩ : Fin 5) c) (fun b => ?_)
  match b with
  | ⟨0, _⟩ => show r.val = lo + (r.val - lo) * (0 + 1); omega
  | ⟨1, _⟩ => show c.val = 0 + c.val * (0 + 1); omega

theorem padW_outside (lo hi : Nat) (P : S5x64.Pads (![lo, 0] : Fin 2 → Nat) ![hi, 0] ![0, 0] S8x64)
    (x : S5x64.Idx → α) (z : S_.Idx → α) (r : Fin 8) (c : Fin 64) (h : ¬(lo ≤ r.val ∧ r.val - lo < 5)) :
    pad S8x64 ![lo, 0] ![hi, 0] ![0, 0] x z P h_S_ (ix2 r c) = z (Shape.Idx.first h_S_) := by
  refine pad_apply_of_not_inside _ _ _ x z P h_S_ (ix2 r c) (0 : Fin 2) (fun hin => h ?_)
  have h1 : lo ≤ r.val := hin.1
  have h3 : (r.val - lo) / (0 + 1) < 5 := hin.2.2
  exact ⟨h1, by omega⟩

/-- A pad of the eight-row array to 48 rows with lo rows in front, read inside it. -/
theorem padB_inside (lo hi : Nat) (P : S8x256.Pads (![lo, 0] : Fin 2 → Nat) ![hi, 0] ![0, 0] S48x256)
    (x : S8x256.Idx → α) (z : S_.Idx → α) (R : Fin 48) (q : Fin 256) (h1 : lo ≤ R.val) (h2 : R.val - lo < 8) :
    pad S48x256 ![lo, 0] ![hi, 0] ![0, 0] x z P h_S_ (ix2 R q) = x (ix2 (⟨R.val - lo, h2⟩ : Fin 8) q) := by
  refine pad_apply_of_inside _ _ _ x z P h_S_ (ix2 R q) (ix2 (⟨R.val - lo, h2⟩ : Fin 8) q) (fun b => ?_)
  match b with
  | ⟨0, _⟩ => show R.val = lo + (R.val - lo) * (0 + 1); omega
  | ⟨1, _⟩ => show q.val = 0 + q.val * (0 + 1); omega

theorem padB_outside (lo hi : Nat) (P : S8x256.Pads (![lo, 0] : Fin 2 → Nat) ![hi, 0] ![0, 0] S48x256)
    (x : S8x256.Idx → α) (z : S_.Idx → α) (R : Fin 48) (q : Fin 256) (h : ¬(lo ≤ R.val ∧ R.val - lo < 8)) :
    pad S48x256 ![lo, 0] ![hi, 0] ![0, 0] x z P h_S_ (ix2 R q) = z (Shape.Idx.first h_S_) := by
  refine pad_apply_of_not_inside _ _ _ x z P h_S_ (ix2 R q) (0 : Fin 2) (fun hin => h ?_)
  have h1 : lo ≤ R.val := hin.1
  have h3 : (R.val - lo) / (0 + 1) < 8 := hin.2.2
  exact ⟨h1, by omega⟩

/-- The new unit middle axis: the broadcast read at (r, 0, c). -/
theorem bcast2_apply (y : S8x64.Idx → α) (r : Fin 8) (c : Fin 64) :
    broadcastInDim S8x1x64 ![0, 2] bcast_S8x64_S8x1x64_0_2 y (ix3 r (0 : Fin 1) c) = y (ix2 r c) :=
  broadcastInDim_apply _ _ y (ix3 r (0 : Fin 1) c) (ix2 r c)
    (fun b => match b with | ⟨0, _⟩ => rfl | ⟨1, _⟩ => rfl)

/-- Four arrays side by side on the middle axis, read at (r, d, c): array d at (r, 0, c). -/
theorem catRow_apply (u0 u1 u2 u3 : S8x1x64.Idx → α) (r : Fin 8) (d : Fin 4) (c : Fin 64) :
    concatenate S8x4x64 1 [⟨S8x1x64, u0⟩, ⟨S8x1x64, u1⟩, ⟨S8x1x64, u2⟩, ⟨S8x1x64, u3⟩] concatenates_S8x1x64_S8x1x64_S8x1x64_S8x1x64_S8x4x64_d1 (ix3 r d c)
      = (![u0, u1, u2, u3] : Fin 4 → S8x1x64.Idx → α) d (ix3 r (0 : Fin 1) c) :=
  concatenate_ofFn_unit_apply (t := S8x4x64) (s₁ := S8x1x64) (1 : Fin 3) (![u0, u1, u2, u3] : Fin 4 → S8x1x64.Idx → α)
    concatenates_S8x1x64_S8x1x64_S8x1x64_S8x1x64_S8x4x64_d1 rfl rfl (ix3 r d c) d rfl (ix3 r (0 : Fin 1) c)
    (fun b hb => match b, hb with
      | ⟨0, _⟩, _ => rfl | ⟨1, _⟩, hb => absurd rfl hb | ⟨2, _⟩, _ => rfl)

/-- Eleven arrays [48, 256] side by side, read at (R, q): array q / 256 at (R, q mod 256). -/
theorem catBand_apply (u : Fin 11 → S48x256.Idx → α) (R : Fin 48) (q : Fin 2816) (hj : q.val / 256 < 11) (hq : q.val % 256 < 256) :
    concatenate S48x2816 1 [⟨S48x256, u 0⟩, ⟨S48x256, u 1⟩, ⟨S48x256, u 2⟩, ⟨S48x256, u 3⟩, ⟨S48x256, u 4⟩, ⟨S48x256, u 5⟩,
        ⟨S48x256, u 6⟩, ⟨S48x256, u 7⟩, ⟨S48x256, u 8⟩, ⟨S48x256, u 9⟩, ⟨S48x256, u 10⟩] concatenates_S48x256_S48x256_S48x256_S48x256_S48x256_S48x256_S48x256_S48x256_S48x256_S48x256_S48x256_S48x2816_d1 (ix2 R q)
      = u (⟨q.val / 256, hj⟩ : Fin 11) (ix2 R (⟨q.val % 256, hq⟩ : Fin 256)) :=
  concatenate_ofFn_apply (t := S48x2816) (s₁ := S48x256) (1 : Fin 2) u concatenates_S48x256_S48x256_S48x256_S48x256_S48x256_S48x256_S48x256_S48x256_S48x256_S48x256_S48x256_S48x2816_d1 rfl 256 rfl (ix2 R q) (⟨q.val / 256, hj⟩ : Fin 11) rfl
    (ix2 R (⟨q.val % 256, hq⟩ : Fin 256)) rfl
    (fun b hb => match b, hb with
      | ⟨0, _⟩, _ => rfl | ⟨1, _⟩, hb => absurd rfl hb)

end Pieces

section Term
variable {α : Type}

/-- Piece d of the four at (r, 0, c), when r - d is one of the five taps. -/
theorem rowPiece_inside (x : S5x64.Idx → α) (z : S_.Idx → α) (d : Fin 4) (r : Fin 8) (c : Fin 64)
    (h1 : d.val ≤ r.val) (h2 : r.val - d.val < 5) :
    (![(broadcastInDim S8x1x64 ![0, 2] bcast_S8x64_S8x1x64_0_2 (pad S8x64 ![0, 0] ![3, 0] ![0, 0] x z pads_S5x64_S8x64_030_000 h_S_)),
        (broadcastInDim S8x1x64 ![0, 2] bcast_S8x64_S8x1x64_0_2 (pad S8x64 ![1, 0] ![2, 0] ![0, 0] x z pads_S5x64_S8x64_120_000 h_S_)),
        (broadcastInDim S8x1x64 ![0, 2] bcast_S8x64_S8x1x64_0_2 (pad S8x64 ![2, 0] ![1, 0] ![0, 0] x z pads_S5x64_S8x64_210_000 h_S_)),
        (broadcastInDim S8x1x64 ![0, 2] bcast_S8x64_S8x1x64_0_2 (pad S8x64 ![3, 0] ![0, 0] ![0, 0] x z pads_S5x64_S8x64_300_000 h_S_))] : Fin 4 → S8x1x64.Idx → α) d (ix3 r (0 : Fin 1) c)
      = x (ix2 (⟨r.val - d.val, h2⟩ : Fin 5) c) :=
  match d, h1, h2 with
  | ⟨0, _⟩, h1, h2 => by
    show broadcastInDim S8x1x64 ![0, 2] bcast_S8x64_S8x1x64_0_2 (pad S8x64 ![0, 0] ![3, 0] ![0, 0] x z pads_S5x64_S8x64_030_000 h_S_) (ix3 r (0 : Fin 1) c) = _
    exact (bcast2_apply (pad S8x64 ![0, 0] ![3, 0] ![0, 0] x z pads_S5x64_S8x64_030_000 h_S_) r c).trans (padW_inside 0 3 pads_S5x64_S8x64_030_000 x z r c h1 h2)
  | ⟨1, _⟩, h1, h2 => by
    show broadcastInDim S8x1x64 ![0, 2] bcast_S8x64_S8x1x64_0_2 (pad S8x64 ![1, 0] ![2, 0] ![0, 0] x z pads_S5x64_S8x64_120_000 h_S_) (ix3 r (0 : Fin 1) c) = _
    exact (bcast2_apply (pad S8x64 ![1, 0] ![2, 0] ![0, 0] x z pads_S5x64_S8x64_120_000 h_S_) r c).trans (padW_inside 1 2 pads_S5x64_S8x64_120_000 x z r c h1 h2)
  | ⟨2, _⟩, h1, h2 => by
    show broadcastInDim S8x1x64 ![0, 2] bcast_S8x64_S8x1x64_0_2 (pad S8x64 ![2, 0] ![1, 0] ![0, 0] x z pads_S5x64_S8x64_210_000 h_S_) (ix3 r (0 : Fin 1) c) = _
    exact (bcast2_apply (pad S8x64 ![2, 0] ![1, 0] ![0, 0] x z pads_S5x64_S8x64_210_000 h_S_) r c).trans (padW_inside 2 1 pads_S5x64_S8x64_210_000 x z r c h1 h2)
  | ⟨3, _⟩, h1, h2 => by
    show broadcastInDim S8x1x64 ![0, 2] bcast_S8x64_S8x1x64_0_2 (pad S8x64 ![3, 0] ![0, 0] ![0, 0] x z pads_S5x64_S8x64_300_000 h_S_) (ix3 r (0 : Fin 1) c) = _
    exact (bcast2_apply (pad S8x64 ![3, 0] ![0, 0] ![0, 0] x z pads_S5x64_S8x64_300_000 h_S_) r c).trans (padW_inside 3 0 pads_S5x64_S8x64_300_000 x z r c h1 h2)

/-- Piece d of the four at (r, 0, c), when r - d is not one of the five taps. -/
theorem rowPiece_outside (x : S5x64.Idx → α) (z : S_.Idx → α) (d : Fin 4) (r : Fin 8) (c : Fin 64)
    (h : ¬(d.val ≤ r.val ∧ r.val - d.val < 5)) :
    (![(broadcastInDim S8x1x64 ![0, 2] bcast_S8x64_S8x1x64_0_2 (pad S8x64 ![0, 0] ![3, 0] ![0, 0] x z pads_S5x64_S8x64_030_000 h_S_)),
        (broadcastInDim S8x1x64 ![0, 2] bcast_S8x64_S8x1x64_0_2 (pad S8x64 ![1, 0] ![2, 0] ![0, 0] x z pads_S5x64_S8x64_120_000 h_S_)),
        (broadcastInDim S8x1x64 ![0, 2] bcast_S8x64_S8x1x64_0_2 (pad S8x64 ![2, 0] ![1, 0] ![0, 0] x z pads_S5x64_S8x64_210_000 h_S_)),
        (broadcastInDim S8x1x64 ![0, 2] bcast_S8x64_S8x1x64_0_2 (pad S8x64 ![3, 0] ![0, 0] ![0, 0] x z pads_S5x64_S8x64_300_000 h_S_))] : Fin 4 → S8x1x64.Idx → α) d (ix3 r (0 : Fin 1) c)
      = z (Shape.Idx.first h_S_) :=
  match d, h with
  | ⟨0, _⟩, h => by
    show broadcastInDim S8x1x64 ![0, 2] bcast_S8x64_S8x1x64_0_2 (pad S8x64 ![0, 0] ![3, 0] ![0, 0] x z pads_S5x64_S8x64_030_000 h_S_) (ix3 r (0 : Fin 1) c) = _
    exact (bcast2_apply (pad S8x64 ![0, 0] ![3, 0] ![0, 0] x z pads_S5x64_S8x64_030_000 h_S_) r c).trans (padW_outside 0 3 pads_S5x64_S8x64_030_000 x z r c h)
  | ⟨1, _⟩, h => by
    show broadcastInDim S8x1x64 ![0, 2] bcast_S8x64_S8x1x64_0_2 (pad S8x64 ![1, 0] ![2, 0] ![0, 0] x z pads_S5x64_S8x64_120_000 h_S_) (ix3 r (0 : Fin 1) c) = _
    exact (bcast2_apply (pad S8x64 ![1, 0] ![2, 0] ![0, 0] x z pads_S5x64_S8x64_120_000 h_S_) r c).trans (padW_outside 1 2 pads_S5x64_S8x64_120_000 x z r c h)
  | ⟨2, _⟩, h => by
    show broadcastInDim S8x1x64 ![0, 2] bcast_S8x64_S8x1x64_0_2 (pad S8x64 ![2, 0] ![1, 0] ![0, 0] x z pads_S5x64_S8x64_210_000 h_S_) (ix3 r (0 : Fin 1) c) = _
    exact (bcast2_apply (pad S8x64 ![2, 0] ![1, 0] ![0, 0] x z pads_S5x64_S8x64_210_000 h_S_) r c).trans (padW_outside 2 1 pads_S5x64_S8x64_210_000 x z r c h)
  | ⟨3, _⟩, h => by
    show broadcastInDim S8x1x64 ![0, 2] bcast_S8x64_S8x1x64_0_2 (pad S8x64 ![3, 0] ![0, 0] ![0, 0] x z pads_S5x64_S8x64_300_000 h_S_) (ix3 r (0 : Fin 1) c) = _
    exact (bcast2_apply (pad S8x64 ![3, 0] ![0, 0] ![0, 0] x z pads_S5x64_S8x64_300_000 h_S_) r c).trans (padW_outside 3 0 pads_S5x64_S8x64_300_000 x z r c h)

/-- Entry (r, 64 d + c) of the eight-row array is piece d at (r, 0, c). -/
theorem rowTerm_split (a : S5x64.Idx → α) (z : S_.Idx → α) (r : Fin 8) (q : Fin 256) (hd : q.val / 64 < 4) (hc : q.val % 64 < 64) :
    rowTerm a z (ix2 r q)
      = (![(broadcastInDim S8x1x64 ![0, 2] bcast_S8x64_S8x1x64_0_2 (pad S8x64 ![0, 0] ![3, 0] ![0, 0] a z pads_S5x64_S8x64_030_000 h_S_)),
        (broadcastInDim S8x1x64 ![0, 2] bcast_S8x64_S8x1x64_0_2 (pad S8x64 ![1, 0] ![2, 0] ![0, 0] a z pads_S5x64_S8x64_120_000 h_S_)),
        (broadcastInDim S8x1x64 ![0, 2] bcast_S8x64_S8x1x64_0_2 (pad S8x64 ![2, 0] ![1, 0] ![0, 0] a z pads_S5x64_S8x64_210_000 h_S_)),
        (broadcastInDim S8x1x64 ![0, 2] bcast_S8x64_S8x1x64_0_2 (pad S8x64 ![3, 0] ![0, 0] ![0, 0] a z pads_S5x64_S8x64_300_000 h_S_))] : Fin 4 → S8x1x64.Idx → α)
          (⟨q.val / 64, hd⟩ : Fin 4) (ix3 r (0 : Fin 1) (⟨q.val % 64, hc⟩ : Fin 64)) := by
  unfold rowTerm
  refine (shapeCast_apply _ _ (ix2 r q) (ix3 r (⟨q.val / 64, hd⟩ : Fin 4) (⟨q.val % 64, hc⟩ : Fin 64)) ?_).trans ?_
  · rw [Shape.rowMajor_val_three, Shape.rowMajor_val_two]
    show (r.val * 4 + q.val / 64) * 64 + q.val % 64 = r.val * 256 + q.val
    omega
  exact catRow_apply _ _ _ _ _ _ _

/-- Inside: tap r - d of channel c. -/
theorem rowTerm_inside (a : S5x64.Idx → α) (z : S_.Idx → α) (r : Fin 8) (q : Fin 256)
    (h1 : q.val / 64 ≤ r.val) (h2 : r.val - q.val / 64 < 5) :
    rowTerm a z (ix2 r q) = a (ix2 (⟨r.val - q.val / 64, h2⟩ : Fin 5) (⟨q.val % 64, Nat.mod_lt _ (by decide)⟩ : Fin 64)) := by
  have hd : q.val / 64 < 4 := by have := q.isLt; omega
  have hc : q.val % 64 < 64 := Nat.mod_lt _ (by decide)
  refine (rowTerm_split a z r q hd hc).trans ?_
  exact rowPiece_inside a z (⟨q.val / 64, hd⟩ : Fin 4) r (⟨q.val % 64, hc⟩ : Fin 64) h1 h2

/-- Outside: the padding scalar. -/
theorem rowTerm_outside (a : S5x64.Idx → α) (z : S_.Idx → α) (r : Fin 8) (q : Fin 256)
    (h : ¬(q.val / 64 ≤ r.val ∧ r.val - q.val / 64 < 5)) :
    rowTerm a z (ix2 r q) = z (Shape.Idx.first h_S_) := by
  have hd : q.val / 64 < 4 := by have := q.isLt; omega
  have hc : q.val % 64 < 64 := Nat.mod_lt _ (by decide)
  refine (rowTerm_split a z r q hd hc).trans ?_
  exact rowPiece_outside a z (⟨q.val / 64, hd⟩ : Fin 4) r (⟨q.val % 64, hc⟩ : Fin 64) h

/-- Piece j of the eleven at (R, q), when R - 4 j is one of the eight rows. -/
theorem bandPiece_inside (x : S8x256.Idx → α) (z : S_.Idx → α) (j : Fin 11) (R : Fin 48) (q : Fin 256)
    (h1 : 4 * j.val ≤ R.val) (h2 : R.val - 4 * j.val < 8) :
    (![(pad S48x256 ![0, 0] ![40, 0] ![0, 0] x z pads_S8x256_S48x256_0400_000 h_S_),
        (pad S48x256 ![4, 0] ![36, 0] ![0, 0] x z pads_S8x256_S48x256_4360_000 h_S_),
        (pad S48x256 ![8, 0] ![32, 0] ![0, 0] x z pads_S8x256_S48x256_8320_000 h_S_),
        (pad S48x256 ![12, 0] ![28, 0] ![0, 0] x z pads_S8x256_S48x256_12280_000 h_S_),
        (pad S48x256 ![16, 0] ![24, 0] ![0, 0] x z pads_S8x256_S48x256_16240_000 h_S_),
        (pad S48x256 ![20, 0] ![20, 0] ![0, 0] x z pads_S8x256_S48x256_20200_000 h_S_),
        (pad S48x256 ![24, 0] ![16, 0] ![0, 0] x z pads_S8x256_S48x256_24160_000 h_S_),
        (pad S48x256 ![28, 0] ![12, 0] ![0, 0] x z pads_S8x256_S48x256_28120_000 h_S_),
        (pad S48x256 ![32, 0] ![8, 0] ![0, 0] x z pads_S8x256_S48x256_3280_000 h_S_),
        (pad S48x256 ![36, 0] ![4, 0] ![0, 0] x z pads_S8x256_S48x256_3640_000 h_S_),
        (pad S48x256 ![40, 0] ![0, 0] ![0, 0] x z pads_S8x256_S48x256_4000_000 h_S_)] : Fin 11 → S48x256.Idx → α) j (ix2 R q)
      = x (ix2 (⟨R.val - 4 * j.val, h2⟩ : Fin 8) q) :=
  match j, h1, h2 with
  | ⟨0, _⟩, h1, h2 => by
    show (pad S48x256 ![0, 0] ![40, 0] ![0, 0] x z pads_S8x256_S48x256_0400_000 h_S_) (ix2 R q) = _
    exact padB_inside 0 40 pads_S8x256_S48x256_0400_000 x z R q h1 h2
  | ⟨1, _⟩, h1, h2 => by
    show (pad S48x256 ![4, 0] ![36, 0] ![0, 0] x z pads_S8x256_S48x256_4360_000 h_S_) (ix2 R q) = _
    exact padB_inside 4 36 pads_S8x256_S48x256_4360_000 x z R q h1 h2
  | ⟨2, _⟩, h1, h2 => by
    show (pad S48x256 ![8, 0] ![32, 0] ![0, 0] x z pads_S8x256_S48x256_8320_000 h_S_) (ix2 R q) = _
    exact padB_inside 8 32 pads_S8x256_S48x256_8320_000 x z R q h1 h2
  | ⟨3, _⟩, h1, h2 => by
    show (pad S48x256 ![12, 0] ![28, 0] ![0, 0] x z pads_S8x256_S48x256_12280_000 h_S_) (ix2 R q) = _
    exact padB_inside 12 28 pads_S8x256_S48x256_12280_000 x z R q h1 h2
  | ⟨4, _⟩, h1, h2 => by
    show (pad S48x256 ![16, 0] ![24, 0] ![0, 0] x z pads_S8x256_S48x256_16240_000 h_S_) (ix2 R q) = _
    exact padB_inside 16 24 pads_S8x256_S48x256_16240_000 x z R q h1 h2
  | ⟨5, _⟩, h1, h2 => by
    show (pad S48x256 ![20, 0] ![20, 0] ![0, 0] x z pads_S8x256_S48x256_20200_000 h_S_) (ix2 R q) = _
    exact padB_inside 20 20 pads_S8x256_S48x256_20200_000 x z R q h1 h2
  | ⟨6, _⟩, h1, h2 => by
    show (pad S48x256 ![24, 0] ![16, 0] ![0, 0] x z pads_S8x256_S48x256_24160_000 h_S_) (ix2 R q) = _
    exact padB_inside 24 16 pads_S8x256_S48x256_24160_000 x z R q h1 h2
  | ⟨7, _⟩, h1, h2 => by
    show (pad S48x256 ![28, 0] ![12, 0] ![0, 0] x z pads_S8x256_S48x256_28120_000 h_S_) (ix2 R q) = _
    exact padB_inside 28 12 pads_S8x256_S48x256_28120_000 x z R q h1 h2
  | ⟨8, _⟩, h1, h2 => by
    show (pad S48x256 ![32, 0] ![8, 0] ![0, 0] x z pads_S8x256_S48x256_3280_000 h_S_) (ix2 R q) = _
    exact padB_inside 32 8 pads_S8x256_S48x256_3280_000 x z R q h1 h2
  | ⟨9, _⟩, h1, h2 => by
    show (pad S48x256 ![36, 0] ![4, 0] ![0, 0] x z pads_S8x256_S48x256_3640_000 h_S_) (ix2 R q) = _
    exact padB_inside 36 4 pads_S8x256_S48x256_3640_000 x z R q h1 h2
  | ⟨10, _⟩, h1, h2 => by
    show (pad S48x256 ![40, 0] ![0, 0] ![0, 0] x z pads_S8x256_S48x256_4000_000 h_S_) (ix2 R q) = _
    exact padB_inside 40 0 pads_S8x256_S48x256_4000_000 x z R q h1 h2

/-- Piece j of the eleven at (R, q), when R - 4 j is not one of the eight rows. -/
theorem bandPiece_outside (x : S8x256.Idx → α) (z : S_.Idx → α) (j : Fin 11) (R : Fin 48) (q : Fin 256)
    (h : ¬(4 * j.val ≤ R.val ∧ R.val - 4 * j.val < 8)) :
    (![(pad S48x256 ![0, 0] ![40, 0] ![0, 0] x z pads_S8x256_S48x256_0400_000 h_S_),
        (pad S48x256 ![4, 0] ![36, 0] ![0, 0] x z pads_S8x256_S48x256_4360_000 h_S_),
        (pad S48x256 ![8, 0] ![32, 0] ![0, 0] x z pads_S8x256_S48x256_8320_000 h_S_),
        (pad S48x256 ![12, 0] ![28, 0] ![0, 0] x z pads_S8x256_S48x256_12280_000 h_S_),
        (pad S48x256 ![16, 0] ![24, 0] ![0, 0] x z pads_S8x256_S48x256_16240_000 h_S_),
        (pad S48x256 ![20, 0] ![20, 0] ![0, 0] x z pads_S8x256_S48x256_20200_000 h_S_),
        (pad S48x256 ![24, 0] ![16, 0] ![0, 0] x z pads_S8x256_S48x256_24160_000 h_S_),
        (pad S48x256 ![28, 0] ![12, 0] ![0, 0] x z pads_S8x256_S48x256_28120_000 h_S_),
        (pad S48x256 ![32, 0] ![8, 0] ![0, 0] x z pads_S8x256_S48x256_3280_000 h_S_),
        (pad S48x256 ![36, 0] ![4, 0] ![0, 0] x z pads_S8x256_S48x256_3640_000 h_S_),
        (pad S48x256 ![40, 0] ![0, 0] ![0, 0] x z pads_S8x256_S48x256_4000_000 h_S_)] : Fin 11 → S48x256.Idx → α) j (ix2 R q)
      = z (Shape.Idx.first h_S_) :=
  match j, h with
  | ⟨0, _⟩, h => by
    show (pad S48x256 ![0, 0] ![40, 0] ![0, 0] x z pads_S8x256_S48x256_0400_000 h_S_) (ix2 R q) = _
    exact padB_outside 0 40 pads_S8x256_S48x256_0400_000 x z R q h
  | ⟨1, _⟩, h => by
    show (pad S48x256 ![4, 0] ![36, 0] ![0, 0] x z pads_S8x256_S48x256_4360_000 h_S_) (ix2 R q) = _
    exact padB_outside 4 36 pads_S8x256_S48x256_4360_000 x z R q h
  | ⟨2, _⟩, h => by
    show (pad S48x256 ![8, 0] ![32, 0] ![0, 0] x z pads_S8x256_S48x256_8320_000 h_S_) (ix2 R q) = _
    exact padB_outside 8 32 pads_S8x256_S48x256_8320_000 x z R q h
  | ⟨3, _⟩, h => by
    show (pad S48x256 ![12, 0] ![28, 0] ![0, 0] x z pads_S8x256_S48x256_12280_000 h_S_) (ix2 R q) = _
    exact padB_outside 12 28 pads_S8x256_S48x256_12280_000 x z R q h
  | ⟨4, _⟩, h => by
    show (pad S48x256 ![16, 0] ![24, 0] ![0, 0] x z pads_S8x256_S48x256_16240_000 h_S_) (ix2 R q) = _
    exact padB_outside 16 24 pads_S8x256_S48x256_16240_000 x z R q h
  | ⟨5, _⟩, h => by
    show (pad S48x256 ![20, 0] ![20, 0] ![0, 0] x z pads_S8x256_S48x256_20200_000 h_S_) (ix2 R q) = _
    exact padB_outside 20 20 pads_S8x256_S48x256_20200_000 x z R q h
  | ⟨6, _⟩, h => by
    show (pad S48x256 ![24, 0] ![16, 0] ![0, 0] x z pads_S8x256_S48x256_24160_000 h_S_) (ix2 R q) = _
    exact padB_outside 24 16 pads_S8x256_S48x256_24160_000 x z R q h
  | ⟨7, _⟩, h => by
    show (pad S48x256 ![28, 0] ![12, 0] ![0, 0] x z pads_S8x256_S48x256_28120_000 h_S_) (ix2 R q) = _
    exact padB_outside 28 12 pads_S8x256_S48x256_28120_000 x z R q h
  | ⟨8, _⟩, h => by
    show (pad S48x256 ![32, 0] ![8, 0] ![0, 0] x z pads_S8x256_S48x256_3280_000 h_S_) (ix2 R q) = _
    exact padB_outside 32 8 pads_S8x256_S48x256_3280_000 x z R q h
  | ⟨9, _⟩, h => by
    show (pad S48x256 ![36, 0] ![4, 0] ![0, 0] x z pads_S8x256_S48x256_3640_000 h_S_) (ix2 R q) = _
    exact padB_outside 36 4 pads_S8x256_S48x256_3640_000 x z R q h
  | ⟨10, _⟩, h => by
    show (pad S48x256 ![40, 0] ![0, 0] ![0, 0] x z pads_S8x256_S48x256_4000_000 h_S_) (ix2 R q) = _
    exact padB_outside 40 0 pads_S8x256_S48x256_4000_000 x z R q h

/-- Entry (R, 256 j + q') of the banded matrix is piece j at (R, q'). -/
theorem bandTerm_split (a : S5x64.Idx → α) (z : S_.Idx → α) (R : Fin 48) (q : Fin 2816) (hj : q.val / 256 < 11) (hq : q.val % 256 < 256) :
    bandTerm a z (ix2 R q)
      = (![(pad S48x256 ![0, 0] ![40, 0] ![0, 0] (rowTerm a z) z pads_S8x256_S48x256_0400_000 h_S_),
        (pad S48x256 ![4, 0] ![36, 0] ![0, 0] (rowTerm a z) z pads_S8x256_S48x256_4360_000 h_S_),
        (pad S48x256 ![8, 0] ![32, 0] ![0, 0] (rowTerm a z) z pads_S8x256_S48x256_8320_000 h_S_),
        (pad S48x256 ![12, 0] ![28, 0] ![0, 0] (rowTerm a z) z pads_S8x256_S48x256_12280_000 h_S_),
        (pad S48x256 ![16, 0] ![24, 0] ![0, 0] (rowTerm a z) z pads_S8x256_S48x256_16240_000 h_S_),
        (pad S48x256 ![20, 0] ![20, 0] ![0, 0] (rowTerm a z) z pads_S8x256_S48x256_20200_000 h_S_),
        (pad S48x256 ![24, 0] ![16, 0] ![0, 0] (rowTerm a z) z pads_S8x256_S48x256_24160_000 h_S_),
        (pad S48x256 ![28, 0] ![12, 0] ![0, 0] (rowTerm a z) z pads_S8x256_S48x256_28120_000 h_S_),
        (pad S48x256 ![32, 0] ![8, 0] ![0, 0] (rowTerm a z) z pads_S8x256_S48x256_3280_000 h_S_),
        (pad S48x256 ![36, 0] ![4, 0] ![0, 0] (rowTerm a z) z pads_S8x256_S48x256_3640_000 h_S_),
        (pad S48x256 ![40, 0] ![0, 0] ![0, 0] (rowTerm a z) z pads_S8x256_S48x256_4000_000 h_S_)] : Fin 11 → S48x256.Idx → α)
          (⟨q.val / 256, hj⟩ : Fin 11) (ix2 R (⟨q.val % 256, hq⟩ : Fin 256)) := by
  unfold bandTerm
  exact catBand_apply (![(pad S48x256 ![0, 0] ![40, 0] ![0, 0] (rowTerm a z) z pads_S8x256_S48x256_0400_000 h_S_),
        (pad S48x256 ![4, 0] ![36, 0] ![0, 0] (rowTerm a z) z pads_S8x256_S48x256_4360_000 h_S_),
        (pad S48x256 ![8, 0] ![32, 0] ![0, 0] (rowTerm a z) z pads_S8x256_S48x256_8320_000 h_S_),
        (pad S48x256 ![12, 0] ![28, 0] ![0, 0] (rowTerm a z) z pads_S8x256_S48x256_12280_000 h_S_),
        (pad S48x256 ![16, 0] ![24, 0] ![0, 0] (rowTerm a z) z pads_S8x256_S48x256_16240_000 h_S_),
        (pad S48x256 ![20, 0] ![20, 0] ![0, 0] (rowTerm a z) z pads_S8x256_S48x256_20200_000 h_S_),
        (pad S48x256 ![24, 0] ![16, 0] ![0, 0] (rowTerm a z) z pads_S8x256_S48x256_24160_000 h_S_),
        (pad S48x256 ![28, 0] ![12, 0] ![0, 0] (rowTerm a z) z pads_S8x256_S48x256_28120_000 h_S_),
        (pad S48x256 ![32, 0] ![8, 0] ![0, 0] (rowTerm a z) z pads_S8x256_S48x256_3280_000 h_S_),
        (pad S48x256 ![36, 0] ![4, 0] ![0, 0] (rowTerm a z) z pads_S8x256_S48x256_3640_000 h_S_),
        (pad S48x256 ![40, 0] ![0, 0] ![0, 0] (rowTerm a z) z pads_S8x256_S48x256_4000_000 h_S_)] : Fin 11 → S48x256.Idx → α) R q hj hq

/-- Inside the band: tap R - (4 j + d) of channel c. -/
theorem bandTerm_inside (a : S5x64.Idx → α) (z : S_.Idx → α) (R : Fin 48) (q : Fin 2816)
    (h1 : 4 * (q.val / 256) + q.val % 256 / 64 ≤ R.val) (h2 : R.val < 4 * (q.val / 256) + q.val % 256 / 64 + 5) :
    bandTerm a z (ix2 R q)
      = a (ix2 (⟨R.val - (4 * (q.val / 256) + q.val % 256 / 64), by omega⟩ : Fin 5)
          (⟨q.val % 64, Nat.mod_lt _ (by decide)⟩ : Fin 64)) := by
  have hj : q.val / 256 < 11 := by have := q.isLt; omega
  have hq : q.val % 256 < 256 := Nat.mod_lt _ (by decide)
  have hd : q.val % 256 / 64 < 4 := by omega
  have g1 : 4 * (q.val / 256) ≤ R.val := by omega
  have g2 : R.val - 4 * (q.val / 256) < 8 := by omega
  refine (bandTerm_split a z R q hj hq).trans ?_
  refine (bandPiece_inside (rowTerm a z) z (⟨q.val / 256, hj⟩ : Fin 11) R (⟨q.val % 256, hq⟩ : Fin 256) g1 g2).trans ?_
  refine (rowTerm_inside a z (⟨R.val - 4 * (q.val / 256), g2⟩ : Fin 8) (⟨q.val % 256, hq⟩ : Fin 256)
    (by show q.val % 256 / 64 ≤ R.val - 4 * (q.val / 256); omega)
    (by show R.val - 4 * (q.val / 256) - q.val % 256 / 64 < 5; omega)).trans ?_
  refine congrArg a (ix2_congr (Fin.ext ?_) (Fin.ext ?_))
  · show R.val - 4 * (q.val / 256) - q.val % 256 / 64 = R.val - (4 * (q.val / 256) + q.val % 256 / 64)
    omega
  · show q.val % 256 % 64 = q.val % 64
    omega

/-- Outside the band: the padding scalar. -/
theorem bandTerm_outside (a : S5x64.Idx → α) (z : S_.Idx → α) (R : Fin 48) (q : Fin 2816)
    (h : ¬(4 * (q.val / 256) + q.val % 256 / 64 ≤ R.val ∧ R.val < 4 * (q.val / 256) + q.val % 256 / 64 + 5)) :
    bandTerm a z (ix2 R q) = z (Shape.Idx.first h_S_) := by
  have hj : q.val / 256 < 11 := by have := q.isLt; omega
  have hq : q.val % 256 < 256 := Nat.mod_lt _ (by decide)
  have hd : q.val % 256 / 64 < 4 := by omega
  refine (bandTerm_split a z R q hj hq).trans ?_
  by_cases g : 4 * (q.val / 256) ≤ R.val ∧ R.val - 4 * (q.val / 256) < 8
  · refine (bandPiece_inside (rowTerm a z) z (⟨q.val / 256, hj⟩ : Fin 11) R (⟨q.val % 256, hq⟩ : Fin 256) g.1 g.2).trans ?_
    refine rowTerm_outside a z (⟨R.val - 4 * (q.val / 256), g.2⟩ : Fin 8) (⟨q.val % 256, hq⟩ : Fin 256) (fun hh => h ?_)
    have e1 : q.val % 256 / 64 ≤ R.val - 4 * (q.val / 256) := hh.1
    have e2 : R.val - 4 * (q.val / 256) - q.val % 256 / 64 < 5 := hh.2
    exact ⟨by omega, by omega⟩
  · exact bandPiece_outside (rowTerm a z) z (⟨q.val / 256, hj⟩ : Fin 11) R (⟨q.val % 256, hq⟩ : Fin 256) g

end Term

/-- At the extended reals the matrix is the specification's banded first-layer weight. -/
theorem bandTerm_eq_band1 (p : Cert.Spec.Args) (R : Fin 48) (q : Fin 2816) :
    bandTerm p.w1 (zpad (F := Ideal)) (ix2 R q) = Cert.Spec.band1 p R.val q.val := by
  unfold Cert.Spec.band1
  by_cases h : 4 * (q.val / 256) + q.val % 256 / 64 ≤ R.val ∧ R.val < 4 * (q.val / 256) + q.val % 256 / 64 + 5
  · rw [if_pos h, bandTerm_inside p.w1 _ R q h.1 h.2]
    unfold Cert.Spec.mat
    rw [dif_pos ⟨by omega, Nat.mod_lt _ (by decide)⟩]
  · rw [if_neg h, bandTerm_outside p.w1 _ R q h, zpad_apply]

end Cert.KernelIdeal.HandHost

end
-- ==== Proof.KHostBand.lean ====
/-
  The first layer's banded weight operand, as the host operations leave it: the banded matrix of
  the first weight, after the change of float format.
-/
import proofs.«156904_g2000200884589374_pallasbulk_247_2_alg».proof.Proof.KHostBandLib

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

section Run
variable {F : FTy → Type} [FloatOps F]
variable (m : (ℓ : Loc nD τ sig) → Buf (Elt F) ℓ)

set_option maxHeartbeats 2000000 in
theorem V_main_v25_eq (c : Dev nD) :
    (V m c main_v25 : S48x2816.Idx → F .bf16)
      = truncf .bf16 (bandTerm (m ((c : Thread nD τ).loc main_arg1)) zpad) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  simp (disch := decide) only [StableHlo.after_cons, StableHlo.after_nil,
    StableHlo.nullary_result', StableHlo.unary_result', StableHlo.binary_result', StableHlo.reshape_result',
    StableHlo.nary4_result', nary11_result',
    StableHlo.nullary_result_ne', StableHlo.unary_result_ne', StableHlo.binary_result_ne', StableHlo.reshape_result_ne',
    StableHlo.nary_result_ne']
  rfl

end Run

/-- The banded operand at (R, q) is the specification's banded first-layer weight. -/
theorem V_main_v25 (m : (ℓ : Loc nD τ sig) → Buf (Elt Ideal) ℓ) (c : Dev nD) (R : Fin 48) (q : Fin 2816) :
    (V m c main_v25 : S48x2816.Idx → EReal) (ix2 R q) = Cert.Spec.band1 (Hand.args m c) R.val q.val := by
  rw [V_main_v25_eq, truncf_apply]
  exact bandTerm_eq_band1 (Hand.args m c) R q

end Cert.KernelIdeal.HandHost

end
-- ==== Proof.KHostBias.lean ====
/-
  The bias operands: a bias row [1, 64] viewed as [1, 1, 1, 64], repeated four times along the
  third axis, and flattened to [1, 256]. Column q of the result is entry q mod 64 of the bias.
-/
import proofs.«156904_g2000200884589374_pallasbulk_247_2_alg».proof.Proof.KHostV

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

/-- The three layout operations applied to a bias row. -/
def biasTerm {α : Type} (a : S1x64.Idx → α) : S1x256.Idx → α :=
  shapeCast S1x256
    (broadcastInDim S1x1x4x64 ![0, 1, 2, 3] bcast_S1x1x1x64_S1x1x4x64_0_1_2_3
      (shapeCast S1x1x1x64 a shapeCasts_S1x64_S1x1x1x64))
    shapeCasts_S1x1x4x64_S1x256

/-- Column q of the tiled bias is entry q mod 64 of the row. -/
theorem biasTerm_apply {α : Type} (a : S1x64.Idx → α) (q : Fin 256) :
    biasTerm a (ix2 (0 : Fin 1) q) = a (ix2 (0 : Fin 1) (⟨q.val % 64, Nat.mod_lt _ (by decide)⟩ : Fin 64)) := by
  unfold biasTerm
  have hd : q.val / 64 < 4 := by have := q.isLt; omega
  have hc : q.val % 64 < 64 := Nat.mod_lt _ (by decide)
  refine (shapeCast_apply _ _ (ix2 (0 : Fin 1) q)
    (ix4 (0 : Fin 1) (0 : Fin 1) (⟨q.val / 64, hd⟩ : Fin 4) (⟨q.val % 64, hc⟩ : Fin 64)) ?_).trans ?_
  · rw [Shape.rowMajor_val_four, Shape.rowMajor_val_two]
    show ((0 * 1 + 0) * 4 + q.val / 64) * 64 + q.val % 64 = 0 * 256 + q.val
    omega
  refine (broadcastInDim_apply _ _ _ (ix4 (0 : Fin 1) (0 : Fin 1) (⟨q.val / 64, hd⟩ : Fin 4) (⟨q.val % 64, hc⟩ : Fin 64))
    (ix4 (0 : Fin 1) (0 : Fin 1) (0 : Fin 1) (⟨q.val % 64, hc⟩ : Fin 64))
    (fun b => match b with | ⟨0, _⟩ => rfl | ⟨1, _⟩ => rfl | ⟨2, _⟩ => rfl | ⟨3, _⟩ => rfl)).trans ?_
  refine shapeCast_apply _ _ _ (ix2 (0 : Fin 1) (⟨q.val % 64, hc⟩ : Fin 64)) ?_
  rw [Shape.rowMajor_val_four, Shape.rowMajor_val_two]
  show 0 * 64 + q.val % 64 = ((0 * 1 + 0) * 1 + 0) * 64 + q.val % 64
  omega

section Run
variable {F : FTy → Type} [FloatOps F]
variable (m : (ℓ : Loc nD τ sig) → Buf (Elt F) ℓ)

set_option maxHeartbeats 1000000 in
theorem V_main_v71_eq (c : Dev nD) :
    (V m c main_v71 : S1x256.Idx → F .f32) = biasTerm (m ((c : Thread nD τ).loc main_arg2)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

set_option maxHeartbeats 1000000 in
theorem V_main_v76_eq (c : Dev nD) :
    (V m c main_v76 : S1x256.Idx → F .f32) = biasTerm (m ((c : Thread nD τ).loc main_arg4)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

set_option maxHeartbeats 1000000 in
theorem V_main_v81_eq (c : Dev nD) :
    (V m c main_v81 : S1x256.Idx → F .f32) = biasTerm (m ((c : Thread nD τ).loc main_arg6)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

set_option maxHeartbeats 1000000 in
theorem V_main_v86_eq (c : Dev nD) :
    (V m c main_v86 : S1x256.Idx → F .f32) = biasTerm (m ((c : Thread nD τ).loc main_arg8)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

end Run

/-- Bias operand b1: column q holds entry q mod 64. -/
theorem V_main_v71 (m : (ℓ : Loc nD τ sig) → Buf (Elt Ideal) ℓ) (c : Dev nD) (q : Fin 256) :
    (V m c main_v71 : S1x256.Idx → EReal) (ix2 (0 : Fin 1) q) = Cert.Spec.tile4 (Hand.args m c).b1 q.val := by
  rw [V_main_v71_eq, biasTerm_apply]
  unfold Cert.Spec.tile4 Cert.Spec.row
  rw [dif_pos (Nat.mod_lt _ (by decide))]
  rfl

/-- Bias operand b2: column q holds entry q mod 64. -/
theorem V_main_v76 (m : (ℓ : Loc nD τ sig) → Buf (Elt Ideal) ℓ) (c : Dev nD) (q : Fin 256) :
    (V m c main_v76 : S1x256.Idx → EReal) (ix2 (0 : Fin 1) q) = Cert.Spec.tile4 (Hand.args m c).b2 q.val := by
  rw [V_main_v76_eq, biasTerm_apply]
  unfold Cert.Spec.tile4 Cert.Spec.row
  rw [dif_pos (Nat.mod_lt _ (by decide))]
  rfl

/-- Bias operand b3: column q holds entry q mod 64. -/
theorem V_main_v81 (m : (ℓ : Loc nD τ sig) → Buf (Elt Ideal) ℓ) (c : Dev nD) (q : Fin 256) :
    (V m c main_v81 : S1x256.Idx → EReal) (ix2 (0 : Fin 1) q) = Cert.Spec.tile4 (Hand.args m c).b3 q.val := by
  rw [V_main_v81_eq, biasTerm_apply]
  unfold Cert.Spec.tile4 Cert.Spec.row
  rw [dif_pos (Nat.mod_lt _ (by decide))]
  rfl

/-- Bias operand b4: column q holds entry q mod 64. -/
theorem V_main_v86 (m : (ℓ : Loc nD τ sig) → Buf (Elt Ideal) ℓ) (c : Dev nD) (q : Fin 256) :
    (V m c main_v86 : S1x256.Idx → EReal) (ix2 (0 : Fin 1) q) = Cert.Spec.tile4 (Hand.args m c).b4 q.val := by
  rw [V_main_v86_eq, biasTerm_apply]
  unfold Cert.Spec.tile4 Cert.Spec.row
  rw [dif_pos (Nat.mod_lt _ (by decide))]
  rfl

end Cert.KernelIdeal.HandHost

end
-- ==== Proof.KHostTapLib.lean ====
/-
  A later layer's tap matrix. The weight [320, 64], row 64 k + ci tap k and input channel ci, is
  viewed as [5, 64, 64]; for each output height d = 0..3 of a four-height chunk it is padded on
  the tap axis to eight rows with d rows in front (row r then holds tap r - d); the four padded
  arrays are laid side by side on a new third axis and the whole flattened to [512, 256]. Entry
  (64 r + ci, 64 d + co) is tap r - d of (ci, co) when that is one of the five taps, and the
  padding scalar otherwise.
-/
import proofs.«156904_g2000200884589374_pallasbulk_247_2_alg».proof.Proof.KHostV

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

/-- The operations applied to a weight a, with padding scalar z. -/
def tapTerm {α : Type} (a : S320x64.Idx → α) (z : S_.Idx → α) : S512x256.Idx → α :=
  shapeCast S512x256
    (concatenate S8x64x4x64 2
      [ ⟨S8x64x1x64, broadcastInDim S8x64x1x64 ![0, 1, 3] bcast_S8x64x64_S8x64x1x64_0_1_3
          (pad S8x64x64 ![0, 0, 0] ![3, 0, 0] ![0, 0, 0] (shapeCast S5x64x64 a shapeCasts_S320x64_S5x64x64) z pads_S5x64x64_S8x64x64_030_000_000 h_S_)⟩,
        ⟨S8x64x1x64, broadcastInDim S8x64x1x64 ![0, 1, 3] bcast_S8x64x64_S8x64x1x64_0_1_3
          (pad S8x64x64 ![1, 0, 0] ![2, 0, 0] ![0, 0, 0] (shapeCast S5x64x64 a shapeCasts_S320x64_S5x64x64) z pads_S5x64x64_S8x64x64_120_000_000 h_S_)⟩,
        ⟨S8x64x1x64, broadcastInDim S8x64x1x64 ![0, 1, 3] bcast_S8x64x64_S8x64x1x64_0_1_3
          (pad S8x64x64 ![2, 0, 0] ![1, 0, 0] ![0, 0, 0] (shapeCast S5x64x64 a shapeCasts_S320x64_S5x64x64) z pads_S5x64x64_S8x64x64_210_000_000 h_S_)⟩,
        ⟨S8x64x1x64, broadcastInDim S8x64x1x64 ![0, 1, 3] bcast_S8x64x64_S8x64x1x64_0_1_3
          (pad S8x64x64 ![3, 0, 0] ![0, 0, 0] ![0, 0, 0] (shapeCast S5x64x64 a shapeCasts_S320x64_S5x64x64) z pads_S5x64x64_S8x64x64_300_000_000 h_S_)⟩ ]
      concatenates_S8x64x1x64_S8x64x1x64_S8x64x1x64_S8x64x1x64_S8x64x4x64_d2)
    shapeCasts_S8x64x4x64_S512x256

section Pieces
variable {α : Type}

/-- A pad of the tap axis with lo rows in front, read inside the weight. -/
theorem padRows_inside (lo hi : Nat) (P : S5x64x64.Pads (![lo, 0, 0] : Fin 3 → Nat) ![hi, 0, 0] ![0, 0, 0] S8x64x64)
    (x : S5x64x64.Idx → α) (z : S_.Idx → α) (r : Fin 8) (ci co : Fin 64) (h1 : lo ≤ r.val) (h2 : r.val - lo < 5) :
    pad S8x64x64 ![lo, 0, 0] ![hi, 0, 0] ![0, 0, 0] x z P h_S_ (ix3 r ci co) = x (ix3 (⟨r.val - lo, h2⟩ : Fin 5) ci co) := by
  refine pad_apply_of_inside _ _ _ x z P h_S_ (ix3 r ci co) (ix3 (⟨r.val - lo, h2⟩ : Fin 5) ci co) (fun b => ?_)
  match b with
  | ⟨0, _⟩ => show r.val = lo + (r.val - lo) * (0 + 1); omega
  | ⟨1, _⟩ => show ci.val = 0 + ci.val * (0 + 1); omega
  | ⟨2, _⟩ => show co.val = 0 + co.val * (0 + 1); omega

/-- The same pad read in the rows in front of or behind the weight. -/
theorem padRows_outside (lo hi : Nat) (P : S5x64x64.Pads (![lo, 0, 0] : Fin 3 → Nat) ![hi, 0, 0] ![0, 0, 0] S8x64x64)
    (x : S5x64x64.Idx → α) (z : S_.Idx → α) (r : Fin 8) (ci co : Fin 64) (h : ¬(lo ≤ r.val ∧ r.val - lo < 5)) :
    pad S8x64x64 ![lo, 0, 0] ![hi, 0, 0] ![0, 0, 0] x z P h_S_ (ix3 r ci co) = z (Shape.Idx.first h_S_) := by
  refine pad_apply_of_not_inside _ _ _ x z P h_S_ (ix3 r ci co) (0 : Fin 3) (fun hin => h ?_)
  have h1 : lo ≤ r.val := hin.1
  have h3 : (r.val - lo) / (0 + 1) < 5 := hin.2.2
  exact ⟨h1, by omega⟩

/-- The new unit axis: the broadcast read at (r, ci, 0, co). -/
theorem bcast3_apply (y : S8x64x64.Idx → α) (r : Fin 8) (ci co : Fin 64) :
    broadcastInDim S8x64x1x64 ![0, 1, 3] bcast_S8x64x64_S8x64x1x64_0_1_3 y (ix4 r ci (0 : Fin 1) co) = y (ix3 r ci co) :=
  broadcastInDim_apply _ _ y (ix4 r ci (0 : Fin 1) co) (ix3 r ci co)
    (fun b => match b with | ⟨0, _⟩ => rfl | ⟨1, _⟩ => rfl | ⟨2, _⟩ => rfl)

/-- Four arrays side by side on the third axis, read at (r, ci, d, co): array d at (r, ci, 0, co). -/
theorem cat4_apply (u0 u1 u2 u3 : S8x64x1x64.Idx → α) (r : Fin 8) (ci : Fin 64) (d : Fin 4) (co : Fin 64) :
    concatenate S8x64x4x64 2 [⟨S8x64x1x64, u0⟩, ⟨S8x64x1x64, u1⟩, ⟨S8x64x1x64, u2⟩, ⟨S8x64x1x64, u3⟩]
        concatenates_S8x64x1x64_S8x64x1x64_S8x64x1x64_S8x64x1x64_S8x64x4x64_d2 (ix4 r ci d co)
      = (![u0, u1, u2, u3] : Fin 4 → S8x64x1x64.Idx → α) d (ix4 r ci (0 : Fin 1) co) :=
  concatenate_ofFn_unit_apply (t := S8x64x4x64) (s₁ := S8x64x1x64) (2 : Fin 4) (![u0, u1, u2, u3] : Fin 4 → S8x64x1x64.Idx → α)
    concatenates_S8x64x1x64_S8x64x1x64_S8x64x1x64_S8x64x1x64_S8x64x4x64_d2 rfl rfl (ix4 r ci d co) d rfl (ix4 r ci (0 : Fin 1) co)
    (fun b hb => match b, hb with
      | ⟨0, _⟩, _ => rfl | ⟨1, _⟩, _ => rfl | ⟨2, _⟩, hb => absurd rfl hb | ⟨3, _⟩, _ => rfl)

end Pieces

section Term
variable {α : Type}

/-- The weight viewed as [5, 64, 64], read at (k, ci, co): row 64 k + ci. -/
theorem view3_apply (a : S320x64.Idx → α) (k : Fin 5) (ci co : Fin 64) :
    shapeCast S5x64x64 a shapeCasts_S320x64_S5x64x64 (ix3 k ci co)
      = a (ix2 (⟨k.val * 64 + ci.val, by have := k.isLt; have := ci.isLt; omega⟩ : Fin 320) co) := by
  refine shapeCast_apply _ _ (ix3 k ci co) _ ?_
  rw [Shape.rowMajor_val_two, Shape.rowMajor_val_three]
  rfl

/-- Piece d of the four at (r, ci, 0, co), when r - d is one of the five taps. -/
theorem piece_inside (x : S5x64x64.Idx → α) (z : S_.Idx → α) (d : Fin 4) (r : Fin 8) (ci co : Fin 64)
    (h1 : d.val ≤ r.val) (h2 : r.val - d.val < 5) :
    (![(broadcastInDim S8x64x1x64 ![0, 1, 3] bcast_S8x64x64_S8x64x1x64_0_1_3
          (pad S8x64x64 ![0, 0, 0] ![3, 0, 0] ![0, 0, 0] x z pads_S5x64x64_S8x64x64_030_000_000 h_S_)),
        (broadcastInDim S8x64x1x64 ![0, 1, 3] bcast_S8x64x64_S8x64x1x64_0_1_3
          (pad S8x64x64 ![1, 0, 0] ![2, 0, 0] ![0, 0, 0] x z pads_S5x64x64_S8x64x64_120_000_000 h_S_)),
        (broadcastInDim S8x64x1x64 ![0, 1, 3] bcast_S8x64x64_S8x64x1x64_0_1_3
          (pad S8x64x64 ![2, 0, 0] ![1, 0, 0] ![0, 0, 0] x z pads_S5x64x64_S8x64x64_210_000_000 h_S_)),
        (broadcastInDim S8x64x1x64 ![0, 1, 3] bcast_S8x64x64_S8x64x1x64_0_1_3
          (pad S8x64x64 ![3, 0, 0] ![0, 0, 0] ![0, 0, 0] x z pads_S5x64x64_S8x64x64_300_000_000 h_S_))] : Fin 4 → S8x64x1x64.Idx → α) d (ix4 r ci (0 : Fin 1) co)
      = x (ix3 (⟨r.val - d.val, h2⟩ : Fin 5) ci co) :=
  match d, h1, h2 with
  | ⟨0, _⟩, h1, h2 => by
    show broadcastInDim S8x64x1x64 ![0, 1, 3] bcast_S8x64x64_S8x64x1x64_0_1_3 (pad S8x64x64 ![0, 0, 0] ![3, 0, 0] ![0, 0, 0] x z pads_S5x64x64_S8x64x64_030_000_000 h_S_) (ix4 r ci (0 : Fin 1) co) = _
    exact (bcast3_apply (pad S8x64x64 ![0, 0, 0] ![3, 0, 0] ![0, 0, 0] x z pads_S5x64x64_S8x64x64_030_000_000 h_S_) r ci co).trans (padRows_inside 0 3 pads_S5x64x64_S8x64x64_030_000_000 x z r ci co h1 h2)
  | ⟨1, _⟩, h1, h2 => by
    show broadcastInDim S8x64x1x64 ![0, 1, 3] bcast_S8x64x64_S8x64x1x64_0_1_3 (pad S8x64x64 ![1, 0, 0] ![2, 0, 0] ![0, 0, 0] x z pads_S5x64x64_S8x64x64_120_000_000 h_S_) (ix4 r ci (0 : Fin 1) co) = _
    exact (bcast3_apply (pad S8x64x64 ![1, 0, 0] ![2, 0, 0] ![0, 0, 0] x z pads_S5x64x64_S8x64x64_120_000_000 h_S_) r ci co).trans (padRows_inside 1 2 pads_S5x64x64_S8x64x64_120_000_000 x z r ci co h1 h2)
  | ⟨2, _⟩, h1, h2 => by
    show broadcastInDim S8x64x1x64 ![0, 1, 3] bcast_S8x64x64_S8x64x1x64_0_1_3 (pad S8x64x64 ![2, 0, 0] ![1, 0, 0] ![0, 0, 0] x z pads_S5x64x64_S8x64x64_210_000_000 h_S_) (ix4 r ci (0 : Fin 1) co) = _
    exact (bcast3_apply (pad S8x64x64 ![2, 0, 0] ![1, 0, 0] ![0, 0, 0] x z pads_S5x64x64_S8x64x64_210_000_000 h_S_) r ci co).trans (padRows_inside 2 1 pads_S5x64x64_S8x64x64_210_000_000 x z r ci co h1 h2)
  | ⟨3, _⟩, h1, h2 => by
    show broadcastInDim S8x64x1x64 ![0, 1, 3] bcast_S8x64x64_S8x64x1x64_0_1_3 (pad S8x64x64 ![3, 0, 0] ![0, 0, 0] ![0, 0, 0] x z pads_S5x64x64_S8x64x64_300_000_000 h_S_) (ix4 r ci (0 : Fin 1) co) = _
    exact (bcast3_apply (pad S8x64x64 ![3, 0, 0] ![0, 0, 0] ![0, 0, 0] x z pads_S5x64x64_S8x64x64_300_000_000 h_S_) r ci co).trans (padRows_inside 3 0 pads_S5x64x64_S8x64x64_300_000_000 x z r ci co h1 h2)

/-- Piece d of the four at (r, ci, 0, co), when r - d is not one of the five taps. -/
theorem piece_outside (x : S5x64x64.Idx → α) (z : S_.Idx → α) (d : Fin 4) (r : Fin 8) (ci co : Fin 64)
    (h : ¬(d.val ≤ r.val ∧ r.val - d.val < 5)) :
    (![(broadcastInDim S8x64x1x64 ![0, 1, 3] bcast_S8x64x64_S8x64x1x64_0_1_3
          (pad S8x64x64 ![0, 0, 0] ![3, 0, 0] ![0, 0, 0] x z pads_S5x64x64_S8x64x64_030_000_000 h_S_)),
        (broadcastInDim S8x64x1x64 ![0, 1, 3] bcast_S8x64x64_S8x64x1x64_0_1_3
          (pad S8x64x64 ![1, 0, 0] ![2, 0, 0] ![0, 0, 0] x z pads_S5x64x64_S8x64x64_120_000_000 h_S_)),
        (broadcastInDim S8x64x1x64 ![0, 1, 3] bcast_S8x64x64_S8x64x1x64_0_1_3
          (pad S8x64x64 ![2, 0, 0] ![1, 0, 0] ![0, 0, 0] x z pads_S5x64x64_S8x64x64_210_000_000 h_S_)),
        (broadcastInDim S8x64x1x64 ![0, 1, 3] bcast_S8x64x64_S8x64x1x64_0_1_3
          (pad S8x64x64 ![3, 0, 0] ![0, 0, 0] ![0, 0, 0] x z pads_S5x64x64_S8x64x64_300_000_000 h_S_))] : Fin 4 → S8x64x1x64.Idx → α) d (ix4 r ci (0 : Fin 1) co)
      = z (Shape.Idx.first h_S_) :=
  match d, h with
  | ⟨0, _⟩, h => by
    show broadcastInDim S8x64x1x64 ![0, 1, 3] bcast_S8x64x64_S8x64x1x64_0_1_3 (pad S8x64x64 ![0, 0, 0] ![3, 0, 0] ![0, 0, 0] x z pads_S5x64x64_S8x64x64_030_000_000 h_S_) (ix4 r ci (0 : Fin 1) co) = _
    exact (bcast3_apply (pad S8x64x64 ![0, 0, 0] ![3, 0, 0] ![0, 0, 0] x z pads_S5x64x64_S8x64x64_030_000_000 h_S_) r ci co).trans (padRows_outside 0 3 pads_S5x64x64_S8x64x64_030_000_000 x z r ci co h)
  | ⟨1, _⟩, h => by
    show broadcastInDim S8x64x1x64 ![0, 1, 3] bcast_S8x64x64_S8x64x1x64_0_1_3 (pad S8x64x64 ![1, 0, 0] ![2, 0, 0] ![0, 0, 0] x z pads_S5x64x64_S8x64x64_120_000_000 h_S_) (ix4 r ci (0 : Fin 1) co) = _
    exact (bcast3_apply (pad S8x64x64 ![1, 0, 0] ![2, 0, 0] ![0, 0, 0] x z pads_S5x64x64_S8x64x64_120_000_000 h_S_) r ci co).trans (padRows_outside 1 2 pads_S5x64x64_S8x64x64_120_000_000 x z r ci co h)
  | ⟨2, _⟩, h => by
    show broadcastInDim S8x64x1x64 ![0, 1, 3] bcast_S8x64x64_S8x64x1x64_0_1_3 (pad S8x64x64 ![2, 0, 0] ![1, 0, 0] ![0, 0, 0] x z pads_S5x64x64_S8x64x64_210_000_000 h_S_) (ix4 r ci (0 : Fin 1) co) = _
    exact (bcast3_apply (pad S8x64x64 ![2, 0, 0] ![1, 0, 0] ![0, 0, 0] x z pads_S5x64x64_S8x64x64_210_000_000 h_S_) r ci co).trans (padRows_outside 2 1 pads_S5x64x64_S8x64x64_210_000_000 x z r ci co h)
  | ⟨3, _⟩, h => by
    show broadcastInDim S8x64x1x64 ![0, 1, 3] bcast_S8x64x64_S8x64x1x64_0_1_3 (pad S8x64x64 ![3, 0, 0] ![0, 0, 0] ![0, 0, 0] x z pads_S5x64x64_S8x64x64_300_000_000 h_S_) (ix4 r ci (0 : Fin 1) co) = _
    exact (bcast3_apply (pad S8x64x64 ![3, 0, 0] ![0, 0, 0] ![0, 0, 0] x z pads_S5x64x64_S8x64x64_300_000_000 h_S_) r ci co).trans (padRows_outside 3 0 pads_S5x64x64_S8x64x64_300_000_000 x z r ci co h)

/-- Entry (R, q) = (64 r + ci, 64 d + co) is split into its four coordinates. -/
theorem tapTerm_split (a : S320x64.Idx → α) (z : S_.Idx → α) (R : Fin 512) (q : Fin 256)
    (hr : R.val / 64 < 8) (hci : R.val % 64 < 64) (hd : q.val / 64 < 4) (hco : q.val % 64 < 64) :
    tapTerm a z (ix2 R q)
      = (![(broadcastInDim S8x64x1x64 ![0, 1, 3] bcast_S8x64x64_S8x64x1x64_0_1_3
          (pad S8x64x64 ![0, 0, 0] ![3, 0, 0] ![0, 0, 0] (shapeCast S5x64x64 a shapeCasts_S320x64_S5x64x64) z pads_S5x64x64_S8x64x64_030_000_000 h_S_)),
        (broadcastInDim S8x64x1x64 ![0, 1, 3] bcast_S8x64x64_S8x64x1x64_0_1_3
          (pad S8x64x64 ![1, 0, 0] ![2, 0, 0] ![0, 0, 0] (shapeCast S5x64x64 a shapeCasts_S320x64_S5x64x64) z pads_S5x64x64_S8x64x64_120_000_000 h_S_)),
        (broadcastInDim S8x64x1x64 ![0, 1, 3] bcast_S8x64x64_S8x64x1x64_0_1_3
          (pad S8x64x64 ![2, 0, 0] ![1, 0, 0] ![0, 0, 0] (shapeCast S5x64x64 a shapeCasts_S320x64_S5x64x64) z pads_S5x64x64_S8x64x64_210_000_000 h_S_)),
        (broadcastInDim S8x64x1x64 ![0, 1, 3] bcast_S8x64x64_S8x64x1x64_0_1_3
          (pad S8x64x64 ![3, 0, 0] ![0, 0, 0] ![0, 0, 0] (shapeCast S5x64x64 a shapeCasts_S320x64_S5x64x64) z pads_S5x64x64_S8x64x64_300_000_000 h_S_))] : Fin 4 → S8x64x1x64.Idx → α)
          (⟨q.val / 64, hd⟩ : Fin 4) (ix4 (⟨R.val / 64, hr⟩ : Fin 8) (⟨R.val % 64, hci⟩ : Fin 64) (0 : Fin 1) (⟨q.val % 64, hco⟩ : Fin 64)) := by
  unfold tapTerm
  refine (shapeCast_apply _ _ (ix2 R q)
    (ix4 (⟨R.val / 64, hr⟩ : Fin 8) (⟨R.val % 64, hci⟩ : Fin 64) (⟨q.val / 64, hd⟩ : Fin 4) (⟨q.val % 64, hco⟩ : Fin 64)) ?_).trans ?_
  · rw [Shape.rowMajor_val_four, Shape.rowMajor_val_two]
    show ((R.val / 64 * 64 + R.val % 64) * 4 + q.val / 64) * 64 + q.val % 64 = R.val * 256 + q.val
    omega
  exact cat4_apply _ _ _ _ _ _ _ _

/-- Inside the band the entry is the weight's: tap r - d, input channel ci, output channel co. -/
theorem tapTerm_inside (a : S320x64.Idx → α) (z : S_.Idx → α) (R : Fin 512) (q : Fin 256)
    (h1 : q.val / 64 ≤ R.val / 64) (h2 : R.val / 64 < q.val / 64 + 5) :
    tapTerm a z (ix2 R q)
      = a (ix2 (⟨(R.val / 64 - q.val / 64) * 64 + R.val % 64, by omega⟩ : Fin 320)
          (⟨q.val % 64, Nat.mod_lt _ (by decide)⟩ : Fin 64)) := by
  have hr : R.val / 64 < 8 := by have := R.isLt; omega
  have hci : R.val % 64 < 64 := Nat.mod_lt _ (by decide)
  have hd : q.val / 64 < 4 := by have := q.isLt; omega
  have hco : q.val % 64 < 64 := Nat.mod_lt _ (by decide)
  refine (tapTerm_split a z R q hr hci hd hco).trans ?_
  refine (piece_inside _ z (⟨q.val / 64, hd⟩ : Fin 4) (⟨R.val / 64, hr⟩ : Fin 8) _ _ h1
    (by show R.val / 64 - q.val / 64 < 5; omega)).trans ?_
  exact view3_apply a _ _ _

/-- Outside the band the entry is the padding scalar. -/
theorem tapTerm_outside (a : S320x64.Idx → α) (z : S_.Idx → α) (R : Fin 512) (q : Fin 256)
    (h : ¬(q.val / 64 ≤ R.val / 64 ∧ R.val / 64 < q.val / 64 + 5)) :
    tapTerm a z (ix2 R q) = z (Shape.Idx.first h_S_) := by
  have hr : R.val / 64 < 8 := by have := R.isLt; omega
  have hci : R.val % 64 < 64 := Nat.mod_lt _ (by decide)
  have hd : q.val / 64 < 4 := by have := q.isLt; omega
  have hco : q.val % 64 < 64 := Nat.mod_lt _ (by decide)
  refine (tapTerm_split a z R q hr hci hd hco).trans ?_
  refine piece_outside _ z (⟨q.val / 64, hd⟩ : Fin 4) (⟨R.val / 64, hr⟩ : Fin 8) _ _ (fun hh => h ?_)
  have e1 : q.val / 64 ≤ R.val / 64 := hh.1
  have e2 : R.val / 64 - q.val / 64 < 5 := hh.2
  exact ⟨e1, by omega⟩

/-- Rows 0..255 of the matrix. -/
theorem sliceLo_apply (x : S512x256.Idx → α) (R q : Fin 256) :
    extractStridedSlice S256x256 ![0, 0] x slices_S512x256_S256x256_0_0 (ix2 R q)
      = x (ix2 (⟨R.val, by have := R.isLt; omega⟩ : Fin 512) q) :=
  extractStridedSlice_apply _ x _ (ix2 R q) (ix2 (⟨R.val, by have := R.isLt; omega⟩ : Fin 512) q)
    (fun b => match b with
      | ⟨0, _⟩ => by show R.val = 0 + R.val; omega
      | ⟨1, _⟩ => by show q.val = 0 + q.val; omega)

/-- Rows 256..511 of the matrix. -/
theorem sliceHi_apply (x : S512x256.Idx → α) (R q : Fin 256) :
    extractStridedSlice S256x256 ![256, 0] x slices_S512x256_S256x256_256_0 (ix2 R q)
      = x (ix2 (⟨256 + R.val, by have := R.isLt; omega⟩ : Fin 512) q) :=
  extractStridedSlice_apply _ x _ (ix2 R q) (ix2 (⟨256 + R.val, by have := R.isLt; omega⟩ : Fin 512) q)
    (fun b => match b with
      | ⟨0, _⟩ => by show 256 + R.val = 256 + R.val; rfl
      | ⟨1, _⟩ => by show q.val = 0 + q.val; omega)

end Term

/-- At the extended reals the matrix is the specification's tap matrix of the weight. -/
theorem tapTerm_eq_tap (w : S320x64.Idx → EReal) (R : Fin 512) (q : Fin 256) :
    tapTerm w (zpad (F := Ideal)) (ix2 R q) = Cert.Spec.tap w R.val q.val := by
  unfold Cert.Spec.tap
  by_cases h : q.val / 64 ≤ R.val / 64 ∧ R.val / 64 < q.val / 64 + 5
  · rw [if_pos h, tapTerm_inside w _ R q h.1 h.2]
    unfold Cert.Spec.mat
    rw [dif_pos ⟨by omega, Nat.mod_lt _ (by decide)⟩]
  · rw [if_neg h, tapTerm_outside w _ R q h, zpad_apply]

/-- The first half (rows 0..255) after the change of float format. -/
theorem tapLo_eq_tap (w : S320x64.Idx → EReal) (R q : Fin 256) :
    (truncf .bf16 (extractStridedSlice S256x256 ![0, 0] (tapTerm w (zpad (F := Ideal))) slices_S512x256_S256x256_0_0)
      bitsLt_bf16_f32 : S256x256.Idx → EReal) (ix2 R q) = Cert.Spec.tap w R.val q.val := by
  rw [truncf_apply, sliceLo_apply, tapTerm_eq_tap]

/-- The second half (rows 256..511) after the change of float format. -/
theorem tapHi_eq_tap (w : S320x64.Idx → EReal) (R q : Fin 256) :
    (truncf .bf16 (extractStridedSlice S256x256 ![256, 0] (tapTerm w (zpad (F := Ideal))) slices_S512x256_S256x256_256_0)
      bitsLt_bf16_f32 : S256x256.Idx → EReal) (ix2 R q) = Cert.Spec.tap w (256 + R.val) q.val := by
  rw [truncf_apply, sliceHi_apply, tapTerm_eq_tap]

end Cert.KernelIdeal.HandHost

end
-- ==== Proof.KHostTap2.lean ====
/-
  The two tap-matrix operands of convolution 2: rows 0..255 and rows 256..511 of the tap matrix of
  the layer's weight, after the change of float format.
-/
import proofs.«156904_g2000200884589374_pallasbulk_247_2_alg».proof.Proof.KHostTapLib

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

section Run
variable {F : FTy → Type} [FloatOps F]
variable (m : (ℓ : Loc nD τ sig) → Buf (Elt F) ℓ)

set_option maxHeartbeats 1000000 in
theorem V_main_v72_eq (c : Dev nD) :
    (V m c main_v72 : S256x256.Idx → F .bf16) = truncf .bf16 (extractStridedSlice S256x256 ![0, 0] (tapTerm (m ((c : Thread nD τ).loc main_arg3)) zpad) slices_S512x256_S256x256_0_0) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

set_option maxHeartbeats 1000000 in
theorem V_main_v73_eq (c : Dev nD) :
    (V m c main_v73 : S256x256.Idx → F .bf16) = truncf .bf16 (extractStridedSlice S256x256 ![256, 0] (tapTerm (m ((c : Thread nD τ).loc main_arg3)) zpad) slices_S512x256_S256x256_256_0) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

end Run

/-- The first tap operand of convolution 2. -/
theorem V_main_v72 (m : (ℓ : Loc nD τ sig) → Buf (Elt Ideal) ℓ) (c : Dev nD) (R q : Fin 256) :
    (V m c main_v72 : S256x256.Idx → EReal) (ix2 R q) = Cert.Spec.tap (Hand.args m c).w2 R.val q.val := by
  rw [V_main_v72_eq]
  exact tapLo_eq_tap _ R q

/-- The second tap operand of convolution 2. -/
theorem V_main_v73 (m : (ℓ : Loc nD τ sig) → Buf (Elt Ideal) ℓ) (c : Dev nD) (R q : Fin 256) :
    (V m c main_v73 : S256x256.Idx → EReal) (ix2 R q) = Cert.Spec.tap (Hand.args m c).w2 (256 + R.val) q.val := by
  rw [V_main_v73_eq]
  exact tapHi_eq_tap _ R q

end Cert.KernelIdeal.HandHost

end
-- ==== Proof.KHostTap3.lean ====
/-
  The two tap-matrix operands of convolution 3: rows 0..255 and rows 256..511 of the tap matrix of
  the layer's weight, after the change of float format.
-/
import proofs.«156904_g2000200884589374_pallasbulk_247_2_alg».proof.Proof.KHostTapLib

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

section Run
variable {F : FTy → Type} [FloatOps F]
variable (m : (ℓ : Loc nD τ sig) → Buf (Elt F) ℓ)

set_option maxHeartbeats 1000000 in
theorem V_main_v77_eq (c : Dev nD) :
    (V m c main_v77 : S256x256.Idx → F .bf16) = truncf .bf16 (extractStridedSlice S256x256 ![0, 0] (tapTerm (m ((c : Thread nD τ).loc main_arg5)) zpad) slices_S512x256_S256x256_0_0) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

set_option maxHeartbeats 1000000 in
theorem V_main_v78_eq (c : Dev nD) :
    (V m c main_v78 : S256x256.Idx → F .bf16) = truncf .bf16 (extractStridedSlice S256x256 ![256, 0] (tapTerm (m ((c : Thread nD τ).loc main_arg5)) zpad) slices_S512x256_S256x256_256_0) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

end Run

/-- The first tap operand of convolution 3. -/
theorem V_main_v77 (m : (ℓ : Loc nD τ sig) → Buf (Elt Ideal) ℓ) (c : Dev nD) (R q : Fin 256) :
    (V m c main_v77 : S256x256.Idx → EReal) (ix2 R q) = Cert.Spec.tap (Hand.args m c).w3 R.val q.val := by
  rw [V_main_v77_eq]
  exact tapLo_eq_tap _ R q

/-- The second tap operand of convolution 3. -/
theorem V_main_v78 (m : (ℓ : Loc nD τ sig) → Buf (Elt Ideal) ℓ) (c : Dev nD) (R q : Fin 256) :
    (V m c main_v78 : S256x256.Idx → EReal) (ix2 R q) = Cert.Spec.tap (Hand.args m c).w3 (256 + R.val) q.val := by
  rw [V_main_v78_eq]
  exact tapHi_eq_tap _ R q

end Cert.KernelIdeal.HandHost

end
-- ==== Proof.KHostTap4.lean ====
/-
  The two tap-matrix operands of convolution 4: rows 0..255 and rows 256..511 of the tap matrix of
  the layer's weight, after the change of float format.
-/
import proofs.«156904_g2000200884589374_pallasbulk_247_2_alg».proof.Proof.KHostTapLib

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

section Run
variable {F : FTy → Type} [FloatOps F]
variable (m : (ℓ : Loc nD τ sig) → Buf (Elt F) ℓ)

set_option maxHeartbeats 1000000 in
theorem V_main_v82_eq (c : Dev nD) :
    (V m c main_v82 : S256x256.Idx → F .bf16) = truncf .bf16 (extractStridedSlice S256x256 ![0, 0] (tapTerm (m ((c : Thread nD τ).loc main_arg7)) zpad) slices_S512x256_S256x256_0_0) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

set_option maxHeartbeats 1000000 in
theorem V_main_v83_eq (c : Dev nD) :
    (V m c main_v83 : S256x256.Idx → F .bf16) = truncf .bf16 (extractStridedSlice S256x256 ![256, 0] (tapTerm (m ((c : Thread nD τ).loc main_arg7)) zpad) slices_S512x256_S256x256_256_0) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

end Run

/-- The first tap operand of convolution 4. -/
theorem V_main_v82 (m : (ℓ : Loc nD τ sig) → Buf (Elt Ideal) ℓ) (c : Dev nD) (R q : Fin 256) :
    (V m c main_v82 : S256x256.Idx → EReal) (ix2 R q) = Cert.Spec.tap (Hand.args m c).w4 R.val q.val := by
  rw [V_main_v82_eq]
  exact tapLo_eq_tap _ R q

/-- The second tap operand of convolution 4. -/
theorem V_main_v83 (m : (ℓ : Loc nD τ sig) → Buf (Elt Ideal) ℓ) (c : Dev nD) (R q : Fin 256) :
    (V m c main_v83 : S256x256.Idx → EReal) (ix2 R q) = Cert.Spec.tap (Hand.args m c).w4 (256 + R.val) q.val := by
  rw [V_main_v83_eq]
  exact tapHi_eq_tap _ R q

end Cert.KernelIdeal.HandHost

end
-- ==== Proof.KHostDense.lean ====
/-
  The dense-layer operands. The second and third dense weights are passed through a change of
  float format only. The first dense weight [22272, 128], whose row 768 h + 64 w + c is feature
  (h, w, c), is viewed as [29, 12, 64, 128], transposed to (w, h, c, o), padded on the height axis
  from 29 to 32 and flattened to [24576, 128]: row 2048 w + 64 h + c is feature (h, w, c) for
  h < 29 and the padding scalar for h = 29, 30, 31.
-/
import proofs.«156904_g2000200884589374_pallasbulk_247_2_alg».proof.Proof.KHostV

noncomputable section

namespace Cert.KernelIdeal.HandHost

open Cert.KernelIdeal Cert.KernelIdeal.Gen
open Idealize.ShloMosaic Idealize.ShloMosaic.TcCoe Idealize.ShloMosaic.ValueIdx
open Idealize.SL Idealize.SL.Sem

/-- The four layout operations applied to the first dense weight a, with padding scalar z. -/
def f1Term {α : Type} (a : S22272x128.Idx → α) (z : S_.Idx → α) : S24576x128.Idx → α :=
  shapeCast S24576x128
    (pad S12x32x64x128 ![0, 0, 0, 0] ![0, 3, 0, 0] ![0, 0, 0, 0]
      (transpose S12x29x64x128 [1, 0, 2, 3] (shapeCast S29x12x64x128 a shapeCasts_S22272x128_S29x12x64x128)
        transposes_S29x12x64x128_S12x29x64x128_1_0_2_3)
      z pads_S12x29x64x128_S12x32x64x128_000_030_000_000 h_S_)
    shapeCasts_S12x32x64x128_S24576x128

/-- A row whose height coordinate is below 29 holds the weight's row for that feature. -/
theorem f1Term_inside {α : Type} (a : S22272x128.Idx → α) (z : S_.Idx → α) (R : Fin 24576) (o : Fin 128)
    (h : R.val % 2048 / 64 < 29) :
    f1Term a z (ix2 R o)
      = a (ix2 (⟨R.val % 2048 / 64 * 768 + R.val / 2048 * 64 + R.val % 64, by have := R.isLt; omega⟩ : Fin 22272) o) := by
  unfold f1Term
  have hw : R.val / 2048 < 12 := by have := R.isLt; omega
  have hh : R.val % 2048 / 64 < 32 := by omega
  have hc : R.val % 64 < 64 := Nat.mod_lt _ (by decide)
  refine (shapeCast_apply _ _ (ix2 R o)
    (ix4 (⟨R.val / 2048, hw⟩ : Fin 12) (⟨R.val % 2048 / 64, hh⟩ : Fin 32) (⟨R.val % 64, hc⟩ : Fin 64) o) ?_).trans ?_
  · rw [Shape.rowMajor_val_four, Shape.rowMajor_val_two]
    show ((R.val / 2048 * 32 + R.val % 2048 / 64) * 64 + R.val % 64) * 128 + o.val = R.val * 128 + o.val
    omega
  refine (pad_apply_of_inside _ _ _ _ z _ h_S_ _
    (ix4 (⟨R.val / 2048, hw⟩ : Fin 12) (⟨R.val % 2048 / 64, h⟩ : Fin 29) (⟨R.val % 64, hc⟩ : Fin 64) o) (fun b => ?_)).trans ?_
  · match b with
    | ⟨0, _⟩ => show R.val / 2048 = 0 + R.val / 2048 * (0 + 1); omega
    | ⟨1, _⟩ => show R.val % 2048 / 64 = 0 + R.val % 2048 / 64 * (0 + 1); omega
    | ⟨2, _⟩ => show R.val % 64 = 0 + R.val % 64 * (0 + 1); omega
    | ⟨3, _⟩ => show o.val = 0 + o.val * (0 + 1); omega
  refine (transpose_apply _ _ _ _
    (ix4 (⟨R.val % 2048 / 64, h⟩ : Fin 29) (⟨R.val / 2048, hw⟩ : Fin 12) (⟨R.val % 64, hc⟩ : Fin 64) o)
    (fun b => match b with | ⟨0, _⟩ => rfl | ⟨1, _⟩ => rfl | ⟨2, _⟩ => rfl | ⟨3, _⟩ => rfl)).trans ?_
  refine shapeCast_apply _ _ _ _ ?_
  rw [Shape.rowMajor_val_four, Shape.rowMajor_val_two]
  show (R.val % 2048 / 64 * 768 + R.val / 2048 * 64 + R.val % 64) * 128 + o.val
    = ((R.val % 2048 / 64 * 12 + R.val / 2048) * 64 + R.val % 64) * 128 + o.val
  omega

/-- A row whose height coordinate is 29, 30 or 31 holds the padding scalar. -/
theorem f1Term_outside {α : Type} (a : S22272x128.Idx → α) (z : S_.Idx → α) (R : Fin 24576) (o : Fin 128)
    (h : ¬ R.val % 2048 / 64 < 29) : f1Term a z (ix2 R o) = z (Shape.Idx.first h_S_) := by
  unfold f1Term
  have hw : R.val / 2048 < 12 := by have := R.isLt; omega
  have hh : R.val % 2048 / 64 < 32 := by omega
  have hc : R.val % 64 < 64 := Nat.mod_lt _ (by decide)
  refine (shapeCast_apply _ _ (ix2 R o)
    (ix4 (⟨R.val / 2048, hw⟩ : Fin 12) (⟨R.val % 2048 / 64, hh⟩ : Fin 32) (⟨R.val % 64, hc⟩ : Fin 64) o) ?_).trans ?_
  · rw [Shape.rowMajor_val_four, Shape.rowMajor_val_two]
    show ((R.val / 2048 * 32 + R.val % 2048 / 64) * 64 + R.val % 64) * 128 + o.val = R.val * 128 + o.val
    omega
  refine pad_apply_of_not_inside _ _ _ _ z _ h_S_ _ (1 : Fin 4) (fun hin => h ?_)
  have h3 : (R.val % 2048 / 64 - 0) / (0 + 1) < 29 := hin.2.2
  omega

section Run
variable {F : FTy → Type} [FloatOps F]
variable (m : (ℓ : Loc nD τ sig) → Buf (Elt F) ℓ)

set_option maxHeartbeats 1000000 in
theorem V_main_v87_eq (c : Dev nD) :
    (V m c main_v87 : S24576x128.Idx → F .bf16) = truncf .bf16 (f1Term (m ((c : Thread nD τ).loc main_arg9)) zpad) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp
  rfl

set_option maxHeartbeats 1000000 in
theorem V_main_v88_eq (c : Dev nD) :
    (V m c main_v88 : S128x128.Idx → F .bf16) = truncf .bf16 (m ((c : Thread nD τ).loc main_arg11) : S128x128.Idx → F .f32) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp

set_option maxHeartbeats 1000000 in
theorem V_main_v89_eq (c : Dev nD) :
    (V m c main_v89 : S128x22.Idx → F .bf16) = truncf .bf16 (m ((c : Thread nD τ).loc main_arg13) : S128x22.Idx → F .f32) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, List.flatten_cons, List.flatten_nil, List.append_nil, List.cons_append, List.nil_append]
  open StableHlo in after_results_simp

end Run

/-- The first dense operand is the re-ordered first dense weight. -/
theorem V_main_v87 (m : (ℓ : Loc nD τ sig) → Buf (Elt Ideal) ℓ) (c : Dev nD) (R : Fin 24576) (o : Fin 128) :
    (V m c main_v87 : S24576x128.Idx → EReal) (ix2 R o) = Cert.Spec.f1perm (Hand.args m c) R.val o.val := by
  rw [V_main_v87_eq, truncf_apply]
  unfold Cert.Spec.f1perm
  by_cases h : R.val % 2048 / 64 < 29
  · rw [f1Term_inside _ _ R o h, if_pos h]
    unfold Cert.Spec.mat
    rw [dif_pos ⟨by have := R.isLt; omega, o.isLt⟩]
    rfl
  · rw [f1Term_outside _ _ R o h, zpad_apply, if_neg h]

/-- The second dense operand is the second dense weight. -/
theorem V_main_v88 (m : (ℓ : Loc nD τ sig) → Buf (Elt Ideal) ℓ) (c : Dev nD) (i : Fin 128) (o : Fin 128) :
    (V m c main_v88 : S128x128.Idx → EReal) (ix2 i o) = Cert.Spec.mat (Hand.args m c).f2w i.val o.val := by
  rw [V_main_v88_eq, truncf_apply]
  unfold Cert.Spec.mat
  rw [dif_pos ⟨i.isLt, o.isLt⟩]
  rfl

/-- The third dense operand is the third dense weight. -/
theorem V_main_v89 (m : (ℓ : Loc nD τ sig) → Buf (Elt Ideal) ℓ) (c : Dev nD) (i : Fin 128) (o : Fin 22) :
    (V m c main_v89 : S128x22.Idx → EReal) (ix2 i o) = Cert.Spec.mat (Hand.args m c).f3w i.val o.val := by
  rw [V_main_v89_eq, truncf_apply]
  unfold Cert.Spec.mat
  rw [dif_pos ⟨i.isLt, o.isLt⟩]
  rfl

end Cert.KernelIdeal.HandHost

end
-- ==== Proof.KHost.lean ====
/-
  The thirteen operand arrays the host operations build for the fused kernel, each read at an
  index as the specification's formula of the argument arrays:
    the input (zero-extended, transposed to width, image, height)      V_main_v2
    the banded first-layer weight                                       V_main_v25
    the four biases tiled four times                                    V_main_v71, V_main_v76, V_main_v81, V_main_v86
    the two halves of each later layer's tap matrix                     V_main_v72, V_main_v73, V_main_v77, V_main_v78, V_main_v82, V_main_v83
    the re-ordered first dense weight, and the other two dense weights  V_main_v87, V_main_v88, V_main_v89
  Every change of float format on the way is the identity at the extended reals, and every pad
  fills with the integer zero converted, which is zero there.
-/
import proofs.«156904_g2000200884589374_pallasbulk_247_2_alg».proof.Proof.KHostX
import proofs.«156904_g2000200884589374_pallasbulk_247_2_alg».proof.Proof.KHostBand
import proofs.«156904_g2000200884589374_pallasbulk_247_2_alg».proof.Proof.KHostBias
import proofs.«156904_g2000200884589374_pallasbulk_247_2_alg».proof.Proof.KHostTap2
import proofs.«156904_g2000200884589374_pallasbulk_247_2_alg».proof.Proof.KHostTap3
import proofs.«156904_g2000200884589374_pallasbulk_247_2_alg».proof.Proof.KHostTap4
import proofs.«156904_g2000200884589374_pallasbulk_247_2_alg».proof.Proof.KHostDense
-- ==== Proof.KBlocks.lean ====
/-
  What the eighteen input blocks of one grid point of the kernel hold, as functions of the arguments,
  and two facts about reading a slab of a block: a 48 x 256 column slab of the banded weight, a
  256 x 128 row slab of the re-ordered dense weight.
-/
import proofs.«156904_g2000200884589374_pallasbulk_247_2_alg».proof.Proof.KOut
import proofs.«156904_g2000200884589374_pallasbulk_247_2_alg».proof.Proof.Spec

noncomputable section

namespace Cert.KernelIdeal.Hand

open Idealize.ShloMosaic Idealize.ShloMosaic.ValueIdx Cert.KernelIdeal Cert.KernelIdeal.Gen

/-- What the eighteen input blocks of the grid point whose first image is n0 hold, in terms of the arguments. -/
structure Blocks (p : Cert.Spec.Args) (n0 : ℕ) (x0 : Vec Ideal S12x128x48 .f32) (x1 : Vec Ideal S48x2816 .bf16) (x2 : Vec Ideal S1x256 .f32) (x3 x4 : Vec Ideal S256x256 .bf16) (x5 : Vec Ideal S1x256 .f32) (x6 x7 : Vec Ideal S256x256 .bf16) (x8 : Vec Ideal S1x256 .f32) (x9 x10 : Vec Ideal S256x256 .bf16) (x11 : Vec Ideal S1x256 .f32) (x12 : Vec Ideal S24576x128 .bf16) (x13 : Vec Ideal S1x128 .f32) (x14 : Vec Ideal S128x128 .bf16) (x15 : Vec Ideal S1x128 .f32) (x16 : Vec Ideal S128x22 .bf16) (x17 : Vec Ideal S1x22 .f32) : Prop where
  h0 : ∀ (w : Fin 12) (b : Fin 128) (R : Fin 48), x0 (ix3 w b R) = Cert.Spec.xN p (n0 + b.val) R.val w.val
  h1 : ∀ (R : Fin 48) (q : Fin 2816), x1 (ix2 R q) = Cert.Spec.band1 p R.val q.val
  h2 : ∀ q : Fin 256, x2 (ix2 (0 : Fin 1) q) = Cert.Spec.tile4 p.b1 q.val
  h3 : ∀ (R q : Fin 256), x3 (ix2 R q) = Cert.Spec.tap p.w2 R.val q.val
  h4 : ∀ (R q : Fin 256), x4 (ix2 R q) = Cert.Spec.tap p.w2 (256 + R.val) q.val
  h5 : ∀ q : Fin 256, x5 (ix2 (0 : Fin 1) q) = Cert.Spec.tile4 p.b2 q.val
  h6 : ∀ (R q : Fin 256), x6 (ix2 R q) = Cert.Spec.tap p.w3 R.val q.val
  h7 : ∀ (R q : Fin 256), x7 (ix2 R q) = Cert.Spec.tap p.w3 (256 + R.val) q.val
  h8 : ∀ q : Fin 256, x8 (ix2 (0 : Fin 1) q) = Cert.Spec.tile4 p.b3 q.val
  h9 : ∀ (R q : Fin 256), x9 (ix2 R q) = Cert.Spec.tap p.w4 R.val q.val
  h10 : ∀ (R q : Fin 256), x10 (ix2 R q) = Cert.Spec.tap p.w4 (256 + R.val) q.val
  h11 : ∀ q : Fin 256, x11 (ix2 (0 : Fin 1) q) = Cert.Spec.tile4 p.b4 q.val
  h12 : ∀ (R : Fin 24576) (o : Fin 128), x12 (ix2 R o) = Cert.Spec.f1perm p R.val o.val
  h13 : ∀ o : Fin 128, x13 (ix2 (0 : Fin 1) o) = Cert.Spec.row p.f1b o.val
  h14 : ∀ (i o : Fin 128), x14 (ix2 i o) = Cert.Spec.mat p.f2w i.val o.val
  h15 : ∀ o : Fin 128, x15 (ix2 (0 : Fin 1) o) = Cert.Spec.row p.f2b o.val
  h16 : ∀ (i : Fin 128) (o : Fin 22), x16 (ix2 i o) = Cert.Spec.mat p.f3w i.val o.val
  h17 : ∀ o : Fin 22, x17 (ix2 (0 : Fin 1) o) = Cert.Spec.row p.f3b o.val

theorem hz3 : (![0, 0, 0] : Fin 3 → Nat) = fun _ => 0 := funext fun a => by fin_cases a <;> rfl
theorem hz2 : (![0, 0] : Fin 2 → Nat) = fun _ => 0 := funext fun a => by fin_cases a <;> rfl

/-- A 48 x 256 column slab of a [48, 2816] block at column offset k. -/
theorem ld_band (F : ℕ → ℕ → EReal) (x1 : Vec Ideal S48x2816 .bf16)
    (h1 : ∀ (R : Fin 48) (q : Fin 2816), x1 (ix2 R q) = F R.val q.val)
    (k : ℕ) (inb : ∀ a, (![0, k] : Fin 2 → ℕ) a + S48x256.size a ≤ S48x2816.size a)
    (R : Fin 48) (q : Fin 256) :
    View.ld x1 (Rect.unit (s := S48x2816) ![0, k] S48x256.size inb) (ix2 R q) = F R.val (k + q.val) := by
  have hk : k + q.val < 2816 := by
    have := inb 1
    have hq := q.isLt
    change k + 256 ≤ 2816 at this
    omega
  have e : (Rect.unit (s := S48x2816) ![0, k] S48x256.size inb).idx (ix2 R q) = ix2 R ⟨k + q.val, hk⟩ := by
    funext a; apply Fin.ext
    match a with
    | ⟨0, _⟩ => show 0 + 1 * R.val = R.val; omega
    | ⟨1, _⟩ => show k + 1 * q.val = k + q.val; omega
  show x1 ((Rect.unit (s := S48x2816) ![0, k] S48x256.size inb).idx (ix2 R q)) = _
  rw [e, h1]

/-- A 256 x 128 row slab of a [24576, 128] block at row offset k. -/
theorem ld_rows (F : ℕ → ℕ → EReal) (x12 : Vec Ideal S24576x128 .bf16)
    (h12 : ∀ (R : Fin 24576) (o : Fin 128), x12 (ix2 R o) = F R.val o.val)
    (k : ℕ) (inb : ∀ a, (![k, 0] : Fin 2 → ℕ) a + S256x128.size a ≤ S24576x128.size a)
    (R : Fin 256) (o : Fin 128) :
    View.ld x12 (Rect.unit (s := S24576x128) ![k, 0] S256x128.size inb) (ix2 R o) = F (k + R.val) o.val := by
  have hk : k + R.val < 24576 := by
    have := inb 0
    have hR := R.isLt
    change k + 256 ≤ 24576 at this
    omega
  have e : (Rect.unit (s := S24576x128) ![k, 0] S256x128.size inb).idx (ix2 R o) = ix2 ⟨k + R.val, hk⟩ o := by
    funext a; apply Fin.ext
    match a with
    | ⟨0, _⟩ => show k + 1 * R.val = k + R.val; omega
    | ⟨1, _⟩ => show 0 + 1 * o.val = o.val; omega
  show x12 ((Rect.unit (s := S24576x128) ![k, 0] S256x128.size inb).idx (ix2 R o)) = _
  rw [e, h12]

end Cert.KernelIdeal.Hand

end
-- ==== Proof.LibBand.lean ====
/-
  Sums against banded matrices, over any additive commutative monoid and over the extended reals.

  A banded matrix has, in each column, the five taps of a convolution on consecutive rows and zeros
  elsewhere; the product of a row vector with it keeps exactly the five terms. Also: a sum over a
  range of length a * b is the double sum over its quotient and remainder.
-/
import Mathlib.Algebra.BigOperators.Intervals
import Mathlib.Data.EReal.Basic

namespace Cert.LibBand

open Finset

/-- A sum over rows 0..N-1 of terms that vanish outside the window h ≤ R < h + 5 is the sum of the
    five terms inside it. -/
theorem sum_range_window {M : Type*} [AddCommMonoid M] (F : ℕ → M) (h N : ℕ) (hN : h + 5 ≤ N) :
    ∑ R ∈ range N, (if h ≤ R ∧ R < h + 5 then F R else 0) = ∑ k ∈ range 5, F (h + k) := by
  rw [← Finset.sum_filter]
  have e : (range N).filter (fun R => h ≤ R ∧ R < h + 5) = Ico h (h + 5) := by
    ext R; simp only [mem_filter, mem_range, mem_Ico]; omega
  rw [e, Finset.sum_Ico_eq_sum_range, Nat.add_sub_cancel_left]

/-- A sum over 0..a*b-1 is the double sum over the quotient r < a and the remainder c < b. -/
theorem sum_range_mul {M : Type*} [AddCommMonoid M] (F : ℕ → M) (a b : ℕ) :
    ∑ R ∈ range (a * b), F R = ∑ r ∈ range a, ∑ c ∈ range b, F (r * b + c) := by
  induction a with
  | zero => simp
  | succ a ih => rw [Nat.succ_mul, Finset.sum_range_add, ih, Finset.sum_range_succ]

/-- The product of a row f with a banded column (tap g (R − h) on rows h ≤ R < h + 5, zero
    elsewhere) is the five-tap sum. Over the extended reals 0 is absorbing for every value, so no
    finiteness is needed. -/
theorem band_sum (f g : ℕ → EReal) (h N : ℕ) (hN : h + 5 ≤ N) :
    ∑ R ∈ range N, f R * (if h ≤ R ∧ R < h + 5 then g (R - h) else 0)
      = ∑ k ∈ range 5, f (h + k) * g k := by
  have e : ∀ R, f R * (if h ≤ R ∧ R < h + 5 then g (R - h) else 0)
      = if h ≤ R ∧ R < h + 5 then f R * g (R - h) else 0 := by
    intro R; split_ifs <;> simp
  simp only [e]
  rw [sum_range_window (fun R => f R * g (R - h)) h N hN]
  refine Finset.sum_congr rfl fun k _ => ?_
  rw [Nat.add_sub_cancel_left]

/-- Two adjacent four-height chunks (rows R = 64 r + ci, r < 4 each) against the two halves of a
    tap matrix whose column holds tap r − d on the heights d ≤ r < d + 5 of the eight: the two
    256-term products add up to the five-tap, 64-channel sum starting at height d. -/
theorem tap_sum (F G : ℕ → ℕ → EReal) (d : ℕ) (hd : d + 5 ≤ 8) :
    (∑ R ∈ range 256, F (R / 64) (R % 64)
        * (if d ≤ R / 64 ∧ R / 64 < d + 5 then G (R / 64 - d) (R % 64) else 0))
    + (∑ R ∈ range 256, F (4 + R / 64) (R % 64)
        * (if d ≤ (256 + R) / 64 ∧ (256 + R) / 64 < d + 5 then G ((256 + R) / 64 - d) ((256 + R) % 64) else 0))
    = ∑ k ∈ range 5, ∑ ci ∈ range 64, F (d + k) ci * G k ci := by
  let H : ℕ → EReal := fun R => F (R / 64) (R % 64)
      * (if d ≤ R / 64 ∧ R / 64 < d + 5 then G (R / 64 - d) (R % 64) else 0)
  have h2 : ∀ R, F (4 + R / 64) (R % 64)
        * (if d ≤ (256 + R) / 64 ∧ (256 + R) / 64 < d + 5 then G ((256 + R) / 64 - d) ((256 + R) % 64) else 0)
      = H (256 + R) := by
    intro R
    have e1 : (256 + R) / 64 = 4 + R / 64 := by omega
    have e2 : (256 + R) % 64 = R % 64 := by omega
    simp only [H, e1, e2]
  simp only [h2]
  rw [show (∑ R ∈ range 256, F (R / 64) (R % 64)
        * (if d ≤ R / 64 ∧ R / 64 < d + 5 then G (R / 64 - d) (R % 64) else 0)) = ∑ R ∈ range 256, H R from rfl,
    ← Finset.sum_range_add H 256 256, show 256 + 256 = 8 * 64 from rfl, sum_range_mul H 8 64]
  have e3 : ∀ r, ∑ c ∈ range 64, H (r * 64 + c)
      = if d ≤ r ∧ r < d + 5 then ∑ c ∈ range 64, F r c * G (r - d) c else 0 := by
    intro r
    have hc : ∀ c ∈ range 64, H (r * 64 + c)
        = if d ≤ r ∧ r < d + 5 then F r c * G (r - d) c else 0 := by
      intro c hc
      have hc' : c < 64 := mem_range.mp hc
      have q1 : (r * 64 + c) / 64 = r := by omega
      have q2 : (r * 64 + c) % 64 = c := by omega
      simp only [H, q1, q2]
      split_ifs <;> simp
    rw [Finset.sum_congr rfl hc]
    split_ifs <;> simp
  simp only [e3]
  rw [sum_range_window (fun r => ∑ c ∈ range 64, F r c * G (r - d) c) d 8 hd]
  refine Finset.sum_congr rfl fun k _ => ?_
  rw [Nat.add_sub_cancel_left]

end Cert.LibBand
-- ==== Proof.KConv1.lean ====
/-
  The kernel body's convolution payloads read at an index, at the ideal values: the two block
  products at an index (a sum over the contracted rows), the reshaped input block, and the two
  convolution laws — a 48-row product with the banded first-layer weight is the five-tap first
  convolution; two 256-row products of adjacent four-height chunks with the two halves of a tap
  matrix add up to the five-tap, 64-channel convolution. Then the first layer's eleven chunks.
-/
import proofs.«156904_g2000200884589374_pallasbulk_247_2_alg».proof.Proof.Gen.KernelIdeal.Skeleton
import proofs.«156904_g2000200884589374_pallasbulk_247_2_alg».proof.Proof.Spec
import proofs.«156904_g2000200884589374_pallasbulk_247_2_alg».proof.Proof.LibBand
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Finset

/-- The product of a [1536, 48] block with a [48, 256] block into the zero splat, read at (r, q): the sum over
    the 48 contracted rows. -/
theorem mm48_apply (A : FVec Ideal S1536x48 .bf16) (B : FVec Ideal S48x256 .bf16) (r : Fin 1536) (q : Fin 256) :
    matmul dot_S1536x48_S48x256_S1536x256_1_0_0_1_n_n none A B (constant S1536x256 .f32 0x00000000#32) (ix2 r q)
      = ∑ R : Fin 48, A (ix2 r R) * B (ix2 R q) := by
  show FloatOps.matmul _ none A B _ (ix2 r q) = _
  rw [Ideal.matmul_constant_zero_apply,
    ← Equiv.sum_comp (contrEquiv1 dot_S1536x48_S48x256_S1536x256_1_0_0_1_n_n 48 rfl rfl).symm]
  refine Finset.sum_congr rfl fun c _ => ?_
  have c2 := contrEquiv1_symm_val dot_S1536x48_S48x256_S1536x256_1_0_0_1_n_n 48 rfl rfl c
  have l2 : dot_S1536x48_S48x256_S1536x256_1_0_0_1_n_n.lhsIdx (ix2 r q) ((contrEquiv1 _ 48 rfl rfl).symm c) = ix2 r c := by
    funext ax; apply Fin.ext
    match ax with
    | ⟨0, _⟩ => simp [DotDims.lhsIdx, dot_S1536x48_S48x256_S1536x256_1_0_0_1_n_n]; rfl
    | ⟨1, _⟩ => simp [DotDims.lhsIdx, dot_S1536x48_S48x256_S1536x256_1_0_0_1_n_n]; exact c2
  have r2 : dot_S1536x48_S48x256_S1536x256_1_0_0_1_n_n.rhsIdx (ix2 r q) ((contrEquiv1 _ 48 rfl rfl).symm c) = ix2 c q := by
    funext ax; apply Fin.ext
    match ax with
    | ⟨0, _⟩ => simp [DotDims.rhsIdx, dot_S1536x48_S48x256_S1536x256_1_0_0_1_n_n]; exact c2
    | ⟨1, _⟩ => simp [DotDims.rhsIdx, dot_S1536x48_S48x256_S1536x256_1_0_0_1_n_n]; rfl
  rw [l2, r2]

/-- The product of a [1536, 256] block with a [256, 256] block into an accumulator, read at (r, q). -/
theorem mm256_acc_apply (A : FVec Ideal S1536x256 .bf16) (B : FVec Ideal S256x256 .bf16) (Z : FVec Ideal S1536x256 .f32)
    (r : Fin 1536) (q : Fin 256) :
    matmul dot_S1536x256_S256x256_S1536x256_1_0_0_1_n_n none A B Z (ix2 r q)
      = Z (ix2 r q) + ∑ R : Fin 256, A (ix2 r R) * B (ix2 R q) := by
  show FloatOps.matmul _ none A B _ (ix2 r q) = _
  rw [Ideal.matmul_apply,
    ← Equiv.sum_comp (contrEquiv1 dot_S1536x256_S256x256_S1536x256_1_0_0_1_n_n 256 rfl rfl).symm]
  refine congrArg (Z (ix2 r q) + ·) (Finset.sum_congr rfl fun c _ => ?_)
  have c2 := contrEquiv1_symm_val dot_S1536x256_S256x256_S1536x256_1_0_0_1_n_n 256 rfl rfl c
  have l2 : dot_S1536x256_S256x256_S1536x256_1_0_0_1_n_n.lhsIdx (ix2 r q) ((contrEquiv1 _ 256 rfl rfl).symm c) = ix2 r c := by
    funext ax; apply Fin.ext
    match ax with
    | ⟨0, _⟩ => simp [DotDims.lhsIdx, dot_S1536x256_S256x256_S1536x256_1_0_0_1_n_n]; rfl
    | ⟨1, _⟩ => simp [DotDims.lhsIdx, dot_S1536x256_S256x256_S1536x256_1_0_0_1_n_n]; exact c2
  have r2 : dot_S1536x256_S256x256_S1536x256_1_0_0_1_n_n.rhsIdx (ix2 r q) ((contrEquiv1 _ 256 rfl rfl).symm c) = ix2 c q := by
    funext ax; apply Fin.ext
    match ax with
    | ⟨0, _⟩ => simp [DotDims.rhsIdx, dot_S1536x256_S256x256_S1536x256_1_0_0_1_n_n]; exact c2
    | ⟨1, _⟩ => simp [DotDims.rhsIdx, dot_S1536x256_S256x256_S1536x256_1_0_0_1_n_n]; rfl
  rw [l2, r2]

/-- The same into the zero splat: just the sum. -/
theorem mm256_apply (A : FVec Ideal S1536x256 .bf16) (B : FVec Ideal S256x256 .bf16) (r : Fin 1536) (q : Fin 256) :
    matmul dot_S1536x256_S256x256_S1536x256_1_0_0_1_n_n none A B (constant S1536x256 .f32 0x00000000#32) (ix2 r q)
      = ∑ R : Fin 256, A (ix2 r R) * B (ix2 R q) := by
  rw [mm256_acc_apply, constant_apply, Ideal.ofBits_zero_f32, zero_add]

/-- The scalar zero constant is the extended real 0. -/
theorem scalar_zero_f32 : (Scalar.ofBits (F := Ideal) .f32 0x00000000#32) = (0 : EReal) := Ideal.ofBits_zero_f32

/-- The reshaped input block: row r = 128 w + b of the [1536, 48] matrix is row (w, b) of the [12, 128, 48] block. -/
theorem k0_pay2_apply (X : Vec Ideal S12x128x48 .f32) (r : Fin 1536) (R : Fin 48) :
    k0_pay2 X (ix2 r R) = X (ix3 (⟨r.val / 128, by omega⟩ : Fin 12) (⟨r.val % 128, by omega⟩ : Fin 128) R) := by
  unfold k0_pay2
  simp only [shapeCast_self]
  rw [truncf_apply]
  refine shapeCast_apply _ _ _ _ ?_
  rw [Shape.rowMajor_val_three, Shape.rowMajor_val_two]
  show (r.val / 128 * 128 + r.val % 128) * 48 + R.val = r.val * 48 + R.val
  have := Nat.div_add_mod r.val 128
  omega

/-- The reshaped input block in terms of the network's input: row r is image n0 + r % 128 at width r / 128. -/
theorem k0_pay2_spec (p : Cert.Spec.Args) (n0 : ℕ) (X : Vec Ideal S12x128x48 .f32)
    (hX : ∀ (w : Fin 12) (b : Fin 128) (R : Fin 48), X (ix3 w b R) = Cert.Spec.xN p (n0 + b.val) R.val w.val)
    (r : Fin 1536) (R : Fin 48) :
    k0_pay2 X (ix2 r R) = Cert.Spec.xN p (n0 + r.val % 128) R.val (r.val / 128) := by
  rw [k0_pay2_apply, hX]

/-- The 48-row product with the banded first-layer weight is the five-tap sum: the first convolution. -/
theorem conv1_core (p : Cert.Spec.Args) (n0 j : ℕ) (hj : j ≤ 10)
    (A : FVec Ideal S1536x48 .bf16) (B : Vec Ideal S1x256 .f32) (W : Vec Ideal S48x256 .bf16)
    (hA : ∀ (r : Fin 1536) (R : Fin 48), A (ix2 r R) = Cert.Spec.xN p (n0 + r.val % 128) R.val (r.val / 128))
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    max ((∑ R : Fin 48, A (ix2 r R) * W (ix2 R q)) + B (ix2 (0 : Fin 1) q)) 0
      = Cert.Spec.c1 p (n0 + r.val % 128) (4 * j + q.val / 64) (r.val / 128) (q.val % 64) := by
  have hq := q.isLt
  simp only [hA, hW, hB]
  rw [Fin.sum_univ_eq_sum_range
    (fun R => Cert.Spec.xN p (n0 + r.val % 128) R (r.val / 128) * Cert.Spec.band1 p R (256 * j + q.val)) 48]
  unfold Cert.Spec.band1 Cert.Spec.tile4 Cert.Spec.c1
  have e1 : (256 * j + q.val) / 256 = j := by omega
  have e2 : (256 * j + q.val) % 256 = q.val := by omega
  have e3 : (256 * j + q.val) % 64 = q.val % 64 := by omega
  simp only [e1, e2, e3]
  rw [Cert.LibBand.band_sum (fun R => Cert.Spec.xN p (n0 + r.val % 128) R (r.val / 128))
    (fun k => Cert.Spec.mat p.w1 k (q.val % 64)) (4 * j + q.val / 64) 48 (by omega)]

/-- Two adjacent chunks of an activation a against the two halves of the tap matrix of w, the bias row, the
    clip at zero: the later convolution conv a w b at chunk j. -/
theorem conv_core (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    max (((∑ R : Fin 256, A (ix2 r R) * Wa (ix2 R q)) + ∑ R : Fin 256, A' (ix2 r R) * Wb (ix2 R q))
        + B (ix2 (0 : Fin 1) q)) 0
      = Cert.Spec.conv a w b (n0 + r.val % 128) (4 * j + q.val / 64) (r.val / 128) (q.val % 64) := by
  have hq := q.isLt
  simp only [hA, hA', hWa, hWb, hB]
  rw [Fin.sum_univ_eq_sum_range
      (fun R => a (n0 + r.val % 128) (4 * j + R / 64) (r.val / 128) (R % 64) * Cert.Spec.tap w R q.val) 256,
    Fin.sum_univ_eq_sum_range
      (fun R => a (n0 + r.val % 128) (4 * (j + 1) + R / 64) (r.val / 128) (R % 64)
        * Cert.Spec.tap w (256 + R) q.val) 256]
  unfold Cert.Spec.tap Cert.Spec.tile4 Cert.Spec.conv
  have key := Cert.LibBand.tap_sum (fun h c => a (n0 + r.val % 128) (4 * j + h) (r.val / 128) c)
    (fun k ci => Cert.Spec.mat w (k * 64 + ci) (q.val % 64)) (q.val / 64) (by omega)
  beta_reduce at key
  have e : ∀ R : ℕ, 4 * (j + 1) + R / 64 = 4 * j + (4 + R / 64) := fun R => by omega
  simp only [e, Nat.add_assoc]
  rw [key]

theorem k0_pay3_eq (X : Vec Ideal S12x128x48 .f32) (B : Vec Ideal S1x256 .f32) (W : Vec Ideal S48x256 .bf16)
    (r : Fin 1536) (q : Fin 256) :
    k0_pay3 X B W (ix2 r q)
      = max ((∑ R : Fin 48, k0_pay2 X (ix2 r R) * W (ix2 R q)) + B (ix2 (0 : Fin 1) q)) 0 := by
  unfold k0_pay3
  simp only [shapeCast_self]
  rw [truncf_apply, maximumf_apply, addf_apply, mm48_apply, broadcastTo_1b_ab_apply, broadcast_apply, scalar_zero_f32]

/-- A first-layer chunk computed from the input block: chunk j of the first convolution. -/
theorem k0_pay3_apply (p : Cert.Spec.Args) (n0 j : ℕ) (hj : j ≤ 10)
    (X : Vec Ideal S12x128x48 .f32) (B : Vec Ideal S1x256 .f32) (W : Vec Ideal S48x256 .bf16)
    (hX : ∀ (w : Fin 12) (b : Fin 128) (R : Fin 48), X (ix3 w b R) = Cert.Spec.xN p (n0 + b.val) R.val w.val)
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay3 X B W (ix2 r q)
      = Cert.Spec.c1 p (n0 + r.val % 128) (4 * j + q.val / 64) (r.val / 128) (q.val % 64) := by
  rw [k0_pay3_eq]
  exact conv1_core p n0 j hj (k0_pay2 X) B W (fun r R => k0_pay2_spec p n0 X hX r R) hB hW r q

theorem k0_pay4_eq (X : Vec Ideal S12x128x48 .f32) (B : Vec Ideal S1x256 .f32) (W : Vec Ideal S48x256 .bf16)
    (r : Fin 1536) (q : Fin 256) :
    k0_pay4 X B W (ix2 r q)
      = max ((∑ R : Fin 48, k0_pay2 X (ix2 r R) * W (ix2 R q)) + B (ix2 (0 : Fin 1) q)) 0 := by
  unfold k0_pay4
  simp only [shapeCast_self]
  rw [truncf_apply, maximumf_apply, addf_apply, mm48_apply, broadcastTo_1b_ab_apply, broadcast_apply, scalar_zero_f32]

/-- A first-layer chunk computed from the input block: chunk j of the first convolution. -/
theorem k0_pay4_apply (p : Cert.Spec.Args) (n0 j : ℕ) (hj : j ≤ 10)
    (X : Vec Ideal S12x128x48 .f32) (B : Vec Ideal S1x256 .f32) (W : Vec Ideal S48x256 .bf16)
    (hX : ∀ (w : Fin 12) (b : Fin 128) (R : Fin 48), X (ix3 w b R) = Cert.Spec.xN p (n0 + b.val) R.val w.val)
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay4 X B W (ix2 r q)
      = Cert.Spec.c1 p (n0 + r.val % 128) (4 * j + q.val / 64) (r.val / 128) (q.val % 64) := by
  rw [k0_pay4_eq]
  exact conv1_core p n0 j hj (k0_pay2 X) B W (fun r R => k0_pay2_spec p n0 X hX r R) hB hW r q

theorem k0_pay5_eq (X : Vec Ideal S12x128x48 .f32) (B : Vec Ideal S1x256 .f32) (W : Vec Ideal S48x256 .bf16)
    (r : Fin 1536) (q : Fin 256) :
    k0_pay5 X B W (ix2 r q)
      = max ((∑ R : Fin 48, k0_pay2 X (ix2 r R) * W (ix2 R q)) + B (ix2 (0 : Fin 1) q)) 0 := by
  unfold k0_pay5
  simp only [shapeCast_self]
  rw [truncf_apply, maximumf_apply, addf_apply, mm48_apply, broadcastTo_1b_ab_apply, broadcast_apply, scalar_zero_f32]

/-- A first-layer chunk computed from the input block: chunk j of the first convolution. -/
theorem k0_pay5_apply (p : Cert.Spec.Args) (n0 j : ℕ) (hj : j ≤ 10)
    (X : Vec Ideal S12x128x48 .f32) (B : Vec Ideal S1x256 .f32) (W : Vec Ideal S48x256 .bf16)
    (hX : ∀ (w : Fin 12) (b : Fin 128) (R : Fin 48), X (ix3 w b R) = Cert.Spec.xN p (n0 + b.val) R.val w.val)
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay5 X B W (ix2 r q)
      = Cert.Spec.c1 p (n0 + r.val % 128) (4 * j + q.val / 64) (r.val / 128) (q.val % 64) := by
  rw [k0_pay5_eq]
  exact conv1_core p n0 j hj (k0_pay2 X) B W (fun r R => k0_pay2_spec p n0 X hX r R) hB hW r q

theorem k0_pay6_eq (X : Vec Ideal S12x128x48 .f32) (B : Vec Ideal S1x256 .f32) (W : Vec Ideal S48x256 .bf16)
    (r : Fin 1536) (q : Fin 256) :
    k0_pay6 X B W (ix2 r q)
      = max ((∑ R : Fin 48, k0_pay2 X (ix2 r R) * W (ix2 R q)) + B (ix2 (0 : Fin 1) q)) 0 := by
  unfold k0_pay6
  simp only [shapeCast_self]
  rw [truncf_apply, maximumf_apply, addf_apply, mm48_apply, broadcastTo_1b_ab_apply, broadcast_apply, scalar_zero_f32]

/-- A first-layer chunk computed from the input block: chunk j of the first convolution. -/
theorem k0_pay6_apply (p : Cert.Spec.Args) (n0 j : ℕ) (hj : j ≤ 10)
    (X : Vec Ideal S12x128x48 .f32) (B : Vec Ideal S1x256 .f32) (W : Vec Ideal S48x256 .bf16)
    (hX : ∀ (w : Fin 12) (b : Fin 128) (R : Fin 48), X (ix3 w b R) = Cert.Spec.xN p (n0 + b.val) R.val w.val)
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay6 X B W (ix2 r q)
      = Cert.Spec.c1 p (n0 + r.val % 128) (4 * j + q.val / 64) (r.val / 128) (q.val % 64) := by
  rw [k0_pay6_eq]
  exact conv1_core p n0 j hj (k0_pay2 X) B W (fun r R => k0_pay2_spec p n0 X hX r R) hB hW r q

theorem k0_pay7_eq (A : FVec Ideal S1536x48 .bf16) (B : Vec Ideal S1x256 .f32) (W : Vec Ideal S48x256 .bf16)
    (r : Fin 1536) (q : Fin 256) :
    k0_pay7 A B W (ix2 r q) = max ((∑ R : Fin 48, A (ix2 r R) * W (ix2 R q)) + B (ix2 (0 : Fin 1) q)) 0 := by
  unfold k0_pay7
  simp only [shapeCast_self]
  rw [truncf_apply, maximumf_apply, addf_apply, mm48_apply, broadcastTo_1b_ab_apply, broadcast_apply, scalar_zero_f32]

/-- A first-layer chunk computed from the reshaped input: chunk j of the first convolution. -/
theorem k0_pay7_apply (p : Cert.Spec.Args) (n0 j : ℕ) (hj : j ≤ 10)
    (A : FVec Ideal S1536x48 .bf16) (B : Vec Ideal S1x256 .f32) (W : Vec Ideal S48x256 .bf16)
    (hA : ∀ (r : Fin 1536) (R : Fin 48), A (ix2 r R) = Cert.Spec.xN p (n0 + r.val % 128) R.val (r.val / 128))
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay7 A B W (ix2 r q)
      = Cert.Spec.c1 p (n0 + r.val % 128) (4 * j + q.val / 64) (r.val / 128) (q.val % 64) := by
  rw [k0_pay7_eq]
  exact conv1_core p n0 j hj A B W hA hB hW r q

theorem k0_pay8_eq (A : FVec Ideal S1536x48 .bf16) (B : Vec Ideal S1x256 .f32) (W : Vec Ideal S48x256 .bf16)
    (r : Fin 1536) (q : Fin 256) :
    k0_pay8 A B W (ix2 r q) = max ((∑ R : Fin 48, A (ix2 r R) * W (ix2 R q)) + B (ix2 (0 : Fin 1) q)) 0 := by
  unfold k0_pay8
  simp only [shapeCast_self]
  rw [truncf_apply, maximumf_apply, addf_apply, mm48_apply, broadcastTo_1b_ab_apply, broadcast_apply, scalar_zero_f32]

/-- A first-layer chunk computed from the reshaped input: chunk j of the first convolution. -/
theorem k0_pay8_apply (p : Cert.Spec.Args) (n0 j : ℕ) (hj : j ≤ 10)
    (A : FVec Ideal S1536x48 .bf16) (B : Vec Ideal S1x256 .f32) (W : Vec Ideal S48x256 .bf16)
    (hA : ∀ (r : Fin 1536) (R : Fin 48), A (ix2 r R) = Cert.Spec.xN p (n0 + r.val % 128) R.val (r.val / 128))
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay8 A B W (ix2 r q)
      = Cert.Spec.c1 p (n0 + r.val % 128) (4 * j + q.val / 64) (r.val / 128) (q.val % 64) := by
  rw [k0_pay8_eq]
  exact conv1_core p n0 j hj A B W hA hB hW r q

theorem k0_pay9_eq (A : FVec Ideal S1536x48 .bf16) (B : Vec Ideal S1x256 .f32) (W : Vec Ideal S48x256 .bf16)
    (r : Fin 1536) (q : Fin 256) :
    k0_pay9 A B W (ix2 r q) = max ((∑ R : Fin 48, A (ix2 r R) * W (ix2 R q)) + B (ix2 (0 : Fin 1) q)) 0 := by
  unfold k0_pay9
  simp only [shapeCast_self]
  rw [truncf_apply, maximumf_apply, addf_apply, mm48_apply, broadcastTo_1b_ab_apply, broadcast_apply, scalar_zero_f32]

/-- A first-layer chunk computed from the reshaped input: chunk j of the first convolution. -/
theorem k0_pay9_apply (p : Cert.Spec.Args) (n0 j : ℕ) (hj : j ≤ 10)
    (A : FVec Ideal S1536x48 .bf16) (B : Vec Ideal S1x256 .f32) (W : Vec Ideal S48x256 .bf16)
    (hA : ∀ (r : Fin 1536) (R : Fin 48), A (ix2 r R) = Cert.Spec.xN p (n0 + r.val % 128) R.val (r.val / 128))
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay9 A B W (ix2 r q)
      = Cert.Spec.c1 p (n0 + r.val % 128) (4 * j + q.val / 64) (r.val / 128) (q.val % 64) := by
  rw [k0_pay9_eq]
  exact conv1_core p n0 j hj A B W hA hB hW r q

theorem k0_pay10_eq (A : FVec Ideal S1536x48 .bf16) (B : Vec Ideal S1x256 .f32) (W : Vec Ideal S48x256 .bf16)
    (r : Fin 1536) (q : Fin 256) :
    k0_pay10 A B W (ix2 r q) = max ((∑ R : Fin 48, A (ix2 r R) * W (ix2 R q)) + B (ix2 (0 : Fin 1) q)) 0 := by
  unfold k0_pay10
  simp only [shapeCast_self]
  rw [truncf_apply, maximumf_apply, addf_apply, mm48_apply, broadcastTo_1b_ab_apply, broadcast_apply, scalar_zero_f32]

/-- A first-layer chunk computed from the reshaped input: chunk j of the first convolution. -/
theorem k0_pay10_apply (p : Cert.Spec.Args) (n0 j : ℕ) (hj : j ≤ 10)
    (A : FVec Ideal S1536x48 .bf16) (B : Vec Ideal S1x256 .f32) (W : Vec Ideal S48x256 .bf16)
    (hA : ∀ (r : Fin 1536) (R : Fin 48), A (ix2 r R) = Cert.Spec.xN p (n0 + r.val % 128) R.val (r.val / 128))
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay10 A B W (ix2 r q)
      = Cert.Spec.c1 p (n0 + r.val % 128) (4 * j + q.val / 64) (r.val / 128) (q.val % 64) := by
  rw [k0_pay10_eq]
  exact conv1_core p n0 j hj A B W hA hB hW r q

theorem k0_pay11_eq (A : FVec Ideal S1536x48 .bf16) (B : Vec Ideal S1x256 .f32) (W : Vec Ideal S48x256 .bf16)
    (r : Fin 1536) (q : Fin 256) :
    k0_pay11 A B W (ix2 r q) = max ((∑ R : Fin 48, A (ix2 r R) * W (ix2 R q)) + B (ix2 (0 : Fin 1) q)) 0 := by
  unfold k0_pay11
  simp only [shapeCast_self]
  rw [truncf_apply, maximumf_apply, addf_apply, mm48_apply, broadcastTo_1b_ab_apply, broadcast_apply, scalar_zero_f32]

/-- A first-layer chunk computed from the reshaped input: chunk j of the first convolution. -/
theorem k0_pay11_apply (p : Cert.Spec.Args) (n0 j : ℕ) (hj : j ≤ 10)
    (A : FVec Ideal S1536x48 .bf16) (B : Vec Ideal S1x256 .f32) (W : Vec Ideal S48x256 .bf16)
    (hA : ∀ (r : Fin 1536) (R : Fin 48), A (ix2 r R) = Cert.Spec.xN p (n0 + r.val % 128) R.val (r.val / 128))
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay11 A B W (ix2 r q)
      = Cert.Spec.c1 p (n0 + r.val % 128) (4 * j + q.val / 64) (r.val / 128) (q.val % 64) := by
  rw [k0_pay11_eq]
  exact conv1_core p n0 j hj A B W hA hB hW r q

theorem k0_pay12_eq (A : FVec Ideal S1536x48 .bf16) (B : Vec Ideal S1x256 .f32) (W : Vec Ideal S48x256 .bf16)
    (r : Fin 1536) (q : Fin 256) :
    k0_pay12 A B W (ix2 r q) = max ((∑ R : Fin 48, A (ix2 r R) * W (ix2 R q)) + B (ix2 (0 : Fin 1) q)) 0 := by
  unfold k0_pay12
  simp only [shapeCast_self]
  rw [truncf_apply, maximumf_apply, addf_apply, mm48_apply, broadcastTo_1b_ab_apply, broadcast_apply, scalar_zero_f32]

/-- A first-layer chunk computed from the reshaped input: chunk j of the first convolution. -/
theorem k0_pay12_apply (p : Cert.Spec.Args) (n0 j : ℕ) (hj : j ≤ 10)
    (A : FVec Ideal S1536x48 .bf16) (B : Vec Ideal S1x256 .f32) (W : Vec Ideal S48x256 .bf16)
    (hA : ∀ (r : Fin 1536) (R : Fin 48), A (ix2 r R) = Cert.Spec.xN p (n0 + r.val % 128) R.val (r.val / 128))
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay12 A B W (ix2 r q)
      = Cert.Spec.c1 p (n0 + r.val % 128) (4 * j + q.val / 64) (r.val / 128) (q.val % 64) := by
  rw [k0_pay12_eq]
  exact conv1_core p n0 j hj A B W hA hB hW r q

theorem k0_pay13_eq (A : FVec Ideal S1536x48 .bf16) (B : Vec Ideal S1x256 .f32) (W : Vec Ideal S48x256 .bf16)
    (r : Fin 1536) (q : Fin 256) :
    k0_pay13 A B W (ix2 r q) = max ((∑ R : Fin 48, A (ix2 r R) * W (ix2 R q)) + B (ix2 (0 : Fin 1) q)) 0 := by
  unfold k0_pay13
  simp only [shapeCast_self]
  rw [truncf_apply, maximumf_apply, addf_apply, mm48_apply, broadcastTo_1b_ab_apply, broadcast_apply, scalar_zero_f32]

/-- A first-layer chunk computed from the reshaped input: chunk j of the first convolution. -/
theorem k0_pay13_apply (p : Cert.Spec.Args) (n0 j : ℕ) (hj : j ≤ 10)
    (A : FVec Ideal S1536x48 .bf16) (B : Vec Ideal S1x256 .f32) (W : Vec Ideal S48x256 .bf16)
    (hA : ∀ (r : Fin 1536) (R : Fin 48), A (ix2 r R) = Cert.Spec.xN p (n0 + r.val % 128) R.val (r.val / 128))
    (hB : ∀ q : Fin 256, B (ix2 (0 : Fin 1) q) = Cert.Spec.tile4 p.b1 q.val)
    (hW : ∀ (R : Fin 48) (q : Fin 256), W (ix2 R q) = Cert.Spec.band1 p R.val (256 * j + q.val))
    (r : Fin 1536) (q : Fin 256) :
    k0_pay13 A B W (ix2 r q)
      = Cert.Spec.c1 p (n0 + r.val % 128) (4 * j + q.val / 64) (r.val / 128) (q.val % 64) := by
  rw [k0_pay13_eq]
  exact conv1_core p n0 j hj A B W hA hB hW r q

end Cert.KernelIdeal.Hand

end
-- ==== Proof.KConv2.lean ====
/-
  The second convolution's ten chunks read at an index, at the ideal values: each is the later
  convolution of the first layer's activation at its chunk; the chunks the program computes in
  two or three pieces are given piece by piece and as the program composes them.
-/
import proofs.«156904_g2000200884589374_pallasbulk_247_2_alg».proof.Proof.KConv1

noncomputable section

namespace Cert.KernelIdeal.Hand

open Idealize.ShloMosaic Idealize.ShloMosaic.ValueIdx Cert.KernelIdeal Cert.KernelIdeal.Gen Finset

/-- A shape cast to the same shape reads the operand. -/
theorem k0_pay14_apply (W : Vec Ideal S256x256 .bf16) (i : S256x256.Idx) : k0_pay14 W i = W i := by
  unfold k0_pay14
  simp only [shapeCast_self]

/-- A shape cast to the same shape reads the operand. -/
theorem k0_pay15_apply (W : Vec Ideal S256x256 .bf16) (i : S256x256.Idx) : k0_pay15 W i = W i := by
  unfold k0_pay15
  simp only [shapeCast_self]

theorem k0_pay16_eq (A A' : FVec Ideal S1536x256 .bf16) (Wa Wb : Vec Ideal S256x256 .bf16)
    (B : Vec Ideal S1x256 .f32) (r : Fin 1536) (q : Fin 256) :
    k0_pay16 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay16
  simp only [k0_pay14, k0_pay15, shapeCast_self, truncf_apply, maximumf_apply, addf_apply, mm256_apply,
    broadcastTo_1b_ab_apply, broadcast_apply, scalar_zero_f32]

/-- A whole chunk of a later convolution from two adjacent chunks of the layer below. -/
theorem k0_pay16_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : Vec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay16 A A' Wa Wb B (ix2 r q) = Cert.Spec.conv a w b (n0 + r.val % 128) (4 * j + q.val / 64) (r.val / 128) (q.val % 64) := by
  rw [k0_pay16_eq]
  exact conv_core a w b n0 j A A' Wa Wb B hA hA' hWa hWb hB r q

theorem k0_pay17_eq (A A' : FVec Ideal S1536x256 .bf16) (Wa Wb : Vec Ideal S256x256 .bf16)
    (B : Vec Ideal S1x256 .f32) (r : Fin 1536) (q : Fin 256) :
    k0_pay17 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay17
  simp only [k0_pay14, k0_pay15, shapeCast_self, truncf_apply, maximumf_apply, addf_apply, mm256_apply,
    broadcastTo_1b_ab_apply, broadcast_apply, scalar_zero_f32]

/-- A whole chunk of a later convolution from two adjacent chunks of the layer below. -/
theorem k0_pay17_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : Vec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay17 A A' Wa Wb B (ix2 r q) = Cert.Spec.conv a w b (n0 + r.val % 128) (4 * j + q.val / 64) (r.val / 128) (q.val % 64) := by
  rw [k0_pay17_eq]
  exact conv_core a w b n0 j A A' Wa Wb B hA hA' hWa hWb hB r q

/-- A half product: one chunk against one half of the tap matrix, a sum over its 256 rows. -/
theorem k0_pay18_apply (A : FVec Ideal S1536x256 .bf16) (Wa : Vec Ideal S256x256 .bf16) (r : Fin 1536) (q : Fin 256) :
    k0_pay18 A Wa (ix2 r q) = ∑ R : Fin 256, A (ix2 r R) * Wa (ix2 R q) := by
  unfold k0_pay18
  simp only [k0_pay14, shapeCast_self, mm256_apply]

/-- A half product: one chunk against one half of the tap matrix, a sum over its 256 rows. -/
theorem k0_pay19_apply (A' : FVec Ideal S1536x256 .bf16) (Wb : Vec Ideal S256x256 .bf16) (r : Fin 1536) (q : Fin 256) :
    k0_pay19 A' Wb (ix2 r q) = ∑ R : Fin 256, A' (ix2 r R) * Wb (ix2 R q) := by
  unfold k0_pay19
  simp only [k0_pay15, shapeCast_self, mm256_apply]

theorem k0_pay20_eq (B : Vec Ideal S1x256 .f32) (H1 H2 : FVec Ideal S1536x256 .f32) (r : Fin 1536) (q : Fin 256) :
    k0_pay20 B H1 H2 (ix2 r q) = max ((H1 (ix2 r q) + H2 (ix2 r q)) + B (ix2 (0 : Fin 1) q)) 0 := by
  unfold k0_pay20
  simp only [shapeCast_self, truncf_apply, maximumf_apply, addf_apply, mm256_apply,
    broadcastTo_1b_ab_apply, broadcast_apply, scalar_zero_f32]

/-- The closing payload of a split chunk: the two half products, the bias row, the clip at zero. -/
theorem k0_pay20_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (H1 H2 : FVec Ideal S1536x256 .f32)
    (hH1 : ∀ (r : Fin 1536) (q : Fin 256), H1 (ix2 r q) = ∑ R : Fin 256, A (ix2 r R) * Wa (ix2 R q))
    (hH2 : ∀ (r : Fin 1536) (q : Fin 256), H2 (ix2 r q) = ∑ R : Fin 256, A' (ix2 r R) * Wb (ix2 R q))
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay20 B H1 H2 (ix2 r q) = Cert.Spec.conv a w b (n0 + r.val % 128) (4 * j + q.val / 64) (r.val / 128) (q.val % 64) := by
  rw [k0_pay20_eq, hH1, hH2]
  exact conv_core a w b n0 j A A' Wa Wb B hA hA' hWa hWb hB r q

/-- The split chunk as the program composes it. -/
theorem k0_pay20_chunk (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : Vec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay20 B (k0_pay18 A Wa) (k0_pay19 A' Wb) (ix2 r q) = Cert.Spec.conv a w b (n0 + r.val % 128) (4 * j + q.val / 64) (r.val / 128) (q.val % 64) :=
  k0_pay20_apply a w b n0 j A A' Wa Wb B _ _ (k0_pay18_apply A Wa) (k0_pay19_apply A' Wb) hA hA' hWa hWb hB r q

theorem k0_pay21_eq (A A' : FVec Ideal S1536x256 .bf16) (Wa Wb : FVec Ideal S256x256 .bf16)
    (B : Vec Ideal S1x256 .f32) (r : Fin 1536) (q : Fin 256) :
    k0_pay21 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay21
  simp only [shapeCast_self, truncf_apply, maximumf_apply, addf_apply, mm256_apply,
    broadcastTo_1b_ab_apply, broadcast_apply, scalar_zero_f32]

/-- A whole chunk of a later convolution from two adjacent chunks of the layer below. -/
theorem k0_pay21_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay21 A A' Wa Wb B (ix2 r q) = Cert.Spec.conv a w b (n0 + r.val % 128) (4 * j + q.val / 64) (r.val / 128) (q.val % 64) := by
  rw [k0_pay21_eq]
  exact conv_core a w b n0 j A A' Wa Wb B hA hA' hWa hWb hB r q

theorem k0_pay22_eq (A A' : FVec Ideal S1536x256 .bf16) (Wa Wb : FVec Ideal S256x256 .bf16)
    (B : Vec Ideal S1x256 .f32) (r : Fin 1536) (q : Fin 256) :
    k0_pay22 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay22
  simp only [shapeCast_self, truncf_apply, maximumf_apply, addf_apply, mm256_apply,
    broadcastTo_1b_ab_apply, broadcast_apply, scalar_zero_f32]

/-- A whole chunk of a later convolution from two adjacent chunks of the layer below. -/
theorem k0_pay22_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay22 A A' Wa Wb B (ix2 r q) = Cert.Spec.conv a w b (n0 + r.val % 128) (4 * j + q.val / 64) (r.val / 128) (q.val % 64) := by
  rw [k0_pay22_eq]
  exact conv_core a w b n0 j A A' Wa Wb B hA hA' hWa hWb hB r q

theorem k0_pay23_eq (A A' : FVec Ideal S1536x256 .bf16) (Wa Wb : FVec Ideal S256x256 .bf16)
    (B : Vec Ideal S1x256 .f32) (r : Fin 1536) (q : Fin 256) :
    k0_pay23 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay23
  simp only [shapeCast_self, truncf_apply, maximumf_apply, addf_apply, mm256_apply,
    broadcastTo_1b_ab_apply, broadcast_apply, scalar_zero_f32]

/-- A whole chunk of a later convolution from two adjacent chunks of the layer below. -/
theorem k0_pay23_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay23 A A' Wa Wb B (ix2 r q) = Cert.Spec.conv a w b (n0 + r.val % 128) (4 * j + q.val / 64) (r.val / 128) (q.val % 64) := by
  rw [k0_pay23_eq]
  exact conv_core a w b n0 j A A' Wa Wb B hA hA' hWa hWb hB r q

theorem k0_pay24_eq (A A' : FVec Ideal S1536x256 .bf16) (Wa Wb : FVec Ideal S256x256 .bf16)
    (B : Vec Ideal S1x256 .f32) (r : Fin 1536) (q : Fin 256) :
    k0_pay24 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay24
  simp only [shapeCast_self, truncf_apply, maximumf_apply, addf_apply, mm256_apply,
    broadcastTo_1b_ab_apply, broadcast_apply, scalar_zero_f32]

/-- A whole chunk of a later convolution from two adjacent chunks of the layer below. -/
theorem k0_pay24_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay24 A A' Wa Wb B (ix2 r q) = Cert.Spec.conv a w b (n0 + r.val % 128) (4 * j + q.val / 64) (r.val / 128) (q.val % 64) := by
  rw [k0_pay24_eq]
  exact conv_core a w b n0 j A A' Wa Wb B hA hA' hWa hWb hB r q

/-- A chunk before the clip: the two products and the bias row. -/
theorem k0_pay25_apply (A A' : FVec Ideal S1536x256 .bf16) (Wa Wb : FVec Ideal S256x256 .bf16)
    (B : Vec Ideal S1x256 .f32) (r : Fin 1536) (q : Fin 256) :
    k0_pay25 A A' Wa Wb B (ix2 r q)
      = ((∑ R : Fin 256, A (ix2 r R) * Wa (ix2 R q)) + ∑ R : Fin 256, A' (ix2 r R) * Wb (ix2 R q)) + B (ix2 (0 : Fin 1) q) := by
  unfold k0_pay25
  simp only [shapeCast_self, truncf_apply, maximumf_apply, addf_apply, mm256_apply,
    broadcastTo_1b_ab_apply, broadcast_apply, scalar_zero_f32]

/-- The zero splat the clip compares with. -/
theorem k0_pay26_apply (i : S1536x256.Idx) : k0_pay26 (F := Ideal) i = (0 : EReal) := by
  unfold k0_pay26
  simp only [broadcast_apply, scalar_zero_f32]

theorem k0_pay27_eq (P Z : FVec Ideal S1536x256 .f32) (i : S1536x256.Idx) : k0_pay27 P Z i = max (P i) (Z i) := by
  unfold k0_pay27
  simp only [truncf_apply, maximumf_apply]

/-- The clip of a chunk held before the clip. -/
theorem k0_pay27_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (P Z : FVec Ideal S1536x256 .f32)
    (hP : ∀ (r : Fin 1536) (q : Fin 256), P (ix2 r q)
      = ((∑ R : Fin 256, A (ix2 r R) * Wa (ix2 R q)) + ∑ R : Fin 256, A' (ix2 r R) * Wb (ix2 R q)) + B (ix2 (0 : Fin 1) q))
    (hZ : ∀ i, Z i = (0 : EReal))
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay27 P Z (ix2 r q) = Cert.Spec.conv a w b (n0 + r.val % 128) (4 * j + q.val / 64) (r.val / 128) (q.val % 64) := by
  rw [k0_pay27_eq, hP, hZ]
  exact conv_core a w b n0 j A A' Wa Wb B hA hA' hWa hWb hB r q

/-- The chunk cut before its clip, as the program composes it. -/
theorem k0_pay27_chunk (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay27 (k0_pay25 A A' Wa Wb B) k0_pay26 (ix2 r q) = Cert.Spec.conv a w b (n0 + r.val % 128) (4 * j + q.val / 64) (r.val / 128) (q.val % 64) :=
  k0_pay27_apply a w b n0 j A A' Wa Wb B _ _ (k0_pay25_apply A A' Wa Wb B) k0_pay26_apply hA hA' hWa hWb hB r q

theorem k0_pay28_eq (A A' : FVec Ideal S1536x256 .bf16) (Wa Wb : FVec Ideal S256x256 .bf16)
    (B : Vec Ideal S1x256 .f32) (r : Fin 1536) (q : Fin 256) :
    k0_pay28 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay28
  simp only [shapeCast_self, truncf_apply, maximumf_apply, addf_apply, mm256_apply,
    broadcastTo_1b_ab_apply, broadcast_apply, scalar_zero_f32]

/-- A whole chunk of a later convolution from two adjacent chunks of the layer below. -/
theorem k0_pay28_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay28 A A' Wa Wb B (ix2 r q) = Cert.Spec.conv a w b (n0 + r.val % 128) (4 * j + q.val / 64) (r.val / 128) (q.val % 64) := by
  rw [k0_pay28_eq]
  exact conv_core a w b n0 j A A' Wa Wb B hA hA' hWa hWb hB r q

theorem k0_pay29_eq (A A' : FVec Ideal S1536x256 .bf16) (Wa Wb : FVec Ideal S256x256 .bf16)
    (B : Vec Ideal S1x256 .f32) (r : Fin 1536) (q : Fin 256) :
    k0_pay29 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay29
  simp only [shapeCast_self, truncf_apply, maximumf_apply, addf_apply, mm256_apply,
    broadcastTo_1b_ab_apply, broadcast_apply, scalar_zero_f32]

/-- A whole chunk of a later convolution from two adjacent chunks of the layer below. -/
theorem k0_pay29_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay29 A A' Wa Wb B (ix2 r q) = Cert.Spec.conv a w b (n0 + r.val % 128) (4 * j + q.val / 64) (r.val / 128) (q.val % 64) := by
  rw [k0_pay29_eq]
  exact conv_core a w b n0 j A A' Wa Wb B hA hA' hWa hWb hB r q

end Cert.KernelIdeal.Hand

end
-- ==== Proof.KConv3.lean ====
/-
  The third convolution's nine chunks read at an index, at the ideal values: each is the later
  convolution of the second layer's activation at its chunk; the chunks the program computes in
  pieces are given piece by piece and as the program composes them.
-/
import proofs.«156904_g2000200884589374_pallasbulk_247_2_alg».proof.Proof.KConv1

noncomputable section

namespace Cert.KernelIdeal.Hand

open Idealize.ShloMosaic Idealize.ShloMosaic.ValueIdx Cert.KernelIdeal Cert.KernelIdeal.Gen Finset

/-- A shape cast to the same shape reads the operand. -/
theorem k0_pay30_apply (W : Vec Ideal S256x256 .bf16) (i : S256x256.Idx) : k0_pay30 W i = W i := by
  unfold k0_pay30
  simp only [shapeCast_self]

/-- A shape cast to the same shape reads the operand. -/
theorem k0_pay31_apply (W : Vec Ideal S256x256 .bf16) (i : S256x256.Idx) : k0_pay31 W i = W i := by
  unfold k0_pay31
  simp only [shapeCast_self]

theorem k0_pay32_eq (A A' : FVec Ideal S1536x256 .bf16) (Wa Wb : Vec Ideal S256x256 .bf16)
    (B : Vec Ideal S1x256 .f32) (r : Fin 1536) (q : Fin 256) :
    k0_pay32 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay32
  simp only [k0_pay30, k0_pay31, shapeCast_self, truncf_apply, maximumf_apply, addf_apply, mm256_apply,
    broadcastTo_1b_ab_apply, broadcast_apply, scalar_zero_f32]

/-- A whole chunk of a later convolution from two adjacent chunks of the layer below. -/
theorem k0_pay32_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : Vec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay32 A A' Wa Wb B (ix2 r q) = Cert.Spec.conv a w b (n0 + r.val % 128) (4 * j + q.val / 64) (r.val / 128) (q.val % 64) := by
  rw [k0_pay32_eq]
  exact conv_core a w b n0 j A A' Wa Wb B hA hA' hWa hWb hB r q

theorem k0_pay33_eq (A A' : FVec Ideal S1536x256 .bf16) (Wa Wb : Vec Ideal S256x256 .bf16)
    (B : Vec Ideal S1x256 .f32) (r : Fin 1536) (q : Fin 256) :
    k0_pay33 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay33
  simp only [k0_pay30, k0_pay31, shapeCast_self, truncf_apply, maximumf_apply, addf_apply, mm256_apply,
    broadcastTo_1b_ab_apply, broadcast_apply, scalar_zero_f32]

/-- A whole chunk of a later convolution from two adjacent chunks of the layer below. -/
theorem k0_pay33_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : Vec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay33 A A' Wa Wb B (ix2 r q) = Cert.Spec.conv a w b (n0 + r.val % 128) (4 * j + q.val / 64) (r.val / 128) (q.val % 64) := by
  rw [k0_pay33_eq]
  exact conv_core a w b n0 j A A' Wa Wb B hA hA' hWa hWb hB r q

/-- A half product: one chunk against one half of the tap matrix, a sum over its 256 rows. -/
theorem k0_pay34_apply (A : FVec Ideal S1536x256 .bf16) (Wa : Vec Ideal S256x256 .bf16) (r : Fin 1536) (q : Fin 256) :
    k0_pay34 A Wa (ix2 r q) = ∑ R : Fin 256, A (ix2 r R) * Wa (ix2 R q) := by
  unfold k0_pay34
  simp only [k0_pay30, shapeCast_self, mm256_apply]

theorem k0_pay35_eq (A' : FVec Ideal S1536x256 .bf16) (Wb : FVec Ideal S256x256 .bf16) (B : Vec Ideal S1x256 .f32)
    (H1 Z : FVec Ideal S1536x256 .f32) (r : Fin 1536) (q : Fin 256) :
    k0_pay35 A' Wb B H1 Z (ix2 r q)
      = max ((H1 (ix2 r q) + (Z (ix2 r q) + ∑ R : Fin 256, A' (ix2 r R) * Wb (ix2 R q))) + B (ix2 (0 : Fin 1) q)) 0 := by
  unfold k0_pay35
  simp only [shapeCast_self, truncf_apply, maximumf_apply, addf_apply, mm256_acc_apply,
    broadcastTo_1b_ab_apply, broadcast_apply, scalar_zero_f32]

/-- The closing payload of a split chunk: the first half product handed in, the second accumulated into a
    zero block, the bias row, the clip at zero. -/
theorem k0_pay35_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (H1 Z : FVec Ideal S1536x256 .f32)
    (hH1 : ∀ (r : Fin 1536) (q : Fin 256), H1 (ix2 r q) = ∑ R : Fin 256, A (ix2 r R) * Wa (ix2 R q))
    (hZ : ∀ i, Z i = (0 : EReal))
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay35 A' Wb B H1 Z (ix2 r q) = Cert.Spec.conv a w b (n0 + r.val % 128) (4 * j + q.val / 64) (r.val / 128) (q.val % 64) := by
  rw [k0_pay35_eq, hH1, hZ, zero_add]
  exact conv_core a w b n0 j A A' Wa Wb B hA hA' hWa hWb hB r q

/-- The split chunk as the program composes it. -/
theorem k0_pay35_chunk (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa : Vec Ideal S256x256 .bf16) (Wb : FVec Ideal S256x256 .bf16)
    (B : Vec Ideal S1x256 .f32)
    (Z : FVec Ideal S1536x256 .f32) (hZ : ∀ i, Z i = (0 : EReal))
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay35 A' Wb B (k0_pay34 A Wa) Z (ix2 r q) = Cert.Spec.conv a w b (n0 + r.val % 128) (4 * j + q.val / 64) (r.val / 128) (q.val % 64) :=
  k0_pay35_apply a w b n0 j A A' Wa Wb B _ Z (k0_pay34_apply A Wa) hZ hA hA' hWa hWb hB r q

/-- The zero block the program passes as that accumulator. -/
theorem cst_zero_apply (i : S1536x256.Idx) : constant (F := Ideal) S1536x256 .f32 0x00000000#32 i = (0 : EReal) := by
  rw [constant_apply, Ideal.ofBits_zero_f32]

theorem k0_pay36_eq (A A' : FVec Ideal S1536x256 .bf16) (Wa Wb : FVec Ideal S256x256 .bf16)
    (B : Vec Ideal S1x256 .f32) (r : Fin 1536) (q : Fin 256) :
    k0_pay36 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay36
  simp only [shapeCast_self, truncf_apply, maximumf_apply, addf_apply, mm256_apply,
    broadcastTo_1b_ab_apply, broadcast_apply, scalar_zero_f32]

/-- A whole chunk of a later convolution from two adjacent chunks of the layer below. -/
theorem k0_pay36_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay36 A A' Wa Wb B (ix2 r q) = Cert.Spec.conv a w b (n0 + r.val % 128) (4 * j + q.val / 64) (r.val / 128) (q.val % 64) := by
  rw [k0_pay36_eq]
  exact conv_core a w b n0 j A A' Wa Wb B hA hA' hWa hWb hB r q

theorem k0_pay37_eq (A A' : FVec Ideal S1536x256 .bf16) (Wa Wb : FVec Ideal S256x256 .bf16)
    (B : Vec Ideal S1x256 .f32) (r : Fin 1536) (q : Fin 256) :
    k0_pay37 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay37
  simp only [shapeCast_self, truncf_apply, maximumf_apply, addf_apply, mm256_apply,
    broadcastTo_1b_ab_apply, broadcast_apply, scalar_zero_f32]

/-- A whole chunk of a later convolution from two adjacent chunks of the layer below. -/
theorem k0_pay37_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay37 A A' Wa Wb B (ix2 r q) = Cert.Spec.conv a w b (n0 + r.val % 128) (4 * j + q.val / 64) (r.val / 128) (q.val % 64) := by
  rw [k0_pay37_eq]
  exact conv_core a w b n0 j A A' Wa Wb B hA hA' hWa hWb hB r q

theorem k0_pay38_eq (A A' : FVec Ideal S1536x256 .bf16) (Wa Wb : FVec Ideal S256x256 .bf16)
    (B : Vec Ideal S1x256 .f32) (r : Fin 1536) (q : Fin 256) :
    k0_pay38 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay38
  simp only [shapeCast_self, truncf_apply, maximumf_apply, addf_apply, mm256_apply,
    broadcastTo_1b_ab_apply, broadcast_apply, scalar_zero_f32]

/-- A whole chunk of a later convolution from two adjacent chunks of the layer below. -/
theorem k0_pay38_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay38 A A' Wa Wb B (ix2 r q) = Cert.Spec.conv a w b (n0 + r.val % 128) (4 * j + q.val / 64) (r.val / 128) (q.val % 64) := by
  rw [k0_pay38_eq]
  exact conv_core a w b n0 j A A' Wa Wb B hA hA' hWa hWb hB r q

theorem k0_pay39_eq (A A' : FVec Ideal S1536x256 .bf16) (Wa Wb : FVec Ideal S256x256 .bf16)
    (B : Vec Ideal S1x256 .f32) (r : Fin 1536) (q : Fin 256) :
    k0_pay39 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay39
  simp only [shapeCast_self, truncf_apply, maximumf_apply, addf_apply, mm256_apply,
    broadcastTo_1b_ab_apply, broadcast_apply, scalar_zero_f32]

/-- A whole chunk of a later convolution from two adjacent chunks of the layer below. -/
theorem k0_pay39_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay39 A A' Wa Wb B (ix2 r q) = Cert.Spec.conv a w b (n0 + r.val % 128) (4 * j + q.val / 64) (r.val / 128) (q.val % 64) := by
  rw [k0_pay39_eq]
  exact conv_core a w b n0 j A A' Wa Wb B hA hA' hWa hWb hB r q

/-- A chunk before the clip: the two products and the bias row. -/
theorem k0_pay40_apply (A A' : FVec Ideal S1536x256 .bf16) (Wa Wb : FVec Ideal S256x256 .bf16)
    (B : Vec Ideal S1x256 .f32) (r : Fin 1536) (q : Fin 256) :
    k0_pay40 A A' Wa Wb B (ix2 r q)
      = ((∑ R : Fin 256, A (ix2 r R) * Wa (ix2 R q)) + ∑ R : Fin 256, A' (ix2 r R) * Wb (ix2 R q)) + B (ix2 (0 : Fin 1) q) := by
  unfold k0_pay40
  simp only [shapeCast_self, truncf_apply, maximumf_apply, addf_apply, mm256_apply,
    broadcastTo_1b_ab_apply, broadcast_apply, scalar_zero_f32]

theorem k0_pay41_eq (P : FVec Ideal S1536x256 .f32) (c : Ideal .f32) (i : S1536x256.Idx) :
    k0_pay41 P c i = max (P i) c := by
  unfold k0_pay41
  simp only [truncf_apply, maximumf_apply, broadcast_apply]

/-- The clip of a chunk held before the clip, against a scalar zero handed in. -/
theorem k0_pay41_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (P : FVec Ideal S1536x256 .f32) (c : Ideal .f32)
    (hP : ∀ (r : Fin 1536) (q : Fin 256), P (ix2 r q)
      = ((∑ R : Fin 256, A (ix2 r R) * Wa (ix2 R q)) + ∑ R : Fin 256, A' (ix2 r R) * Wb (ix2 R q)) + B (ix2 (0 : Fin 1) q))
    (hc : c = (0 : EReal))
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay41 P c (ix2 r q) = Cert.Spec.conv a w b (n0 + r.val % 128) (4 * j + q.val / 64) (r.val / 128) (q.val % 64) := by
  rw [k0_pay41_eq, hP, hc]
  exact conv_core a w b n0 j A A' Wa Wb B hA hA' hWa hWb hB r q

/-- The chunk cut before its clip, as the program composes it. -/
theorem k0_pay41_chunk (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (c : Ideal .f32) (hc : c = (0 : EReal))
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay41 (k0_pay40 A A' Wa Wb B) c (ix2 r q) = Cert.Spec.conv a w b (n0 + r.val % 128) (4 * j + q.val / 64) (r.val / 128) (q.val % 64) :=
  k0_pay41_apply a w b n0 j A A' Wa Wb B _ c (k0_pay40_apply A A' Wa Wb B) hc hA hA' hWa hWb hB r q

theorem k0_pay42_eq (A A' : FVec Ideal S1536x256 .bf16) (Wa Wb : FVec Ideal S256x256 .bf16)
    (B : Vec Ideal S1x256 .f32) (r : Fin 1536) (q : Fin 256) :
    k0_pay42 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay42
  simp only [shapeCast_self, truncf_apply, maximumf_apply, addf_apply, mm256_apply,
    broadcastTo_1b_ab_apply, broadcast_apply, scalar_zero_f32]

/-- A whole chunk of a later convolution from two adjacent chunks of the layer below. -/
theorem k0_pay42_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay42 A A' Wa Wb B (ix2 r q) = Cert.Spec.conv a w b (n0 + r.val % 128) (4 * j + q.val / 64) (r.val / 128) (q.val % 64) := by
  rw [k0_pay42_eq]
  exact conv_core a w b n0 j A A' Wa Wb B hA hA' hWa hWb hB r q

end Cert.KernelIdeal.Hand

end
-- ==== Proof.KConv4.lean ====
/-
  The fourth convolution's eight chunks read at an index, at the ideal values: each is the later
  convolution of the third layer's activation at its chunk; the chunk the program computes in
  two pieces is given piece by piece and as the program composes it.
-/
import proofs.«156904_g2000200884589374_pallasbulk_247_2_alg».proof.Proof.KConv1

noncomputable section

namespace Cert.KernelIdeal.Hand

open Idealize.ShloMosaic Idealize.ShloMosaic.ValueIdx Cert.KernelIdeal Cert.KernelIdeal.Gen Finset

/-- A shape cast to the same shape reads the operand. -/
theorem k0_pay43_apply (W : Vec Ideal S256x256 .bf16) (i : S256x256.Idx) : k0_pay43 W i = W i := by
  unfold k0_pay43
  simp only [shapeCast_self]

/-- A shape cast to the same shape reads the operand. -/
theorem k0_pay44_apply (W : Vec Ideal S256x256 .bf16) (i : S256x256.Idx) : k0_pay44 W i = W i := by
  unfold k0_pay44
  simp only [shapeCast_self]

theorem k0_pay45_eq (A A' : FVec Ideal S1536x256 .bf16) (Wa Wb : Vec Ideal S256x256 .bf16)
    (B : Vec Ideal S1x256 .f32) (r : Fin 1536) (q : Fin 256) :
    k0_pay45 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay45
  simp only [k0_pay43, k0_pay44, shapeCast_self, truncf_apply, maximumf_apply, addf_apply, mm256_apply,
    broadcastTo_1b_ab_apply, broadcast_apply, scalar_zero_f32]

/-- A whole chunk of a later convolution from two adjacent chunks of the layer below. -/
theorem k0_pay45_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : Vec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay45 A A' Wa Wb B (ix2 r q) = Cert.Spec.conv a w b (n0 + r.val % 128) (4 * j + q.val / 64) (r.val / 128) (q.val % 64) := by
  rw [k0_pay45_eq]
  exact conv_core a w b n0 j A A' Wa Wb B hA hA' hWa hWb hB r q

theorem k0_pay46_eq (A A' : FVec Ideal S1536x256 .bf16) (Wa Wb : Vec Ideal S256x256 .bf16)
    (B : Vec Ideal S1x256 .f32) (r : Fin 1536) (q : Fin 256) :
    k0_pay46 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay46
  simp only [k0_pay43, k0_pay44, shapeCast_self, truncf_apply, maximumf_apply, addf_apply, mm256_apply,
    broadcastTo_1b_ab_apply, broadcast_apply, scalar_zero_f32]

/-- A whole chunk of a later convolution from two adjacent chunks of the layer below. -/
theorem k0_pay46_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : Vec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay46 A A' Wa Wb B (ix2 r q) = Cert.Spec.conv a w b (n0 + r.val % 128) (4 * j + q.val / 64) (r.val / 128) (q.val % 64) := by
  rw [k0_pay46_eq]
  exact conv_core a w b n0 j A A' Wa Wb B hA hA' hWa hWb hB r q

theorem k0_pay47_eq (A A' : FVec Ideal S1536x256 .bf16) (Wa Wb : Vec Ideal S256x256 .bf16)
    (B : Vec Ideal S1x256 .f32) (r : Fin 1536) (q : Fin 256) :
    k0_pay47 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay47
  simp only [k0_pay43, k0_pay44, shapeCast_self, truncf_apply, maximumf_apply, addf_apply, mm256_apply,
    broadcastTo_1b_ab_apply, broadcast_apply, scalar_zero_f32]

/-- A whole chunk of a later convolution from two adjacent chunks of the layer below. -/
theorem k0_pay47_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : Vec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay47 A A' Wa Wb B (ix2 r q) = Cert.Spec.conv a w b (n0 + r.val % 128) (4 * j + q.val / 64) (r.val / 128) (q.val % 64) := by
  rw [k0_pay47_eq]
  exact conv_core a w b n0 j A A' Wa Wb B hA hA' hWa hWb hB r q

/-- A half product: one chunk against one half of the tap matrix, a sum over its 256 rows. -/
theorem k0_pay48_apply (A : FVec Ideal S1536x256 .bf16) (Wa : Vec Ideal S256x256 .bf16) (r : Fin 1536) (q : Fin 256) :
    k0_pay48 A Wa (ix2 r q) = ∑ R : Fin 256, A (ix2 r R) * Wa (ix2 R q) := by
  unfold k0_pay48
  simp only [k0_pay43, shapeCast_self, mm256_apply]

theorem k0_pay49_eq (A' : FVec Ideal S1536x256 .bf16) (Wb : FVec Ideal S256x256 .bf16) (B : Vec Ideal S1x256 .f32)
    (H1 : FVec Ideal S1536x256 .f32) (r : Fin 1536) (q : Fin 256) :
    k0_pay49 A' Wb B H1 (ix2 r q)
      = max ((H1 (ix2 r q) + ∑ R : Fin 256, A' (ix2 r R) * Wb (ix2 R q)) + B (ix2 (0 : Fin 1) q)) 0 := by
  unfold k0_pay49
  simp only [shapeCast_self, truncf_apply, maximumf_apply, addf_apply, mm256_apply,
    broadcastTo_1b_ab_apply, broadcast_apply, scalar_zero_f32]

/-- The closing payload of a split chunk: the first half product handed in, the second computed here, the
    bias row, the clip at zero. -/
theorem k0_pay49_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (H1 : FVec Ideal S1536x256 .f32)
    (hH1 : ∀ (r : Fin 1536) (q : Fin 256), H1 (ix2 r q) = ∑ R : Fin 256, A (ix2 r R) * Wa (ix2 R q))
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay49 A' Wb B H1 (ix2 r q) = Cert.Spec.conv a w b (n0 + r.val % 128) (4 * j + q.val / 64) (r.val / 128) (q.val % 64) := by
  rw [k0_pay49_eq, hH1]
  exact conv_core a w b n0 j A A' Wa Wb B hA hA' hWa hWb hB r q

/-- The split chunk as the program composes it. -/
theorem k0_pay49_chunk (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa : Vec Ideal S256x256 .bf16) (Wb : FVec Ideal S256x256 .bf16)
    (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay49 A' Wb B (k0_pay48 A Wa) (ix2 r q) = Cert.Spec.conv a w b (n0 + r.val % 128) (4 * j + q.val / 64) (r.val / 128) (q.val % 64) :=
  k0_pay49_apply a w b n0 j A A' Wa Wb B _ (k0_pay48_apply A Wa) hA hA' hWa hWb hB r q

theorem k0_pay50_eq (A A' : FVec Ideal S1536x256 .bf16) (Wa Wb : FVec Ideal S256x256 .bf16)
    (B : Vec Ideal S1x256 .f32) (r : Fin 1536) (q : Fin 256) :
    k0_pay50 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay50
  simp only [shapeCast_self, truncf_apply, maximumf_apply, addf_apply, mm256_apply,
    broadcastTo_1b_ab_apply, broadcast_apply, scalar_zero_f32]

/-- A whole chunk of a later convolution from two adjacent chunks of the layer below. -/
theorem k0_pay50_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay50 A A' Wa Wb B (ix2 r q) = Cert.Spec.conv a w b (n0 + r.val % 128) (4 * j + q.val / 64) (r.val / 128) (q.val % 64) := by
  rw [k0_pay50_eq]
  exact conv_core a w b n0 j A A' Wa Wb B hA hA' hWa hWb hB r q

theorem k0_pay51_eq (A A' : FVec Ideal S1536x256 .bf16) (Wa Wb : FVec Ideal S256x256 .bf16)
    (B : Vec Ideal S1x256 .f32) (r : Fin 1536) (q : Fin 256) :
    k0_pay51 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay51
  simp only [shapeCast_self, truncf_apply, maximumf_apply, addf_apply, mm256_apply,
    broadcastTo_1b_ab_apply, broadcast_apply, scalar_zero_f32]

/-- A whole chunk of a later convolution from two adjacent chunks of the layer below. -/
theorem k0_pay51_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay51 A A' Wa Wb B (ix2 r q) = Cert.Spec.conv a w b (n0 + r.val % 128) (4 * j + q.val / 64) (r.val / 128) (q.val % 64) := by
  rw [k0_pay51_eq]
  exact conv_core a w b n0 j A A' Wa Wb B hA hA' hWa hWb hB r q

theorem k0_pay52_eq (A A' : FVec Ideal S1536x256 .bf16) (Wa Wb : FVec Ideal S256x256 .bf16)
    (B : Vec Ideal S1x256 .f32) (r : Fin 1536) (q : Fin 256) :
    k0_pay52 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay52
  simp only [shapeCast_self, truncf_apply, maximumf_apply, addf_apply, mm256_apply,
    broadcastTo_1b_ab_apply, broadcast_apply, scalar_zero_f32]

/-- A whole chunk of a later convolution from two adjacent chunks of the layer below. -/
theorem k0_pay52_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay52 A A' Wa Wb B (ix2 r q) = Cert.Spec.conv a w b (n0 + r.val % 128) (4 * j + q.val / 64) (r.val / 128) (q.val % 64) := by
  rw [k0_pay52_eq]
  exact conv_core a w b n0 j A A' Wa Wb B hA hA' hWa hWb hB r q

theorem k0_pay53_eq (A A' : FVec Ideal S1536x256 .bf16) (Wa Wb : FVec Ideal S256x256 .bf16)
    (B : Vec Ideal S1x256 .f32) (r : Fin 1536) (q : Fin 256) :
    k0_pay53 A A' Wa Wb B (ix2 r q)
      = max (((∑ R : Fin 256, A (ix2 r R) * Wa (ix2 R q)) + ∑ R : Fin 256, A' (ix2 r R) * Wb (ix2 R q))
          + B (ix2 (0 : Fin 1) q)) 0 := by
  unfold k0_pay53
  simp only [shapeCast_self, truncf_apply, maximumf_apply, addf_apply, mm256_apply,
    broadcastTo_1b_ab_apply, broadcast_apply, scalar_zero_f32]

/-- A whole chunk of a later convolution from two adjacent chunks of the layer below. -/
theorem k0_pay53_apply (a : ℕ → ℕ → ℕ → ℕ → EReal) (w : (⟨2, ![320, 64]⟩ : Shape).Idx → EReal)
    (b : (⟨2, ![1, 64]⟩ : Shape).Idx → EReal) (n0 j : ℕ)
    (A A' : FVec Ideal S1536x256 .bf16) (Wa Wb : FVec Ideal S256x256 .bf16) (B : Vec Ideal S1x256 .f32)
    (hA : ∀ (r : Fin 1536) (q : Fin 256),
      A (ix2 r q) = a (n0 + r.val % 128) (4 * j + q.val / 64) (r.val / 128) (q.val % 64))
    (hA' : ∀ (r : Fin 1536) (q : Fin 256),
      A' (ix2 r q) = a (n0 + r.val % 128) (4 * (j + 1) + q.val / 64) (r.val / 128) (q.val % 64))
    (hWa : ∀ (R q : Fin 256), Wa (ix2 R q) = Cert.Spec.tap w R.val q.val)
    (hWb : ∀ (R q : Fin 256), Wb (ix2 R q) = Cert.Spec.tap w (256 + R.val) q.val)
    (hB : ∀ q : Fin 256, B (ix2 (0 : Fin 1) q) = Cert.Spec.tile4 b q.val)
    (r : Fin 1536) (q : Fin 256) :
    k0_pay53 A A' Wa Wb B (ix2 r q) = Cert.Spec.conv a w b (n0 + r.val % 128) (4 * j + q.val / 64) (r.val / 128) (q.val % 64) := by
  rw [k0_pay53_eq]
  exact conv_core a w b n0 j A A' Wa Wb B hA hA' hWa hWb hB r q

end Cert.KernelIdeal.Hand

end
-- ==== Proof.KValueConv.lean ====
/-
  The kernel body's convolution chunks as the network's four convolutions.

  Every loaded rectangle is its input block restricted to the rectangle. Chunk j of layer l — rows
  r = 128 w + b, columns q = 64 d + c — holds layer l of the network at image n0 + b, height 4 j + d,
  width w, channel c: layer 1 from the product with the banded weight, each later layer from the two
  adjacent chunks below it against the two halves of the layer's tap matrix, the tiled bias and the
  clip at zero.
-/
import proofs.«156904_g2000200884589374_pallasbulk_247_2_alg».proof.Proof.KBlocks
import proofs.«156904_g2000200884589374_pallasbulk_247_2_alg».proof.Proof.KConv1
import proofs.«156904_g2000200884589374_pallasbulk_247_2_alg».proof.Proof.KConv2
import proofs.«156904_g2000200884589374_pallasbulk_247_2_alg».proof.Proof.KConv3
import proofs.«156904_g2000200884589374_pallasbulk_247_2_alg».proof.Proof.KConv4

noncomputable section

namespace Cert.KernelIdeal.Hand

open Idealize.ShloMosaic Idealize.ShloMosaic.ValueIdx Cert.KernelIdeal Cert.KernelIdeal.Gen

section

variable {p : Cert.Spec.Args} {n0 : ℕ} {x0 : Vec Ideal S12x128x48 .f32} {x1 : Vec Ideal S48x2816 .bf16} {x2 : Vec Ideal S1x256 .f32} {x3 x4 : Vec Ideal S256x256 .bf16} {x5 : Vec Ideal S1x256 .f32} {x6 x7 : Vec Ideal S256x256 .bf16} {x8 : Vec Ideal S1x256 .f32} {x9 x10 : Vec Ideal S256x256 .bf16} {x11 : Vec Ideal S1x256 .f32} {x12 : Vec Ideal S24576x128 .bf16} {x13 : Vec Ideal S1x128 .f32} {x14 : Vec Ideal S128x128 .bf16} {x15 : Vec Ideal S1x128 .f32} {x16 : Vec Ideal S128x22 .bf16} {x17 : Vec Ideal S1x22 .f32}
variable (H : Blocks p n0 x0 x1 x2 x3 x4 x5 x6 x7 x8 x9 x10 x11 x12 x13 x14 x15 x16 x17)
include H

theorem kv0_eq (w : Fin 12) (b : Fin 128) (R : Fin 48) :
    kv0 x0 (ix3 w b R) = Cert.Spec.xN p (n0 + b.val) R.val w.val := by
  unfold kv0; rw [View.ld_unit_zero (S := S12x128x48) hz3]; exact H.h0 w b R

theorem kv3_eq (r : Fin 1536) (R : Fin 48) :
    kv3 x0 (ix2 r R) = Cert.Spec.xN p (n0 + r.val % 128) R.val (r.val / 128) := by
  unfold kv3; exact k0_pay2_spec p n0 (kv0 x0) (kv0_eq H) r R

theorem kv4_eq (q : Fin 256) : kv4 x2 (ix2 (0 : Fin 1) q) = Cert.Spec.tile4 p.b1 q.val := by
  unfold kv4; rw [View.ld_unit_zero (S := S1x256) hz2]; exact H.h2 q

theorem kv97_eq (q : Fin 256) : kv97 x5 (ix2 (0 : Fin 1) q) = Cert.Spec.tile4 p.b2 q.val := by
  unfold kv97; rw [View.ld_unit_zero (S := S1x256) hz2]; exact H.h5 q

theorem kv182_eq (q : Fin 256) : kv182 x8 (ix2 (0 : Fin 1) q) = Cert.Spec.tile4 p.b3 q.val := by
  unfold kv182; rw [View.ld_unit_zero (S := S1x256) hz2]; exact H.h8 q

theorem kv259_eq (q : Fin 256) : kv259 x11 (ix2 (0 : Fin 1) q) = Cert.Spec.tile4 p.b4 q.val := by
  unfold kv259; rw [View.ld_unit_zero (S := S1x256) hz2]; exact H.h11 q

theorem kv93_eq (R q : Fin 256) : kv93 x3 (ix2 R q) = Cert.Spec.tap p.w2 (R.val) q.val := by
  unfold kv93; rw [View.ld_unit_zero (S := S256x256) hz2]; exact H.h3 R q

theorem kv95_eq (R q : Fin 256) : kv95 x4 (ix2 R q) = Cert.Spec.tap p.w2 (256 + R.val) q.val := by
  unfold kv95; rw [View.ld_unit_zero (S := S256x256) hz2]; exact H.h4 R q

theorem kv178_eq (R q : Fin 256) : kv178 x6 (ix2 R q) = Cert.Spec.tap p.w3 (R.val) q.val := by
  unfold kv178; rw [View.ld_unit_zero (S := S256x256) hz2]; exact H.h6 R q

theorem kv180_eq (R q : Fin 256) : kv180 x7 (ix2 R q) = Cert.Spec.tap p.w3 (256 + R.val) q.val := by
  unfold kv180; rw [View.ld_unit_zero (S := S256x256) hz2]; exact H.h7 R q

theorem kv255_eq (R q : Fin 256) : kv255 x9 (ix2 R q) = Cert.Spec.tap p.w4 (R.val) q.val := by
  unfold kv255; rw [View.ld_unit_zero (S := S256x256) hz2]; exact H.h9 R q

theorem kv257_eq (R q : Fin 256) : kv257 x10 (ix2 R q) = Cert.Spec.tap p.w4 (256 + R.val) q.val := by
  unfold kv257; rw [View.ld_unit_zero (S := S256x256) hz2]; exact H.h10 R q

theorem kv94_eq (R q : Fin 256) : kv94 x3 (ix2 R q) = Cert.Spec.tap p.w2 (R.val) q.val := by
  unfold kv94; rw [k0_pay14_apply]; exact kv93_eq H R q

theorem kv96_eq (R q : Fin 256) : kv96 x4 (ix2 R q) = Cert.Spec.tap p.w2 (256 + R.val) q.val := by
  unfold kv96; rw [k0_pay15_apply]; exact kv95_eq H R q

theorem kv179_eq (R q : Fin 256) : kv179 x6 (ix2 R q) = Cert.Spec.tap p.w3 (R.val) q.val := by
  unfold kv179; rw [k0_pay30_apply]; exact kv178_eq H R q

theorem kv181_eq (R q : Fin 256) : kv181 x7 (ix2 R q) = Cert.Spec.tap p.w3 (256 + R.val) q.val := by
  unfold kv181; rw [k0_pay31_apply]; exact kv180_eq H R q

theorem kv256_eq (R q : Fin 256) : kv256 x9 (ix2 R q) = Cert.Spec.tap p.w4 (R.val) q.val := by
  unfold kv256; rw [k0_pay43_apply]; exact kv255_eq H R q

theorem kv258_eq (R q : Fin 256) : kv258 x10 (ix2 R q) = Cert.Spec.tap p.w4 (256 + R.val) q.val := by
  unfold kv258; rw [k0_pay44_apply]; exact kv257_eq H R q

theorem kv12_eq (r : Fin 1536) (q : Fin 256) :
    kv12 x0 x1 x2 (ix2 r q) = Cert.Spec.c1 p (n0 + r.val % 128) (4 * 0 + q.val / 64) (r.val / 128) (q.val % 64) := by
  unfold kv12
  exact k0_pay3_apply p n0 0 (by omega) (kv0 x0) (kv4 x2) (kv5 x1) (kv0_eq H) (kv4_eq H)
    (fun R q => by unfold kv5; rw [ld_band _ x1 H.h1]) r q

theorem kv20_eq (r : Fin 1536) (q : Fin 256) :
    kv20 x0 x1 x2 (ix2 r q) = Cert.Spec.c1 p (n0 + r.val % 128) (4 * 1 + q.val / 64) (r.val / 128) (q.val % 64) := by
  unfold kv20
  exact k0_pay4_apply p n0 1 (by omega) (kv0 x0) (kv4 x2) (kv13 x1) (kv0_eq H) (kv4_eq H)
    (fun R q => by unfold kv13; rw [ld_band _ x1 H.h1]) r q

theorem kv28_eq (r : Fin 1536) (q : Fin 256) :
    kv28 x0 x1 x2 (ix2 r q) = Cert.Spec.c1 p (n0 + r.val % 128) (4 * 2 + q.val / 64) (r.val / 128) (q.val % 64) := by
  unfold kv28
  exact k0_pay5_apply p n0 2 (by omega) (kv0 x0) (kv4 x2) (kv21 x1) (kv0_eq H) (kv4_eq H)
    (fun R q => by unfold kv21; rw [ld_band _ x1 H.h1]) r q

theorem kv36_eq (r : Fin 1536) (q : Fin 256) :
    kv36 x0 x1 x2 (ix2 r q) = Cert.Spec.c1 p (n0 + r.val % 128) (4 * 3 + q.val / 64) (r.val / 128) (q.val % 64) := by
  unfold kv36
  exact k0_pay6_apply p n0 3 (by omega) (kv0 x0) (kv4 x2) (kv29 x1) (kv0_eq H) (kv4_eq H)
    (fun R q => by unfold kv29; rw [ld_band _ x1 H.h1]) r q

theorem kv44_eq (r : Fin 1536) (q : Fin 256) :
    kv44 x0 x1 x2 (ix2 r q) = Cert.Spec.c1 p (n0 + r.val % 128) (4 * 4 + q.val / 64) (r.val / 128) (q.val % 64) := by
  unfold kv44
  exact k0_pay7_apply p n0 4 (by omega) (kv3 x0) (kv4 x2) (kv37 x1) (kv3_eq H) (kv4_eq H)
    (fun R q => by unfold kv37; rw [ld_band _ x1 H.h1]) r q

theorem kv52_eq (r : Fin 1536) (q : Fin 256) :
    kv52 x0 x1 x2 (ix2 r q) = Cert.Spec.c1 p (n0 + r.val % 128) (4 * 5 + q.val / 64) (r.val / 128) (q.val % 64) := by
  unfold kv52
  exact k0_pay8_apply p n0 5 (by omega) (kv3 x0) (kv4 x2) (kv45 x1) (kv3_eq H) (kv4_eq H)
    (fun R q => by unfold kv45; rw [ld_band _ x1 H.h1]) r q

theorem kv60_eq (r : Fin 1536) (q : Fin 256) :
    kv60 x0 x1 x2 (ix2 r q) = Cert.Spec.c1 p (n0 + r.val % 128) (4 * 6 + q.val / 64) (r.val / 128) (q.val % 64) := by
  unfold kv60
  exact k0_pay9_apply p n0 6 (by omega) (kv3 x0) (kv4 x2) (kv53 x1) (kv3_eq H) (kv4_eq H)
    (fun R q => by unfold kv53; rw [ld_band _ x1 H.h1]) r q

theorem kv68_eq (r : Fin 1536) (q : Fin 256) :
    kv68 x0 x1 x2 (ix2 r q) = Cert.Spec.c1 p (n0 + r.val % 128) (4 * 7 + q.val / 64) (r.val / 128) (q.val % 64) := by
  unfold kv68
  exact k0_pay10_apply p n0 7 (by omega) (kv3 x0) (kv4 x2) (kv61 x1) (kv3_eq H) (kv4_eq H)
    (fun R q => by unfold kv61; rw [ld_band _ x1 H.h1]) r q

theorem kv76_eq (r : Fin 1536) (q : Fin 256) :
    kv76 x0 x1 x2 (ix2 r q) = Cert.Spec.c1 p (n0 + r.val % 128) (4 * 8 + q.val / 64) (r.val / 128) (q.val % 64) := by
  unfold kv76
  exact k0_pay11_apply p n0 8 (by omega) (kv3 x0) (kv4 x2) (kv69 x1) (kv3_eq H) (kv4_eq H)
    (fun R q => by unfold kv69; rw [ld_band _ x1 H.h1]) r q

theorem kv84_eq (r : Fin 1536) (q : Fin 256) :
    kv84 x0 x1 x2 (ix2 r q) = Cert.Spec.c1 p (n0 + r.val % 128) (4 * 9 + q.val / 64) (r.val / 128) (q.val % 64) := by
  unfold kv84
  exact k0_pay12_apply p n0 9 (by omega) (kv3 x0) (kv4 x2) (kv77 x1) (kv3_eq H) (kv4_eq H)
    (fun R q => by unfold kv77; rw [ld_band _ x1 H.h1]) r q

theorem kv92_eq (r : Fin 1536) (q : Fin 256) :
    kv92 x0 x1 x2 (ix2 r q) = Cert.Spec.c1 p (n0 + r.val % 128) (4 * 10 + q.val / 64) (r.val / 128) (q.val % 64) := by
  unfold kv92
  exact k0_pay13_apply p n0 10 (by omega) (kv3 x0) (kv4 x2) (kv85 x1) (kv3_eq H) (kv4_eq H)
    (fun R q => by unfold kv85; rw [ld_band _ x1 H.h1]) r q

theorem kv105_eq (r : Fin 1536) (q : Fin 256) :
    kv105 x0 x1 x2 x3 x4 x5 (ix2 r q) = Cert.Spec.c2 p (n0 + r.val % 128) (4 * 0 + q.val / 64) (r.val / 128) (q.val % 64) := by
  unfold kv105
  exact k0_pay16_apply (Cert.Spec.c1 p) p.w2 p.b2 n0 0 (kv12 x0 x1 x2) (kv20 x0 x1 x2) (kv93 x3) (kv95 x4) (kv97 x5) (kv12_eq H) (kv20_eq H) (kv93_eq H) (kv95_eq H) (kv97_eq H) r q

theorem kv113_eq (r : Fin 1536) (q : Fin 256) :
    kv113 x0 x1 x2 x3 x4 x5 (ix2 r q) = Cert.Spec.c2 p (n0 + r.val % 128) (4 * 1 + q.val / 64) (r.val / 128) (q.val % 64) := by
  unfold kv113
  exact k0_pay17_apply (Cert.Spec.c1 p) p.w2 p.b2 n0 1 (kv20 x0 x1 x2) (kv28 x0 x1 x2) (kv93 x3) (kv95 x4) (kv97 x5) (kv20_eq H) (kv28_eq H) (kv93_eq H) (kv95_eq H) (kv97_eq H) r q

theorem kv121_eq (r : Fin 1536) (q : Fin 256) :
    kv121 x0 x1 x2 x3 x4 x5 (ix2 r q) = Cert.Spec.c2 p (n0 + r.val % 128) (4 * 2 + q.val / 64) (r.val / 128) (q.val % 64) := by
  unfold kv121 kv114 kv115
  exact k0_pay20_chunk (Cert.Spec.c1 p) p.w2 p.b2 n0 2 (kv28 x0 x1 x2) (kv36 x0 x1 x2) (kv93 x3) (kv95 x4) (kv97 x5) (kv28_eq H) (kv36_eq H) (kv93_eq H) (kv95_eq H) (kv97_eq H) r q

theorem kv129_eq (r : Fin 1536) (q : Fin 256) :
    kv129 x0 x1 x2 x3 x4 x5 (ix2 r q) = Cert.Spec.c2 p (n0 + r.val % 128) (4 * 3 + q.val / 64) (r.val / 128) (q.val % 64) := by
  unfold kv129
  exact k0_pay21_apply (Cert.Spec.c1 p) p.w2 p.b2 n0 3 (kv36 x0 x1 x2) (kv44 x0 x1 x2) (kv94 x3) (kv96 x4) (kv97 x5) (kv36_eq H) (kv44_eq H) (kv94_eq H) (kv96_eq H) (kv97_eq H) r q

theorem kv137_eq (r : Fin 1536) (q : Fin 256) :
    kv137 x0 x1 x2 x3 x4 x5 (ix2 r q) = Cert.Spec.c2 p (n0 + r.val % 128) (4 * 4 + q.val / 64) (r.val / 128) (q.val % 64) := by
  unfold kv137
  exact k0_pay22_apply (Cert.Spec.c1 p) p.w2 p.b2 n0 4 (kv44 x0 x1 x2) (kv52 x0 x1 x2) (kv94 x3) (kv96 x4) (kv97 x5) (kv44_eq H) (kv52_eq H) (kv94_eq H) (kv96_eq H) (kv97_eq H) r q

theorem kv145_eq (r : Fin 1536) (q : Fin 256) :
    kv145 x0 x1 x2 x3 x4 x5 (ix2 r q) = Cert.Spec.c2 p (n0 + r.val % 128) (4 * 5 + q.val / 64) (r.val / 128) (q.val % 64) := by
  unfold kv145
  exact k0_pay23_apply (Cert.Spec.c1 p) p.w2 p.b2 n0 5 (kv52 x0 x1 x2) (kv60 x0 x1 x2) (kv94 x3) (kv96 x4) (kv97 x5) (kv52_eq H) (kv60_eq H) (kv94_eq H) (kv96_eq H) (kv97_eq H) r q

theorem kv153_eq (r : Fin 1536) (q : Fin 256) :
    kv153 x0 x1 x2 x3 x4 x5 (ix2 r q) = Cert.Spec.c2 p (n0 + r.val % 128) (4 * 6 + q.val / 64) (r.val / 128) (q.val % 64) := by
  unfold kv153
  exact k0_pay24_apply (Cert.Spec.c1 p) p.w2 p.b2 n0 6 (kv60 x0 x1 x2) (kv68 x0 x1 x2) (kv94 x3) (kv96 x4) (kv97 x5) (kv60_eq H) (kv68_eq H) (kv94_eq H) (kv96_eq H) (kv97_eq H) r q

theorem kv161_eq (r : Fin 1536) (q : Fin 256) :
    kv161 x0 x1 x2 x3 x4 x5 (ix2 r q) = Cert.Spec.c2 p (n0 + r.val % 128) (4 * 7 + q.val / 64) (r.val / 128) (q.val % 64) := by
  unfold kv161 kv158 kv159
  exact k0_pay27_chunk (Cert.Spec.c1 p) p.w2 p.b2 n0 7 (kv68 x0 x1 x2) (kv76 x0 x1 x2) (kv94 x3) (kv96 x4) (kv97 x5) (kv68_eq H) (kv76_eq H) (kv94_eq H) (kv96_eq H) (kv97_eq H) r q

theorem kv169_eq (r : Fin 1536) (q : Fin 256) :
    kv169 x0 x1 x2 x3 x4 x5 (ix2 r q) = Cert.Spec.c2 p (n0 + r.val % 128) (4 * 8 + q.val / 64) (r.val / 128) (q.val % 64) := by
  unfold kv169
  exact k0_pay28_apply (Cert.Spec.c1 p) p.w2 p.b2 n0 8 (kv76 x0 x1 x2) (kv84 x0 x1 x2) (kv94 x3) (kv96 x4) (kv97 x5) (kv76_eq H) (kv84_eq H) (kv94_eq H) (kv96_eq H) (kv97_eq H) r q

theorem kv177_eq (r : Fin 1536) (q : Fin 256) :
    kv177 x0 x1 x2 x3 x4 x5 (ix2 r q) = Cert.Spec.c2 p (n0 + r.val % 128) (4 * 9 + q.val / 64) (r.val / 128) (q.val % 64) := by
  unfold kv177
  exact k0_pay29_apply (Cert.Spec.c1 p) p.w2 p.b2 n0 9 (kv84 x0 x1 x2) (kv92 x0 x1 x2) (kv94 x3) (kv96 x4) (kv97 x5) (kv84_eq H) (kv92_eq H) (kv94_eq H) (kv96_eq H) (kv97_eq H) r q

theorem kv190_eq (r : Fin 1536) (q : Fin 256) :
    kv190 x0 x1 x2 x3 x4 x5 x6 x7 x8 (ix2 r q) = Cert.Spec.c3 p (n0 + r.val % 128) (4 * 0 + q.val / 64) (r.val / 128) (q.val % 64) := by
  unfold kv190
  exact k0_pay32_apply (Cert.Spec.c2 p) p.w3 p.b3 n0 0 (kv105 x0 x1 x2 x3 x4 x5) (kv113 x0 x1 x2 x3 x4 x5) (kv178 x6) (kv180 x7) (kv182 x8) (kv105_eq H) (kv113_eq H) (kv178_eq H) (kv180_eq H) (kv182_eq H) r q

theorem kv198_eq (r : Fin 1536) (q : Fin 256) :
    kv198 x0 x1 x2 x3 x4 x5 x6 x7 x8 (ix2 r q) = Cert.Spec.c3 p (n0 + r.val % 128) (4 * 1 + q.val / 64) (r.val / 128) (q.val % 64) := by
  unfold kv198
  exact k0_pay33_apply (Cert.Spec.c2 p) p.w3 p.b3 n0 1 (kv113 x0 x1 x2 x3 x4 x5) (kv121 x0 x1 x2 x3 x4 x5) (kv178 x6) (kv180 x7) (kv182 x8) (kv113_eq H) (kv121_eq H) (kv178_eq H) (kv180_eq H) (kv182_eq H) r q

theorem kv206_eq (r : Fin 1536) (q : Fin 256) :
    kv206 x0 x1 x2 x3 x4 x5 x6 x7 x8 (ix2 r q) = Cert.Spec.c3 p (n0 + r.val % 128) (4 * 2 + q.val / 64) (r.val / 128) (q.val % 64) := by
  unfold kv206 kv199
  exact k0_pay35_chunk (Cert.Spec.c2 p) p.w3 p.b3 n0 2 (kv121 x0 x1 x2 x3 x4 x5) (kv129 x0 x1 x2 x3 x4 x5) (kv178 x6) (kv181 x7) (kv182 x8) (kcst_86 (F := Ideal)) (fun i => by unfold kcst_86; rw [constant_apply]; exact Ideal.ofBits_zero_f32) (kv121_eq H) (kv129_eq H) (kv178_eq H) (kv181_eq H) (kv182_eq H) r q

theorem kv214_eq (r : Fin 1536) (q : Fin 256) :
    kv214 x0 x1 x2 x3 x4 x5 x6 x7 x8 (ix2 r q) = Cert.Spec.c3 p (n0 + r.val % 128) (4 * 3 + q.val / 64) (r.val / 128) (q.val % 64) := by
  unfold kv214
  exact k0_pay36_apply (Cert.Spec.c2 p) p.w3 p.b3 n0 3 (kv129 x0 x1 x2 x3 x4 x5) (kv137 x0 x1 x2 x3 x4 x5) (kv179 x6) (kv181 x7) (kv182 x8) (kv129_eq H) (kv137_eq H) (kv179_eq H) (kv181_eq H) (kv182_eq H) r q

theorem kv222_eq (r : Fin 1536) (q : Fin 256) :
    kv222 x0 x1 x2 x3 x4 x5 x6 x7 x8 (ix2 r q) = Cert.Spec.c3 p (n0 + r.val % 128) (4 * 4 + q.val / 64) (r.val / 128) (q.val % 64) := by
  unfold kv222
  exact k0_pay37_apply (Cert.Spec.c2 p) p.w3 p.b3 n0 4 (kv137 x0 x1 x2 x3 x4 x5) (kv145 x0 x1 x2 x3 x4 x5) (kv179 x6) (kv181 x7) (kv182 x8) (kv137_eq H) (kv145_eq H) (kv179_eq H) (kv181_eq H) (kv182_eq H) r q

theorem kv230_eq (r : Fin 1536) (q : Fin 256) :
    kv230 x0 x1 x2 x3 x4 x5 x6 x7 x8 (ix2 r q) = Cert.Spec.c3 p (n0 + r.val % 128) (4 * 5 + q.val / 64) (r.val / 128) (q.val % 64) := by
  unfold kv230
  exact k0_pay38_apply (Cert.Spec.c2 p) p.w3 p.b3 n0 5 (kv145 x0 x1 x2 x3 x4 x5) (kv153 x0 x1 x2 x3 x4 x5) (kv179 x6) (kv181 x7) (kv182 x8) (kv145_eq H) (kv153_eq H) (kv179_eq H) (kv181_eq H) (kv182_eq H) r q

theorem kv238_eq (r : Fin 1536) (q : Fin 256) :
    kv238 x0 x1 x2 x3 x4 x5 x6 x7 x8 (ix2 r q) = Cert.Spec.c3 p (n0 + r.val % 128) (4 * 6 + q.val / 64) (r.val / 128) (q.val % 64) := by
  unfold kv238
  exact k0_pay39_apply (Cert.Spec.c2 p) p.w3 p.b3 n0 6 (kv153 x0 x1 x2 x3 x4 x5) (kv161 x0 x1 x2 x3 x4 x5) (kv179 x6) (kv181 x7) (kv182 x8) (kv153_eq H) (kv161_eq H) (kv179_eq H) (kv181_eq H) (kv182_eq H) r q

theorem kv246_eq (r : Fin 1536) (q : Fin 256) :
    kv246 x0 x1 x2 x3 x4 x5 x6 x7 x8 (ix2 r q) = Cert.Spec.c3 p (n0 + r.val % 128) (4 * 7 + q.val / 64) (r.val / 128) (q.val % 64) := by
  unfold kv246 kv243
  exact k0_pay41_chunk (Cert.Spec.c2 p) p.w3 p.b3 n0 7 (kv161 x0 x1 x2 x3 x4 x5) (kv169 x0 x1 x2 x3 x4 x5) (kv179 x6) (kv181 x7) (kv182 x8) (kcst_102 (F := Ideal)) (by unfold kcst_102; exact Ideal.ofBits_zero_f32) (kv161_eq H) (kv169_eq H) (kv179_eq H) (kv181_eq H) (kv182_eq H) r q

theorem kv254_eq (r : Fin 1536) (q : Fin 256) :
    kv254 x0 x1 x2 x3 x4 x5 x6 x7 x8 (ix2 r q) = Cert.Spec.c3 p (n0 + r.val % 128) (4 * 8 + q.val / 64) (r.val / 128) (q.val % 64) := by
  unfold kv254
  exact k0_pay42_apply (Cert.Spec.c2 p) p.w3 p.b3 n0 8 (kv169 x0 x1 x2 x3 x4 x5) (kv177 x0 x1 x2 x3 x4 x5) (kv179 x6) (kv181 x7) (kv182 x8) (kv169_eq H) (kv177_eq H) (kv179_eq H) (kv181_eq H) (kv182_eq H) r q

theorem kv267_eq (r : Fin 1536) (q : Fin 256) :
    kv267 x0 x1 x2 x3 x4 x5 x6 x7 x8 x9 x10 x11 (ix2 r q) = Cert.Spec.c4 p (n0 + r.val % 128) (4 * 0 + q.val / 64) (r.val / 128) (q.val % 64) := by
  unfold kv267
  exact k0_pay45_apply (Cert.Spec.c3 p) p.w4 p.b4 n0 0 (kv190 x0 x1 x2 x3 x4 x5 x6 x7 x8) (kv198 x0 x1 x2 x3 x4 x5 x6 x7 x8) (kv255 x9) (kv257 x10) (kv259 x11) (kv190_eq H) (kv198_eq H) (kv255_eq H) (kv257_eq H) (kv259_eq H) r q

theorem kv275_eq (r : Fin 1536) (q : Fin 256) :
    kv275 x0 x1 x2 x3 x4 x5 x6 x7 x8 x9 x10 x11 (ix2 r q) = Cert.Spec.c4 p (n0 + r.val % 128) (4 * 1 + q.val / 64) (r.val / 128) (q.val % 64) := by
  unfold kv275
  exact k0_pay46_apply (Cert.Spec.c3 p) p.w4 p.b4 n0 1 (kv198 x0 x1 x2 x3 x4 x5 x6 x7 x8) (kv206 x0 x1 x2 x3 x4 x5 x6 x7 x8) (kv255 x9) (kv257 x10) (kv259 x11) (kv198_eq H) (kv206_eq H) (kv255_eq H) (kv257_eq H) (kv259_eq H) r q

theorem kv283_eq (r : Fin 1536) (q : Fin 256) :
    kv283 x0 x1 x2 x3 x4 x5 x6 x7 x8 x9 x10 x11 (ix2 r q) = Cert.Spec.c4 p (n0 + r.val % 128) (4 * 2 + q.val / 64) (r.val / 128) (q.val % 64) := by
  unfold kv283
  exact k0_pay47_apply (Cert.Spec.c3 p) p.w4 p.b4 n0 2 (kv206 x0 x1 x2 x3 x4 x5 x6 x7 x8) (kv214 x0 x1 x2 x3 x4 x5 x6 x7 x8) (kv255 x9) (kv257 x10) (kv259 x11) (kv206_eq H) (kv214_eq H) (kv255_eq H) (kv257_eq H) (kv259_eq H) r q

theorem kv291_eq (r : Fin 1536) (q : Fin 256) :
    kv291 x0 x1 x2 x3 x4 x5 x6 x7 x8 x9 x10 x11 (ix2 r q) = Cert.Spec.c4 p (n0 + r.val % 128) (4 * 3 + q.val / 64) (r.val / 128) (q.val % 64) := by
  unfold kv291 kv284
  exact k0_pay49_chunk (Cert.Spec.c3 p) p.w4 p.b4 n0 3 (kv214 x0 x1 x2 x3 x4 x5 x6 x7 x8) (kv222 x0 x1 x2 x3 x4 x5 x6 x7 x8) (kv255 x9) (kv258 x10) (kv259 x11) (kv214_eq H) (kv222_eq H) (kv255_eq H) (kv258_eq H) (kv259_eq H) r q

theorem kv299_eq (r : Fin 1536) (q : Fin 256) :
    kv299 x0 x1 x2 x3 x4 x5 x6 x7 x8 x9 x10 x11 (ix2 r q) = Cert.Spec.c4 p (n0 + r.val % 128) (4 * 4 + q.val / 64) (r.val / 128) (q.val % 64) := by
  unfold kv299
  exact k0_pay50_apply (Cert.Spec.c3 p) p.w4 p.b4 n0 4 (kv222 x0 x1 x2 x3 x4 x5 x6 x7 x8) (kv230 x0 x1 x2 x3 x4 x5 x6 x7 x8) (kv256 x9) (kv258 x10) (kv259 x11) (kv222_eq H) (kv230_eq H) (kv256_eq H) (kv258_eq H) (kv259_eq H) r q

theorem kv307_eq (r : Fin 1536) (q : Fin 256) :
    kv307 x0 x1 x2 x3 x4 x5 x6 x7 x8 x9 x10 x11 (ix2 r q) = Cert.Spec.c4 p (n0 + r.val % 128) (4 * 5 + q.val / 64) (r.val / 128) (q.val % 64) := by
  unfold kv307
  exact k0_pay51_apply (Cert.Spec.c3 p) p.w4 p.b4 n0 5 (kv230 x0 x1 x2 x3 x4 x5 x6 x7 x8) (kv238 x0 x1 x2 x3 x4 x5 x6 x7 x8) (kv256 x9) (kv258 x10) (kv259 x11) (kv230_eq H) (kv238_eq H) (kv256_eq H) (kv258_eq H) (kv259_eq H) r q

theorem kv315_eq (r : Fin 1536) (q : Fin 256) :
    kv315 x0 x1 x2 x3 x4 x5 x6 x7 x8 x9 x10 x11 (ix2 r q) = Cert.Spec.c4 p (n0 + r.val % 128) (4 * 6 + q.val / 64) (r.val / 128) (q.val % 64) := by
  unfold kv315
  exact k0_pay52_apply (Cert.Spec.c3 p) p.w4 p.b4 n0 6 (kv238 x0 x1 x2 x3 x4 x5 x6 x7 x8) (kv246 x0 x1 x2 x3 x4 x5 x6 x7 x8) (kv256 x9) (kv258 x10) (kv259 x11) (kv238_eq H) (kv246_eq H) (kv256_eq H) (kv258_eq H) (kv259_eq H) r q

theorem kv323_eq (r : Fin 1536) (q : Fin 256) :
    kv323 x0 x1 x2 x3 x4 x5 x6 x7 x8 x9 x10 x11 (ix2 r q) = Cert.Spec.c4 p (n0 + r.val % 128) (4 * 7 + q.val / 64) (r.val / 128) (q.val % 64) := by
  unfold kv323
  exact k0_pay53_apply (Cert.Spec.c3 p) p.w4 p.b4 n0 7 (kv246 x0 x1 x2 x3 x4 x5 x6 x7 x8) (kv254 x0 x1 x2 x3 x4 x5 x6 x7 x8) (kv256 x9) (kv258 x10) (kv259 x11) (kv246_eq H) (kv254_eq H) (kv256_eq H) (kv258_eq H) (kv259_eq H) r q

end

end Cert.KernelIdeal.Hand

end
-- ==== Proof.LibDense.lean ====
/-
  Regrouping the long sums of the first dense layer over the extended reals (any additive
  commutative monoid): a sum over the 22272 features in (height, width, channel) order as a triple
  sum, and the kernel's sum over 12 widths x 8 chunks x 256 rows against a weight whose rows at the
  padded heights 29..31 are zero.
-/
import proofs.«156904_g2000200884589374_pallasbulk_247_2_alg».proof.Proof.LibBand

namespace Cert.LibDense

open Finset Cert.LibBand

/-- A sum over the 29 * 768 features is the triple sum over height, width and channel. -/
theorem sum_range_hwc {M : Type*} [AddCommMonoid M] (g : ℕ → M) :
    ∑ Q ∈ range 22272, g Q
      = ∑ h ∈ range 29, ∑ w ∈ range 12, ∑ c ∈ range 64, g (h * 768 + w * 64 + c) := by
  rw [show (22272 : ℕ) = 29 * 768 from rfl, sum_range_mul g 29 768]
  refine Finset.sum_congr rfl fun h _ => ?_
  rw [show (768 : ℕ) = 12 * 64 from rfl, sum_range_mul (fun q => g (h * (12 * 64) + q)) 12 64]
  refine Finset.sum_congr rfl fun w _ => Finset.sum_congr rfl fun c _ => ?_
  rw [Nat.add_assoc]

/-- Two tiles of 11136 make the 22272. -/
theorem sum_two_tiles {M : Type*} [AddCommMonoid M] (g : ℕ → M) :
    ∑ k ∈ range 2, ∑ q ∈ range 11136, g (k * 11136 + q) = ∑ Q ∈ range 22272, g Q := by
  rw [show (22272 : ℕ) = 2 * 11136 from rfl, sum_range_mul g 2 11136]

/-- A sum over 32 heights of terms that vanish from height 29 on is the sum over 29 heights. -/
theorem sum_range_32_29 {M : Type*} [AddCommMonoid M] (g : ℕ → M) :
    ∑ h ∈ range 32, (if h < 29 then g h else 0) = ∑ h ∈ range 29, g h := by
  rw [← Finset.sum_filter]
  have e : (range 32).filter (fun h => h < 29) = range 29 := by
    ext h; simp only [mem_filter, mem_range]; omega
  rw [e]

/-- The kernel's first dense layer: over widths w < 12, chunks j < 8 and rows R < 256 of a chunk
    (row R is height 4 j + R / 64 of the 32, channel R % 64), against the re-ordered weight
    P (2048 w + 256 j + R) that is M at feature (h, w, c) for h < 29 and zero for the padded
    heights. The sum is the triple sum over the 29 x 12 x 64 features. -/
theorem sum_chunks_hwc (C : ℕ → ℕ → ℕ → EReal) (M : ℕ → EReal) :
    ∑ w ∈ range 12, ∑ j ∈ range 8, ∑ R ∈ range 256,
        C (4 * j + R / 64) w (R % 64)
          * (if ((2048 * w + 256 * j + R) % 2048) / 64 < 29
             then M ((((2048 * w + 256 * j + R) % 2048) / 64) * 768 + ((2048 * w + 256 * j + R) / 2048) * 64
                      + (2048 * w + 256 * j + R) % 64)
             else 0)
      = ∑ h ∈ range 29, ∑ w ∈ range 12, ∑ c ∈ range 64, C h w c * M (h * 768 + w * 64 + c) := by
  rw [Finset.sum_comm]
  have key : ∀ w ∈ range 12, (∑ j ∈ range 8, ∑ R ∈ range 256,
        C (4 * j + R / 64) w (R % 64)
          * (if ((2048 * w + 256 * j + R) % 2048) / 64 < 29
             then M ((((2048 * w + 256 * j + R) % 2048) / 64) * 768 + ((2048 * w + 256 * j + R) / 2048) * 64
                      + (2048 * w + 256 * j + R) % 64)
             else 0))
      = ∑ h ∈ range 29, ∑ c ∈ range 64, C h w c * M (h * 768 + w * 64 + c) := by
    intro w _
    let f : ℕ → EReal := fun Q => C (Q / 64) w (Q % 64) * (if Q / 64 < 29 then M ((Q / 64) * 768 + w * 64 + Q % 64) else 0)
    have e1 : ∀ j ∈ range 8, ∀ R ∈ range 256,
        C (4 * j + R / 64) w (R % 64)
          * (if ((2048 * w + 256 * j + R) % 2048) / 64 < 29
             then M ((((2048 * w + 256 * j + R) % 2048) / 64) * 768 + ((2048 * w + 256 * j + R) / 2048) * 64
                      + (2048 * w + 256 * j + R) % 64)
             else 0) = f (j * 256 + R) := by
      intro j hj R hR
      have hj' : j < 8 := mem_range.mp hj
      have hR' : R < 256 := mem_range.mp hR
      have a1 : (2048 * w + 256 * j + R) % 2048 = 256 * j + R := by omega
      have a2 : (2048 * w + 256 * j + R) / 2048 = w := by omega
      have a3 : (2048 * w + 256 * j + R) % 64 = R % 64 := by omega
      have a4 : (256 * j + R) / 64 = 4 * j + R / 64 := by omega
      have a5 : (j * 256 + R) / 64 = 4 * j + R / 64 := by omega
      have a6 : (j * 256 + R) % 64 = R % 64 := by omega
      simp only [f, a1, a2, a3, a4, a5, a6]
    rw [Finset.sum_congr rfl fun j hj => Finset.sum_congr rfl fun R hR => e1 j hj R hR,
      ← sum_range_mul f 8 256, show 8 * 256 = 32 * 64 from rfl, sum_range_mul f 32 64]
    have e2 : ∀ h, ∑ c ∈ range 64, f (h * 64 + c)
        = if h < 29 then ∑ c ∈ range 64, C h w c * M (h * 768 + w * 64 + c) else 0 := by
      intro h
      have hc : ∀ c ∈ range 64, f (h * 64 + c) = if h < 29 then C h w c * M (h * 768 + w * 64 + c) else 0 := by
        intro c hc
        have hc' : c < 64 := mem_range.mp hc
        have q1 : (h * 64 + c) / 64 = h := by omega
        have q2 : (h * 64 + c) % 64 = c := by omega
        simp only [f, q1, q2]
        split_ifs <;> simp
      rw [Finset.sum_congr rfl hc]
      split_ifs <;> simp
    simp only [e2]
    exact sum_range_32_29 _
  rw [Finset.sum_comm, Finset.sum_congr rfl key, Finset.sum_comm]

end Cert.LibDense
-- ==== Proof.KDenseLib.lean ====
/-
  The first dense layer of the kernel as a running sum of 96 block products, and the plain matrix
  product read at an index.

  The kernel holds the last convolution's activations as eight chunks; chunk j has, in row
  128 w + b and column q, the activation of image n0 + b at height 4 j + q / 64, width w and
  channel q % 64. The first dense layer multiplies, for each width w < 12 and chunk j < 8, the 128
  rows of width w of chunk j (a 128 x 256 matrix) by the 256 rows 2048 w + 256 j .. + 255 of the
  re-ordered weight, and adds the 96 products in the order i = 8 w + j. The running sum after m
  products is `partial`; after all 96 it is the dense layer's triple sum over (height, width,
  channel), because the re-ordered weight's rows at the padded heights 29..31 are zero.
-/
import proofs.«156904_g2000200884589374_pallasbulk_247_2_alg».proof.Proof.Spec
import proofs.«156904_g2000200884589374_pallasbulk_247_2_alg».proof.Proof.LibDense
import Idealize.ShloMosaic.PureOps.Ideal.Laws
import Idealize.ShloMosaic.Lib.ValueIdx

noncomputable section

namespace Cert.KernelIdeal.Hand.Dense

open Idealize.ShloMosaic Idealize.ShloMosaic.ValueIdx Finset

/-! ## A plain matrix product read at an index -/

/-- An M x K by K x N product (contracting the left operand's columns with the right operand's
    rows, no batch axis) into the zero accumulator, read at (a, b), is the sum over the K
    contracted positions of the products of the entries. -/
theorem matmul_plain_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    FloatOps.matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The running sum of the first dense layer -/

/-- The product of the 128 rows of width w of chunk j with its 256 weight rows, at image n and
    output o: the sum over the chunk's 256 columns R (height 4 j + R / 64, channel R % 64). -/
def block (p : Cert.Spec.Args) (n o w j : ℕ) : EReal :=
  ∑ R ∈ range 256, Cert.Spec.c4 p n (4 * j + R / 64) w (R % 64) * Cert.Spec.f1perm p (2048 * w + 256 * j + R) o

/-- The sum of the first m block products, in the order i = 8 w + j. -/
def partialSum (p : Cert.Spec.Args) (n o m : ℕ) : EReal :=
  ∑ i ∈ range m, block p n o (i / 8) (i % 8)

theorem partialSum_zero (p : Cert.Spec.Args) (n o : ℕ) : partialSum p n o 0 = 0 := by
  simp [partialSum]

theorem partialSum_succ (p : Cert.Spec.Args) (n o m : ℕ) :
    partialSum p n o (m + 1) = partialSum p n o m + block p n o (m / 8) (m % 8) :=
  Finset.sum_range_succ _ _

/-- All 96 block products add up to the dense layer's sum over the 29 x 12 x 64 features. -/
theorem partialSum_all (p : Cert.Spec.Args) (n o : ℕ) :
    partialSum p n o 96
      = ∑ h ∈ range 29, ∑ w ∈ range 12, ∑ c ∈ range 64,
          Cert.Spec.c4 p n h w c * Cert.Spec.mat p.f1w (h * 768 + w * 64 + c) o := by
  unfold partialSum
  rw [show (96 : ℕ) = 12 * 8 from rfl, Cert.LibBand.sum_range_mul (fun i => block p n o (i / 8) (i % 8)) 12 8]
  have e : ∀ w ∈ range 12, ∀ j ∈ range 8, block p n o ((w * 8 + j) / 8) ((w * 8 + j) % 8) = block p n o w j := by
    intro w _ j hj
    have hj' : j < 8 := mem_range.mp hj
    have a1 : (w * 8 + j) / 8 = w := by omega
    have a2 : (w * 8 + j) % 8 = j := by omega
    rw [a1, a2]
  rw [Finset.sum_congr rfl fun w hw => Finset.sum_congr rfl fun j hj => e w hw j hj]
  unfold block Cert.Spec.f1perm
  exact Cert.LibDense.sum_chunks_hwc (fun h w c => Cert.Spec.c4 p n h w c) (fun i => Cert.Spec.mat p.f1w i o)

end Cert.KernelIdeal.Hand.Dense

end
-- ==== Proof.KDenseStep.lean ====
/-
  One block product of the first dense layer added to the running sum.

  The 128 rows of width w of chunk j are rows 128 w .. 128 w + 127 of the chunk; row b of that slice
  is image n0 + b, and its 256 columns are (height 4 j + q / 64, channel q % 64). Its product with
  the 256 weight rows 2048 w + 256 j .. is `block`, so adding it to the sum of the first
  m = 8 w + j blocks gives the sum of the first m + 1.
-/
import proofs.«156904_g2000200884589374_pallasbulk_247_2_alg».proof.Proof.KDenseLib
import proofs.«156904_g2000200884589374_pallasbulk_247_2_alg».proof.Proof.Gen.KernelIdeal.Skeleton
import Idealize.ShloMosaic.Lib.ValueLayout
import Idealize.ShloMosaic.Lib.Pipeline.Value

noncomputable section

namespace Cert.KernelIdeal.Hand.Dense

open Idealize.ShloMosaic Idealize.ShloMosaic.ValueIdx Finset Cert.KernelIdeal Cert.KernelIdeal.Gen

/-- A 1536 x 256 vector is chunk j of the last convolution's activations for the images from n0:
    row 128 w + b is width w of image n0 + b, column q is height 4 j + q / 64, channel q % 64. -/
@[reducible] def ChunkIs (p : Cert.Spec.Args) (n0 j : ℕ) (A : FVec Ideal S1536x256 .bf16) : Prop :=
  ∀ (r : Fin 1536) (q : Fin 256),
    A (ix2 r q) = Cert.Spec.c4 p (n0 + r.val % 128) (4 * j + q.val / 64) (r.val / 128) (q.val % 64)

/-- A 128 x 256 vector is the rows of width w of chunk j: row b is image n0 + b. -/
@[reducible] def SliceIs (p : Cert.Spec.Args) (n0 j w : ℕ) (X : FVec Ideal S128x256 .bf16) : Prop :=
  ∀ (b : Fin 128) (q : Fin 256),
    X (ix2 b q) = Cert.Spec.c4 p (n0 + b.val) (4 * j + q.val / 64) w (q.val % 64)

/-- A 256 x 128 vector is the rows off .. off + 255 of the re-ordered first dense weight. -/
@[reducible] def WeightIs (p : Cert.Spec.Args) (off : ℕ) (W : FVec Ideal S256x128 .bf16) : Prop :=
  ∀ (R : Fin 256) (o : Fin 128), W (ix2 R o) = Cert.Spec.f1perm p (off + R.val) o.val

/-- A 128 x 128 vector is the sum of the first m block products, for the images from n0. -/
@[reducible] def AccIs (p : Cert.Spec.Args) (n0 m : ℕ) (acc : FVec Ideal S128x128 .f32) : Prop :=
  ∀ (b o : Fin 128), acc (ix2 b o) = partialSum p (n0 + b.val) o.val m

/-- The rows 128 w .. 128 w + 127 of chunk j are its width-w slice. -/
theorem slice_is {p : Cert.Spec.Args} {n0 j offr : ℕ} (w : ℕ) {A : FVec Ideal S1536x256 .bf16}
    (hsl : S1536x256.Slices ![offr, 0] S128x256) (hA : ChunkIs p n0 j A)
    (hw : w < 12) (hr : offr = 128 * w) :
    SliceIs p n0 j w (extractStridedSlice S128x256 ![offr, 0] A hsl) := by
  intro b q
  subst hr
  have hk : 128 * w + b.val < 1536 := by have := b.isLt; omega
  refine (slice2_axis0_apply (128 * w) A hsl b q ⟨128 * w + b.val, hk⟩ rfl).trans ?_
  refine (hA ⟨128 * w + b.val, hk⟩ q).trans ?_
  have e1 : (128 * w + b.val) % 128 = b.val := by have := b.isLt; omega
  have e2 : (128 * w + b.val) / 128 = w := by have := b.isLt; omega
  show Cert.Spec.c4 p (n0 + (128 * w + b.val) % 128) (4 * j + q.val / 64) ((128 * w + b.val) / 128) (q.val % 64) = _
  rw [e1, e2]

/-- The product of a width-w slice of chunk j with its weight rows is the block product. -/
theorem mm_block {p : Cert.Spec.Args} {n0 j w offw : ℕ} {X : FVec Ideal S128x256 .bf16}
    {W : FVec Ideal S256x128 .bf16} (hsc : S256x128.ShapeCasts S256x128)
    (hX : SliceIs p n0 j w X) (hW : WeightIs p offw W) (hq : offw = 2048 * w + 256 * j) (b o : Fin 128) :
    matmul dot_S128x256_S256x128_S128x128_1_0_0_1_n_n none X (shapeCast S256x128 W hsc)
        (constant S128x128 .f32 0x00000000#32) (ix2 b o)
      = block p (n0 + b.val) o.val w j := by
  rw [shapeCast_self]
  refine (matmul_plain_apply dot_S128x256_S256x128_S128x128_1_0_0_1_n_n_wf none X W b o).trans ?_
  unfold block
  rw [Finset.sum_range]
  refine Finset.sum_congr rfl fun c _ => ?_
  rw [hX b c, hW c o, hq]

/-- The first block product alone is the running sum after one block. -/
theorem acc_first {p : Cert.Spec.Args} {n0 offw : ℕ} {X : FVec Ideal S128x256 .bf16}
    {W : FVec Ideal S256x128 .bf16} (hsc : S256x128.ShapeCasts S256x128)
    (hX : SliceIs p n0 0 0 X) (hW : WeightIs p offw W) (hq : offw = 0 := by decide) :
    AccIs p n0 1 (matmul dot_S128x256_S256x128_S128x128_1_0_0_1_n_n none X (shapeCast S256x128 W hsc)
        (constant S128x128 .f32 0x00000000#32)) := by
  intro b o
  rw [mm_block hsc hX hW (by omega) b o, partialSum_succ, partialSum_zero, zero_add]

/-- Adding block m = 8 w + j, given as a slice, to the sum of the first m blocks. -/
theorem acc_slice (m w j : ℕ) {p : Cert.Spec.Args} {n0 offw : ℕ} {acc : FVec Ideal S128x128 .f32}
    {X : FVec Ideal S128x256 .bf16} {W : FVec Ideal S256x128 .bf16} (hsc : S256x128.ShapeCasts S256x128)
    (hacc : AccIs p n0 m acc) (hX : SliceIs p n0 j w X) (hW : WeightIs p offw W)
    (hm : m = 8 * w + j := by decide) (hj : j < 8 := by decide)
    (hq : offw = 2048 * w + 256 * j := by decide) :
    AccIs p n0 (m + 1) (addf acc (matmul dot_S128x256_S256x128_S128x128_1_0_0_1_n_n none X
        (shapeCast S256x128 W hsc) (constant S128x128 .f32 0x00000000#32))) := by
  intro b o
  have e1 : m / 8 = w := by omega
  have e2 : m % 8 = j := by omega
  rw [addf_apply, hacc b o, mm_block hsc hX hW hq b o, partialSum_succ, e1, e2]

/-- Adding block m = 8 w + j, cut from chunk j, to the sum of the first m blocks. -/
theorem acc_chunk (m w j : ℕ) {p : Cert.Spec.Args} {n0 offr offw : ℕ} {acc : FVec Ideal S128x128 .f32}
    {A : FVec Ideal S1536x256 .bf16} {W : FVec Ideal S256x128 .bf16}
    (hsl : S1536x256.Slices ![offr, 0] S128x256) (hsc : S256x128.ShapeCasts S256x128)
    (hacc : AccIs p n0 m acc) (hA : ChunkIs p n0 j A) (hW : WeightIs p offw W)
    (hm : m = 8 * w + j := by decide) (hj : j < 8 := by decide) (hw : w < 12 := by decide)
    (hr : offr = 128 * w := by decide) (hq : offw = 2048 * w + 256 * j := by decide) :
    AccIs p n0 (m + 1) (addf acc (matmul dot_S128x256_S256x128_S128x128_1_0_0_1_n_n none
        (extractStridedSlice S128x256 ![offr, 0] A hsl)
        (shapeCast S256x128 W hsc) (constant S128x128 .f32 0x00000000#32))) :=
  acc_slice m w j hsc hacc (slice_is w hsl hA hw hr) hW hm hj hq

end Cert.KernelIdeal.Hand.Dense

end
-- ==== Proof.KDenseA.lean ====
/-
  The first sixteen block products (widths 0 and 1) of the first dense layer.
-/
import proofs.«156904_g2000200884589374_pallasbulk_247_2_alg».proof.Proof.KDenseStep

noncomputable section

namespace Cert.KernelIdeal.Hand.Dense

open Idealize.ShloMosaic Idealize.ShloMosaic.ValueIdx Finset Cert.KernelIdeal Cert.KernelIdeal.Gen

/-- Block 0: width 0 of chunk 0 against weight rows 0..255. -/
theorem pay54_val {p : Cert.Spec.Args} {n0 : ℕ} {A0 : FVec Ideal S1536x256 .bf16} {W0 : FVec Ideal S256x128 .bf16}
    (hA0 : ChunkIs p n0 0 A0) (hW0 : WeightIs p 0 W0) :
    AccIs p n0 1 (k0_pay54 A0 W0) := by
  unfold k0_pay54
  exact acc_first _ (slice_is 0 _ hA0 (by decide) (by decide)) hW0

/-- Blocks 1..7: width 0 of chunks 1..7. -/
theorem pay55_val {p : Cert.Spec.Args} {n0 : ℕ} {A1 A2 A3 A4 A5 A6 A7 : FVec Ideal S1536x256 .bf16}
    {acc : FVec Ideal S128x128 .f32} {W1 W2 W3 W4 W5 W6 W7 : FVec Ideal S256x128 .bf16}
    (hA1 : ChunkIs p n0 1 A1) (hA2 : ChunkIs p n0 2 A2) (hA3 : ChunkIs p n0 3 A3) (hA4 : ChunkIs p n0 4 A4)
    (hA5 : ChunkIs p n0 5 A5) (hA6 : ChunkIs p n0 6 A6) (hA7 : ChunkIs p n0 7 A7)
    (hacc : AccIs p n0 1 acc)
    (hW1 : WeightIs p 256 W1) (hW2 : WeightIs p 512 W2) (hW3 : WeightIs p 768 W3) (hW4 : WeightIs p 1024 W4)
    (hW5 : WeightIs p 1280 W5) (hW6 : WeightIs p 1536 W6) (hW7 : WeightIs p 1792 W7) :
    AccIs p n0 8 (k0_pay55 A1 A2 A3 A4 A5 A6 A7 acc W1 W2 W3 W4 W5 W6 W7) := by
  unfold k0_pay55
  exact acc_chunk 7 0 7 _ _ (acc_chunk 6 0 6 _ _ (acc_chunk 5 0 5 _ _ (acc_chunk 4 0 4 _ _
    (acc_chunk 3 0 3 _ _ (acc_chunk 2 0 2 _ _ (acc_chunk 1 0 1 _ _ hacc hA1 hW1) hA2 hW2) hA3 hW3) hA4 hW4)
    hA5 hW5) hA6 hW6) hA7 hW7

/-- Width 1 of chunk 0. -/
theorem pay56_val {p : Cert.Spec.Args} {n0 : ℕ} {A0 : FVec Ideal S1536x256 .bf16} (hA0 : ChunkIs p n0 0 A0) :
    SliceIs p n0 0 1 (k0_pay56 A0) := by
  unfold k0_pay56
  exact slice_is 1 _ hA0 (by decide) (by decide)

/-- Blocks 8..15: width 1 of chunks 0..7. -/
theorem pay57_val {p : Cert.Spec.Args} {n0 : ℕ} {A1 A2 A3 A4 A5 A6 A7 : FVec Ideal S1536x256 .bf16}
    {acc : FVec Ideal S128x128 .f32} {X0 : FVec Ideal S128x256 .bf16}
    {W0 W1 W2 W3 W4 W5 W6 W7 : FVec Ideal S256x128 .bf16}
    (hA1 : ChunkIs p n0 1 A1) (hA2 : ChunkIs p n0 2 A2) (hA3 : ChunkIs p n0 3 A3) (hA4 : ChunkIs p n0 4 A4)
    (hA5 : ChunkIs p n0 5 A5) (hA6 : ChunkIs p n0 6 A6) (hA7 : ChunkIs p n0 7 A7)
    (hacc : AccIs p n0 8 acc) (hX0 : SliceIs p n0 0 1 X0)
    (hW0 : WeightIs p 2048 W0) (hW1 : WeightIs p 2304 W1) (hW2 : WeightIs p 2560 W2) (hW3 : WeightIs p 2816 W3)
    (hW4 : WeightIs p 3072 W4) (hW5 : WeightIs p 3328 W5) (hW6 : WeightIs p 3584 W6) (hW7 : WeightIs p 3840 W7) :
    AccIs p n0 16 (k0_pay57 A1 A2 A3 A4 A5 A6 A7 acc X0 W0 W1 W2 W3 W4 W5 W6 W7) := by
  unfold k0_pay57
  exact acc_chunk 15 1 7 _ _ (acc_chunk 14 1 6 _ _ (acc_chunk 13 1 5 _ _ (acc_chunk 12 1 4 _ _
    (acc_chunk 11 1 3 _ _ (acc_chunk 10 1 2 _ _ (acc_chunk 9 1 1 _ _ (acc_slice 8 1 0 _ hacc hX0 hW0)
    hA1 hW1) hA2 hW2) hA3 hW3) hA4 hW4) hA5 hW5) hA6 hW6) hA7 hW7

end Cert.KernelIdeal.Hand.Dense

end
-- ==== Proof.KDenseB.lean ====
/-
  Block products 16..45 of the first dense layer (widths 2..5).
-/
import proofs.«156904_g2000200884589374_pallasbulk_247_2_alg».proof.Proof.KDenseStep

noncomputable section

namespace Cert.KernelIdeal.Hand.Dense

open Idealize.ShloMosaic Idealize.ShloMosaic.ValueIdx Finset Cert.KernelIdeal Cert.KernelIdeal.Gen

/-- Blocks 16..22: width 2 of chunks 0..6. -/
theorem pay58_val {p : Cert.Spec.Args} {n0 : ℕ} {A0 A1 A2 A3 A4 A5 A6 : FVec Ideal S1536x256 .bf16}
    {acc : FVec Ideal S128x128 .f32} {W0 W1 W2 W3 W4 W5 W6 : FVec Ideal S256x128 .bf16}
    (hA0 : ChunkIs p n0 0 A0) (hA1 : ChunkIs p n0 1 A1) (hA2 : ChunkIs p n0 2 A2) (hA3 : ChunkIs p n0 3 A3) (hA4 : ChunkIs p n0 4 A4) (hA5 : ChunkIs p n0 5 A5) (hA6 : ChunkIs p n0 6 A6)
    (hacc : AccIs p n0 16 acc)
    (hW0 : WeightIs p 4096 W0) (hW1 : WeightIs p 4352 W1) (hW2 : WeightIs p 4608 W2) (hW3 : WeightIs p 4864 W3) (hW4 : WeightIs p 5120 W4) (hW5 : WeightIs p 5376 W5) (hW6 : WeightIs p 5632 W6) :
    AccIs p n0 23 (k0_pay58 A0 A1 A2 A3 A4 A5 A6 acc W0 W1 W2 W3 W4 W5 W6) := by
  unfold k0_pay58
  exact acc_chunk 22 2 6 _ _ (acc_chunk 21 2 5 _ _ (acc_chunk 20 2 4 _ _ (acc_chunk 19 2 3 _ _ (acc_chunk 18 2 2 _ _ (acc_chunk 17 2 1 _ _ (acc_chunk 16 2 0 _ _ hacc hA0 hW0) hA1 hW1) hA2 hW2) hA3 hW3) hA4 hW4) hA5 hW5) hA6 hW6

/-- Width 2 of chunk 7. -/
theorem pay59_val {p : Cert.Spec.Args} {n0 : ℕ} {A7 : FVec Ideal S1536x256 .bf16} (hA7 : ChunkIs p n0 7 A7) :
    SliceIs p n0 7 2 (k0_pay59 A7) := by
  unfold k0_pay59
  exact slice_is 2 _ hA7 (by decide) (by decide)

/-- Blocks 23..30: width 2 of chunk 7, width 3 of chunks 0..6. -/
theorem pay60_val {p : Cert.Spec.Args} {n0 : ℕ} {A0 A1 A2 A3 A4 A5 A6 : FVec Ideal S1536x256 .bf16}
    {acc : FVec Ideal S128x128 .f32} {X : FVec Ideal S128x256 .bf16} {W0 W1 W2 W3 W4 W5 W6 W7 : FVec Ideal S256x128 .bf16}
    (hA0 : ChunkIs p n0 0 A0) (hA1 : ChunkIs p n0 1 A1) (hA2 : ChunkIs p n0 2 A2) (hA3 : ChunkIs p n0 3 A3) (hA4 : ChunkIs p n0 4 A4) (hA5 : ChunkIs p n0 5 A5) (hA6 : ChunkIs p n0 6 A6)
    (hacc : AccIs p n0 23 acc) (hX : SliceIs p n0 7 2 X)
    (hW0 : WeightIs p 5888 W0) (hW1 : WeightIs p 6144 W1) (hW2 : WeightIs p 6400 W2) (hW3 : WeightIs p 6656 W3) (hW4 : WeightIs p 6912 W4) (hW5 : WeightIs p 7168 W5) (hW6 : WeightIs p 7424 W6) (hW7 : WeightIs p 7680 W7) :
    AccIs p n0 31 (k0_pay60 A0 A1 A2 A3 A4 A5 A6 acc X W0 W1 W2 W3 W4 W5 W6 W7) := by
  unfold k0_pay60
  exact acc_chunk 30 3 6 _ _ (acc_chunk 29 3 5 _ _ (acc_chunk 28 3 4 _ _ (acc_chunk 27 3 3 _ _ (acc_chunk 26 3 2 _ _ (acc_chunk 25 3 1 _ _ (acc_chunk 24 3 0 _ _ (acc_slice 23 2 7 _ hacc hX hW0) hA0 hW1) hA1 hW2) hA2 hW3) hA3 hW4) hA4 hW5) hA5 hW6) hA6 hW7

/-- Blocks 31..37: width 3 of chunk 7, width 4 of chunks 0..5. -/
theorem pay61_val {p : Cert.Spec.Args} {n0 : ℕ} {A0 A1 A2 A3 A4 A5 A7 : FVec Ideal S1536x256 .bf16}
    {acc : FVec Ideal S128x128 .f32} {W0 W1 W2 W3 W4 W5 W6 : FVec Ideal S256x128 .bf16}
    (hA0 : ChunkIs p n0 0 A0) (hA1 : ChunkIs p n0 1 A1) (hA2 : ChunkIs p n0 2 A2) (hA3 : ChunkIs p n0 3 A3) (hA4 : ChunkIs p n0 4 A4) (hA5 : ChunkIs p n0 5 A5) (hA7 : ChunkIs p n0 7 A7)
    (hacc : AccIs p n0 31 acc)
    (hW0 : WeightIs p 7936 W0) (hW1 : WeightIs p 8192 W1) (hW2 : WeightIs p 8448 W2) (hW3 : WeightIs p 8704 W3) (hW4 : WeightIs p 8960 W4) (hW5 : WeightIs p 9216 W5) (hW6 : WeightIs p 9472 W6) :
    AccIs p n0 38 (k0_pay61 A0 A1 A2 A3 A4 A5 A7 acc W0 W1 W2 W3 W4 W5 W6) := by
  unfold k0_pay61
  exact acc_chunk 37 4 5 _ _ (acc_chunk 36 4 4 _ _ (acc_chunk 35 4 3 _ _ (acc_chunk 34 4 2 _ _ (acc_chunk 33 4 1 _ _ (acc_chunk 32 4 0 _ _ (acc_chunk 31 3 7 _ _ hacc hA7 hW0) hA0 hW1) hA1 hW2) hA2 hW3) hA3 hW4) hA4 hW5) hA5 hW6

/-- Width 4 of chunk 6. -/
theorem pay62_val {p : Cert.Spec.Args} {n0 : ℕ} {A6 : FVec Ideal S1536x256 .bf16} (hA6 : ChunkIs p n0 6 A6) :
    SliceIs p n0 6 4 (k0_pay62 A6) := by
  unfold k0_pay62
  exact slice_is 4 _ hA6 (by decide) (by decide)

/-- Blocks 38..45: width 4 of chunks 6, 7, width 5 of chunks 0..5. -/
theorem pay63_val {p : Cert.Spec.Args} {n0 : ℕ} {A0 A1 A2 A3 A4 A5 A7 : FVec Ideal S1536x256 .bf16}
    {acc : FVec Ideal S128x128 .f32} {X : FVec Ideal S128x256 .bf16} {W0 W1 W2 W3 W4 W5 W6 W7 : FVec Ideal S256x128 .bf16}
    (hA0 : ChunkIs p n0 0 A0) (hA1 : ChunkIs p n0 1 A1) (hA2 : ChunkIs p n0 2 A2) (hA3 : ChunkIs p n0 3 A3) (hA4 : ChunkIs p n0 4 A4) (hA5 : ChunkIs p n0 5 A5) (hA7 : ChunkIs p n0 7 A7)
    (hacc : AccIs p n0 38 acc) (hX : SliceIs p n0 6 4 X)
    (hW0 : WeightIs p 9728 W0) (hW1 : WeightIs p 9984 W1) (hW2 : WeightIs p 10240 W2) (hW3 : WeightIs p 10496 W3) (hW4 : WeightIs p 10752 W4) (hW5 : WeightIs p 11008 W5) (hW6 : WeightIs p 11264 W6) (hW7 : WeightIs p 11520 W7) :
    AccIs p n0 46 (k0_pay63 A0 A1 A2 A3 A4 A5 A7 acc X W0 W1 W2 W3 W4 W5 W6 W7) := by
  unfold k0_pay63
  exact acc_chunk 45 5 5 _ _ (acc_chunk 44 5 4 _ _ (acc_chunk 43 5 3 _ _ (acc_chunk 42 5 2 _ _ (acc_chunk 41 5 1 _ _ (acc_chunk 40 5 0 _ _ (acc_chunk 39 4 7 _ _ (acc_slice 38 4 6 _ hacc hX hW0) hA7 hW1) hA0 hW2) hA1 hW3) hA2 hW4) hA3 hW5) hA4 hW6) hA5 hW7

end Cert.KernelIdeal.Hand.Dense

end
-- ==== Proof.KDenseC.lean ====
/-
  Block products 46..75 of the first dense layer (widths 5..9).
-/
import proofs.«156904_g2000200884589374_pallasbulk_247_2_alg».proof.Proof.KDenseStep

noncomputable section

namespace Cert.KernelIdeal.Hand.Dense

open Idealize.ShloMosaic Idealize.ShloMosaic.ValueIdx Finset Cert.KernelIdeal Cert.KernelIdeal.Gen

/-- Blocks 46..52: width 5 of chunks 6, 7, width 6 of chunks 0..4. -/
theorem pay64_val {p : Cert.Spec.Args} {n0 : ℕ} {A0 A1 A2 A3 A4 A6 A7 : FVec Ideal S1536x256 .bf16}
    {acc : FVec Ideal S128x128 .f32} {W0 W1 W2 W3 W4 W5 W6 : FVec Ideal S256x128 .bf16}
    (hA0 : ChunkIs p n0 0 A0) (hA1 : ChunkIs p n0 1 A1) (hA2 : ChunkIs p n0 2 A2) (hA3 : ChunkIs p n0 3 A3) (hA4 : ChunkIs p n0 4 A4) (hA6 : ChunkIs p n0 6 A6) (hA7 : ChunkIs p n0 7 A7)
    (hacc : AccIs p n0 46 acc)
    (hW0 : WeightIs p 11776 W0) (hW1 : WeightIs p 12032 W1) (hW2 : WeightIs p 12288 W2) (hW3 : WeightIs p 12544 W3) (hW4 : WeightIs p 12800 W4) (hW5 : WeightIs p 13056 W5) (hW6 : WeightIs p 13312 W6) :
    AccIs p n0 53 (k0_pay64 A0 A1 A2 A3 A4 A6 A7 acc W0 W1 W2 W3 W4 W5 W6) := by
  unfold k0_pay64
  exact acc_chunk 52 6 4 _ _ (acc_chunk 51 6 3 _ _ (acc_chunk 50 6 2 _ _ (acc_chunk 49 6 1 _ _ (acc_chunk 48 6 0 _ _ (acc_chunk 47 5 7 _ _ (acc_chunk 46 5 6 _ _ hacc hA6 hW0) hA7 hW1) hA0 hW2) hA1 hW3) hA2 hW4) hA3 hW5) hA4 hW6

/-- Width 6 of chunk 5. -/
theorem pay65_val {p : Cert.Spec.Args} {n0 : ℕ} {A5 : FVec Ideal S1536x256 .bf16} (hA5 : ChunkIs p n0 5 A5) :
    SliceIs p n0 5 6 (k0_pay65 A5) := by
  unfold k0_pay65
  exact slice_is 6 _ hA5 (by decide) (by decide)

/-- Blocks 53..60: width 6 of chunks 5..7, width 7 of chunks 0..4. -/
theorem pay66_val {p : Cert.Spec.Args} {n0 : ℕ} {A0 A1 A2 A3 A4 A6 A7 : FVec Ideal S1536x256 .bf16}
    {acc : FVec Ideal S128x128 .f32} {X : FVec Ideal S128x256 .bf16} {W0 W1 W2 W3 W4 W5 W6 W7 : FVec Ideal S256x128 .bf16}
    (hA0 : ChunkIs p n0 0 A0) (hA1 : ChunkIs p n0 1 A1) (hA2 : ChunkIs p n0 2 A2) (hA3 : ChunkIs p n0 3 A3) (hA4 : ChunkIs p n0 4 A4) (hA6 : ChunkIs p n0 6 A6) (hA7 : ChunkIs p n0 7 A7)
    (hacc : AccIs p n0 53 acc) (hX : SliceIs p n0 5 6 X)
    (hW0 : WeightIs p 13568 W0) (hW1 : WeightIs p 13824 W1) (hW2 : WeightIs p 14080 W2) (hW3 : WeightIs p 14336 W3) (hW4 : WeightIs p 14592 W4) (hW5 : WeightIs p 14848 W5) (hW6 : WeightIs p 15104 W6) (hW7 : WeightIs p 15360 W7) :
    AccIs p n0 61 (k0_pay66 A0 A1 A2 A3 A4 A6 A7 acc X W0 W1 W2 W3 W4 W5 W6 W7) := by
  unfold k0_pay66
  exact acc_chunk 60 7 4 _ _ (acc_chunk 59 7 3 _ _ (acc_chunk 58 7 2 _ _ (acc_chunk 57 7 1 _ _ (acc_chunk 56 7 0 _ _ (acc_chunk 55 6 7 _ _ (acc_chunk 54 6 6 _ _ (acc_slice 53 6 5 _ hacc hX hW0) hA6 hW1) hA7 hW2) hA0 hW3) hA1 hW4) hA2 hW5) hA3 hW6) hA4 hW7

/-- Blocks 61..67: width 7 of chunks 5..7, width 8 of chunks 0..3. -/
theorem pay67_val {p : Cert.Spec.Args} {n0 : ℕ} {A0 A1 A2 A3 A5 A6 A7 : FVec Ideal S1536x256 .bf16}
    {acc : FVec Ideal S128x128 .f32} {W0 W1 W2 W3 W4 W5 W6 : FVec Ideal S256x128 .bf16}
    (hA0 : ChunkIs p n0 0 A0) (hA1 : ChunkIs p n0 1 A1) (hA2 : ChunkIs p n0 2 A2) (hA3 : ChunkIs p n0 3 A3) (hA5 : ChunkIs p n0 5 A5) (hA6 : ChunkIs p n0 6 A6) (hA7 : ChunkIs p n0 7 A7)
    (hacc : AccIs p n0 61 acc)
    (hW0 : WeightIs p 15616 W0) (hW1 : WeightIs p 15872 W1) (hW2 : WeightIs p 16128 W2) (hW3 : WeightIs p 16384 W3) (hW4 : WeightIs p 16640 W4) (hW5 : WeightIs p 16896 W5) (hW6 : WeightIs p 17152 W6) :
    AccIs p n0 68 (k0_pay67 A0 A1 A2 A3 A5 A6 A7 acc W0 W1 W2 W3 W4 W5 W6) := by
  unfold k0_pay67
  exact acc_chunk 67 8 3 _ _ (acc_chunk 66 8 2 _ _ (acc_chunk 65 8 1 _ _ (acc_chunk 64 8 0 _ _ (acc_chunk 63 7 7 _ _ (acc_chunk 62 7 6 _ _ (acc_chunk 61 7 5 _ _ hacc hA5 hW0) hA6 hW1) hA7 hW2) hA0 hW3) hA1 hW4) hA2 hW5) hA3 hW6

/-- Width 8 of chunk 4. -/
theorem pay68_val {p : Cert.Spec.Args} {n0 : ℕ} {A4 : FVec Ideal S1536x256 .bf16} (hA4 : ChunkIs p n0 4 A4) :
    SliceIs p n0 4 8 (k0_pay68 A4) := by
  unfold k0_pay68
  exact slice_is 8 _ hA4 (by decide) (by decide)

/-- Blocks 68..75: width 8 of chunks 4..7, width 9 of chunks 0..3. -/
theorem pay69_val {p : Cert.Spec.Args} {n0 : ℕ} {A0 A1 A2 A3 A5 A6 A7 : FVec Ideal S1536x256 .bf16}
    {acc : FVec Ideal S128x128 .f32} {X : FVec Ideal S128x256 .bf16} {W0 W1 W2 W3 W4 W5 W6 W7 : FVec Ideal S256x128 .bf16}
    (hA0 : ChunkIs p n0 0 A0) (hA1 : ChunkIs p n0 1 A1) (hA2 : ChunkIs p n0 2 A2) (hA3 : ChunkIs p n0 3 A3) (hA5 : ChunkIs p n0 5 A5) (hA6 : ChunkIs p n0 6 A6) (hA7 : ChunkIs p n0 7 A7)
    (hacc : AccIs p n0 68 acc) (hX : SliceIs p n0 4 8 X)
    (hW0 : WeightIs p 17408 W0) (hW1 : WeightIs p 17664 W1) (hW2 : WeightIs p 17920 W2) (hW3 : WeightIs p 18176 W3) (hW4 : WeightIs p 18432 W4) (hW5 : WeightIs p 18688 W5) (hW6 : WeightIs p 18944 W6) (hW7 : WeightIs p 19200 W7) :
    AccIs p n0 76 (k0_pay69 A0 A1 A2 A3 A5 A6 A7 acc X W0 W1 W2 W3 W4 W5 W6 W7) := by
  unfold k0_pay69
  exact acc_chunk 75 9 3 _ _ (acc_chunk 74 9 2 _ _ (acc_chunk 73 9 1 _ _ (acc_chunk 72 9 0 _ _ (acc_chunk 71 8 7 _ _ (acc_chunk 70 8 6 _ _ (acc_chunk 69 8 5 _ _ (acc_slice 68 8 4 _ hacc hX hW0) hA5 hW1) hA6 hW2) hA7 hW3) hA0 hW4) hA1 hW5) hA2 hW6) hA3 hW7

end Cert.KernelIdeal.Hand.Dense

end
-- ==== Proof.KDenseTail.lean ====
/-
  The second and third dense layers of the kernel.

  After the 96 block products the kernel adds the first bias, clips at zero, multiplies by the
  second dense weight and adds the second bias (that value, before its own clip, is what the last
  accumulation step hands on); the final step clips it, multiplies by the third dense weight and
  adds the third bias. The clipped first-layer value is d1 by the regrouping of the 96 blocks.
-/
import proofs.«156904_g2000200884589374_pallasbulk_247_2_alg».proof.Proof.KDenseStep

noncomputable section

namespace Cert.KernelIdeal.Hand.Dense

open Idealize.ShloMosaic Idealize.ShloMosaic.ValueIdx Finset Cert.KernelIdeal Cert.KernelIdeal.Gen

/-- The f32 zero word denotes the extended real 0. -/
theorem zero_word : (Scalar.ofBits .f32 0x00000000#32 : Ideal .f32) = (0 : EReal) := Ideal.ofBits_zero_f32

/-- A 128 x 128 vector is the second dense layer before its clip, for the images from n0. -/
@[reducible] def Pre2Is (p : Cert.Spec.Args) (n0 : ℕ) (v : FVec Ideal S128x128 .f32) : Prop :=
  ∀ (b i : Fin 128), v (ix2 b i)
    = (∑ k ∈ range 128, Cert.Spec.d1 p (n0 + b.val) k * Cert.Spec.mat p.f2w k i.val) + Cert.Spec.row p.f2b i.val

/-- From the sum of all 96 blocks: add the first bias, clip, multiply by the second dense weight,
    add the second bias. -/
theorem dense2 {p : Cert.Spec.Args} {n0 : ℕ} {acc : FVec Ideal S128x128 .f32} {fb1 : FVec Ideal S1x128 .f32}
    {F2 : FVec Ideal S128x128 .bf16} {fb2 : FVec Ideal S1x128 .f32}
    (hbc hbc' : S1x128.Broadcasts S128x128) (hlt : FTy.bits .bf16 < FTy.bits .f32)
    (hsc : S128x128.ShapeCasts S128x128)
    (hacc : AccIs p n0 96 acc)
    (hb1 : ∀ o : Fin 128, fb1 (ix2 (0 : Fin 1) o) = Cert.Spec.row p.f1b o.val)
    (hF2 : ∀ i o : Fin 128, F2 (ix2 i o) = Cert.Spec.mat p.f2w i.val o.val)
    (hb2 : ∀ o : Fin 128, fb2 (ix2 (0 : Fin 1) o) = Cert.Spec.row p.f2b o.val) :
    Pre2Is p n0 (addf (matmul dot_S128x128_S128x128_S128x128_1_0_0_1_n_n none
          (truncf .bf16 (maximumf (addf acc (broadcastTo S128x128 fb1 hbc))
            (broadcast S128x128 (Scalar.ofBits .f32 0x00000000#32))) hlt)
          (shapeCast S128x128 F2 hsc) (constant S128x128 .f32 0x00000000#32))
        (broadcastTo S128x128 fb2 hbc')) := by
  intro b o
  rw [addf_apply, shapeCast_self]
  refine congrArg₂ (· + ·) ?_ ((broadcastTo_1b_ab_apply fb2 hbc' b o).trans (hb2 o))
  refine (matmul_plain_apply dot_S128x128_S128x128_S128x128_1_0_0_1_n_n_wf none _ F2 b o).trans ?_
  rw [Finset.sum_range]
  refine Finset.sum_congr rfl fun i _ => ?_
  rw [hF2 i o, truncf_apply, maximumf_apply, addf_apply, broadcast_apply, zero_word,
    (broadcastTo_1b_ab_apply fb1 hbc b i).trans (hb1 i), hacc b i, partialSum_all]
  rfl

/-- From the second dense layer before its clip: clip, multiply by the third dense weight, add the
    third bias. -/
theorem dense3 {p : Cert.Spec.Args} {n0 : ℕ} {v : FVec Ideal S128x128 .f32}
    {F3 : FVec Ideal S128x22 .bf16} {fb3 : FVec Ideal S1x22 .f32}
    (hbc : S1x22.Broadcasts S128x22) (hlt : FTy.bits .bf16 < FTy.bits .f32)
    (hsc : S128x22.ShapeCasts S128x22)
    (hv : Pre2Is p n0 v)
    (hF3 : ∀ (i : Fin 128) (o : Fin 22), F3 (ix2 i o) = Cert.Spec.mat p.f3w i.val o.val)
    (hb3 : ∀ o : Fin 22, fb3 (ix2 (0 : Fin 1) o) = Cert.Spec.row p.f3b o.val) (b : Fin 128) (o : Fin 22) :
    addf (matmul dot_S128x128_S128x22_S128x22_1_0_0_1_n_n none
          (truncf .bf16 (maximumf v (broadcast S128x128 (Scalar.ofBits .f32 0x00000000#32))) hlt)
          (shapeCast S128x22 F3 hsc) (constant S128x22 .f32 0x00000000#32))
        (broadcastTo S128x22 fb3 hbc) (ix2 b o)
      = Cert.Spec.d3 p (n0 + b.val) o.val := by
  rw [addf_apply, shapeCast_self]
  refine congrArg₂ (· + ·) ?_ ((broadcastTo_1b_ab_apply fb3 hbc b o).trans (hb3 o))
  refine (matmul_plain_apply dot_S128x128_S128x22_S128x22_1_0_0_1_n_n_wf none _ F3 b o).trans ?_
  rw [Finset.sum_range]
  refine Finset.sum_congr rfl fun i _ => ?_
  rw [hF3 i o, truncf_apply, maximumf_apply, broadcast_apply, zero_word, hv b i]
  rfl

/-- The kernel's stored value: the third dense layer of the images n0 .. n0 + 127. -/
theorem pay1_val {p : Cert.Spec.Args} {n0 : ℕ} {v : FVec Ideal S128x128 .f32}
    {F3 : FVec Ideal S128x22 .bf16} {fb3 : FVec Ideal S1x22 .f32}
    (hv : Pre2Is p n0 v)
    (hF3 : ∀ (i : Fin 128) (o : Fin 22), F3 (ix2 i o) = Cert.Spec.mat p.f3w i.val o.val)
    (hb3 : ∀ o : Fin 22, fb3 (ix2 (0 : Fin 1) o) = Cert.Spec.row p.f3b o.val) (b : Fin 128) (o : Fin 22) :
    k0_pay1 v F3 fb3 (ix2 b o) = Cert.Spec.d3 p (n0 + b.val) o.val := by
  unfold k0_pay1
  exact dense3 _ _ _ hv hF3 hb3 b o

end Cert.KernelIdeal.Hand.Dense

end
-- ==== Proof.KDenseD.lean ====
/-
  Block products 76..95 of the first dense layer (widths 9..11), and the second dense layer.
-/
import proofs.«156904_g2000200884589374_pallasbulk_247_2_alg».proof.Proof.KDenseTail

noncomputable section

namespace Cert.KernelIdeal.Hand.Dense

open Idealize.ShloMosaic Idealize.ShloMosaic.ValueIdx Finset Cert.KernelIdeal Cert.KernelIdeal.Gen

/-- Blocks 76..82: width 9 of chunks 4..7, width 10 of chunks 0..2. -/
theorem pay70_val {p : Cert.Spec.Args} {n0 : ℕ} {A0 A1 A2 A4 A5 A6 A7 : FVec Ideal S1536x256 .bf16}
    {acc : FVec Ideal S128x128 .f32} {W0 W1 W2 W3 W4 W5 W6 : FVec Ideal S256x128 .bf16}
    (hA0 : ChunkIs p n0 0 A0) (hA1 : ChunkIs p n0 1 A1) (hA2 : ChunkIs p n0 2 A2) (hA4 : ChunkIs p n0 4 A4) (hA5 : ChunkIs p n0 5 A5) (hA6 : ChunkIs p n0 6 A6) (hA7 : ChunkIs p n0 7 A7)
    (hacc : AccIs p n0 76 acc)
    (hW0 : WeightIs p 19456 W0) (hW1 : WeightIs p 19712 W1) (hW2 : WeightIs p 19968 W2) (hW3 : WeightIs p 20224 W3) (hW4 : WeightIs p 20480 W4) (hW5 : WeightIs p 20736 W5) (hW6 : WeightIs p 20992 W6) :
    AccIs p n0 83 (k0_pay70 A0 A1 A2 A4 A5 A6 A7 acc W0 W1 W2 W3 W4 W5 W6) := by
  unfold k0_pay70
  exact acc_chunk 82 10 2 _ _ (acc_chunk 81 10 1 _ _ (acc_chunk 80 10 0 _ _ (acc_chunk 79 9 7 _ _ (acc_chunk 78 9 6 _ _ (acc_chunk 77 9 5 _ _ (acc_chunk 76 9 4 _ _ hacc hA4 hW0) hA5 hW1) hA6 hW2) hA7 hW3) hA0 hW4) hA1 hW5) hA2 hW6

/-- Width 10 of chunk 3. -/
theorem pay71_val {p : Cert.Spec.Args} {n0 : ℕ} {A3 : FVec Ideal S1536x256 .bf16} (hA3 : ChunkIs p n0 3 A3) :
    SliceIs p n0 3 10 (k0_pay71 A3) := by
  unfold k0_pay71
  exact slice_is 10 _ hA3 (by decide) (by decide)

/-- Blocks 83..90: width 10 of chunks 3..7, width 11 of chunks 0..2. -/
theorem pay72_val {p : Cert.Spec.Args} {n0 : ℕ} {A0 A1 A2 A4 A5 A6 A7 : FVec Ideal S1536x256 .bf16}
    {acc : FVec Ideal S128x128 .f32} {X : FVec Ideal S128x256 .bf16} {W0 W1 W2 W3 W4 W5 W6 W7 : FVec Ideal S256x128 .bf16}
    (hA0 : ChunkIs p n0 0 A0) (hA1 : ChunkIs p n0 1 A1) (hA2 : ChunkIs p n0 2 A2) (hA4 : ChunkIs p n0 4 A4) (hA5 : ChunkIs p n0 5 A5) (hA6 : ChunkIs p n0 6 A6) (hA7 : ChunkIs p n0 7 A7)
    (hacc : AccIs p n0 83 acc) (hX : SliceIs p n0 3 10 X)
    (hW0 : WeightIs p 21248 W0) (hW1 : WeightIs p 21504 W1) (hW2 : WeightIs p 21760 W2) (hW3 : WeightIs p 22016 W3) (hW4 : WeightIs p 22272 W4) (hW5 : WeightIs p 22528 W5) (hW6 : WeightIs p 22784 W6) (hW7 : WeightIs p 23040 W7) :
    AccIs p n0 91 (k0_pay72 A0 A1 A2 A4 A5 A6 A7 acc X W0 W1 W2 W3 W4 W5 W6 W7) := by
  unfold k0_pay72
  exact acc_chunk 90 11 2 _ _ (acc_chunk 89 11 1 _ _ (acc_chunk 88 11 0 _ _ (acc_chunk 87 10 7 _ _ (acc_chunk 86 10 6 _ _ (acc_chunk 85 10 5 _ _ (acc_chunk 84 10 4 _ _ (acc_slice 83 10 3 _ hacc hX hW0) hA4 hW1) hA5 hW2) hA6 hW3) hA7 hW4) hA0 hW5) hA1 hW6) hA2 hW7

/-- Blocks 91..95 (width 11 of chunks 3..7), then the first bias and clip, the second dense layer and its bias. -/
theorem pay73_val {p : Cert.Spec.Args} {n0 : ℕ} {A3 A4 A5 A6 A7 : FVec Ideal S1536x256 .bf16}
    {acc : FVec Ideal S128x128 .f32} {W0 W1 W2 W3 W4 : FVec Ideal S256x128 .bf16}
    {fb1 : FVec Ideal S1x128 .f32} {F2 : FVec Ideal S128x128 .bf16} {fb2 : FVec Ideal S1x128 .f32}
    (hA3 : ChunkIs p n0 3 A3) (hA4 : ChunkIs p n0 4 A4) (hA5 : ChunkIs p n0 5 A5) (hA6 : ChunkIs p n0 6 A6) (hA7 : ChunkIs p n0 7 A7)
    (hacc : AccIs p n0 91 acc)
    (hW0 : WeightIs p 23296 W0) (hW1 : WeightIs p 23552 W1) (hW2 : WeightIs p 23808 W2) (hW3 : WeightIs p 24064 W3) (hW4 : WeightIs p 24320 W4)
    (hb1 : ∀ o : Fin 128, fb1 (ix2 (0 : Fin 1) o) = Cert.Spec.row p.f1b o.val)
    (hF2 : ∀ i o : Fin 128, F2 (ix2 i o) = Cert.Spec.mat p.f2w i.val o.val)
    (hb2 : ∀ o : Fin 128, fb2 (ix2 (0 : Fin 1) o) = Cert.Spec.row p.f2b o.val) :
    Pre2Is p n0 (k0_pay73 A3 A4 A5 A6 A7 acc W0 W1 W2 W3 W4 fb1 F2 fb2) := by
  unfold k0_pay73
  exact dense2 _ _ _ _ (acc_chunk 95 11 7 _ _ (acc_chunk 94 11 6 _ _ (acc_chunk 93 11 5 _ _ (acc_chunk 92 11 4 _ _ (acc_chunk 91 11 3 _ _ hacc hA3 hW0) hA4 hW1) hA5 hW2) hA6 hW3) hA7 hW4) hb1 hF2 hb2

end Cert.KernelIdeal.Hand.Dense

end
-- ==== Proof.KDenseOut.lean ====
/-
  The stored block of the kernel from the eight chunks of the last convolution.

  Along the body's straight line the 96 block products are accumulated in the order i = 8 w + j:
  each 256-row slab of the re-ordered dense weight is read from the weight block at row offset
  256 i, so the running sum after each accumulation step is the sum of the first blocks; the last
  step adds the first bias, clips, and applies the second dense layer, and the stored value applies
  the third.
-/
import proofs.«156904_g2000200884589374_pallasbulk_247_2_alg».proof.Proof.KBlocks
import proofs.«156904_g2000200884589374_pallasbulk_247_2_alg».proof.Proof.KDenseA
import proofs.«156904_g2000200884589374_pallasbulk_247_2_alg».proof.Proof.KDenseB
import proofs.«156904_g2000200884589374_pallasbulk_247_2_alg».proof.Proof.KDenseC
import proofs.«156904_g2000200884589374_pallasbulk_247_2_alg».proof.Proof.KDenseD

noncomputable section

namespace Cert.KernelIdeal.Hand

open Idealize.ShloMosaic Idealize.ShloMosaic.ValueIdx Cert.KernelIdeal Cert.KernelIdeal.Gen Cert.KernelIdeal.Hand.Dense

variable {p : Cert.Spec.Args} {n0 : ℕ} {x0 : Vec Ideal S12x128x48 .f32} {x1 : Vec Ideal S48x2816 .bf16} {x2 : Vec Ideal S1x256 .f32}
    {x3 x4 : Vec Ideal S256x256 .bf16} {x5 : Vec Ideal S1x256 .f32} {x6 x7 : Vec Ideal S256x256 .bf16}
    {x8 : Vec Ideal S1x256 .f32} {x9 x10 : Vec Ideal S256x256 .bf16} {x11 : Vec Ideal S1x256 .f32}
    {x12 : Vec Ideal S24576x128 .bf16} {x13 : Vec Ideal S1x128 .f32} {x14 : Vec Ideal S128x128 .bf16}
    {x15 : Vec Ideal S1x128 .f32} {x16 : Vec Ideal S128x22 .bf16} {x17 : Vec Ideal S1x22 .f32}

/-- The 256 rows from row k of the weight block are the rows k .. k + 255 of the re-ordered weight. -/
theorem weight_slab (H : Blocks p n0 x0 x1 x2 x3 x4 x5 x6 x7 x8 x9 x10 x11 x12 x13 x14 x15 x16 x17) (k : ℕ)
    (inb : ∀ a, (![k, 0] : Fin 2 → ℕ) a + S256x128.size a ≤ S24576x128.size a) :
    WeightIs p k (View.ld x12 (Rect.unit (s := S24576x128) ![k, 0] S256x128.size inb)) :=
  fun R o => ld_rows (Cert.Spec.f1perm p) x12 H.h12 k inb R o

/-- The stored block is the third dense layer of the images n0 .. n0 + 127, given that the eight
    chunks are the last convolution's activations. -/
theorem kout_of_chunks (H : Blocks p n0 x0 x1 x2 x3 x4 x5 x6 x7 x8 x9 x10 x11 x12 x13 x14 x15 x16 x17)
    (hA0 : ChunkIs p n0 0 (kv267 x0 x1 x2 x3 x4 x5 x6 x7 x8 x9 x10 x11))
    (hA1 : ChunkIs p n0 1 (kv275 x0 x1 x2 x3 x4 x5 x6 x7 x8 x9 x10 x11))
    (hA2 : ChunkIs p n0 2 (kv283 x0 x1 x2 x3 x4 x5 x6 x7 x8 x9 x10 x11))
    (hA3 : ChunkIs p n0 3 (kv291 x0 x1 x2 x3 x4 x5 x6 x7 x8 x9 x10 x11))
    (hA4 : ChunkIs p n0 4 (kv299 x0 x1 x2 x3 x4 x5 x6 x7 x8 x9 x10 x11))
    (hA5 : ChunkIs p n0 5 (kv307 x0 x1 x2 x3 x4 x5 x6 x7 x8 x9 x10 x11))
    (hA6 : ChunkIs p n0 6 (kv315 x0 x1 x2 x3 x4 x5 x6 x7 x8 x9 x10 x11))
    (hA7 : ChunkIs p n0 7 (kv323 x0 x1 x2 x3 x4 x5 x6 x7 x8 x9 x10 x11))
    (b : Fin 128) (o : Fin 22) :
    kout x0 x1 x2 x3 x4 x5 x6 x7 x8 x9 x10 x11 x12 x13 x14 x15 x16 x17 (ix2 b o)
      = Cert.Spec.d3 p (n0 + b.val) o.val := by
  have a1 : AccIs p n0 1 (kv327 x0 x1 x2 x3 x4 x5 x6 x7 x8 x9 x10 x11 x12) :=
    pay54_val hA0 (weight_slab H 0 _)
  have a8 : AccIs p n0 8 (kv362 x0 x1 x2 x3 x4 x5 x6 x7 x8 x9 x10 x11 x12) :=
    pay55_val hA1 hA2 hA3 hA4 hA5 hA6 hA7 a1 (weight_slab H 256 _) (weight_slab H 512 _) (weight_slab H 768 _) (weight_slab H 1024 _) (weight_slab H 1280 _) (weight_slab H 1536 _) (weight_slab H 1792 _)
  have s56 : SliceIs p n0 0 1 (kv363 x0 x1 x2 x3 x4 x5 x6 x7 x8 x9 x10 x11) := pay56_val hA0
  have a16 : AccIs p n0 16 (kv402 x0 x1 x2 x3 x4 x5 x6 x7 x8 x9 x10 x11 x12) :=
    pay57_val hA1 hA2 hA3 hA4 hA5 hA6 hA7 a8 s56 (weight_slab H 2048 _) (weight_slab H 2304 _) (weight_slab H 2560 _) (weight_slab H 2816 _) (weight_slab H 3072 _) (weight_slab H 3328 _) (weight_slab H 3584 _) (weight_slab H 3840 _)
  have a23 : AccIs p n0 23 (kv437 x0 x1 x2 x3 x4 x5 x6 x7 x8 x9 x10 x11 x12) :=
    pay58_val hA0 hA1 hA2 hA3 hA4 hA5 hA6 a16 (weight_slab H 4096 _) (weight_slab H 4352 _) (weight_slab H 4608 _) (weight_slab H 4864 _) (weight_slab H 5120 _) (weight_slab H 5376 _) (weight_slab H 5632 _)
  have s59 : SliceIs p n0 7 2 (kv438 x0 x1 x2 x3 x4 x5 x6 x7 x8 x9 x10 x11) := pay59_val hA7
  have a31 : AccIs p n0 31 (kv477 x0 x1 x2 x3 x4 x5 x6 x7 x8 x9 x10 x11 x12) :=
    pay60_val hA0 hA1 hA2 hA3 hA4 hA5 hA6 a23 s59 (weight_slab H 5888 _) (weight_slab H 6144 _) (weight_slab H 6400 _) (weight_slab H 6656 _) (weight_slab H 6912 _) (weight_slab H 7168 _) (weight_slab H 7424 _) (weight_slab H 7680 _)
  have a38 : AccIs p n0 38 (kv512 x0 x1 x2 x3 x4 x5 x6 x7 x8 x9 x10 x11 x12) :=
    pay61_val hA0 hA1 hA2 hA3 hA4 hA5 hA7 a31 (weight_slab H 7936 _) (weight_slab H 8192 _) (weight_slab H 8448 _) (weight_slab H 8704 _) (weight_slab H 8960 _) (weight_slab H 9216 _) (weight_slab H 9472 _)
  have s62 : SliceIs p n0 6 4 (kv513 x0 x1 x2 x3 x4 x5 x6 x7 x8 x9 x10 x11) := pay62_val hA6
  have a46 : AccIs p n0 46 (kv552 x0 x1 x2 x3 x4 x5 x6 x7 x8 x9 x10 x11 x12) :=
    pay63_val hA0 hA1 hA2 hA3 hA4 hA5 hA7 a38 s62 (weight_slab H 9728 _) (weight_slab H 9984 _) (weight_slab H 10240 _) (weight_slab H 10496 _) (weight_slab H 10752 _) (weight_slab H 11008 _) (weight_slab H 11264 _) (weight_slab H 11520 _)
  have a53 : AccIs p n0 53 (kv587 x0 x1 x2 x3 x4 x5 x6 x7 x8 x9 x10 x11 x12) :=
    pay64_val hA0 hA1 hA2 hA3 hA4 hA6 hA7 a46 (weight_slab H 11776 _) (weight_slab H 12032 _) (weight_slab H 12288 _) (weight_slab H 12544 _) (weight_slab H 12800 _) (weight_slab H 13056 _) (weight_slab H 13312 _)
  have s65 : SliceIs p n0 5 6 (kv588 x0 x1 x2 x3 x4 x5 x6 x7 x8 x9 x10 x11) := pay65_val hA5
  have a61 : AccIs p n0 61 (kv627 x0 x1 x2 x3 x4 x5 x6 x7 x8 x9 x10 x11 x12) :=
    pay66_val hA0 hA1 hA2 hA3 hA4 hA6 hA7 a53 s65 (weight_slab H 13568 _) (weight_slab H 13824 _) (weight_slab H 14080 _) (weight_slab H 14336 _) (weight_slab H 14592 _) (weight_slab H 14848 _) (weight_slab H 15104 _) (weight_slab H 15360 _)
  have a68 : AccIs p n0 68 (kv662 x0 x1 x2 x3 x4 x5 x6 x7 x8 x9 x10 x11 x12) :=
    pay67_val hA0 hA1 hA2 hA3 hA5 hA6 hA7 a61 (weight_slab H 15616 _) (weight_slab H 15872 _) (weight_slab H 16128 _) (weight_slab H 16384 _) (weight_slab H 16640 _) (weight_slab H 16896 _) (weight_slab H 17152 _)
  have s68 : SliceIs p n0 4 8 (kv663 x0 x1 x2 x3 x4 x5 x6 x7 x8 x9 x10 x11) := pay68_val hA4
  have a76 : AccIs p n0 76 (kv702 x0 x1 x2 x3 x4 x5 x6 x7 x8 x9 x10 x11 x12) :=
    pay69_val hA0 hA1 hA2 hA3 hA5 hA6 hA7 a68 s68 (weight_slab H 17408 _) (weight_slab H 17664 _) (weight_slab H 17920 _) (weight_slab H 18176 _) (weight_slab H 18432 _) (weight_slab H 18688 _) (weight_slab H 18944 _) (weight_slab H 19200 _)
  have a83 : AccIs p n0 83 (kv737 x0 x1 x2 x3 x4 x5 x6 x7 x8 x9 x10 x11 x12) :=
    pay70_val hA0 hA1 hA2 hA4 hA5 hA6 hA7 a76 (weight_slab H 19456 _) (weight_slab H 19712 _) (weight_slab H 19968 _) (weight_slab H 20224 _) (weight_slab H 20480 _) (weight_slab H 20736 _) (weight_slab H 20992 _)
  have s71 : SliceIs p n0 3 10 (kv738 x0 x1 x2 x3 x4 x5 x6 x7 x8 x9 x10 x11) := pay71_val hA3
  have a91 : AccIs p n0 91 (kv777 x0 x1 x2 x3 x4 x5 x6 x7 x8 x9 x10 x11 x12) :=
    pay72_val hA0 hA1 hA2 hA4 hA5 hA6 hA7 a83 s71 (weight_slab H 21248 _) (weight_slab H 21504 _) (weight_slab H 21760 _) (weight_slab H 22016 _) (weight_slab H 22272 _) (weight_slab H 22528 _) (weight_slab H 22784 _) (weight_slab H 23040 _)
  have hb1 : ∀ o : Fin 128, kv803 x13 (ix2 (0 : Fin 1) o) = Cert.Spec.row p.f1b o.val := fun o => by
    unfold kv803; rw [View.ld_unit_zero (S := S1x128) hz2]; exact H.h13 o
  have hF2 : ∀ i o : Fin 128, kv809 x14 (ix2 i o) = Cert.Spec.mat p.f2w i.val o.val := fun i o => by
    unfold kv809; rw [View.ld_unit_zero (S := S128x128) hz2]; exact H.h14 i o
  have hb2 : ∀ o : Fin 128, kv812 x15 (ix2 (0 : Fin 1) o) = Cert.Spec.row p.f2b o.val := fun o => by
    unfold kv812; rw [View.ld_unit_zero (S := S1x128) hz2]; exact H.h15 o
  have hF3 : ∀ (i : Fin 128) (o : Fin 22), kv818 x16 (ix2 i o) = Cert.Spec.mat p.f3w i.val o.val := fun i o => by
    unfold kv818; rw [View.ld_unit_zero (S := S128x22) hz2]; exact H.h16 i o
  have hb3 : ∀ o : Fin 22, kv821 x17 (ix2 (0 : Fin 1) o) = Cert.Spec.row p.f3b o.val := fun o => by
    unfold kv821; rw [View.ld_unit_zero (S := S1x22) hz2]; exact H.h17 o
  have v : Pre2Is p n0 (kv814 x0 x1 x2 x3 x4 x5 x6 x7 x8 x9 x10 x11 x12 x13 x14 x15) :=
    pay73_val hA3 hA4 hA5 hA6 hA7 a91 (weight_slab H 23296 _) (weight_slab H 23552 _) (weight_slab H 23808 _)
      (weight_slab H 24064 _) (weight_slab H 24320 _) hb1 hF2 hb2
  exact pay1_val v hF3 hb3 b o

end Cert.KernelIdeal.Hand

end
-- ==== Proof.KRun.lean ====
/-
  The kernel's run at the ideal instance, read: the result array is the network of the arguments.

  At grid point t the eighteen input blocks are the operand arrays restricted to the point's
  blocks: the padded, transposed input at images 128 t .. 128 t + 127 and the whole of every other
  operand; the host side leaves in those arrays the banded weight, the tap matrices, the tiled
  biases and the re-ordered dense weight of the arguments. So the chunks of the body are the four
  convolutions, the stored block is the dense layers of the last one, and the blocks written back
  over the grid tile the whole result array.
-/
import proofs.«156904_g2000200884589374_pallasbulk_247_2_alg».proof.Proof.KArray
import proofs.«156904_g2000200884589374_pallasbulk_247_2_alg».proof.Proof.KHost
import proofs.«156904_g2000200884589374_pallasbulk_247_2_alg».proof.Proof.KValueConv
import proofs.«156904_g2000200884589374_pallasbulk_247_2_alg».proof.Proof.KDenseOut
import proofs.«156904_g2000200884589374_pallasbulk_247_2_alg».proof.Proof.KArgs

noncomputable section

namespace Cert.KernelIdeal.Hand

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- A bias row read inside its range is the array's entry. -/
theorem row_val {n : ℕ} (a : (⟨2, ![1, n]⟩ : Shape).Idx → EReal) (o : Fin n) :
    Cert.Spec.row a o.val = a (ix2 (0 : Fin 1) o) := by
  unfold Cert.Spec.row; rw [dif_pos o.isLt]

/-- The eighteen input blocks of grid point t, in terms of the arguments. -/
theorem blocks_at (c : Dev nD) (t : Fin cfg0.N) :
    Blocks (args m c) (128 * t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) where
  h0 := fun w b R => by rw [iblk0_apply]; exact HandHost.V_main_v2 m c w _ R
  h1 := fun R q => by rw [iblk1_apply]; exact HandHost.V_main_v25 m c R q
  h2 := fun q => by rw [iblk2_apply]; exact HandHost.V_main_v71 m c q
  h3 := fun R q => by rw [iblk3_apply]; exact HandHost.V_main_v72 m c R q
  h4 := fun R q => by rw [iblk4_apply]; exact HandHost.V_main_v73 m c R q
  h5 := fun q => by rw [iblk5_apply]; exact HandHost.V_main_v76 m c q
  h6 := fun R q => by rw [iblk6_apply]; exact HandHost.V_main_v77 m c R q
  h7 := fun R q => by rw [iblk7_apply]; exact HandHost.V_main_v78 m c R q
  h8 := fun q => by rw [iblk8_apply]; exact HandHost.V_main_v81 m c q
  h9 := fun R q => by rw [iblk9_apply]; exact HandHost.V_main_v82 m c R q
  h10 := fun R q => by rw [iblk10_apply]; exact HandHost.V_main_v83 m c R q
  h11 := fun q => by rw [iblk11_apply]; exact HandHost.V_main_v86 m c q
  h12 := fun R o => by rw [iblk12_apply]; exact HandHost.V_main_v87 m c R o
  h13 := fun o => by rw [iblk13_apply, V_main_arg10, row_val]; rfl
  h14 := fun i o => by rw [iblk14_apply]; exact HandHost.V_main_v88 m c i o
  h15 := fun o => by rw [iblk15_apply, V_main_arg12, row_val]; rfl
  h16 := fun i o => by rw [iblk16_apply]; exact HandHost.V_main_v89 m c i o
  h17 := fun o => by rw [iblk17_apply, V_main_arg14, row_val]; rfl

/-- The block point t stores is the network at its 128 images. -/
theorem kout_value (c : Dev nD) (t : Fin cfg0.N) (b : Fin 128) (o : Fin 22) :
    kout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 b o) = Cert.Spec.d3 (args m c) (128 * t.val + b.val) o.val :=
  have H := blocks_at m c t
  kout_of_chunks H (kv267_eq H) (kv275_eq H) (kv283_eq H) (kv291_eq H) (kv299_eq H) (kv307_eq H) (kv315_eq H) (kv323_eq H) b o

/-- The result array after the run is the network of the arguments. -/
theorem final (c : Dev nD) : (dats m 0 c).arrAt 18 cfg0.N = Cert.Spec.net (args m c) :=
  final18 m c (Cert.Spec.net (args m c)) fun t b o => (kout_value m c t b o).trans rfl

/-- Every weakly fair execution of the kernel's program at the ideal instance ends with the result
    array at the network of the arguments and the argument arrays unchanged. -/
theorem run_value : θ_run (defs (F := Ideal)) (onTc (τ := τ) (main (F := Ideal))) ⟨m, fun _ => 0, ρ⟩ (fun r => ∀ c : Dev nD,
      r.2.mem ((c.tc : Thread nD τ).loc main_v90) = Cert.Spec.net (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun r h c => ⟨(h c).1.trans (final m c), (h c).2⟩) (run_named m ρ)

end Cert.KernelIdeal.Hand

end
-- ==== Proof.RConv.lean ====
/-
  The convolution region of the reference: the body's triple over whole staging buffers, the pipeline's
  proof data with the output block named `rout`, the body obligation at every point, and the region's
  segment record between the buffer contents before it and after it.
-/
import proofs.«156904_g2000200884589374_pallasbulk_247_2_alg».proof.Proof.Gen.ReferenceIdeal.Launch
import proofs.«156904_g2000200884589374_pallasbulk_247_2_alg».proof.Proof.Gen.ReferenceIdeal.Skeleton
import proofs.«156904_g2000200884589374_pallasbulk_247_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rX : Rect S8x45x16 := Rect.unit (s := S8x45x16) ![0, 0, 0] S8x45x16.size inb_S8x45x16_S8x45x16_0_0_0
abbrev rW1 : Rect S5x64 := Rect.unit (s := S5x64) ![0, 0] S5x64.size inb_S5x64_S5x64_0_0
abbrev rB : Rect S1x64 := Rect.unit (s := S1x64) ![0, 0] S1x64.size inb_S1x64_S1x64_0_0
abbrev rT0 : Rect S320x64 := Rect.unit (s := S320x64) ![0, 0] S64x64.size inb_S320x64_S64x64_0_0
abbrev rT1 : Rect S320x64 := Rect.unit (s := S320x64) ![64, 0] S64x64.size inb_S320x64_S64x64_64_0
abbrev rT2 : Rect S320x64 := Rect.unit (s := S320x64) ![128, 0] S64x64.size inb_S320x64_S64x64_128_0
abbrev rT3 : Rect S320x64 := Rect.unit (s := S320x64) ![192, 0] S64x64.size inb_S320x64_S64x64_192_0
abbrev rT4 : Rect S320x64 := Rect.unit (s := S320x64) ![256, 0] S64x64.size inb_S320x64_S64x64_256_0
abbrev rO : Rect S8x29x768 := Rect.unit (s := S8x29x768) ![0, 0, 0] S8x29x768.size inb_S8x29x768_S8x29x768_0_0_0

/-! ## What the body leaves in the output window's buffer -/

/-- The first layer before its clip, from the loaded blocks. -/
def st1 (x0 : Vec F S8x45x16 .f32) (x1 : Vec F S5x64 .f32) (x2 : Vec F S1x64 .f32) : FVec F S8x41x16x64 .f32 :=
  k0_pay2 (View.ld x0 rX) (View.ld x1 rW1) (View.ld x2 rB)

/-- The zero the clips compare with. -/
def czero : F .f32 := Scalar.ofBits .f32 0x00000000#32

/-- The second layer's activation, rows (image, height, width) flattened. -/
def st2 (x0 : Vec F S8x45x16 .f32) (x1 : Vec F S5x64 .f32) (x2 : Vec F S1x64 .f32) (x3 : Vec F S320x64 .f32)
    (x4 : Vec F S1x64 .f32) : FVec F S4736x64 .f32 :=
  k0_pay3 (st1 x0 x1 x2) czero (View.ld x3 rT0) (View.ld x3 rT1) (View.ld x3 rT2) (View.ld x3 rT3) (View.ld x3 rT4) (View.ld x4 rB)

/-- The third layer's first tap product. -/
def st2' (x0 : Vec F S8x45x16 .f32) (x1 : Vec F S5x64 .f32) (x2 : Vec F S1x64 .f32) (x3 : Vec F S320x64 .f32)
    (x4 : Vec F S1x64 .f32) (x5 : Vec F S320x64 .f32) : FVec F S8x528x64 .f32 :=
  k0_pay4 (st1 x0 x1 x2) czero (View.ld x3 rT0) (View.ld x3 rT1) (View.ld x3 rT2) (View.ld x3 rT3) (View.ld x3 rT4) (View.ld x4 rB) (View.ld x5 rT0)

/-- The third layer's activation. -/
def st3 (x0 : Vec F S8x45x16 .f32) (x1 : Vec F S5x64 .f32) (x2 : Vec F S1x64 .f32) (x3 : Vec F S320x64 .f32)
    (x4 : Vec F S1x64 .f32) (x5 : Vec F S320x64 .f32) (x6 : Vec F S1x64 .f32) : FVec F S4224x64 .f32 :=
  k0_pay5 (st2 x0 x1 x2 x3 x4) (st2' x0 x1 x2 x3 x4 x5) (View.ld x5 rT1) (View.ld x5 rT2) (View.ld x5 rT3) (View.ld x5 rT4) (View.ld x6 rB)

/-- The fourth layer's first two tap products, added. -/
def st3' (x0 : Vec F S8x45x16 .f32) (x1 : Vec F S5x64 .f32) (x2 : Vec F S1x64 .f32) (x3 : Vec F S320x64 .f32)
    (x4 : Vec F S1x64 .f32) (x5 : Vec F S320x64 .f32) (x6 : Vec F S1x64 .f32) (x7 : Vec F S320x64 .f32) : FVec F S8x464x64 .f32 :=
  k0_pay6 (st2 x0 x1 x2 x3 x4) (st2' x0 x1 x2 x3 x4 x5) (View.ld x5 rT1) (View.ld x5 rT2) (View.ld x5 rT3) (View.ld x5 rT4) (View.ld x6 rB) (View.ld x7 rT0) (View.ld x7 rT1)

/-- The stored block: the fourth layer's activation at the twelve widths kept, (width, channel) flattened. -/
def rout (x0 : Vec F S8x45x16 .f32) (x1 : Vec F S5x64 .f32) (x2 : Vec F S1x64 .f32) (x3 : Vec F S320x64 .f32)
    (x4 : Vec F S1x64 .f32) (x5 : Vec F S320x64 .f32) (x6 : Vec F S1x64 .f32) (x7 : Vec F S320x64 .f32)
    (x8 : Vec F S1x64 .f32) : Vec F S8x29x768 .f32 :=
  View.canon [⟨rO, k0_pay1 (st3 x0 x1 x2 x3 x4 x5 x6) (st3' x0 x1 x2 x3 x4 x5 x6 x7) (View.ld x7 rT2) (View.ld x7 rT3) (View.ld x7 rT4) (View.ld x8 rB)⟩]

theorem off3_zero : (![0, 0, 0] : Fin S8x29x768.rank → Nat) = fun _ => 0 := by
  funext a; fin_cases a <;> rfl

/-- The one store covers the output buffer. -/
theorem cover_rO (p0 : Vec F S8x29x768 .f32) (y : S8x29x768.Idx) :
    ∃ pc ∈ ([⟨rO, p0⟩] : List (View.Piece (Elt F) S8x29x768 .f32)), y ∈ pc.1.set :=
  ⟨_, List.mem_singleton_self _, View.mem_set_unit_zero off3_zero inb_S8x29x768_S8x29x768_0_0_0 y⟩

/-! ## The body's triple -/

set_option maxHeartbeats 400000 in
theorem sound_kernel0 (c : Dev nD) (E : Set ℕ) (i : grid0.Coords)
    (arg1 : Memref sig .tc .vmem S8x45x16 .f32) (harg1 : arg1.IsWhole) (arg2 : Memref sig .tc .vmem S5x64 .f32) (harg2 : arg2.IsWhole)
    (arg3 : Memref sig .tc .vmem S1x64 .f32) (harg3 : arg3.IsWhole) (arg4 : Memref sig .tc .vmem S320x64 .f32) (harg4 : arg4.IsWhole)
    (arg5 : Memref sig .tc .vmem S1x64 .f32) (harg5 : arg5.IsWhole) (arg6 : Memref sig .tc .vmem S320x64 .f32) (harg6 : arg6.IsWhole)
    (arg7 : Memref sig .tc .vmem S1x64 .f32) (harg7 : arg7.IsWhole) (arg8 : Memref sig .tc .vmem S320x64 .f32) (harg8 : arg8.IsWhole)
    (arg9 : Memref sig .tc .vmem S1x64 .f32) (harg9 : arg9.IsWhole) (arg10 : Memref sig .tc .vmem S8x29x768 .f32) (harg10 : arg10.IsWhole)
    (x0 : Vec F S8x45x16 .f32) (x1 : Vec F S5x64 .f32) (x2 : Vec F S1x64 .f32) (x3 : Vec F S320x64 .f32)
    (x4 : Vec F S1x64 .f32) (x5 : Vec F S320x64 .f32) (x6 : Vec F S1x64 .f32) (x7 : Vec F S320x64 .f32)
    (x8 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (rout x0 x1 x2 x3 x4 x5 x6 x7 x8)) -∗ K ⟨⟩))
      ⊢ wp frame (wpE (defs₀ (F := F)) Variants.none c none) E (cc0_fused_conv_kernel i arg1 harg1 arg2 harg2 arg3 harg3 arg4 harg4 arg5 harg5 arg6 harg6 arg7 harg7 arg8 harg8 arg9 harg9 arg10 harg10) K := by
  simp only [cc0_fused_conv_kernel_eq_skeleton]; unfold cc0_fused_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_rO _)

/-! ## The windows' blocks -/

section Region
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The pipeline's proof data -/

/-- The proof data of the convolution pipeline on core `c`: the arrays as the region finds them; after the body
    each input's buffer at its block and the output's at `rout` of the input blocks; the invariant the scoped
    rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => rout (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = rout (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

/-! ## The region between the buffer contents before it and after it -/

variable (m : (ℓ : Loc nD τ sig) → Buf (Elt F) ℓ)

/-- Core `c`'s buffers when the convolution region is entered: the launch contents after the first host stretch. -/
abbrev W1 : Dev nD → Valuation τ sig (Elt F) := fun c => StableHlo.after hostOps0 (fun b => m (c, b))
/-- The same read at the TensorCore's references. -/
abbrev V1 : (c : Dev nD) → (b : Ref sig .tc) → Buf (Elt F) ((c : Thread nD τ).loc b) := fun c b => W1 m c b
/-- At the region's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- No pipeline has a prefetched table. -/
abbrev adm : (p : Fin 2) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-- Both pipelines' proof data: the convolution's at its entry contents, the dense region's as given. -/
def pdatsOf (d1 : (c : Dev nD) → Dat τ (Elt F) Unit ℕ (UR sig nD τ) ℕ (Pipeline.pin (pcfgs (F := F)) adm 1) c) :
    (p : Fin 2) → (c : Dev nD) → Dat τ (Elt F) Unit ℕ (UR sig nD τ) ℕ (Pipeline.pin (pcfgs (F := F)) adm p) c
  | ⟨0, _⟩ => fun c => dat0 (V1 m) c
  | ⟨1, _⟩ => d1

set_option backward.isDefEq.respectTransparency.types false in
/-- The convolution region over the thread state: entered from every unscoped buffer at `W1`, left at `W2`. Its
    arrays split out of the unscoped buffers and put back at the exit contents; the generator register into the
    invariant and out; nothing owed; no semaphore of the kernel's own. -/
def reg0 (d1 : (c : Dev nD) → Dat τ (Elt F) Unit ℕ (UR sig nD τ) ℕ (Pipeline.pin (pcfgs (F := F)) adm 1) c) :
    Pipeline.RegionSeg (pcfgs (F := F)) adm (pdatsOf m d1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdatsOf m d1) launch0.win launch0.arr_whole c
      ((pdatsOf m d1 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsOf m d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsOf m d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsOf m d1) ((pdatsOf m d1 0 c).share_full fun _ => rfl)
      (V1 m c) (V2 m c) ((pdatsOf m d1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.ReferenceIdeal.Hand

end
-- ==== Proof.RDenseK.lean ====
/-
  The dense region's kernel body on whole staging memrefs, one triple per control case. The grid is (64, 2): a
  point handles one block of 128 rows and one of the two reduction tiles of the first dense layer. At the first
  tile the accumulator is reset and takes the tile's product; at the second it takes the second product and the
  epilogue (bias, clip, second and third dense layers) writes the output block.
-/
import proofs.«156904_g2000200884589374_pallasbulk_247_2_alg».proof.Proof.Gen.ReferenceIdeal.Launch
import proofs.«156904_g2000200884589374_pallasbulk_247_2_alg».proof.Proof.Gen.ReferenceIdeal.Skeleton
import proofs.«156904_g2000200884589374_pallasbulk_247_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two control cases

The grid is (64, 2): point t handles row block t / 2 and reduction tile t % 2. The first conditional (the
accumulator's reset) is taken exactly where t % 2 = 0, the second (the epilogue) exactly where t % 2 = 1. -/

/-- The reset's test: the second grid coordinate is zero. -/
abbrev cond1_0 (i : grid1.Coords) : Prop := (Scalar.cmpi .ne (Scalar.extui (Scalar.cmpi .eq (BitVec.ofNat 32 (i 1).val) 0#32)) 0#32) = 1#1
/-- The epilogue's test: the second grid coordinate is one. -/
abbrev cond1_1 (i : grid1.Coords) : Prop := k1_cond2 i = 1#1

theorem hz2 : (![0, 0] : Fin 2 → Nat) = fun _ => 0 := funext fun a => by fin_cases a <;> rfl

set_option maxHeartbeats 1000000 in
/-- The body at a point of the first tile: the accumulator, whatever it held, ends at the zero block plus this
    tile's product; the inputs and the output's buffer are left as found. -/
theorem sound_kernel1_A (c : Dev nD) (E : Set ℕ) (i : grid1.Coords)
    (arg2 : Memref sig .tc .vmem S128x11136 .f32) (harg2 : arg2.IsWhole) (arg3 : Memref sig .tc .vmem S11136x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x22 .f32) (harg7 : arg7.IsWhole)
    (arg8 : Memref sig .tc .vmem S1x22 .f32) (harg8 : arg8.IsWhole) (arg9 : Memref sig .tc .vmem S128x22 .f32) (harg9 : arg9.IsWhole)
    (arg10 : Memref sig .tc .vmem S128x128 .f32) (harg10 : arg10.IsWhole)
    (hc0 : cond1_0 i) (hc1 : ¬cond1_1 i)
    (x0 : Vec F S128x11136 .f32) (x1 : Vec F S11136x128 .f32) (xo : Vec F S128x22 .f32) (K : PUnit → sProp 𝕄) :
    iprop(owns (c : Thread nD τ) arg2 fullShare x0 ∗ owns (c : Thread nD τ) arg3 fullShare x1
        ∗ owns (c : Thread nD τ) arg9 fullShare xo ∗ (∃ s, owns (c : Thread nD τ) arg10 fullShare s)
        ∗ (iprop(owns (c : Thread nD τ) arg2 fullShare x0 ∗ owns (c : Thread nD τ) arg3 fullShare x1
            ∗ owns (c : Thread nD τ) arg9 fullShare xo ∗ owns (c : Thread nD τ) arg10 fullShare (k1_pay2 (k1_pay1 (F := F)) x0 x1)) -∗ K ⟨⟩))
      ⊢ wp frame (wpE (defs₀ (F := F)) Variants.none c none) E (cc1_fused_fc_kernel i arg2 harg2 arg3 harg3 arg4 harg4 arg5 harg5 arg6 harg6 arg7 harg7 arg8 harg8 arg9 harg9 arg10 harg10) K := by
  simp only [cc1_fused_fc_kernel_eq_skeleton]; unfold cc1_fused_fc_kernel_skel
  unfold owns
  iintro ⟨⟨%f0, %hf0, H0⟩, ⟨%f1, %hf1, H1⟩, ⟨%f9, %hf9, H9⟩, ⟨%s, %fs, %hfs, HS⟩, Hk⟩
  subst hf0; subst hf1; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H9]
  · iexists f9; isplitr; · ipureintro; rfl
    iexact H9
  iexists _; isplitr
  swap; · iexact HS
  ipureintro
  sl_unfold_words
  rw [View.read_writes_eq_canon _ _ _ (fun y => ⟨_, List.mem_cons_self .., View.mem_set_unit_zero hz2 inb_S128x128_S128x128_0_0 y⟩)]
  rw [View.canon_cons_unit_zero (S := S128x128) hz2, View.readCov_unit_zero (S := S128x128) _ hz2]
  simp only [View.readAt_eq_ld, View.ld_unit_zero (S := S128x11136) hz2, View.ld_unit_zero (S := S11136x128) hz2]

set_option maxHeartbeats 1000000 in
/-- The body at a point of the second tile: the accumulator, holding what the first tile left, takes this tile's
    product, and the output's buffer ends at the three dense layers of it; the inputs are left as found. -/
theorem sound_kernel1_B (c : Dev nD) (E : Set ℕ) (i : grid1.Coords)
    (arg2 : Memref sig .tc .vmem S128x11136 .f32) (harg2 : arg2.IsWhole) (arg3 : Memref sig .tc .vmem S11136x128 .f32) (harg3 : arg3.IsWhole)
    (arg4 : Memref sig .tc .vmem S1x128 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S128x22 .f32) (harg7 : arg7.IsWhole)
    (arg8 : Memref sig .tc .vmem S1x22 .f32) (harg8 : arg8.IsWhole) (arg9 : Memref sig .tc .vmem S128x22 .f32) (harg9 : arg9.IsWhole)
    (arg10 : Memref sig .tc .vmem S128x128 .f32) (harg10 : arg10.IsWhole)
    (hc0 : ¬cond1_0 i) (hc1 : cond1_1 i)
    (x0 : Vec F S128x11136 .f32) (x1 : Vec F S11136x128 .f32) (x2 : Vec F S1x128 .f32) (x3 : Vec F S128x128 .f32)
    (x4 : Vec F S1x128 .f32) (x5 : Vec F S128x22 .f32) (x6 : Vec F S1x22 .f32) (xs : Vec F S128x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6
        ∗ (∃ d, owns (c : Thread nD τ) arg9 fullShare d) ∗ owns (c : Thread nD τ) arg10 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6
            ∗ owns (c : Thread nD τ) arg9 fullShare (k1_pay3 (k1_pay2 xs x0 x1) x2 x3 x4 x5 x6)
            ∗ owns (c : Thread nD τ) arg10 fullShare (k1_pay2 xs x0 x1)) -∗ K ⟨⟩))
      ⊢ wp frame (wpE (defs₀ (F := F)) Variants.none c none) E (cc1_fused_fc_kernel i arg2 harg2 arg3 harg3 arg4 harg4 arg5 harg5 arg6 harg6 arg7 harg7 arg8 harg8 arg9 harg9 arg10 harg10) K := by
  simp only [cc1_fused_fc_kernel_eq_skeleton]; unfold cc1_fused_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d, %f9, -, H9⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    sl_unfold_words
    rw [View.read_writes_eq_canon _ _ _ (fun y => ⟨_, List.mem_cons_self .., View.mem_set_unit_zero hz2 inb_S128x22_S128x22_0_0 y⟩)]
    rw [View.canon_cons_unit_zero (S := S128x22) hz2, View.readCov_unit_zero (S := S128x128) _ hz2]
    simp only [View.readAt_eq_ld, View.ld_unit_zero (S := S128x11136) hz2, View.ld_unit_zero (S := S11136x128) hz2,
      View.ld_unit_zero (S := S128x128) hz2, View.ld_unit_zero (S := S1x128) hz2, View.ld_unit_zero (S := S128x22) hz2,
      View.ld_unit_zero (S := S1x22) hz2]
  iexists _; isplitr
  swap; · iexact HS
  ipureintro
  sl_unfold_words
  rw [View.read_writes_eq_canon _ _ _ (fun y => ⟨_, List.mem_cons_self .., View.mem_set_unit_zero hz2 inb_S128x128_S128x128_0_0 y⟩)]
  rw [View.canon_cons_unit_zero (S := S128x128) hz2]
  simp only [View.readAt_eq_ld, View.ld_unit_zero (S := S128x11136) hz2, View.ld_unit_zero (S := S11136x128) hz2,
    View.ld_unit_zero (S := S128x128) hz2]

end Cert.ReferenceIdeal.Hand

end
-- ==== Proof.RDense.lean ====
/-
  The dense region at the contents it is entered from: the windows' blocks, what the accumulator holds between
  the two reduction tiles of a row block, the proof data, and the body obligation at every point.

  A first-tile point (even position) finds the accumulator at anything and leaves it at zero plus the tile's
  product; the output window is idle there. A second-tile point (odd position) finds it so, adds its product and
  runs the epilogue into the output block, which the pipeline then writes back. So the invariant names the
  accumulator's contents before the odd positions only, and is the class's everywhere else — in particular at
  both ends of the run.
-/
import proofs.«156904_g2000200884589374_pallasbulk_247_2_alg».proof.Proof.RDenseK

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the dense layers) at the contents `V` it is entered from -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the output window is idle -/

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)
theorem idleAt1_7 : ∀ t : Fin cfg1.N, t.val % 2 = 0 → cfg1.idle 7 (grid1.coords t) = true := by decide +kernel
theorem noFlush1_7 : ∀ t : Fin cfg1.N, t.val % 2 = 0 → (cfg1.win 7).flush t = false := by decide +kernel
theorem liveAt1_7 : ∀ t : Fin cfg1.N, t.val % 2 = 1 → cfg1.idle 7 (grid1.coords t) = false := by decide +kernel

/-! ## The accumulator between the two tiles of a row block -/

/-- The accumulator scratch, a whole scoped buffer of the kernel's own. -/
abbrev scM1 : Memref sig .tc .vmem S128x128 .f32 := Memref.whole cc1_scratch0

/-- The point before `t` (at an odd point: the first tile of the same row block). -/
def prev1 (t : Fin cfg1.N) : Fin cfg1.N := ⟨t.val - 1, Nat.lt_of_le_of_lt (Nat.sub_le _ _) t.isLt⟩

/-- What a first-tile point leaves in the accumulator: zero plus the tile's product. -/
def accA (c : Dev nD) (t : Fin cfg1.N) : Vec F S128x128 .f32 :=
  k1_pay2 (k1_pay1 (F := F)) (iblk1 V c 0 t) (iblk1 V c 1 t)
/-- What a second-tile point leaves in it: the first tile's, plus this tile's product. -/
def accB (c : Dev nD) (t : Fin cfg1.N) : Vec F S128x128 .f32 :=
  k1_pay2 (accA V c (prev1 t)) (iblk1 V c 0 t) (iblk1 V c 1 t)
/-- What a second-tile point leaves in the output's buffer: the three dense layers over the full accumulation. -/
def out1 (c : Dev nD) (t : Fin cfg1.N) : Vec F S128x22 .f32 :=
  k1_pay3 (accB V c t) (iblk1 V c 2 t) (iblk1 V c 3 t) (iblk1 V c 4 t) (iblk1 V c 5 t) (iblk1 V c 6 t)

/-- The scoped buffers the region never touches (the other region's staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

theorem PhiA1_split (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨R0, R1, R2, R3, R4, R5, R6, R7, R8, R9, R10, R11, HS⟩, Hg⟩
  isplitl [R0 R1 R2 R3 R4 R5 R6 R7 R8 R9 R10 R11]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  isplitl [HS]; · iexact HS
  iexact Hg

theorem PhiA1_join (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨R0, R1, R2, R3, R4, R5, R6, R7, R8, R9, R10, R11⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  iexact Hg

/-- The region's invariant before position `n`: before a second-tile point the accumulator holds what the first
    tile left; before a first-tile point (and at both ends) it is the class's, the accumulator at anything. -/
def PhiS (c : Dev nD) (n : ℕ) (hn : n ≤ cfg1.N) : sProp 𝕄 :=
  if h : n % 2 = 1 then
    iprop(rest1 (F := F) c ∗ owns (c : Thread nD τ) scM1 fullShare (accA V c ⟨n - 1, by omega⟩) ∗ (∃ r, prngReg c r))
  else Pipeline.ΦA spec1 c

theorem PhiS_even (c : Dev nD) (n : ℕ) (hn : n ≤ cfg1.N) (h : n % 2 = 0) : PhiS V c n hn = Pipeline.ΦA spec1 c := by
  unfold PhiS; rw [dif_neg (by omega)]

theorem PhiS_odd (c : Dev nD) (t : Fin cfg1.N) (h : t.val % 2 = 1) :
    PhiS V c t.val (Nat.le_of_lt t.isLt)
      = iprop(rest1 (F := F) c ∗ owns (c : Thread nD τ) scM1 fullShare (accA V c (prev1 t)) ∗ (∃ r, prngReg c r)) := by
  unfold PhiS; rw [dif_pos h]; rfl

theorem PhiS_succ_even (c : Dev nD) (t : Fin cfg1.N) (h : t.val % 2 = 0) :
    PhiS V c (t.val + 1) t.isLt
      = iprop(rest1 (F := F) c ∗ owns (c : Thread nD τ) scM1 fullShare (accA V c t) ∗ (∃ r, prngReg c r)) := by
  unfold PhiS; rw [dif_pos (by omega)]; rfl

/-! ## The pipeline's proof data -/

/-- The proof data of the dense region on core `c`: the arrays as the region finds them; after the body each
    input's buffer at its block and the output's at the dense layers of the accumulated product (consulted at the
    second-tile points only: at the others the window is idle); the invariant carrying the accumulator; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_even V c 0 _ rfl]

/-- After the last point the invariant is the class's again. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl,
    PhiS_even V c _ _ (by rw [show cfg1.N = 128 from N_1])]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) :
    (dat1 V c).leavesExact 5 t = owns (c : Thread nD τ) (st1_5 t) fullShare (iblk1 V c 5 t) := by
  unfold Dat.leavesExact; rw [show cfg1.idle 5 (cfg1.grid.coords t) = false from rfl, after1_5]
theorem leaves1_6 (c : Dev nD) (t : Fin cfg1.N) :
    (dat1 V c).leavesExact 6 t = owns (c : Thread nD τ) (st1_6 t) fullShare (iblk1 V c 6 t) := by
  unfold Dat.leavesExact; rw [show cfg1.idle 6 (cfg1.grid.coords t) = false from rfl, after1_6]

set_option maxHeartbeats 2000000 in
/-- The body at any point. At a first-tile point the invariant hands the accumulator at anything and takes it back at
    zero plus the tile's product, the output's buffer passing through untouched; at a second-tile point it hands the
    accumulator at what the first tile left, the output's buffer ends at the dense layers of the full product, and
    the accumulator's contents are forgotten. The inputs' buffers hold their blocks throughout; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_castSucc]
  rw [leaves1_0, leaves1_1, leaves1_2, leaves1_3, leaves1_4, leaves1_5, leaves1_6]
  have hN : t.val < 128 := lt_of_lt_of_eq t.isLt (show cfg1.N = 128 from N_1)
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7 t h0) (noFlush1_7 t h0)]
    rw [PhiS_even V c _ _ h0, PhiS_succ_even V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA1_split (F := F) c) $$ HΦ
    icases HΦ' with ⟨Hr, HS, Hg⟩
    iapply (sound_kernel1_A c Set.univ (grid1.coords t) _ _ _ _ _ _ _ _ _ _ _ _ _ _ _ _ _ _ hc0 hc1 (iblk1 V c 0 t) (iblk1 V c 1 t) ((dat1 V c).before 7 t d7) _)
    isplitl [H0]; · iexact H0
    isplitl [H1]; · iexact H1
    isplitl [H7]; · iexact H7
    isplitl [HS]; · iexact HS
    iintro ⟨H0, H1, H7, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have h1 : t.val % 2 = 1 := by omega
    have hc0 : ¬cond1_0 (grid1.coords t) := fun h => h0 ((hcond1_0 t).mp h)
    have hc1 : cond1_1 (grid1.coords t) := (hcond1_1 t).mpr h1
    rw [show (dat1 V c).leavesExact 7 t = owns (c : Thread nD τ) (st1_7 t) fullShare ((dat1 V c).after 7 t) from by
      unfold Dat.leavesExact; rw [liveAt1_7 t h1], after1_7]
    rw [PhiS_odd V c t h1, PhiS_even V c (t.val + 1) _ (by omega)]
    unfold out1 accB
    iintro ⟨⟨Hr, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ _ _ hc0 hc1 (iblk1 V c 0 t) (iblk1 V c 1 t)
      (iblk1 V c 2 t) (iblk1 V c 3 t) (iblk1 V c 4 t) (iblk1 V c 5 t) (iblk1 V c 6 t) (accA V c (prev1 t)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [Hr HS Hg]
    · iapply (PhiA1_join (F := F) c)
      isplitl [Hr]; · iexact Hr
      isplitl [HS]; · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.ReferenceIdeal.Hand

end
-- ==== Proof.RRunW.lean ====
/-
  The reference's whole run, at any float instance: the buffer contents at each boundary of @main as a fold from
  the launch memory (the first host stretch; the convolution region's write-backs; the second host stretch; the
  dense region's write-backs), the two regions as segments over the thread state "every unscoped buffer at the
  boundary's contents, the generator register at some state, nothing owed", and the run itself: every weakly
  fair execution terminates and every final state holds each unscoped buffer at the last boundary's contents.
-/
import proofs.«156904_g2000200884589374_pallasbulk_247_2_alg».proof.Proof.RConv
import proofs.«156904_g2000200884589374_pallasbulk_247_2_alg».proof.Proof.RDense
import proofs.«156904_g2000200884589374_pallasbulk_247_2_alg».proof.Proof.Gen.ReferenceIdeal.Regions
import Idealize.ShloMosaic.Lib.Pipeline.Kit

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of the run: a fold from the launch memory -/

/-- Core `c`'s buffers at launch. -/
abbrev W0 : Dev nD → Valuation τ sig (Elt F) := fun c b => m ((c : Dev nD), b)
/-- After the second host stretch (the features flattened): the dense region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the dense region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

/-- Every pipeline's proof data: the convolution's at its entry contents, the dense region's at its own. -/
abbrev pdats : (p : Fin 2) → (c : Dev nD) → Dat τ (Elt F) Unit ℕ (UR sig nD τ) ℕ (Pipeline.pin (pcfgs (F := F)) adm p) c :=
  pdatsOf m (dat1 (V3 m))
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The dense region over the thread state: entered from every unscoped buffer at `W3`, left at `W4`; its
    invariant is the class's at both ends (the accumulator's contents are named between the two tiles of a row
    block only). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 (V3 m) c)
  hout c :=
    (hout1 (V3 m) c).trans (show (Pipeline.ΦA spec1 c : sProp 𝕄) ⊢ _ from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m (dat1 (V3 m))),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, and every final
    state holds each unscoped buffer at the last boundary's contents `W4`. -/
theorem run_W4 : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.ReferenceIdeal.Hand

end
-- ==== Proof.RRunArgs.lean ====
/-
  The reference's run read at its arguments: no host operation and no region writes an argument array (a region
  reads it through an input window or bypasses it), so the fold of the boundary contents at an argument's buffer
  walks back to the launch memory.
-/
import proofs.«156904_g2000200884589374_pallasbulk_247_2_alg».proof.Proof.RRunW

noncomputable section

namespace Cert.ReferenceIdeal.Hand

open Cert.ReferenceIdeal Cert.ReferenceIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = m ((c : Thread nD τ).loc main_arg0) := StableHlo.after_of_writes_sub hostOps0 _ hostOps0_writes (by decide)
theorem W1_main_arg1 (c : Dev nD) : W1 m c (Proc.devRef .tc main_arg1) = m ((c : Thread nD τ).loc main_arg1) :=
  StableHlo.after_of_writes_sub hostOps0 _ hostOps0_writes (by decide)
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = m ((c : Thread nD τ).loc main_arg1) := W1_main_arg1 m c
theorem W1_main_arg2 (c : Dev nD) : W1 m c (Proc.devRef .tc main_arg2) = m ((c : Thread nD τ).loc main_arg2) :=
  StableHlo.after_of_writes_sub hostOps0 _ hostOps0_writes (by decide)
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dat0 (V1 m) c).arrAt_in 2 rfl _).trans (A_eq0 (V1 m) c 2))
    _ = m ((c : Thread nD τ).loc main_arg2) := W1_main_arg2 m c
theorem W1_main_arg3 (c : Dev nD) : W1 m c (Proc.devRef .tc main_arg3) = m ((c : Thread nD τ).loc main_arg3) :=
  StableHlo.after_of_writes_sub hostOps0 _ hostOps0_writes (by decide)
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 3).trans (((dat0 (V1 m) c).arrAt_in 3 rfl _).trans (A_eq0 (V1 m) c 3))
    _ = m ((c : Thread nD τ).loc main_arg3) := W1_main_arg3 m c
theorem W1_main_arg4 (c : Dev nD) : W1 m c (Proc.devRef .tc main_arg4) = m ((c : Thread nD τ).loc main_arg4) :=
  StableHlo.after_of_writes_sub hostOps0 _ hostOps0_writes (by decide)
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := (W2_arr m c 4).trans (((dat0 (V1 m) c).arrAt_in 4 rfl _).trans (A_eq0 (V1 m) c 4))
    _ = m ((c : Thread nD τ).loc main_arg4) := W1_main_arg4 m c
theorem W1_main_arg5 (c : Dev nD) : W1 m c (Proc.devRef .tc main_arg5) = m ((c : Thread nD τ).loc main_arg5) :=
  StableHlo.after_of_writes_sub hostOps0 _ hostOps0_writes (by decide)
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := (W2_arr m c 5).trans (((dat0 (V1 m) c).arrAt_in 5 rfl _).trans (A_eq0 (V1 m) c 5))
    _ = m ((c : Thread nD τ).loc main_arg5) := W1_main_arg5 m c
theorem W1_main_arg6 (c : Dev nD) : W1 m c (Proc.devRef .tc main_arg6) = m ((c : Thread nD τ).loc main_arg6) :=
  StableHlo.after_of_writes_sub hostOps0 _ hostOps0_writes (by decide)
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := (W2_arr m c 6).trans (((dat0 (V1 m) c).arrAt_in 6 rfl _).trans (A_eq0 (V1 m) c 6))
    _ = m ((c : Thread nD τ).loc main_arg6) := W1_main_arg6 m c
theorem W1_main_arg7 (c : Dev nD) : W1 m c (Proc.devRef .tc main_arg7) = m ((c : Thread nD τ).loc main_arg7) :=
  StableHlo.after_of_writes_sub hostOps0 _ hostOps0_writes (by decide)
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := (W2_arr m c 7).trans (((dat0 (V1 m) c).arrAt_in 7 rfl _).trans (A_eq0 (V1 m) c 7))
    _ = m ((c : Thread nD τ).loc main_arg7) := W1_main_arg7 m c
theorem W1_main_arg8 (c : Dev nD) : W1 m c (Proc.devRef .tc main_arg8) = m ((c : Thread nD τ).loc main_arg8) :=
  StableHlo.after_of_writes_sub hostOps0 _ hostOps0_writes (by decide)
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := (W2_arr m c 8).trans (((dat0 (V1 m) c).arrAt_in 8 rfl _).trans (A_eq0 (V1 m) c 8))
    _ = m ((c : Thread nD τ).loc main_arg8) := W1_main_arg8 m c
theorem W3_main_arg9 (c : Dev nD) : W3 m c (Proc.devRef .tc main_arg9) = m ((c : Thread nD τ).loc main_arg9) :=
  calc W3 m c (Proc.devRef .tc main_arg9)
    _ = W2 m c (Proc.devRef .tc main_arg9) := StableHlo.after_of_writes_sub hostOps1 _ hostOps1_writes (by decide)
    _ = W1 m c (Proc.devRef .tc main_arg9) := W2_of_ne m c main_arg9 (by decide)
    _ = m ((c : Thread nD τ).loc main_arg9) := StableHlo.after_of_writes_sub hostOps0 _ hostOps0_writes (by decide)
theorem W4_main_arg9 (c : Dev nD) : W4 m c (Proc.devRef .tc main_arg9) = m ((c : Thread nD τ).loc main_arg9) :=
  ((W4_arr m c 1).trans (((dat1 (V3 m) c).arrAt_in 1 rfl _).trans (A_eq1 (V3 m) c 1))).trans (W3_main_arg9 m c)
theorem W3_main_arg10 (c : Dev nD) : W3 m c (Proc.devRef .tc main_arg10) = m ((c : Thread nD τ).loc main_arg10) :=
  calc W3 m c (Proc.devRef .tc main_arg10)
    _ = W2 m c (Proc.devRef .tc main_arg10) := StableHlo.after_of_writes_sub hostOps1 _ hostOps1_writes (by decide)
    _ = W1 m c (Proc.devRef .tc main_arg10) := W2_of_ne m c main_arg10 (by decide)
    _ = m ((c : Thread nD τ).loc main_arg10) := StableHlo.after_of_writes_sub hostOps0 _ hostOps0_writes (by decide)
theorem W4_main_arg10 (c : Dev nD) : W4 m c (Proc.devRef .tc main_arg10) = m ((c : Thread nD τ).loc main_arg10) :=
  ((W4_arr m c 2).trans (((dat1 (V3 m) c).arrAt_in 2 rfl _).trans (A_eq1 (V3 m) c 2))).trans (W3_main_arg10 m c)
theorem W3_main_arg11 (c : Dev nD) : W3 m c (Proc.devRef .tc main_arg11) = m ((c : Thread nD τ).loc main_arg11) :=
  calc W3 m c (Proc.devRef .tc main_arg11)
    _ = W2 m c (Proc.devRef .tc main_arg11) := StableHlo.after_of_writes_sub hostOps1 _ hostOps1_writes (by decide)
    _ = W1 m c (Proc.devRef .tc main_arg11) := W2_of_ne m c main_arg11 (by decide)
    _ = m ((c : Thread nD τ).loc main_arg11) := StableHlo.after_of_writes_sub hostOps0 _ hostOps0_writes (by decide)
theorem W4_main_arg11 (c : Dev nD) : W4 m c (Proc.devRef .tc main_arg11) = m ((c : Thread nD τ).loc main_arg11) :=
  ((W4_arr m c 3).trans (((dat1 (V3 m) c).arrAt_in 3 rfl _).trans (A_eq1 (V3 m) c 3))).trans (W3_main_arg11 m c)
theorem W3_main_arg12 (c : Dev nD) : W3 m c (Proc.devRef .tc main_arg12) = m ((c : Thread nD τ).loc main_arg12) :=
  calc W3 m c (Proc.devRef .tc main_arg12)
    _ = W2 m c (Proc.devRef .tc main_arg12) := StableHlo.after_of_writes_sub hostOps1 _ hostOps1_writes (by decide)
    _ = W1 m c (Proc.devRef .tc main_arg12) := W2_of_ne m c main_arg12 (by decide)
    _ = m ((c : Thread nD τ).loc main_arg12) := StableHlo.after_of_writes_sub hostOps0 _ hostOps0_writes (by decide)
theorem W4_main_arg12 (c : Dev nD) : W4 m c (Proc.devRef .tc main_arg12) = m ((c : Thread nD τ).loc main_arg12) :=
  ((W4_arr m c 4).trans (((dat1 (V3 m) c).arrAt_in 4 rfl _).trans (A_eq1 (V3 m) c 4))).trans (W3_main_arg12 m c)
theorem W3_main_arg13 (c : Dev nD) : W3 m c (Proc.devRef .tc main_arg13) = m ((c : Thread nD τ).loc main_arg13) :=
  calc W3 m c (Proc.devRef .tc main_arg13)
    _ = W2 m c (Proc.devRef .tc main_arg13) := StableHlo.after_of_writes_sub hostOps1 _ hostOps1_writes (by decide)
    _ = W1 m c (Proc.devRef .tc main_arg13) := W2_of_ne m c main_arg13 (by decide)
    _ = m ((c : Thread nD τ).loc main_arg13) := StableHlo.after_of_writes_sub hostOps0 _ hostOps0_writes (by decide)
theorem W4_main_arg13 (c : Dev nD) : W4 m c (Proc.devRef .tc main_arg13) = m ((c : Thread nD τ).loc main_arg13) :=
  ((W4_arr m c 5).trans (((dat1 (V3 m) c).arrAt_in 5 rfl _).trans (A_eq1 (V3 m) c 5))).trans (W3_main_arg13 m c)
theorem W3_main_arg14 (c : Dev nD) : W3 m c (Proc.devRef .tc main_arg14) = m ((c : Thread nD τ).loc main_arg14) :=
  calc W3 m c (Proc.devRef .tc main_arg14)
    _ = W2 m c (Proc.devRef .tc main_arg14) := StableHlo.after_of_writes_sub hostOps1 _ hostOps1_writes (by decide)
    _ = W1 m c (Proc.devRef .tc main_arg14) := W2_of_ne m c main_arg14 (by decide)
    _ = m ((c : Thread nD τ).loc main_arg14) := StableHlo.after_of_writes_sub hostOps0 _ hostOps0_writes (by decide)
theorem W4_main_arg14 (c : Dev nD) : W4 m c (Proc.devRef .tc main_arg14) = m ((c : Thread nD τ).loc main_arg14) :=
  ((W4_arr m c 6).trans (((dat1 (V3 m) c).arrAt_in 6 rfl _).trans (A_eq1 (V3 m) c 6))).trans (W3_main_arg14 m c)

end Cert.ReferenceIdeal.Hand

end
-- ==== Proof.RDenseVal.lean ====
/-
  The dense region's payloads read at an index, at the ideal values: the accumulator's reset is the
  zero block, a reduction tile adds its 11136-term product, and the epilogue is the bias, the clip,
  the second dense layer with its clip and the third. Over the two tiles of the 22272 features of a
  block of 128 images the output block is the network's last layer d3.
-/
import proofs.«156904_g2000200884589374_pallasbulk_247_2_alg».proof.Proof.Gen.ReferenceIdeal.Skeleton
import proofs.«156904_g2000200884589374_pallasbulk_247_2_alg».proof.Proof.Spec
import proofs.«156904_g2000200884589374_pallasbulk_247_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen Finset

/-- The product of a [128, 11136] block with a [11136, 128] block into the zero splat, read at an index: the sum
    over the 11136 contracted positions. -/
theorem mm_fc1_apply (A : FVec Ideal S128x11136 .f32) (B : FVec Ideal S11136x128 .f32) (r : Fin 128) (q : Fin 128) :
    matmul dot_S128x11136_S11136x128_S128x128_1_0_0_1_n_n none A B (constant S128x128 .f32 0x00000000#32) (ix2 r q)
      = ∑ R : Fin 11136, A (ix2 r R) * B (ix2 R q) := by
  show FloatOps.matmul _ none A B _ (ix2 r q) = _
  rw [Ideal.matmul_constant_zero_apply,
    ← Equiv.sum_comp (contrEquiv1 dot_S128x11136_S11136x128_S128x128_1_0_0_1_n_n 11136 rfl rfl).symm]
  refine Finset.sum_congr rfl fun c _ => ?_
  have c2 := contrEquiv1_symm_val dot_S128x11136_S11136x128_S128x128_1_0_0_1_n_n 11136 rfl rfl c
  have l2 : dot_S128x11136_S11136x128_S128x128_1_0_0_1_n_n.lhsIdx (ix2 r q) ((contrEquiv1 _ 11136 rfl rfl).symm c) = ix2 r c := by
    funext ax; apply Fin.ext
    match ax with
    | ⟨0, _⟩ => simp [DotDims.lhsIdx, dot_S128x11136_S11136x128_S128x128_1_0_0_1_n_n]; rfl
    | ⟨1, _⟩ => simp [DotDims.lhsIdx, dot_S128x11136_S11136x128_S128x128_1_0_0_1_n_n]; exact c2
  have r2 : dot_S128x11136_S11136x128_S128x128_1_0_0_1_n_n.rhsIdx (ix2 r q) ((contrEquiv1 _ 11136 rfl rfl).symm c) = ix2 c q := by
    funext ax; apply Fin.ext
    match ax with
    | ⟨0, _⟩ => simp [DotDims.rhsIdx, dot_S128x11136_S11136x128_S128x128_1_0_0_1_n_n]; exact c2
    | ⟨1, _⟩ => simp [DotDims.rhsIdx, dot_S128x11136_S11136x128_S128x128_1_0_0_1_n_n]; rfl
  rw [l2, r2]

/-- The product of a [128, 128] block with a [128, 128] block into the zero splat, read at an index: the sum
    over the 128 contracted positions. -/
theorem mm_fc2_apply (A : FVec Ideal S128x128 .f32) (B : FVec Ideal S128x128 .f32) (r : Fin 128) (q : Fin 128) :
    matmul dot_S128x128_S128x128_S128x128_1_0_0_1_n_n none A B (constant S128x128 .f32 0x00000000#32) (ix2 r q)
      = ∑ R : Fin 128, A (ix2 r R) * B (ix2 R q) := by
  show FloatOps.matmul _ none A B _ (ix2 r q) = _
  rw [Ideal.matmul_constant_zero_apply,
    ← Equiv.sum_comp (contrEquiv1 dot_S128x128_S128x128_S128x128_1_0_0_1_n_n 128 rfl rfl).symm]
  refine Finset.sum_congr rfl fun c _ => ?_
  have c2 := contrEquiv1_symm_val dot_S128x128_S128x128_S128x128_1_0_0_1_n_n 128 rfl rfl c
  have l2 : dot_S128x128_S128x128_S128x128_1_0_0_1_n_n.lhsIdx (ix2 r q) ((contrEquiv1 _ 128 rfl rfl).symm c) = ix2 r c := by
    funext ax; apply Fin.ext
    match ax with
    | ⟨0, _⟩ => simp [DotDims.lhsIdx, dot_S128x128_S128x128_S128x128_1_0_0_1_n_n]; rfl
    | ⟨1, _⟩ => simp [DotDims.lhsIdx, dot_S128x128_S128x128_S128x128_1_0_0_1_n_n]; exact c2
  have r2 : dot_S128x128_S128x128_S128x128_1_0_0_1_n_n.rhsIdx (ix2 r q) ((contrEquiv1 _ 128 rfl rfl).symm c) = ix2 c q := by
    funext ax; apply Fin.ext
    match ax with
    | ⟨0, _⟩ => simp [DotDims.rhsIdx, dot_S128x128_S128x128_S128x128_1_0_0_1_n_n]; exact c2
    | ⟨1, _⟩ => simp [DotDims.rhsIdx, dot_S128x128_S128x128_S128x128_1_0_0_1_n_n]; rfl
  rw [l2, r2]

/-- The product of a [128, 128] block with a [128, 22] block into the zero splat, read at an index: the sum
    over the 128 contracted positions. -/
theorem mm_fc3_apply (A : FVec Ideal S128x128 .f32) (B : FVec Ideal S128x22 .f32) (r : Fin 128) (q : Fin 22) :
    matmul dot_S128x128_S128x22_S128x22_1_0_0_1_n_n none A B (constant S128x22 .f32 0x00000000#32) (ix2 r q)
      = ∑ R : Fin 128, A (ix2 r R) * B (ix2 R q) := by
  show FloatOps.matmul _ none A B _ (ix2 r q) = _
  rw [Ideal.matmul_constant_zero_apply,
    ← Equiv.sum_comp (contrEquiv1 dot_S128x128_S128x22_S128x22_1_0_0_1_n_n 128 rfl rfl).symm]
  refine Finset.sum_congr rfl fun c _ => ?_
  have c2 := contrEquiv1_symm_val dot_S128x128_S128x22_S128x22_1_0_0_1_n_n 128 rfl rfl c
  have l2 : dot_S128x128_S128x22_S128x22_1_0_0_1_n_n.lhsIdx (ix2 r q) ((contrEquiv1 _ 128 rfl rfl).symm c) = ix2 r c := by
    funext ax; apply Fin.ext
    match ax with
    | ⟨0, _⟩ => simp [DotDims.lhsIdx, dot_S128x128_S128x22_S128x22_1_0_0_1_n_n]; rfl
    | ⟨1, _⟩ => simp [DotDims.lhsIdx, dot_S128x128_S128x22_S128x22_1_0_0_1_n_n]; exact c2
  have r2 : dot_S128x128_S128x22_S128x22_1_0_0_1_n_n.rhsIdx (ix2 r q) ((contrEquiv1 _ 128 rfl rfl).symm c) = ix2 c q := by
    funext ax; apply Fin.ext
    match ax with
    | ⟨0, _⟩ => simp [DotDims.rhsIdx, dot_S128x128_S128x22_S128x22_1_0_0_1_n_n]; exact c2
    | ⟨1, _⟩ => simp [DotDims.rhsIdx, dot_S128x128_S128x22_S128x22_1_0_0_1_n_n]; rfl
  rw [l2, r2]

/-- The scalar zero constant is the extended real 0. -/
theorem r_scalar_zero_f32 : (Scalar.ofBits (F := Ideal) .f32 0x00000000#32) = (0 : EReal) := Ideal.ofBits_zero_f32

/-- The accumulator's reset: the zero block. -/
theorem k1_pay1_apply (i : S128x128.Idx) : k1_pay1 (F := Ideal) i = (0 : EReal) := by
  unfold k1_pay1
  simp only [shapeCast_self, broadcast_apply, r_scalar_zero_f32]

/-- A reduction tile: the accumulator plus the tile's 11136-term product. -/
theorem k1_pay2_apply (acc : Vec Ideal S128x128 .f32) (X : Vec Ideal S128x11136 .f32) (W : Vec Ideal S11136x128 .f32)
    (b : Fin 128) (o : Fin 128) :
    k1_pay2 acc X W (ix2 b o) = acc (ix2 b o) + ∑ q : Fin 11136, X (ix2 b q) * W (ix2 q o) := by
  unfold k1_pay2
  simp only [shapeCast_self, addf_apply, mm_fc1_apply]

/-- The epilogue: bias and clip, the second dense layer with bias and clip, the third with its bias. -/
theorem k1_pay3_apply (H : Vec Ideal S128x128 .f32) (fb1 : Vec Ideal S1x128 .f32) (F2 : Vec Ideal S128x128 .f32)
    (fb2 : Vec Ideal S1x128 .f32) (F3 : Vec Ideal S128x22 .f32) (fb3 : Vec Ideal S1x22 .f32) (b : Fin 128) (o : Fin 22) :
    k1_pay3 H fb1 F2 fb2 F3 fb3 (ix2 b o)
      = (∑ i : Fin 128, max ((∑ i' : Fin 128, max (H (ix2 b i') + fb1 (ix2 (0 : Fin 1) i')) 0 * F2 (ix2 i' i))
            + fb2 (ix2 (0 : Fin 1) i)) 0 * F3 (ix2 i o)) + fb3 (ix2 (0 : Fin 1) o) := by
  unfold k1_pay3
  simp only [addf_apply, maximumf_apply, broadcastTo_1b_ab_apply, broadcast_apply, r_scalar_zero_f32,
    mm_fc2_apply, mm_fc3_apply]

/-- The two tiles' products add up to the sum over the 29 x 12 x 64 features. -/
theorem fc1_sum (p : Cert.Spec.Args) (n i : ℕ)
    (X0 X1 : Vec Ideal S128x11136 .f32) (W0 W1 : Vec Ideal S11136x128 .f32) (b : Fin 128) (o : Fin 128)
    (hX0 : ∀ q : Fin 11136, X0 (ix2 b q) = Cert.Spec.c4 p n (q.val / 768) (q.val % 768 / 64) (q.val % 64))
    (hX1 : ∀ q : Fin 11136, X1 (ix2 b q)
      = Cert.Spec.c4 p n ((11136 + q.val) / 768) ((11136 + q.val) % 768 / 64) ((11136 + q.val) % 64))
    (hW0 : ∀ q : Fin 11136, W0 (ix2 q o) = Cert.Spec.mat p.f1w q.val i)
    (hW1 : ∀ q : Fin 11136, W1 (ix2 q o) = Cert.Spec.mat p.f1w (11136 + q.val) i) :
    ((0 : EReal) + ∑ q : Fin 11136, X0 (ix2 b q) * W0 (ix2 q o)) + ∑ q : Fin 11136, X1 (ix2 b q) * W1 (ix2 q o)
      = ∑ h ∈ range 29, ∑ w ∈ range 12, ∑ c ∈ range 64,
          Cert.Spec.c4 p n h w c * Cert.Spec.mat p.f1w (h * 768 + w * 64 + c) i := by
  let g : ℕ → EReal := fun Q => Cert.Spec.c4 p n (Q / 768) (Q % 768 / 64) (Q % 64) * Cert.Spec.mat p.f1w Q i
  simp only [hX0, hX1, hW0, hW1, zero_add]
  rw [Fin.sum_univ_eq_sum_range g 11136, Fin.sum_univ_eq_sum_range (fun q => g (11136 + q)) 11136,
    ← Finset.sum_range_add g 11136 11136, show 11136 + 11136 = 22272 from rfl, Cert.LibDense.sum_range_hwc g]
  refine Finset.sum_congr rfl fun h _ => Finset.sum_congr rfl fun w hw => Finset.sum_congr rfl fun c hc => ?_
  have hw' : w < 12 := mem_range.mp hw
  have hc' : c < 64 := mem_range.mp hc
  have e1 : (h * 768 + w * 64 + c) / 768 = h := by omega
  have e2 : (h * 768 + w * 64 + c) % 768 / 64 = w := by omega
  have e3 : (h * 768 + w * 64 + c) % 64 = c := by omega
  simp only [g, e1, e2, e3]

/-- The dense region's output block over a block of 128 images starting at n0: the network's last layer. -/
theorem dense_value (p : Cert.Spec.Args) (n0 : ℕ)
    (X0 X1 : Vec Ideal S128x11136 .f32) (W0 W1 : Vec Ideal S11136x128 .f32)
    (fb1 : Vec Ideal S1x128 .f32) (F2 : Vec Ideal S128x128 .f32) (fb2 : Vec Ideal S1x128 .f32)
    (F3 : Vec Ideal S128x22 .f32) (fb3 : Vec Ideal S1x22 .f32)
    (hX0 : ∀ (b : Fin 128) (q : Fin 11136),
      X0 (ix2 b q) = Cert.Spec.c4 p (n0 + b.val) (q.val / 768) (q.val % 768 / 64) (q.val % 64))
    (hX1 : ∀ (b : Fin 128) (q : Fin 11136), X1 (ix2 b q)
      = Cert.Spec.c4 p (n0 + b.val) ((11136 + q.val) / 768) ((11136 + q.val) % 768 / 64) ((11136 + q.val) % 64))
    (hW0 : ∀ (q : Fin 11136) (o : Fin 128), W0 (ix2 q o) = Cert.Spec.mat p.f1w q.val o.val)
    (hW1 : ∀ (q : Fin 11136) (o : Fin 128), W1 (ix2 q o) = Cert.Spec.mat p.f1w (11136 + q.val) o.val)
    (hfb1 : ∀ o : Fin 128, fb1 (ix2 (0 : Fin 1) o) = Cert.Spec.row p.f1b o.val)
    (hF2 : ∀ i o : Fin 128, F2 (ix2 i o) = Cert.Spec.mat p.f2w i.val o.val)
    (hfb2 : ∀ o : Fin 128, fb2 (ix2 (0 : Fin 1) o) = Cert.Spec.row p.f2b o.val)
    (hF3 : ∀ (i : Fin 128) (o : Fin 22), F3 (ix2 i o) = Cert.Spec.mat p.f3w i.val o.val)
    (hfb3 : ∀ o : Fin 22, fb3 (ix2 (0 : Fin 1) o) = Cert.Spec.row p.f3b o.val)
    (b : Fin 128) (o : Fin 22) :
    k1_pay3 (k1_pay2 (k1_pay2 k1_pay1 X0 W0) X1 W1) fb1 F2 fb2 F3 fb3 (ix2 b o)
      = Cert.Spec.d3 p (n0 + b.val) o.val := by
  have h1 : ∀ i' : Fin 128,
      max (k1_pay2 (k1_pay2 k1_pay1 X0 W0) X1 W1 (ix2 b i') + fb1 (ix2 (0 : Fin 1) i')) 0
        = Cert.Spec.d1 p (n0 + b.val) i'.val := by
    intro i'
    rw [k1_pay2_apply, k1_pay2_apply, k1_pay1_apply,
      fc1_sum p (n0 + b.val) i'.val X0 X1 W0 W1 b i' (hX0 b) (hX1 b) (fun q => hW0 q i') (fun q => hW1 q i'), hfb1]
    rfl
  have h2 : ∀ i : Fin 128,
      max ((∑ i' : Fin 128, max (k1_pay2 (k1_pay2 k1_pay1 X0 W0) X1 W1 (ix2 b i') + fb1 (ix2 (0 : Fin 1) i')) 0
          * F2 (ix2 i' i)) + fb2 (ix2 (0 : Fin 1) i)) 0 = Cert.Spec.d2 p (n0 + b.val) i.val := by
    intro i
    simp only [h1, hF2, hfb2]
    rw [Fin.sum_univ_eq_sum_range (fun i' => Cert.Spec.d1 p (n0 + b.val) i' * Cert.Spec.mat p.f2w i' i.val) 128]
    rfl
  rw [k1_pay3_apply]
  simp only [h2, hF3, hfb3]
  rw [Fin.sum_univ_eq_sum_range (fun i => Cert.Spec.d2 p (n0 + b.val) i * Cert.Spec.mat p.f3w i o.val) 128]
  rfl

end Cert.ReferenceIdeal.Hand

end
-- ==== Proof.RDenseArr.lean ====
/-
  The dense region's result array at the ideal values: every block the pipeline writes back is the three dense
  layers of the features of its 128 images, so the array after the region is the network's last layer of the
  features, index by index.

  A second-tile point t (odd) handles the row block t / 2: its feature blocks are columns 0 .. 11135 (read at the
  point before) and 11136 .. 22271 (read at t) of rows 128 (t / 2) .. + 127, its first-layer weight blocks the
  matching rows, and the other operands are whole arrays. The blocks written back at the odd points tile the
  result array.
-/
import proofs.«156904_g2000200884589374_pallasbulk_247_2_alg».proof.Proof.RDense
import proofs.«156904_g2000200884589374_pallasbulk_247_2_alg».proof.Proof.RDenseVal

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat)

/-- The printed index maps over the grid: the feature window moves with (row block, tile), the first-layer weight
    window with the tile, the output window with the row block; the other operands stay at their one block. -/
theorem idx_facts1 : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val / 2 ∧ win1_7.index t (1 : Fin 2) = 0 :=
  (by decide +kernel : ∀ t : Fin grid1.N, _)

section Arr
variable (V : (c : Dev nD) → (b : Ref sig .tc) → Buf (Elt Ideal) ((c : Thread nD τ).loc b)) (c : Dev nD) (p : Cert.Spec.Args)

/-- The network's result as contents of the result array. -/
abbrev G1 : S8192x22.Idx → EReal := fun i => Cert.Spec.d3 p (i 0).val (i 1).val

set_option maxHeartbeats 1000000 in
/-- What a second-tile point writes back is its block of the network's result. -/
theorem flushed1_eq
    (hF : ∀ i : S8192x22272.Idx, (V c main_call0_v3 : S8192x22272.Idx → EReal) i
      = Cert.Spec.c4 p (i 0).val ((i 1).val / 768) ((i 1).val % 768 / 64) ((i 1).val % 64))
    (hW : ∀ i : S22272x128.Idx, (V c main_arg9 : S22272x128.Idx → EReal) i = Cert.Spec.mat p.f1w (i 0).val (i 1).val)
    (hb1 : ∀ i : S1x128.Idx, (V c main_arg10 : S1x128.Idx → EReal) i = Cert.Spec.row p.f1b (i 1).val)
    (hF2 : ∀ i : S128x128.Idx, (V c main_arg11 : S128x128.Idx → EReal) i = Cert.Spec.mat p.f2w (i 0).val (i 1).val)
    (hb2 : ∀ i : S1x128.Idx, (V c main_arg12 : S1x128.Idx → EReal) i = Cert.Spec.row p.f2b (i 1).val)
    (hF3 : ∀ i : S128x22.Idx, (V c main_arg13 : S128x22.Idx → EReal) i = Cert.Spec.mat p.f3w (i 0).val (i 1).val)
    (hb3 : ∀ i : S1x22.Idx, (V c main_arg14 : S1x22.Idx → EReal) i = Cert.Spec.row p.f3b (i 1).val)
    (t : Fin cfg1.N) (hf : (cfg1.win 7).flush t = true) :
    (dat1 V c).flushed 7 t = ((cfg1.win 7).blk t).view.read (Elt Ideal) (G1 p) := by
  have h1 : t.val % 2 = 1 := (flush1_7 t).mp hf
  have hN : t.val < 128 := lt_of_lt_of_eq t.isLt (show cfg1.N = 128 from N_1)
  obtain ⟨e00, e01, e10, e11, e20, e21, e30, e31, e40, e41, e50, e51, e60, e61, e70, e71⟩ := idx_facts1 t
  obtain ⟨f00, f01, f10, f11, -⟩ := idx_facts1 (prev1 t)
  have hp : (prev1 t).val = t.val - 1 := rfl
  show (cfg1.win 7).cut (grid1.coords t) ((dat1 V c).after 7 t) = _
  rw [after1_7]
  unfold out1 accB accA
  funext j
  obtain ⟨b, o, rfl⟩ : ∃ (b : Fin 128) (o : Fin 22), j = ix2 b o := ⟨j 0, j 1, eq_ix2 j⟩
  have hX0 : ∀ (b : Fin 128) (q : Fin 11136), (iblk1 V c 0 (prev1 t) : Vec Ideal S128x11136 .f32) (ix2 b q)
      = Cert.Spec.c4 p (128 * (t.val / 2) + b.val) (q.val / 768) (q.val % 768 / 64) (q.val % 64) := by
    intro b q
    unfold iblk1
    rw [View.read_apply]
    show (V c main_call0_v3 : S8192x22272.Idx → EReal) (((cfg1.win 0).blk (prev1 t)).view.emb (ix2 b q)) = _
    rw [hF]
    show Cert.Spec.c4 p (win1_0.index (prev1 t) (0 : Fin 2) * 128 + 1 * b.val)
      ((win1_0.index (prev1 t) (1 : Fin 2) * 11136 + 1 * q.val) / 768)
      ((win1_0.index (prev1 t) (1 : Fin 2) * 11136 + 1 * q.val) % 768 / 64)
      ((win1_0.index (prev1 t) (1 : Fin 2) * 11136 + 1 * q.val) % 64) = _
    rw [f00, f01, hp]
    have a0 : (t.val - 1) / 2 * 128 + 1 * b.val = 128 * (t.val / 2) + b.val := by omega
    have a1 : (t.val - 1) % 2 * 11136 + 1 * q.val = q.val := by omega
    rw [a0, a1]
  have hX1 : ∀ (b : Fin 128) (q : Fin 11136), (iblk1 V c 0 t : Vec Ideal S128x11136 .f32) (ix2 b q)
      = Cert.Spec.c4 p (128 * (t.val / 2) + b.val) ((11136 + q.val) / 768) ((11136 + q.val) % 768 / 64) ((11136 + q.val) % 64) := by
    intro b q
    unfold iblk1
    rw [View.read_apply]
    show (V c main_call0_v3 : S8192x22272.Idx → EReal) (((cfg1.win 0).blk t).view.emb (ix2 b q)) = _
    rw [hF]
    show Cert.Spec.c4 p (win1_0.index t (0 : Fin 2) * 128 + 1 * b.val)
      ((win1_0.index t (1 : Fin 2) * 11136 + 1 * q.val) / 768)
      ((win1_0.index t (1 : Fin 2) * 11136 + 1 * q.val) % 768 / 64)
      ((win1_0.index t (1 : Fin 2) * 11136 + 1 * q.val) % 64) = _
    rw [e00, e01]
    have a0 : t.val / 2 * 128 + 1 * b.val = 128 * (t.val / 2) + b.val := by omega
    have a1 : t.val % 2 * 11136 + 1 * q.val = 11136 + q.val := by omega
    rw [a0, a1]
  have hW0 : ∀ (q : Fin 11136) (o : Fin 128), (iblk1 V c 1 (prev1 t) : Vec Ideal S11136x128 .f32) (ix2 q o)
      = Cert.Spec.mat p.f1w q.val o.val := by
    intro q o
    unfold iblk1
    rw [View.read_apply]
    show (V c main_arg9 : S22272x128.Idx → EReal) (((cfg1.win 1).blk (prev1 t)).view.emb (ix2 q o)) = _
    rw [hW]
    show Cert.Spec.mat p.f1w (win1_1.index (prev1 t) (0 : Fin 2) * 11136 + 1 * q.val) (win1_1.index (prev1 t) (1 : Fin 2) * 128 + 1 * o.val) = _
    rw [f10, f11, hp]
    have a0 : (t.val - 1) % 2 * 11136 + 1 * q.val = q.val := by omega
    have a1 : 0 * 128 + 1 * o.val = o.val := by omega
    rw [a0, a1]
  have hW1 : ∀ (q : Fin 11136) (o : Fin 128), (iblk1 V c 1 t : Vec Ideal S11136x128 .f32) (ix2 q o)
      = Cert.Spec.mat p.f1w (11136 + q.val) o.val := by
    intro q o
    unfold iblk1
    rw [View.read_apply]
    show (V c main_arg9 : S22272x128.Idx → EReal) (((cfg1.win 1).blk t).view.emb (ix2 q o)) = _
    rw [hW]
    show Cert.Spec.mat p.f1w (win1_1.index t (0 : Fin 2) * 11136 + 1 * q.val) (win1_1.index t (1 : Fin 2) * 128 + 1 * o.val) = _
    rw [e10, e11]
    have a0 : t.val % 2 * 11136 + 1 * q.val = 11136 + q.val := by omega
    have a1 : 0 * 128 + 1 * o.val = o.val := by omega
    rw [a0, a1]
  have hfb1 : ∀ o : Fin 128, (iblk1 V c 2 t : Vec Ideal S1x128 .f32) (ix2 (0 : Fin 1) o) = Cert.Spec.row p.f1b o.val := by
    intro o
    unfold iblk1
    rw [View.read_apply]
    show (V c main_arg10 : S1x128.Idx → EReal) (((cfg1.win 2).blk t).view.emb (ix2 (0 : Fin 1) o)) = _
    rw [hb1]
    show Cert.Spec.row p.f1b (win1_2.index t (1 : Fin 2) * 128 + 1 * o.val) = _
    rw [e21]
    have a1 : 0 * 128 + 1 * o.val = o.val := by omega
    rw [a1]
  have hF2' : ∀ i o : Fin 128, (iblk1 V c 3 t : Vec Ideal S128x128 .f32) (ix2 i o) = Cert.Spec.mat p.f2w i.val o.val := by
    intro i o
    unfold iblk1
    rw [View.read_apply]
    show (V c main_arg11 : S128x128.Idx → EReal) (((cfg1.win 3).blk t).view.emb (ix2 i o)) = _
    rw [hF2]
    show Cert.Spec.mat p.f2w (win1_3.index t (0 : Fin 2) * 128 + 1 * i.val) (win1_3.index t (1 : Fin 2) * 128 + 1 * o.val) = _
    rw [e30, e31]
    have a0 : 0 * 128 + 1 * i.val = i.val := by omega
    have a1 : 0 * 128 + 1 * o.val = o.val := by omega
    rw [a0, a1]
  have hfb2 : ∀ o : Fin 128, (iblk1 V c 4 t : Vec Ideal S1x128 .f32) (ix2 (0 : Fin 1) o) = Cert.Spec.row p.f2b o.val := by
    intro o
    unfold iblk1
    rw [View.read_apply]
    show (V c main_arg12 : S1x128.Idx → EReal) (((cfg1.win 4).blk t).view.emb (ix2 (0 : Fin 1) o)) = _
    rw [hb2]
    show Cert.Spec.row p.f2b (win1_4.index t (1 : Fin 2) * 128 + 1 * o.val) = _
    rw [e41]
    have a1 : 0 * 128 + 1 * o.val = o.val := by omega
    rw [a1]
  have hF3' : ∀ (i : Fin 128) (o : Fin 22), (iblk1 V c 5 t : Vec Ideal S128x22 .f32) (ix2 i o) = Cert.Spec.mat p.f3w i.val o.val := by
    intro i o
    unfold iblk1
    rw [View.read_apply]
    show (V c main_arg13 : S128x22.Idx → EReal) (((cfg1.win 5).blk t).view.emb (ix2 i o)) = _
    rw [hF3]
    show Cert.Spec.mat p.f3w (win1_5.index t (0 : Fin 2) * 128 + 1 * i.val) (win1_5.index t (1 : Fin 2) * 22 + 1 * o.val) = _
    rw [e50, e51]
    have a0 : 0 * 128 + 1 * i.val = i.val := by omega
    have a1 : 0 * 22 + 1 * o.val = o.val := by omega
    rw [a0, a1]
  have hfb3 : ∀ o : Fin 22, (iblk1 V c 6 t : Vec Ideal S1x22 .f32) (ix2 (0 : Fin 1) o) = Cert.Spec.row p.f3b o.val := by
    intro o
    unfold iblk1
    rw [View.read_apply]
    show (V c main_arg14 : S1x22.Idx → EReal) (((cfg1.win 6).blk t).view.emb (ix2 (0 : Fin 1) o)) = _
    rw [hb3]
    show Cert.Spec.row p.f3b (win1_6.index t (1 : Fin 2) * 22 + 1 * o.val) = _
    rw [e61]
    have a1 : 0 * 22 + 1 * o.val = o.val := by omega
    rw [a1]
  refine (dense_value p (128 * (t.val / 2)) (iblk1 V c 0 (prev1 t)) (iblk1 V c 0 t) (iblk1 V c 1 (prev1 t)) (iblk1 V c 1 t)
    (iblk1 V c 2 t) (iblk1 V c 3 t) (iblk1 V c 4 t) (iblk1 V c 5 t) (iblk1 V c 6 t)
    hX0 hX1 hW0 hW1 hfb1 hF2' hfb2 hF3' hfb3 b o).trans ?_
  rw [View.read_apply]
  show _ = Cert.Spec.d3 p (win1_7.index t (0 : Fin 2) * 128 + 1 * b.val) (win1_7.index t (1 : Fin 2) * 22 + 1 * o.val)
  rw [e70, e71]
  have a0 : t.val / 2 * 128 + 1 * b.val = 128 * (t.val / 2) + b.val := by omega
  have a1 : 0 * 22 + 1 * o.val = o.val := by omega
  rw [a0, a1]

/-- An index of the result array is in point `t`'s block iff each coordinate is in the block's range on its axis. -/
theorem mem_blk1 (t : Fin cfg1.N) (i : S8192x22.Idx) :
    i ∈ ((cfg1.win 7).blk t).view.set ↔ ∀ a : Fin 2, win1_7.index t a * S128x22.size a ≤ (i a).val ∧ (i a).val < win1_7.index t a * S128x22.size a + S128x22.size a := by
  show i ∈ ((View.whole main_v0).slice (win1_7.rect t)).set ↔ _
  rw [View.set_slice_whole, Rect.mem_set_unit]
  exact Iff.rfl

/-- Every index of the result array is in the block some second-tile point writes back: row r is in row block
    r / 128, written back at point 2 (r / 128) + 1. -/
theorem cover1 (i : S8192x22.Idx) :
    ∃ t : Fin cfg1.N, (cfg1.win 7).flush t = true ∧ i ∈ ((cfg1.win 7).blk t).view.set := by
  have hi0 : (i 0).val < 8192 := (i 0).isLt
  have hi1 : (i 1).val < 22 := (i 1).isLt
  have hN : cfg1.N = 128 := N_1
  have hlt : 2 * ((i 0).val / 128) + 1 < cfg1.N := by omega
  obtain ⟨-, -, -, -, -, -, -, -, -, -, -, -, -, -, e70, e71⟩ := idx_facts1 ⟨2 * ((i 0).val / 128) + 1, hlt⟩
  have e70' : win1_7.index ⟨2 * ((i 0).val / 128) + 1, hlt⟩ (0 : Fin 2) = (2 * ((i 0).val / 128) + 1) / 2 := e70
  refine ⟨⟨2 * ((i 0).val / 128) + 1, hlt⟩, (flush1_7 _).mpr (by show (2 * ((i 0).val / 128) + 1) % 2 = 1; omega), ?_⟩
  rw [mem_blk1]
  intro a
  match a with
  | ⟨0, _⟩ =>
    show win1_7.index ⟨2 * ((i 0).val / 128) + 1, hlt⟩ (0 : Fin 2) * 128 ≤ (i 0).val
      ∧ (i 0).val < win1_7.index ⟨2 * ((i 0).val / 128) + 1, hlt⟩ (0 : Fin 2) * 128 + 128
    rw [e70']; omega
  | ⟨1, _⟩ =>
    show win1_7.index ⟨2 * ((i 0).val / 128) + 1, hlt⟩ (1 : Fin 2) * 22 ≤ (i 1).val
      ∧ (i 1).val < win1_7.index ⟨2 * ((i 0).val / 128) + 1, hlt⟩ (1 : Fin 2) * 22 + 22
    rw [e71]; omega

/-- THE RESULT ARRAY after the dense region: the network's result, index by index. -/
theorem arr1_value
    (hF : ∀ i : S8192x22272.Idx, (V c main_call0_v3 : S8192x22272.Idx → EReal) i
      = Cert.Spec.c4 p (i 0).val ((i 1).val / 768) ((i 1).val % 768 / 64) ((i 1).val % 64))
    (hW : ∀ i : S22272x128.Idx, (V c main_arg9 : S22272x128.Idx → EReal) i = Cert.Spec.mat p.f1w (i 0).val (i 1).val)
    (hb1 : ∀ i : S1x128.Idx, (V c main_arg10 : S1x128.Idx → EReal) i = Cert.Spec.row p.f1b (i 1).val)
    (hF2 : ∀ i : S128x128.Idx, (V c main_arg11 : S128x128.Idx → EReal) i = Cert.Spec.mat p.f2w (i 0).val (i 1).val)
    (hb2 : ∀ i : S1x128.Idx, (V c main_arg12 : S1x128.Idx → EReal) i = Cert.Spec.row p.f2b (i 1).val)
    (hF3 : ∀ i : S128x22.Idx, (V c main_arg13 : S128x22.Idx → EReal) i = Cert.Spec.mat p.f3w (i 0).val (i 1).val)
    (hb3 : ∀ i : S1x22.Idx, (V c main_arg14 : S1x22.Idx → EReal) i = Cert.Spec.row p.f3b (i 1).val) :
    (dat1 V c).arrAt 7 cfg1.N = G1 p :=
  (dat1 V c).arrAt_eq_of_cover 7 (G1 p) (fun t hf => flushed1_eq V c p hF hW hb1 hF2 hb2 hF3 hb3 t hf) cover1

end Arr

end Cert.ReferenceIdeal.Hand

end
-- ==== Proof.RConv1.lean ====
/-
  The reference's first convolution before its clip, read at an index.

  The body multiplies, for each of the five taps k, the input rows k .. k + 40 of every image (cut
  along the height, with a unit channel axis appended and broadcast over the 64 channels) by row k of
  the first weight (broadcast over images, heights and widths), adds the five products in the order
  k = 0, 1, 2, 3, 4 and then the bias. At image b, height h, width w, channel c that is the five-tap
  sum of the specification plus the bias; its clip at zero is the first activation.
-/
import proofs.«156904_g2000200884589374_pallasbulk_247_2_alg».proof.Proof.Gen.ReferenceIdeal.Skeleton
import proofs.«156904_g2000200884589374_pallasbulk_247_2_alg».proof.Proof.Spec
import Idealize.ShloMosaic.Lib.ValueLayout
import Idealize.ShloMosaic.Lib.Pipeline.Value

noncomputable section

namespace Cert.ReferenceIdeal.Hand

open Idealize.ShloMosaic Idealize.ShloMosaic.ValueIdx Finset Cert.ReferenceIdeal Cert.ReferenceIdeal.Gen

/-- Tap k of the first convolution: the input cut from height k, times row k of the weight. -/
theorem conv1_tap {p : Cert.Spec.Args} {n0 : ℕ} {X : FVec Ideal S8x45x16 .f32} {W : FVec Ideal S5x64 .f32}
    (k : ℕ) (hk : k < 5)
    (hsl : S8x45x16.Slices ![0, k, 0] S8x41x16) (hc1 : S8x41x16.ShapeCasts S8x41x16x1)
    (hb1 : S8x41x16x1.Broadcasts S8x41x16x64)
    (hsw : S5x64.Slices ![k, 0] S1x64) (hc2 : S1x64.ShapeCasts S64) (hc3 : S64.ShapeCasts S1x1x1x64)
    (hb2 : S1x1x1x64.Broadcasts S8x41x16x64)
    (hX : ∀ (b : Fin 8) (h : Fin 45) (w : Fin 16), X (ix3 b h w) = Cert.Spec.xN p (n0 + b.val) h.val w.val)
    (hW : ∀ (k : Fin 5) (c : Fin 64), W (ix2 k c) = Cert.Spec.mat p.w1 k.val c.val)
    (b : Fin 8) (h : Fin 41) (w : Fin 16) (c : Fin 64) :
    mulf (broadcastTo S8x41x16x64 (shapeCast S8x41x16x1 (extractStridedSlice S8x41x16 ![0, k, 0] X hsl) hc1) hb1)
         (broadcastTo S8x41x16x64 (shapeCast S1x1x1x64 (shapeCast S64 (extractStridedSlice S1x64 ![k, 0] W hsw) hc2) hc3) hb2)
         (ix4 b h w c)
      = Cert.Spec.xN p (n0 + b.val) (h.val + k) w.val * Cert.Spec.mat p.w1 k c.val := by
  have hh : h.val + k < 45 := by have := h.isLt; omega
  have eL : broadcastTo S8x41x16x64 (shapeCast S8x41x16x1 (extractStridedSlice S8x41x16 ![0, k, 0] X hsl) hc1) hb1 (ix4 b h w c)
      = Cert.Spec.xN p (n0 + b.val) (h.val + k) w.val := by
    refine (broadcastTo_apply _ hb1 (ix4 b h w c) (ix4 b h w (0 : Fin 1)) fun ax => ?_).trans ?_
    · match ax with
      | ⟨0, _⟩ => rfl
      | ⟨1, _⟩ => rfl
      | ⟨2, _⟩ => rfl
      | ⟨3, _⟩ => rfl
    refine (shapeCast_apply _ hc1 (ix4 b h w (0 : Fin 1)) (ix3 b h w) ?_).trans ?_
    · rw [Shape.rowMajor_val_three, Shape.rowMajor_val_four]
      show (b.val * 41 + h.val) * 16 + w.val = ((b.val * 41 + h.val) * 16 + w.val) * 1 + 0
      omega
    refine (slice3_axis1_apply k X hsl b h w ⟨h.val + k, hh⟩ (Nat.add_comm _ _)).trans ?_
    exact hX b ⟨h.val + k, hh⟩ w
  have eR : broadcastTo S8x41x16x64 (shapeCast S1x1x1x64 (shapeCast S64 (extractStridedSlice S1x64 ![k, 0] W hsw) hc2) hc3) hb2 (ix4 b h w c)
      = Cert.Spec.mat p.w1 k c.val := by
    refine (broadcastTo_apply _ hb2 (ix4 b h w c) (ix4 (0 : Fin 1) (0 : Fin 1) (0 : Fin 1) c) fun ax => ?_).trans ?_
    · match ax with
      | ⟨0, _⟩ => rfl
      | ⟨1, _⟩ => rfl
      | ⟨2, _⟩ => rfl
      | ⟨3, _⟩ => rfl
    refine (shapeCast_apply _ hc3 (ix4 (0 : Fin 1) (0 : Fin 1) (0 : Fin 1) c) (ix1 c) ?_).trans ?_
    · rw [Shape.rowMajor_val_one, Shape.rowMajor_val_four]
      show c.val = ((0 * 1 + 0) * 1 + 0) * 64 + c.val
      omega
    refine (shapeCast_apply _ hc2 (ix1 c) (ix2 (0 : Fin 1) c) ?_).trans ?_
    · rw [Shape.rowMajor_val_two, Shape.rowMajor_val_one]
      show 0 * 64 + c.val = c.val
      omega
    refine (slice2_axis0_apply k W hsw (0 : Fin 1) c ⟨k, hk⟩ rfl).trans ?_
    exact hW ⟨k, hk⟩ c
  rw [mulf_apply, eL, eR]

/-- The bias of a convolution broadcast over images, heights and widths. -/
theorem conv1_bias {p : Cert.Spec.Args} {B : FVec Ideal S1x64 .f32}
    (hc : S1x64.ShapeCasts S1x1x1x64) (hb : S1x1x1x64.Broadcasts S8x41x16x64)
    (hB : ∀ c : Fin 64, B (ix2 (0 : Fin 1) c) = Cert.Spec.row p.b1 c.val)
    (b : Fin 8) (h : Fin 41) (w : Fin 16) (c : Fin 64) :
    broadcastTo S8x41x16x64 (shapeCast S1x1x1x64 B hc) hb (ix4 b h w c) = Cert.Spec.row p.b1 c.val := by
  refine (broadcastTo_apply _ hb (ix4 b h w c) (ix4 (0 : Fin 1) (0 : Fin 1) (0 : Fin 1) c) fun ax => ?_).trans ?_
  · match ax with
    | ⟨0, _⟩ => rfl
    | ⟨1, _⟩ => rfl
    | ⟨2, _⟩ => rfl
    | ⟨3, _⟩ => rfl
  refine (shapeCast_apply _ hc (ix4 (0 : Fin 1) (0 : Fin 1) (0 : Fin 1) c) (ix2 (0 : Fin 1) c) ?_).trans ?_
  · rw [Shape.rowMajor_val_two, Shape.rowMajor_val_four]
    show 0 * 64 + c.val = ((0 * 1 + 0) * 1 + 0) * 64 + c.val
    omega
  exact hB c

/-- Five products added in order, then a sixth term. -/
theorem conv1_sum {t0 t1 t2 t3 t4 t5 : FVec Ideal S8x41x16x64 .f32} {i : S8x41x16x64.Idx} {a0 a1 a2 a3 a4 a5 : EReal}
    (h0 : t0 i = a0) (h1 : t1 i = a1) (h2 : t2 i = a2) (h3 : t3 i = a3) (h4 : t4 i = a4) (h5 : t5 i = a5) :
    addf (addf (addf (addf (addf t0 t1) t2) t3) t4) t5 i = a0 + a1 + a2 + a3 + a4 + a5 := by
  rw [addf_apply, addf_apply, addf_apply, addf_apply, addf_apply, h0, h1, h2, h3, h4, h5]

/-- The first convolution before its clip, at an index. -/
theorem pay2_val {p : Cert.Spec.Args} {n0 : ℕ} {X : FVec Ideal S8x45x16 .f32} {W : FVec Ideal S5x64 .f32}
    {B : FVec Ideal S1x64 .f32}
    (hX : ∀ (b : Fin 8) (h : Fin 45) (w : Fin 16), X (ix3 b h w) = Cert.Spec.xN p (n0 + b.val) h.val w.val)
    (hW : ∀ (k : Fin 5) (c : Fin 64), W (ix2 k c) = Cert.Spec.mat p.w1 k.val c.val)
    (hB : ∀ c : Fin 64, B (ix2 (0 : Fin 1) c) = Cert.Spec.row p.b1 c.val)
    (b : Fin 8) (h : Fin 41) (w : Fin 16) (c : Fin 64) :
    k0_pay2 (F := Ideal) X W B (ix4 b h w c)
      = (∑ k ∈ range 5, Cert.Spec.xN p (n0 + b.val) (h.val + k) w.val * Cert.Spec.mat p.w1 k c.val)
        + Cert.Spec.row p.b1 c.val := by
  unfold k0_pay2
  rw [shapeCast_self]
  refine (conv1_sum (conv1_tap 0 (by decide) _ _ _ _ _ _ _ hX hW b h w c)
    (conv1_tap 1 (by decide) _ _ _ _ _ _ _ hX hW b h w c) (conv1_tap 2 (by decide) _ _ _ _ _ _ _ hX hW b h w c)
    (conv1_tap 3 (by decide) _ _ _ _ _ _ _ hX hW b h w c) (conv1_tap 4 (by decide) _ _ _ _ _ _ _ hX hW b h w c)
    (conv1_bias _ _ hB b h w c)).trans ?_
  simp only [Finset.sum_range_succ, Finset.sum_range_zero, zero_add]

/-- Its clip at zero is the first activation. -/
theorem pay2_clip {p : Cert.Spec.Args} {n0 : ℕ} {X : FVec Ideal S8x45x16 .f32} {W : FVec Ideal S5x64 .f32}
    {B : FVec Ideal S1x64 .f32}
    (hX : ∀ (b : Fin 8) (h : Fin 45) (w : Fin 16), X (ix3 b h w) = Cert.Spec.xN p (n0 + b.val) h.val w.val)
    (hW : ∀ (k : Fin 5) (c : Fin 64), W (ix2 k c) = Cert.Spec.mat p.w1 k.val c.val)
    (hB : ∀ c : Fin 64, B (ix2 (0 : Fin 1) c) = Cert.Spec.row p.b1 c.val)
    (b : Fin 8) (h : Fin 41) (w : Fin 16) (c : Fin 64) :
    max (k0_pay2 (F := Ideal) X W B (ix4 b h w c)) 0 = Cert.Spec.c1 p (n0 + b.val) h.val w.val c.val := by
  rw [pay2_val hX hW hB b h w c]
  rfl

end Cert.ReferenceIdeal.Hand

end
-- ==== Proof.RConvTailLib.lean ====
/-
  The convolution region's payloads read at an index, at the ideal values. Inside the body an
  activation of 8 images, H heights, 16 widths and 64 channels is a matrix of 8 * H * 16 rows (row
  (b * H + h) * 16 + w) by 64 channels; a later layer multiplies it by each of its five [64, 64] tap
  matrices, views each product per image, cuts the rows from 16 k on (tap k reads height h + k) and
  adds the five, the bias and the clip. This file: the products, one tap, the bias row, and the
  pure law that the five taps make the later convolution.
-/
import proofs.«156904_g2000200884589374_pallasbulk_247_2_alg».proof.Proof.Gen.ReferenceIdeal.Skeleton
import proofs.«156904_g2000200884589374_pallasbulk_247_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen Finset

/-- The product of a [5248, 64] block with a [64, 64] block into the zero splat, read at an index: the sum over
    the 64 contracted channels. -/
theorem mm_c2_apply (A : FVec Ideal S5248x64 .f32) (B : FVec Ideal S64x64 .f32) (r : Fin 5248) (q : Fin 64) :
    matmul dot_S5248x64_S64x64_S5248x64_1_0_0_1_n_n none A B (constant S5248x64 .f32 0x00000000#32) (ix2 r q)
      = ∑ R : Fin 64, A (ix2 r R) * B (ix2 R q) := by
  show FloatOps.matmul _ none A B _ (ix2 r q) = _
  rw [Ideal.matmul_constant_zero_apply,
    ← Equiv.sum_comp (contrEquiv1 dot_S5248x64_S64x64_S5248x64_1_0_0_1_n_n 64 rfl rfl).symm]
  refine Finset.sum_congr rfl fun c _ => ?_
  have c2 := contrEquiv1_symm_val dot_S5248x64_S64x64_S5248x64_1_0_0_1_n_n 64 rfl rfl c
  have l2 : dot_S5248x64_S64x64_S5248x64_1_0_0_1_n_n.lhsIdx (ix2 r q) ((contrEquiv1 _ 64 rfl rfl).symm c) = ix2 r c := by
    funext ax; apply Fin.ext
    match ax with
    | ⟨0, _⟩ => simp [DotDims.lhsIdx, dot_S5248x64_S64x64_S5248x64_1_0_0_1_n_n]; rfl
    | ⟨1, _⟩ => simp [DotDims.lhsIdx, dot_S5248x64_S64x64_S5248x64_1_0_0_1_n_n]; exact c2
  have r2 : dot_S5248x64_S64x64_S5248x64_1_0_0_1_n_n.rhsIdx (ix2 r q) ((contrEquiv1 _ 64 rfl rfl).symm c) = ix2 c q := by
    funext ax; apply Fin.ext
    match ax with
    | ⟨0, _⟩ => simp [DotDims.rhsIdx, dot_S5248x64_S64x64_S5248x64_1_0_0_1_n_n]; exact c2
    | ⟨1, _⟩ => simp [DotDims.rhsIdx, dot_S5248x64_S64x64_S5248x64_1_0_0_1_n_n]; rfl
  rw [l2, r2]

/-- The product of a [4736, 64] block with a [64, 64] block into the zero splat, read at an index: the sum over
    the 64 contracted channels. -/
theorem mm_c3_apply (A : FVec Ideal S4736x64 .f32) (B : FVec Ideal S64x64 .f32) (r : Fin 4736) (q : Fin 64) :
    matmul dot_S4736x64_S64x64_S4736x64_1_0_0_1_n_n none A B (constant S4736x64 .f32 0x00000000#32) (ix2 r q)
      = ∑ R : Fin 64, A (ix2 r R) * B (ix2 R q) := by
  show FloatOps.matmul _ none A B _ (ix2 r q) = _
  rw [Ideal.matmul_constant_zero_apply,
    ← Equiv.sum_comp (contrEquiv1 dot_S4736x64_S64x64_S4736x64_1_0_0_1_n_n 64 rfl rfl).symm]
  refine Finset.sum_congr rfl fun c _ => ?_
  have c2 := contrEquiv1_symm_val dot_S4736x64_S64x64_S4736x64_1_0_0_1_n_n 64 rfl rfl c
  have l2 : dot_S4736x64_S64x64_S4736x64_1_0_0_1_n_n.lhsIdx (ix2 r q) ((contrEquiv1 _ 64 rfl rfl).symm c) = ix2 r c := by
    funext ax; apply Fin.ext
    match ax with
    | ⟨0, _⟩ => simp [DotDims.lhsIdx, dot_S4736x64_S64x64_S4736x64_1_0_0_1_n_n]; rfl
    | ⟨1, _⟩ => simp [DotDims.lhsIdx, dot_S4736x64_S64x64_S4736x64_1_0_0_1_n_n]; exact c2
  have r2 : dot_S4736x64_S64x64_S4736x64_1_0_0_1_n_n.rhsIdx (ix2 r q) ((contrEquiv1 _ 64 rfl rfl).symm c) = ix2 c q := by
    funext ax; apply Fin.ext
    match ax with
    | ⟨0, _⟩ => simp [DotDims.rhsIdx, dot_S4736x64_S64x64_S4736x64_1_0_0_1_n_n]; exact c2
    | ⟨1, _⟩ => simp [DotDims.rhsIdx, dot_S4736x64_S64x64_S4736x64_1_0_0_1_n_n]; rfl
  rw [l2, r2]

/-- The product of a [4224, 64] block with a [64, 64] block into the zero splat, read at an index: the sum over
    the 64 contracted channels. -/
theorem mm_c4_apply (A : FVec Ideal S4224x64 .f32) (B : FVec Ideal S64x64 .f32) (r : Fin 4224) (q : Fin 64) :
    matmul dot_S4224x64_S64x64_S4224x64_1_0_0_1_n_n none A B (constant S4224x64 .f32 0x00000000#32) (ix2 r q)
      = ∑ R : Fin 64, A (ix2 r R) * B (ix2 R q) := by
  show FloatOps.matmul _ none A B _ (ix2 r q) = _
  rw [Ideal.matmul_constant_zero_apply,
    ← Equiv.sum_comp (contrEquiv1 dot_S4224x64_S64x64_S4224x64_1_0_0_1_n_n 64 rfl rfl).symm]
  refine Finset.sum_congr rfl fun c _ => ?_
  have c2 := contrEquiv1_symm_val dot_S4224x64_S64x64_S4224x64_1_0_0_1_n_n 64 rfl rfl c
  have l2 : dot_S4224x64_S64x64_S4224x64_1_0_0_1_n_n.lhsIdx (ix2 r q) ((contrEquiv1 _ 64 rfl rfl).symm c) = ix2 r c := by
    funext ax; apply Fin.ext
    match ax with
    | ⟨0, _⟩ => simp [DotDims.lhsIdx, dot_S4224x64_S64x64_S4224x64_1_0_0_1_n_n]; rfl
    | ⟨1, _⟩ => simp [DotDims.lhsIdx, dot_S4224x64_S64x64_S4224x64_1_0_0_1_n_n]; exact c2
  have r2 : dot_S4224x64_S64x64_S4224x64_1_0_0_1_n_n.rhsIdx (ix2 r q) ((contrEquiv1 _ 64 rfl rfl).symm c) = ix2 c q := by
    funext ax; apply Fin.ext
    match ax with
    | ⟨0, _⟩ => simp [DotDims.rhsIdx, dot_S4224x64_S64x64_S4224x64_1_0_0_1_n_n]; exact c2
    | ⟨1, _⟩ => simp [DotDims.rhsIdx, dot_S4224x64_S64x64_S4224x64_1_0_0_1_n_n]; rfl
  rw [l2, r2]

/-- One tap of a layer: the [5248, 64] activation times a [64, 64] tap matrix, viewed per image as [8, 656, 64]
    and cut to the 592 rows from row o on, read at (b, r, c): the product's row 656 b + o + r. -/
theorem tap_c2_apply (o : ℕ) (X : FVec Ideal S5248x64 .f32) (T : FVec Ideal S64x64 .f32)
    (h1 : S5248x64.ShapeCasts S8x656x64) (h2 : S8x656x64.Slices ![0, o, 0] S8x592x64)
    (b : Fin 8) (r : Fin 592) (c : Fin 64) (k : Fin 5248) (hk : k.val = b.val * 656 + (o + r.val)) :
    extractStridedSlice S8x592x64 ![0, o, 0]
        (shapeCast S8x656x64 (matmul dot_S5248x64_S64x64_S5248x64_1_0_0_1_n_n none X T (constant S5248x64 .f32 0x00000000#32)) h1) h2 (ix3 b r c)
      = ∑ ci : Fin 64, X (ix2 k ci) * T (ix2 ci c) := by
  rw [slice3_axis1_eq o _ h2 b r c,
    shapeCast_apply _ h1 _ (ix2 k c) (by
      rw [Shape.rowMajor_val_two, Shape.rowMajor_val_three]
      show k.val * 64 + c.val = (b.val * 656 + (o + r.val)) * 64 + c.val
      rw [hk])]
  exact mm_c2_apply X T k c

/-- One tap of a layer: the [4736, 64] activation times a [64, 64] tap matrix, viewed per image as [8, 592, 64]
    and cut to the 528 rows from row o on, read at (b, r, c): the product's row 592 b + o + r. -/
theorem tap_c3_apply (o : ℕ) (X : FVec Ideal S4736x64 .f32) (T : FVec Ideal S64x64 .f32)
    (h1 : S4736x64.ShapeCasts S8x592x64) (h2 : S8x592x64.Slices ![0, o, 0] S8x528x64)
    (b : Fin 8) (r : Fin 528) (c : Fin 64) (k : Fin 4736) (hk : k.val = b.val * 592 + (o + r.val)) :
    extractStridedSlice S8x528x64 ![0, o, 0]
        (shapeCast S8x592x64 (matmul dot_S4736x64_S64x64_S4736x64_1_0_0_1_n_n none X T (constant S4736x64 .f32 0x00000000#32)) h1) h2 (ix3 b r c)
      = ∑ ci : Fin 64, X (ix2 k ci) * T (ix2 ci c) := by
  rw [slice3_axis1_eq o _ h2 b r c,
    shapeCast_apply _ h1 _ (ix2 k c) (by
      rw [Shape.rowMajor_val_two, Shape.rowMajor_val_three]
      show k.val * 64 + c.val = (b.val * 592 + (o + r.val)) * 64 + c.val
      rw [hk])]
  exact mm_c3_apply X T k c

/-- One tap of a layer: the [4224, 64] activation times a [64, 64] tap matrix, viewed per image as [8, 528, 64]
    and cut to the 464 rows from row o on, read at (b, r, c): the product's row 528 b + o + r. -/
theorem tap_c4_apply (o : ℕ) (X : FVec Ideal S4224x64 .f32) (T : FVec Ideal S64x64 .f32)
    (h1 : S4224x64.ShapeCasts S8x528x64) (h2 : S8x528x64.Slices ![0, o, 0] S8x464x64)
    (b : Fin 8) (r : Fin 464) (c : Fin 64) (k : Fin 4224) (hk : k.val = b.val * 528 + (o + r.val)) :
    extractStridedSlice S8x464x64 ![0, o, 0]
        (shapeCast S8x528x64 (matmul dot_S4224x64_S64x64_S4224x64_1_0_0_1_n_n none X T (constant S4224x64 .f32 0x00000000#32)) h1) h2 (ix3 b r c)
      = ∑ ci : Fin 64, X (ix2 k ci) * T (ix2 ci c) := by
  rw [slice3_axis1_eq o _ h2 b r c,
    shapeCast_apply _ h1 _ (ix2 k c) (by
      rw [Shape.rowMajor_val_two, Shape.rowMajor_val_three]
      show k.val * 64 + c.val = (b.val * 528 + (o + r.val)) * 64 + c.val
      rw [hk])]
  exact mm_c4_apply X T k c

/-- The scalar zero constant is the extended real 0. -/
theorem rc_scalar_zero_f32 : (Scalar.ofBits (F := Ideal) .f32 0x00000000#32) = (0 : EReal) := Ideal.ofBits_zero_f32

/-- A bias row [1, 64] viewed [1, 1, 64] and broadcast over 8 images and M rows reads its channel. -/
theorem bias_apply {M : ℕ} (B : Vec Ideal S1x64 .f32) (h1 : S1x64.ShapeCasts S1x1x64)
    (h2 : S1x1x64.Broadcasts ⟨3, ![8, M, 64]⟩) (b : Fin 8) (r : Fin M) (c : Fin 64) :
    broadcastTo ⟨3, ![8, M, 64]⟩ (shapeCast S1x1x64 B h1) h2 (ix3 b r c) = B (ix2 (0 : Fin 1) c) := by
  rw [broadcastTo_apply _ h2 (ix3 b r c) (ix3 (0 : Fin 1) (0 : Fin 1) c) (fun ax => by
    match ax with
    | ⟨0, _⟩ => rfl
    | ⟨1, _⟩ => rfl
    | ⟨2, _⟩ => rfl)]
  exact shapeCast_apply B h1 _ _ (by rw [Shape.rowMajor_val_two, Shape.rowMajor_val_three]; rfl)

/-- The clipped first-layer block [8, 41, 16, 64] viewed as the [5248, 64] matrix: row (41 b + h) 16 + w. -/
theorem act1_apply (V : FVec Ideal S8x41x16x64 .f32) (cst : Ideal .f32)
    (h1 : S8x41x16x64.ShapeCasts S8x656x64) (h2 : S8x656x64.ShapeCasts S5248x64)
    (k : Fin 5248) (ci : Fin 64) (b : Fin 8) (h : Fin 41) (w : Fin 16)
    (hk : k.val = (b.val * 41 + h.val) * 16 + w.val) :
    shapeCast S5248x64 (shapeCast S8x656x64 (maximumf V (broadcast S8x41x16x64 cst)) h1) h2 (ix2 k ci)
      = max (V (ix4 b h w ci)) cst := by
  rw [shapeCast_apply _ h2 _ (ix3 b (⟨h.val * 16 + w.val, by omega⟩ : Fin 656) ci) (by
      rw [Shape.rowMajor_val_two, Shape.rowMajor_val_three]
      show (b.val * 656 + (h.val * 16 + w.val)) * 64 + ci.val = k.val * 64 + ci.val
      rw [hk]; ring),
    shapeCast_apply _ h1 _ (ix4 b h w ci) (by
      rw [Shape.rowMajor_val_three, Shape.rowMajor_val_four]
      show ((b.val * 41 + h.val) * 16 + w.val) * 64 + ci.val = (b.val * 656 + (h.val * 16 + w.val)) * 64 + ci.val
      ring)]
  rfl

/-- The five taps, the bias and the clip make the later convolution. Tap k is the 64-channel product of the
    activation at height h + k with rows 64 k .. 64 k + 63 of the weight. -/
theorem conv_of_taps (a : ℕ → ℕ → ℕ → ℕ → EReal) (wt : (⟨2, ![320, 64]⟩ : Shape).Idx → EReal)
    (bias : (⟨2, ![1, 64]⟩ : Shape).Idx → EReal) (n h w c : ℕ) :
    max ((((((∑ ci : Fin 64, a n (h + 0) w ci.val * Cert.Spec.mat wt ci.val c)
        + ∑ ci : Fin 64, a n (h + 1) w ci.val * Cert.Spec.mat wt (64 + ci.val) c)
        + ∑ ci : Fin 64, a n (h + 2) w ci.val * Cert.Spec.mat wt (128 + ci.val) c)
        + ∑ ci : Fin 64, a n (h + 3) w ci.val * Cert.Spec.mat wt (192 + ci.val) c)
        + ∑ ci : Fin 64, a n (h + 4) w ci.val * Cert.Spec.mat wt (256 + ci.val) c)
        + Cert.Spec.row bias c) 0
      = Cert.Spec.conv a wt bias n h w c := by
  unfold Cert.Spec.conv
  rw [Fin.sum_univ_eq_sum_range (fun ci => a n (h + 0) w ci * Cert.Spec.mat wt ci c) 64,
    Fin.sum_univ_eq_sum_range (fun ci => a n (h + 1) w ci * Cert.Spec.mat wt (64 + ci) c) 64,
    Fin.sum_univ_eq_sum_range (fun ci => a n (h + 2) w ci * Cert.Spec.mat wt (128 + ci) c) 64,
    Fin.sum_univ_eq_sum_range (fun ci => a n (h + 3) w ci * Cert.Spec.mat wt (192 + ci) c) 64,
    Fin.sum_univ_eq_sum_range (fun ci => a n (h + 4) w ci * Cert.Spec.mat wt (256 + ci) c) 64]
  simp only [Finset.sum_range_succ, Finset.sum_range_zero, zero_add, Nat.zero_mul, Nat.one_mul,
    show 2 * 64 = 128 from rfl, show 3 * 64 = 192 from rfl, show 4 * 64 = 256 from rfl]

end Cert.ReferenceIdeal.Hand

end
-- ==== Proof.RConvTail.lean ====
/-
  The convolution region's later layers read at an index, at the ideal values: from the first
  layer's block before its clip, the second, third and fourth convolutions as the body computes
  them (each as five row-shifted 64-channel products, the bias and the clip; the third and fourth
  with their first taps computed a step earlier), and the stored block: the fourth activation with
  its 16 widths cut to 12 and laid out as 768 = 12 x 64 columns.
-/
import proofs.«156904_g2000200884589374_pallasbulk_247_2_alg».proof.Proof.RConvTailLib

noncomputable section

namespace Cert.ReferenceIdeal.Hand

open Idealize.ShloMosaic Idealize.ShloMosaic.ValueIdx Cert.ReferenceIdeal Cert.ReferenceIdeal.Gen Finset

/-- One tap of the second convolution at (b, r, c) of the per-image view, from the first layer's block. -/
theorem tap2_val (p : Cert.Spec.Args) (n0 : ℕ) (V : FVec Ideal S8x41x16x64 .f32) (cst : Ideal .f32)
    (hV : ∀ (b : Fin 8) (h : Fin 41) (w : Fin 16) (c : Fin 64),
      max (V (ix4 b h w c)) 0 = Cert.Spec.c1 p (n0 + b.val) h.val w.val c.val)
    (hcst : cst = 0) (o k : ℕ) (hko : o = 16 * k) (hk4 : k ≤ 4)
    (T : FVec Ideal S64x64 .f32) (f : ℕ → ℕ)
    (hT : ∀ ci co : Fin 64, T (ix2 ci co) = Cert.Spec.mat p.w2 (f ci.val) co.val)
    (h1 : S5248x64.ShapeCasts S8x656x64) (h2 : S8x656x64.Slices ![0, o, 0] S8x592x64)
    (h3 : S8x41x16x64.ShapeCasts S8x656x64) (h4 : S8x656x64.ShapeCasts S5248x64)
    (b : Fin 8) (r : Fin 592) (c : Fin 64) (n h w : ℕ) (hn : n = n0 + b.val) (hh : h = r.val / 16)
    (hw : w = r.val % 16) :
    extractStridedSlice S8x592x64 ![0, o, 0]
        (shapeCast S8x656x64 (matmul dot_S5248x64_S64x64_S5248x64_1_0_0_1_n_n none
          (shapeCast S5248x64 (shapeCast S8x656x64 (maximumf V (broadcast S8x41x16x64 cst)) h3) h4) T
          (constant S5248x64 .f32 0x00000000#32)) h1) h2 (ix3 b r c)
      = ∑ ci : Fin 64, Cert.Spec.c1 p n (h + k) w ci.val * Cert.Spec.mat p.w2 (f ci.val) c.val := by
  subst hko hn hh hw
  have hb := b.isLt
  have hr := r.isLt
  rw [tap_c2_apply (16 * k) _ T h1 h2 b r c ⟨b.val * 656 + (16 * k + r.val), by omega⟩ rfl]
  refine Finset.sum_congr rfl fun ci _ => ?_
  rw [act1_apply V cst h3 h4 _ ci b ⟨r.val / 16 + k, by omega⟩ ⟨r.val % 16, by omega⟩
    (by show b.val * 656 + (16 * k + r.val) = (b.val * 41 + (r.val / 16 + k)) * 16 + r.val % 16; omega),
    hcst, hV, hT]

/-- One tap of the third convolution at (b, r, c) of the per-image view, from the second activation. -/
theorem tap3_val (a : ℕ → ℕ → ℕ → ℕ → EReal) (wt : (⟨2, ![320, 64]⟩ : Shape).Idx → EReal) (n0 : ℕ)
    (A : FVec Ideal S4736x64 .f32)
    (hA : ∀ (R : Fin 4736) (c : Fin 64),
      A (ix2 R c) = a (n0 + R.val / 592) (R.val % 592 / 16) (R.val % 16) c.val)
    (o k : ℕ) (hko : o = 16 * k) (hk4 : k ≤ 4)
    (T : FVec Ideal S64x64 .f32) (f : ℕ → ℕ)
    (hT : ∀ ci co : Fin 64, T (ix2 ci co) = Cert.Spec.mat wt (f ci.val) co.val)
    (h1 : S4736x64.ShapeCasts S8x592x64) (h2 : S8x592x64.Slices ![0, o, 0] S8x528x64)
    (b : Fin 8) (r : Fin 528) (c : Fin 64) (n h w : ℕ) (hn : n = n0 + b.val) (hh : h = r.val / 16)
    (hw : w = r.val % 16) :
    extractStridedSlice S8x528x64 ![0, o, 0]
        (shapeCast S8x592x64 (matmul dot_S4736x64_S64x64_S4736x64_1_0_0_1_n_n none A T (constant S4736x64 .f32 0x00000000#32)) h1) h2 (ix3 b r c)
      = ∑ ci : Fin 64, a n (h + k) w ci.val * Cert.Spec.mat wt (f ci.val) c.val := by
  subst hko hn hh hw
  have hb := b.isLt
  have hr := r.isLt
  rw [tap_c3_apply (16 * k) A T h1 h2 b r c ⟨b.val * 592 + (16 * k + r.val), by omega⟩ rfl]
  refine Finset.sum_congr rfl fun ci _ => ?_
  rw [hA, hT]
  have e1 : (b.val * 592 + (16 * k + r.val)) / 592 = b.val := by omega
  have e2 : (b.val * 592 + (16 * k + r.val)) % 592 / 16 = r.val / 16 + k := by omega
  have e3 : (b.val * 592 + (16 * k + r.val)) % 16 = r.val % 16 := by omega
  show a (n0 + (b.val * 592 + (16 * k + r.val)) / 592) ((b.val * 592 + (16 * k + r.val)) % 592 / 16)
      ((b.val * 592 + (16 * k + r.val)) % 16) ci.val * _ = _
  rw [e1, e2, e3]

/-- One tap of the fourth convolution at (b, r, c) of the per-image view, from the third activation. -/
theorem tap4_val (a : ℕ → ℕ → ℕ → ℕ → EReal) (wt : (⟨2, ![320, 64]⟩ : Shape).Idx → EReal) (n0 : ℕ)
    (A : FVec Ideal S4224x64 .f32)
    (hA : ∀ (R : Fin 4224) (c : Fin 64),
      A (ix2 R c) = a (n0 + R.val / 528) (R.val % 528 / 16) (R.val % 16) c.val)
    (o k : ℕ) (hko : o = 16 * k) (hk4 : k ≤ 4)
    (T : FVec Ideal S64x64 .f32) (f : ℕ → ℕ)
    (hT : ∀ ci co : Fin 64, T (ix2 ci co) = Cert.Spec.mat wt (f ci.val) co.val)
    (h1 : S4224x64.ShapeCasts S8x528x64) (h2 : S8x528x64.Slices ![0, o, 0] S8x464x64)
    (b : Fin 8) (r : Fin 464) (c : Fin 64) (n h w : ℕ) (hn : n = n0 + b.val) (hh : h = r.val / 16)
    (hw : w = r.val % 16) :
    extractStridedSlice S8x464x64 ![0, o, 0]
        (shapeCast S8x528x64 (matmul dot_S4224x64_S64x64_S4224x64_1_0_0_1_n_n none A T (constant S4224x64 .f32 0x00000000#32)) h1) h2 (ix3 b r c)
      = ∑ ci : Fin 64, a n (h + k) w ci.val * Cert.Spec.mat wt (f ci.val) c.val := by
  subst hko hn hh hw
  have hb := b.isLt
  have hr := r.isLt
  rw [tap_c4_apply (16 * k) A T h1 h2 b r c ⟨b.val * 528 + (16 * k + r.val), by omega⟩ rfl]
  refine Finset.sum_congr rfl fun ci _ => ?_
  rw [hA, hT]
  have e1 : (b.val * 528 + (16 * k + r.val)) / 528 = b.val := by omega
  have e2 : (b.val * 528 + (16 * k + r.val)) % 528 / 16 = r.val / 16 + k := by omega
  have e3 : (b.val * 528 + (16 * k + r.val)) % 16 = r.val % 16 := by omega
  show a (n0 + (b.val * 528 + (16 * k + r.val)) / 528) ((b.val * 528 + (16 * k + r.val)) % 528 / 16)
      ((b.val * 528 + (16 * k + r.val)) % 16) ci.val * _ = _
  rw [e1, e2, e3]

/-- The second convolution as the body computes it: row R of the [4736, 64] matrix is image R / 592, height
    (R % 592) / 16, width R % 16. -/
theorem k0_pay3_apply (p : Cert.Spec.Args) (n0 : ℕ) (V : FVec Ideal S8x41x16x64 .f32) (cst : Ideal .f32)
    (T0 T1 T2 T3 T4 : Vec Ideal S64x64 .f32) (B : Vec Ideal S1x64 .f32)
    (hV : ∀ (b : Fin 8) (h : Fin 41) (w : Fin 16) (c : Fin 64),
      max (V (ix4 b h w c)) 0 = Cert.Spec.c1 p (n0 + b.val) h.val w.val c.val)
    (hcst : cst = 0)
    (hT0 : ∀ ci co : Fin 64, T0 (ix2 ci co) = Cert.Spec.mat p.w2 (ci.val) co.val)
    (hT1 : ∀ ci co : Fin 64, T1 (ix2 ci co) = Cert.Spec.mat p.w2 (64 + ci.val) co.val)
    (hT2 : ∀ ci co : Fin 64, T2 (ix2 ci co) = Cert.Spec.mat p.w2 (128 + ci.val) co.val)
    (hT3 : ∀ ci co : Fin 64, T3 (ix2 ci co) = Cert.Spec.mat p.w2 (192 + ci.val) co.val)
    (hT4 : ∀ ci co : Fin 64, T4 (ix2 ci co) = Cert.Spec.mat p.w2 (256 + ci.val) co.val)
    (hB : ∀ c : Fin 64, B (ix2 (0 : Fin 1) c) = Cert.Spec.row p.b2 c.val)
    (R : Fin 4736) (c : Fin 64) :
    k0_pay3 V cst T0 T1 T2 T3 T4 B (ix2 R c)
      = Cert.Spec.c2 p (n0 + R.val / 592) (R.val % 592 / 16) (R.val % 16) c.val := by
  have hR := R.isLt
  have hw : R.val % 16 = (R.val % 592) % 16 := by omega
  unfold k0_pay3
  rw [shapeCast_apply _ _ (ix2 R c) (ix3 (⟨R.val / 592, by omega⟩ : Fin 8) (⟨R.val % 592, by omega⟩ : Fin 592) c) (by
    rw [Shape.rowMajor_val_three, Shape.rowMajor_val_two]
    show (R.val / 592 * 592 + R.val % 592) * 64 + c.val = R.val * 64 + c.val
    have := Nat.div_add_mod R.val 592
    omega)]
  rw [maximumf_apply, addf_apply, addf_apply, addf_apply, addf_apply, addf_apply, broadcast_apply,
    rc_scalar_zero_f32, bias_apply, hB]
  rw [tap2_val p n0 V cst hV hcst 0 0 rfl (by omega) T0 (fun x => x) hT0 _ _ _ _ _ _ c
    (n0 + R.val / 592) (R.val % 592 / 16) (R.val % 16) rfl rfl hw]
  rw [tap2_val p n0 V cst hV hcst 16 1 rfl (by omega) T1 (fun x => 64 + x) hT1 _ _ _ _ _ _ c
    (n0 + R.val / 592) (R.val % 592 / 16) (R.val % 16) rfl rfl hw]
  rw [tap2_val p n0 V cst hV hcst 32 2 rfl (by omega) T2 (fun x => 128 + x) hT2 _ _ _ _ _ _ c
    (n0 + R.val / 592) (R.val % 592 / 16) (R.val % 16) rfl rfl hw]
  rw [tap2_val p n0 V cst hV hcst 48 3 rfl (by omega) T3 (fun x => 192 + x) hT3 _ _ _ _ _ _ c
    (n0 + R.val / 592) (R.val % 592 / 16) (R.val % 16) rfl rfl hw]
  rw [tap2_val p n0 V cst hV hcst 64 4 rfl (by omega) T4 (fun x => 256 + x) hT4 _ _ _ _ _ _ c
    (n0 + R.val / 592) (R.val % 592 / 16) (R.val % 16) rfl rfl hw]
  exact conv_of_taps (Cert.Spec.c1 p) p.w2 p.b2 (n0 + R.val / 592) (R.val % 592 / 16) (R.val % 16) c.val

/-- The first tap of the third convolution, computed a step early, at (b, r, c) of the per-image view. -/
theorem k0_pay4_apply (p : Cert.Spec.Args) (n0 : ℕ) (V : FVec Ideal S8x41x16x64 .f32) (cst : Ideal .f32)
    (T0 T1 T2 T3 T4 : Vec Ideal S64x64 .f32) (B : Vec Ideal S1x64 .f32) (T30 : Vec Ideal S64x64 .f32)
    (hV : ∀ (b : Fin 8) (h : Fin 41) (w : Fin 16) (c : Fin 64),
      max (V (ix4 b h w c)) 0 = Cert.Spec.c1 p (n0 + b.val) h.val w.val c.val)
    (hcst : cst = 0)
    (hT0 : ∀ ci co : Fin 64, T0 (ix2 ci co) = Cert.Spec.mat p.w2 (ci.val) co.val)
    (hT1 : ∀ ci co : Fin 64, T1 (ix2 ci co) = Cert.Spec.mat p.w2 (64 + ci.val) co.val)
    (hT2 : ∀ ci co : Fin 64, T2 (ix2 ci co) = Cert.Spec.mat p.w2 (128 + ci.val) co.val)
    (hT3 : ∀ ci co : Fin 64, T3 (ix2 ci co) = Cert.Spec.mat p.w2 (192 + ci.val) co.val)
    (hT4 : ∀ ci co : Fin 64, T4 (ix2 ci co) = Cert.Spec.mat p.w2 (256 + ci.val) co.val)
    (hB : ∀ c : Fin 64, B (ix2 (0 : Fin 1) c) = Cert.Spec.row p.b2 c.val)
    (hT30 : ∀ ci co : Fin 64, T30 (ix2 ci co) = Cert.Spec.mat p.w3 ci.val co.val)
    (b : Fin 8) (r : Fin 528) (c : Fin 64) :
    k0_pay4 V cst T0 T1 T2 T3 T4 B T30 (ix3 b r c)
      = ∑ ci : Fin 64, Cert.Spec.c2 p (n0 + b.val) (r.val / 16 + 0) (r.val % 16) ci.val
          * Cert.Spec.mat p.w3 ci.val c.val := by
  unfold k0_pay4
  exact tap3_val (Cert.Spec.c2 p) p.w3 n0 (k0_pay3 V cst T0 T1 T2 T3 T4 B)
    (k0_pay3_apply p n0 V cst T0 T1 T2 T3 T4 B hV hcst hT0 hT1 hT2 hT3 hT4 hB)
    0 0 rfl (by omega) T30 (fun x => x) hT30 _ _ b r c _ _ _ rfl rfl rfl

/-- The third convolution as the body computes it (its first tap handed in): row R of the [4224, 64] matrix is
    image R / 528, height (R % 528) / 16, width R % 16. -/
theorem k0_pay5_apply (a : ℕ → ℕ → ℕ → ℕ → EReal) (wt : (⟨2, ![320, 64]⟩ : Shape).Idx → EReal)
    (bias : (⟨2, ![1, 64]⟩ : Shape).Idx → EReal) (n0 : ℕ)
    (A : FVec Ideal S4736x64 .f32) (P : FVec Ideal S8x528x64 .f32)
    (T1 T2 T3 T4 : Vec Ideal S64x64 .f32) (B : Vec Ideal S1x64 .f32)
    (hA : ∀ (R : Fin 4736) (c : Fin 64),
      A (ix2 R c) = a (n0 + R.val / 592) (R.val % 592 / 16) (R.val % 16) c.val)
    (hP : ∀ (b : Fin 8) (r : Fin 528) (c : Fin 64), P (ix3 b r c)
      = ∑ ci : Fin 64, a (n0 + b.val) (r.val / 16 + 0) (r.val % 16) ci.val * Cert.Spec.mat wt ci.val c.val)
    (hT1 : ∀ ci co : Fin 64, T1 (ix2 ci co) = Cert.Spec.mat wt (64 + ci.val) co.val)
    (hT2 : ∀ ci co : Fin 64, T2 (ix2 ci co) = Cert.Spec.mat wt (128 + ci.val) co.val)
    (hT3 : ∀ ci co : Fin 64, T3 (ix2 ci co) = Cert.Spec.mat wt (192 + ci.val) co.val)
    (hT4 : ∀ ci co : Fin 64, T4 (ix2 ci co) = Cert.Spec.mat wt (256 + ci.val) co.val)
    (hB : ∀ c : Fin 64, B (ix2 (0 : Fin 1) c) = Cert.Spec.row bias c.val)
    (R : Fin 4224) (c : Fin 64) :
    k0_pay5 A P T1 T2 T3 T4 B (ix2 R c)
      = Cert.Spec.conv a wt bias (n0 + R.val / 528) (R.val % 528 / 16) (R.val % 16) c.val := by
  have hR := R.isLt
  have hw : R.val % 16 = (R.val % 528) % 16 := by omega
  unfold k0_pay5
  rw [shapeCast_apply _ _ (ix2 R c) (ix3 (⟨R.val / 528, by omega⟩ : Fin 8) (⟨R.val % 528, by omega⟩ : Fin 528) c) (by
    rw [Shape.rowMajor_val_three, Shape.rowMajor_val_two]
    show (R.val / 528 * 528 + R.val % 528) * 64 + c.val = R.val * 64 + c.val
    have := Nat.div_add_mod R.val 528
    omega)]
  rw [maximumf_apply, addf_apply, addf_apply, addf_apply, addf_apply, addf_apply, broadcast_apply,
    rc_scalar_zero_f32, bias_apply, hB, hP]
  rw [tap3_val a wt n0 A hA 16 1 rfl (by omega) T1 (fun x => 64 + x) hT1 _ _ _ _ c
    (n0 + R.val / 528) (R.val % 528 / 16) (R.val % 16) rfl rfl hw]
  rw [tap3_val a wt n0 A hA 32 2 rfl (by omega) T2 (fun x => 128 + x) hT2 _ _ _ _ c
    (n0 + R.val / 528) (R.val % 528 / 16) (R.val % 16) rfl rfl hw]
  rw [tap3_val a wt n0 A hA 48 3 rfl (by omega) T3 (fun x => 192 + x) hT3 _ _ _ _ c
    (n0 + R.val / 528) (R.val % 528 / 16) (R.val % 16) rfl rfl hw]
  rw [tap3_val a wt n0 A hA 64 4 rfl (by omega) T4 (fun x => 256 + x) hT4 _ _ _ _ c
    (n0 + R.val / 528) (R.val % 528 / 16) (R.val % 16) rfl rfl hw]
  dsimp only
  rw [← hw]
  exact conv_of_taps a wt bias (n0 + R.val / 528) (R.val % 528 / 16) (R.val % 16) c.val

/-- The first two taps of the fourth convolution, computed a step early, at (b, r, c) of the per-image view. -/
theorem k0_pay6_apply (a : ℕ → ℕ → ℕ → ℕ → EReal) (wt : (⟨2, ![320, 64]⟩ : Shape).Idx → EReal)
    (bias : (⟨2, ![1, 64]⟩ : Shape).Idx → EReal)
    (w4 : (⟨2, ![320, 64]⟩ : Shape).Idx → EReal) (n0 : ℕ)
    (A : FVec Ideal S4736x64 .f32) (P : FVec Ideal S8x528x64 .f32)
    (T1 T2 T3 T4 : Vec Ideal S64x64 .f32) (B : Vec Ideal S1x64 .f32) (T40 T41 : Vec Ideal S64x64 .f32)
    (hA : ∀ (R : Fin 4736) (c : Fin 64),
      A (ix2 R c) = a (n0 + R.val / 592) (R.val % 592 / 16) (R.val % 16) c.val)
    (hP : ∀ (b : Fin 8) (r : Fin 528) (c : Fin 64), P (ix3 b r c)
      = ∑ ci : Fin 64, a (n0 + b.val) (r.val / 16 + 0) (r.val % 16) ci.val * Cert.Spec.mat wt ci.val c.val)
    (hT1 : ∀ ci co : Fin 64, T1 (ix2 ci co) = Cert.Spec.mat wt (64 + ci.val) co.val)
    (hT2 : ∀ ci co : Fin 64, T2 (ix2 ci co) = Cert.Spec.mat wt (128 + ci.val) co.val)
    (hT3 : ∀ ci co : Fin 64, T3 (ix2 ci co) = Cert.Spec.mat wt (192 + ci.val) co.val)
    (hT4 : ∀ ci co : Fin 64, T4 (ix2 ci co) = Cert.Spec.mat wt (256 + ci.val) co.val)
    (hB : ∀ c : Fin 64, B (ix2 (0 : Fin 1) c) = Cert.Spec.row bias c.val)
    (hT40 : ∀ ci co : Fin 64, T40 (ix2 ci co) = Cert.Spec.mat w4 ci.val co.val)
    (hT41 : ∀ ci co : Fin 64, T41 (ix2 ci co) = Cert.Spec.mat w4 (64 + ci.val) co.val)
    (b : Fin 8) (r : Fin 464) (c : Fin 64) :
    k0_pay6 A P T1 T2 T3 T4 B T40 T41 (ix3 b r c)
      = (∑ ci : Fin 64, Cert.Spec.conv a wt bias (n0 + b.val) (r.val / 16 + 0) (r.val % 16) ci.val
            * Cert.Spec.mat w4 ci.val c.val)
        + ∑ ci : Fin 64, Cert.Spec.conv a wt bias (n0 + b.val) (r.val / 16 + 1) (r.val % 16) ci.val
            * Cert.Spec.mat w4 (64 + ci.val) c.val := by
  have hA3 := k0_pay5_apply a wt bias n0 A P T1 T2 T3 T4 B hA hP hT1 hT2 hT3 hT4 hB
  unfold k0_pay6
  rw [addf_apply,
    tap4_val (Cert.Spec.conv a wt bias) w4 n0 (k0_pay5 A P T1 T2 T3 T4 B) hA3 0 0 rfl (by omega) T40 (fun x => x) hT40
      _ _ b r c _ _ _ rfl rfl rfl,
    tap4_val (Cert.Spec.conv a wt bias) w4 n0 (k0_pay5 A P T1 T2 T3 T4 B) hA3 16 1 rfl (by omega) T41 (fun x => 64 + x) hT41
      _ _ b r c _ _ _ rfl rfl rfl]

/-- The fourth convolution as the body computes it (its first two taps handed in) and stores it: image b,
    height h, column q = 64 w + c of the [8, 29, 768] block. -/
theorem k0_pay1_apply (a : ℕ → ℕ → ℕ → ℕ → EReal) (wt : (⟨2, ![320, 64]⟩ : Shape).Idx → EReal)
    (bias : (⟨2, ![1, 64]⟩ : Shape).Idx → EReal) (n0 : ℕ)
    (A : FVec Ideal S4224x64 .f32) (P : FVec Ideal S8x464x64 .f32)
    (T2 T3 T4 : Vec Ideal S64x64 .f32) (B : Vec Ideal S1x64 .f32)
    (hA : ∀ (R : Fin 4224) (c : Fin 64),
      A (ix2 R c) = a (n0 + R.val / 528) (R.val % 528 / 16) (R.val % 16) c.val)
    (hP : ∀ (b : Fin 8) (r : Fin 464) (c : Fin 64), P (ix3 b r c)
      = (∑ ci : Fin 64, a (n0 + b.val) (r.val / 16 + 0) (r.val % 16) ci.val * Cert.Spec.mat wt ci.val c.val)
        + ∑ ci : Fin 64, a (n0 + b.val) (r.val / 16 + 1) (r.val % 16) ci.val * Cert.Spec.mat wt (64 + ci.val) c.val)
    (hT2 : ∀ ci co : Fin 64, T2 (ix2 ci co) = Cert.Spec.mat wt (128 + ci.val) co.val)
    (hT3 : ∀ ci co : Fin 64, T3 (ix2 ci co) = Cert.Spec.mat wt (192 + ci.val) co.val)
    (hT4 : ∀ ci co : Fin 64, T4 (ix2 ci co) = Cert.Spec.mat wt (256 + ci.val) co.val)
    (hB : ∀ c : Fin 64, B (ix2 (0 : Fin 1) c) = Cert.Spec.row bias c.val)
    (b : Fin 8) (h : Fin 29) (q : Fin 768) :
    k0_pay1 A P T2 T3 T4 B (ix3 b h q)
      = Cert.Spec.conv a wt bias (n0 + b.val) h.val (q.val / 64) (q.val % 64) := by
  have hb := b.isLt
  have hh := h.isLt
  have hq := q.isLt
  have e1 : (h.val * 16 + q.val / 64) / 16 = h.val := by omega
  have e2 : (h.val * 16 + q.val / 64) % 16 = q.val / 64 := by omega
  unfold k0_pay1
  rw [shapeCast_apply _ _ (ix3 b h q) (ix4 b h (⟨q.val / 64, by omega⟩ : Fin 12) (⟨q.val % 64, by omega⟩ : Fin 64)) (by
    rw [Shape.rowMajor_val_three, Shape.rowMajor_val_four]
    show ((b.val * 29 + h.val) * 12 + q.val / 64) * 64 + q.val % 64 = (b.val * 29 + h.val) * 768 + q.val
    omega)]
  rw [slice4_axis2_eq 0 _ _ b h (⟨q.val / 64, by omega⟩ : Fin 12) (⟨q.val % 64, by omega⟩ : Fin 64)]
  rw [shapeCast_apply _ _ _ (ix3 b (⟨h.val * 16 + q.val / 64, by omega⟩ : Fin 464) (⟨q.val % 64, by omega⟩ : Fin 64)) (by
    rw [Shape.rowMajor_val_three, Shape.rowMajor_val_four]
    show (b.val * 464 + (h.val * 16 + q.val / 64)) * 64 + q.val % 64
      = ((b.val * 29 + h.val) * 16 + (0 + q.val / 64)) * 64 + q.val % 64
    omega)]
  rw [maximumf_apply, addf_apply, addf_apply, addf_apply, addf_apply, broadcast_apply,
    rc_scalar_zero_f32, bias_apply, hB, hP]
  rw [tap4_val a wt n0 A hA 32 2 rfl (by omega) T2 (fun x => 128 + x) hT2 _ _ _ _ _
    (n0 + b.val) h.val (q.val / 64) rfl e1.symm e2.symm]
  rw [tap4_val a wt n0 A hA 48 3 rfl (by omega) T3 (fun x => 192 + x) hT3 _ _ _ _ _
    (n0 + b.val) h.val (q.val / 64) rfl e1.symm e2.symm]
  rw [tap4_val a wt n0 A hA 64 4 rfl (by omega) T4 (fun x => 256 + x) hT4 _ _ _ _ _
    (n0 + b.val) h.val (q.val / 64) rfl e1.symm e2.symm]
  dsimp only
  rw [e1, e2]
  exact conv_of_taps a wt bias (n0 + b.val) h.val (q.val / 64) (q.val % 64)

/-- From the first layer's block before its clip to the stored block: the fourth activation. -/
theorem rconv_tail (p : Cert.Spec.Args) (n0 : ℕ) (V50 : FVec Ideal S8x41x16x64 .f32) (cst : Ideal .f32)
    (T20 T21 T22 T23 T24 : Vec Ideal S64x64 .f32) (B2 : Vec Ideal S1x64 .f32)
    (T30 T31 T32 T33 T34 : Vec Ideal S64x64 .f32) (B3 : Vec Ideal S1x64 .f32)
    (T40 T41 T42 T43 T44 : Vec Ideal S64x64 .f32) (B4 : Vec Ideal S1x64 .f32)
    (hV50 : ∀ (b : Fin 8) (h : Fin 41) (w : Fin 16) (c : Fin 64),
      max (V50 (ix4 b h w c)) 0 = Cert.Spec.c1 p (n0 + b.val) h.val w.val c.val)
    (hcst : cst = 0)
    (hT20 : ∀ ci co : Fin 64, T20 (ix2 ci co) = Cert.Spec.mat p.w2 (ci.val) co.val)
    (hT21 : ∀ ci co : Fin 64, T21 (ix2 ci co) = Cert.Spec.mat p.w2 (64 + ci.val) co.val)
    (hT22 : ∀ ci co : Fin 64, T22 (ix2 ci co) = Cert.Spec.mat p.w2 (128 + ci.val) co.val)
    (hT23 : ∀ ci co : Fin 64, T23 (ix2 ci co) = Cert.Spec.mat p.w2 (192 + ci.val) co.val)
    (hT24 : ∀ ci co : Fin 64, T24 (ix2 ci co) = Cert.Spec.mat p.w2 (256 + ci.val) co.val)
    (hB2 : ∀ c : Fin 64, B2 (ix2 (0 : Fin 1) c) = Cert.Spec.row p.b2 c.val)
    (hT30 : ∀ ci co : Fin 64, T30 (ix2 ci co) = Cert.Spec.mat p.w3 (ci.val) co.val)
    (hT31 : ∀ ci co : Fin 64, T31 (ix2 ci co) = Cert.Spec.mat p.w3 (64 + ci.val) co.val)
    (hT32 : ∀ ci co : Fin 64, T32 (ix2 ci co) = Cert.Spec.mat p.w3 (128 + ci.val) co.val)
    (hT33 : ∀ ci co : Fin 64, T33 (ix2 ci co) = Cert.Spec.mat p.w3 (192 + ci.val) co.val)
    (hT34 : ∀ ci co : Fin 64, T34 (ix2 ci co) = Cert.Spec.mat p.w3 (256 + ci.val) co.val)
    (hB3 : ∀ c : Fin 64, B3 (ix2 (0 : Fin 1) c) = Cert.Spec.row p.b3 c.val)
    (hT40 : ∀ ci co : Fin 64, T40 (ix2 ci co) = Cert.Spec.mat p.w4 (ci.val) co.val)
    (hT41 : ∀ ci co : Fin 64, T41 (ix2 ci co) = Cert.Spec.mat p.w4 (64 + ci.val) co.val)
    (hT42 : ∀ ci co : Fin 64, T42 (ix2 ci co) = Cert.Spec.mat p.w4 (128 + ci.val) co.val)
    (hT43 : ∀ ci co : Fin 64, T43 (ix2 ci co) = Cert.Spec.mat p.w4 (192 + ci.val) co.val)
    (hT44 : ∀ ci co : Fin 64, T44 (ix2 ci co) = Cert.Spec.mat p.w4 (256 + ci.val) co.val)
    (hB4 : ∀ c : Fin 64, B4 (ix2 (0 : Fin 1) c) = Cert.Spec.row p.b4 c.val)
    (b : Fin 8) (h : Fin 29) (q : Fin 768) :
    k0_pay1
        (k0_pay5 (k0_pay3 V50 cst T20 T21 T22 T23 T24 B2) (k0_pay4 V50 cst T20 T21 T22 T23 T24 B2 T30) T31 T32 T33 T34 B3)
        (k0_pay6 (k0_pay3 V50 cst T20 T21 T22 T23 T24 B2) (k0_pay4 V50 cst T20 T21 T22 T23 T24 B2 T30) T31 T32 T33 T34 B3 T40 T41)
        T42 T43 T44 B4 (ix3 b h q)
      = Cert.Spec.c4 p (n0 + b.val) h.val (q.val / 64) (q.val % 64) := by
  have h3 := k0_pay3_apply p n0 V50 cst T20 T21 T22 T23 T24 B2 hV50 hcst hT20 hT21 hT22 hT23 hT24 hB2
  have h4 := k0_pay4_apply p n0 V50 cst T20 T21 T22 T23 T24 B2 T30 hV50 hcst hT20 hT21 hT22 hT23 hT24 hB2 hT30
  have h5 := k0_pay5_apply (Cert.Spec.c2 p) p.w3 p.b3 n0 (k0_pay3 V50 cst T20 T21 T22 T23 T24 B2)
    (k0_pay4 V50 cst T20 T21 T22 T23 T24 B2 T30) T31 T32 T33 T34 B3 h3 h4 hT31 hT32 hT33 hT34 hB3
  have h6 := k0_pay6_apply (Cert.Spec.c2 p) p.w3 p.b3 p.w4 n0 (k0_pay3 V50 cst T20 T21 T22 T23 T24 B2)
    (k0_pay4 V50 cst T20 T21 T22 T23 T24 B2 T30) T31 T32 T33 T34 B3 T40 T41 h3 h4 hT31 hT32 hT33 hT34 hB3 hT40 hT41
  exact k0_pay1_apply (Cert.Spec.c3 p) p.w4 p.b4 n0 _ _ T42 T43 T44 B4 h5 h6 hT42 hT43 hT44 hB4 b h q

end Cert.ReferenceIdeal.Hand

end
-- ==== Proof.RConvVal.lean ====
/-
  The block the reference's convolution region stores at one grid point is the fourth
  convolution's activation of its eight images.

  The input, the first weight and the biases are read whole; each later weight is read as five
  64-row tiles, tile k being its rows 64 k .. 64 k + 63 (tap k). The first stage is the first
  convolution before its clip; everything after it is the chain of the three later convolutions.
-/
import proofs.«156904_g2000200884589374_pallasbulk_247_2_alg».proof.Proof.RConv
import proofs.«156904_g2000200884589374_pallasbulk_247_2_alg».proof.Proof.RConv1
import proofs.«156904_g2000200884589374_pallasbulk_247_2_alg».proof.Proof.RConvTail
import proofs.«156904_g2000200884589374_pallasbulk_247_2_alg».proof.Proof.Spec
import Idealize.ShloMosaic.PureOps.Ideal.Laws

noncomputable section

namespace Cert.ReferenceIdeal.Hand

open Idealize.ShloMosaic Idealize.ShloMosaic.ValueIdx Cert.ReferenceIdeal Cert.ReferenceIdeal.Gen

theorem off2_zero : (![0, 0] : Fin 2 → Nat) = fun _ => 0 := funext fun a => by fin_cases a <;> rfl

/-- The zero the clips compare with is the extended real 0. -/
theorem czero_eq : (czero (F := Ideal)) = (0 : EReal) := Ideal.ofBits_zero_f32

/-- The 64 rows from row off of a [320, 64] weight. -/
theorem tile_val (G : ℕ → ℕ → EReal) (x : Vec Ideal S320x64 .f32)
    (hx : ∀ (k : Fin 320) (c : Fin 64), x (ix2 k c) = G k.val c.val)
    (off : ℕ) (inb : ∀ a, (![off, 0] : Fin 2 → ℕ) a + S64x64.size a ≤ S320x64.size a) (ci co : Fin 64) :
    View.ld x (Rect.unit (s := S320x64) ![off, 0] S64x64.size inb) (ix2 ci co) = G (off + ci.val) co.val := by
  have hk : off + ci.val < 320 := by
    have := inb 0
    have hc := ci.isLt
    change off + 64 ≤ 320 at this
    omega
  have e : (Rect.unit (s := S320x64) ![off, 0] S64x64.size inb).idx (ix2 ci co) = ix2 ⟨off + ci.val, hk⟩ co := by
    funext a; apply Fin.ext
    match a with
    | ⟨0, _⟩ => show off + 1 * ci.val = off + ci.val; omega
    | ⟨1, _⟩ => show 0 + 1 * co.val = co.val; omega
  show x ((Rect.unit (s := S320x64) ![off, 0] S64x64.size inb).idx (ix2 ci co)) = _
  rw [e, hx]

/-- A bias read whole. -/
theorem bias_val (g : ℕ → EReal) (x : Vec Ideal S1x64 .f32) (hx : ∀ c : Fin 64, x (ix2 (0 : Fin 1) c) = g c.val)
    (c : Fin 64) : View.ld x rB (ix2 (0 : Fin 1) c) = g c.val := by
  rw [View.ld_unit_zero (S := S1x64) off2_zero]; exact hx c

theorem rout_val {p : Cert.Spec.Args} {n0 : ℕ} {xb : Vec Ideal S8x45x16 .f32} {w1 : Vec Ideal S5x64 .f32}
    {b1 : Vec Ideal S1x64 .f32} {w2 : Vec Ideal S320x64 .f32} {b2 : Vec Ideal S1x64 .f32}
    {w3 : Vec Ideal S320x64 .f32} {b3 : Vec Ideal S1x64 .f32} {w4 : Vec Ideal S320x64 .f32}
    {b4 : Vec Ideal S1x64 .f32}
    (hX : ∀ (b : Fin 8) (h : Fin 45) (w : Fin 16), xb (ix3 b h w) = Cert.Spec.xN p (n0 + b.val) h.val w.val)
    (hW1 : ∀ (k : Fin 5) (c : Fin 64), w1 (ix2 k c) = Cert.Spec.mat p.w1 k.val c.val)
    (hB1 : ∀ c : Fin 64, b1 (ix2 (0 : Fin 1) c) = Cert.Spec.row p.b1 c.val)
    (hW2 : ∀ (k : Fin 320) (c : Fin 64), w2 (ix2 k c) = Cert.Spec.mat p.w2 k.val c.val)
    (hB2 : ∀ c : Fin 64, b2 (ix2 (0 : Fin 1) c) = Cert.Spec.row p.b2 c.val)
    (hW3 : ∀ (k : Fin 320) (c : Fin 64), w3 (ix2 k c) = Cert.Spec.mat p.w3 k.val c.val)
    (hB3 : ∀ c : Fin 64, b3 (ix2 (0 : Fin 1) c) = Cert.Spec.row p.b3 c.val)
    (hW4 : ∀ (k : Fin 320) (c : Fin 64), w4 (ix2 k c) = Cert.Spec.mat p.w4 k.val c.val)
    (hB4 : ∀ c : Fin 64, b4 (ix2 (0 : Fin 1) c) = Cert.Spec.row p.b4 c.val)
    (b : Fin 8) (h : Fin 29) (q : Fin 768) :
    rout xb w1 b1 w2 b2 w3 b3 w4 b4 (ix3 b h q)
      = Cert.Spec.c4 p (n0 + b.val) h.val (q.val / 64) (q.val % 64) := by
  have hV50 : ∀ (b : Fin 8) (h : Fin 41) (w : Fin 16) (c : Fin 64),
      max (st1 xb w1 b1 (ix4 b h w c)) 0 = Cert.Spec.c1 p (n0 + b.val) h.val w.val c.val := by
    intro b h w c
    unfold st1
    rw [View.ld_unit_zero (S := S8x45x16) off3_zero, View.ld_unit_zero (S := S5x64) off2_zero,
      View.ld_unit_zero (S := S1x64) off2_zero]
    exact pay2_clip hX hW1 hB1 b h w c
  unfold rout
  rw [View.canon_unit_zero off3_zero]
  exact rconv_tail p n0 (st1 xb w1 b1) czero
    (View.ld w2 rT0) (View.ld w2 rT1) (View.ld w2 rT2) (View.ld w2 rT3) (View.ld w2 rT4) (View.ld b2 rB)
    (View.ld w3 rT0) (View.ld w3 rT1) (View.ld w3 rT2) (View.ld w3 rT3) (View.ld w3 rT4) (View.ld b3 rB)
    (View.ld w4 rT0) (View.ld w4 rT1) (View.ld w4 rT2) (View.ld w4 rT3) (View.ld w4 rT4) (View.ld b4 rB)
    hV50 czero_eq
    (fun ci co => (tile_val (Cert.Spec.mat p.w2) w2 hW2 0 _ ci co).trans (by rw [Nat.zero_add]))
    (tile_val (Cert.Spec.mat p.w2) w2 hW2 64 _)
    (tile_val (Cert.Spec.mat p.w2) w2 hW2 128 _)
    (tile_val (Cert.Spec.mat p.w2) w2 hW2 192 _)
    (tile_val (Cert.Spec.mat p.w2) w2 hW2 256 _)
    (bias_val (Cert.Spec.row p.b2) b2 hB2)
    (fun ci co => (tile_val (Cert.Spec.mat p.w3) w3 hW3 0 _ ci co).trans (by rw [Nat.zero_add]))
    (tile_val (Cert.Spec.mat p.w3) w3 hW3 64 _)
    (tile_val (Cert.Spec.mat p.w3) w3 hW3 128 _)
    (tile_val (Cert.Spec.mat p.w3) w3 hW3 192 _)
    (tile_val (Cert.Spec.mat p.w3) w3 hW3 256 _)
    (bias_val (Cert.Spec.row p.b3) b3 hB3)
    (fun ci co => (tile_val (Cert.Spec.mat p.w4) w4 hW4 0 _ ci co).trans (by rw [Nat.zero_add]))
    (tile_val (Cert.Spec.mat p.w4) w4 hW4 64 _)
    (tile_val (Cert.Spec.mat p.w4) w4 hW4 128 _)
    (tile_val (Cert.Spec.mat p.w4) w4 hW4 192 _)
    (tile_val (Cert.Spec.mat p.w4) w4 hW4 256 _)
    (bias_val (Cert.Spec.row p.b4) b4 hB4)
    b h q

end Cert.ReferenceIdeal.Hand

end
-- ==== Proof.RConvArr.lean ====
/-
  From the stored blocks to the array: what the convolution region leaves in its output array, index by
  index, given what its input arrays hold when it is entered.
-/
import proofs.«156904_g2000200884589374_pallasbulk_247_2_alg».proof.Proof.RConv
import proofs.«156904_g2000200884589374_pallasbulk_247_2_alg».proof.Proof.Spec
import proofs.«156904_g2000200884589374_pallasbulk_247_2_alg».proof.Proof.RConvVal
import Idealize.ShloMosaic.Lib.Pipeline.Value
import Idealize.ShloMosaic.Lib.ValueIdx

set_option maxRecDepth 16384

noncomputable section

namespace Cert.ReferenceIdeal.Hand

open Cert.ReferenceIdeal.Gen
open Idealize.ShloMosaic Idealize.ShloMosaic.TcCoe Idealize.SL.Sem Idealize.ShloMosaic.ValueIdx
open Idealize.ShloMosaic.Pipeline (Dat)

/-! ## The index maps, decided over the grid -/

/-- The image block and the output block move with the point along the leading axis; the weights and biases stay. -/
theorem idx_facts : ∀ t : Fin cfg0.N, win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 2) = 0 ∧ win0_7.index t (1 : Fin 2) = 0 ∧ win0_8.index t (0 : Fin 2) = 0 ∧ win0_8.index t (1 : Fin 2) = 0 :=
  (by decide +kernel : ∀ t : Fin grid0.N, _)

section Arr
variable (V : (c : Dev nD) → (b : Ref sig .tc) → Buf (Elt Ideal) ((c : Thread nD τ).loc b)) (c : Dev nD) (p : Cert.Spec.Args)

/-- The output array as one function of the network's arguments: the fourth layer's activation, (width, channel)
    flattened along the last axis. -/
abbrev G9 : S8192x29x768.Idx → EReal := fun i => Cert.Spec.c4 p (i 0).val (i 1).val ((i 2).val / 64) ((i 2).val % 64)

variable (hX : ∀ (n : Fin 8192) (h : Fin 45) (w : Fin 16), V c main_call0_v1 (ix3 n h w) = Cert.Spec.xN p n.val h.val w.val)
    (hW1 : ∀ (k : Fin 5) (o : Fin 64), V c main_arg1 (ix2 k o) = Cert.Spec.mat p.w1 k.val o.val)
    (hB1 : ∀ o : Fin 64, V c main_arg2 (ix2 (0 : Fin 1) o) = Cert.Spec.row p.b1 o.val)
    (hW2 : ∀ (k : Fin 320) (o : Fin 64), V c main_arg3 (ix2 k o) = Cert.Spec.mat p.w2 k.val o.val)
    (hB2 : ∀ o : Fin 64, V c main_arg4 (ix2 (0 : Fin 1) o) = Cert.Spec.row p.b2 o.val)
    (hW3 : ∀ (k : Fin 320) (o : Fin 64), V c main_arg5 (ix2 k o) = Cert.Spec.mat p.w3 k.val o.val)
    (hB3 : ∀ o : Fin 64, V c main_arg6 (ix2 (0 : Fin 1) o) = Cert.Spec.row p.b3 o.val)
    (hW4 : ∀ (k : Fin 320) (o : Fin 64), V c main_arg7 (ix2 k o) = Cert.Spec.mat p.w4 k.val o.val)
    (hB4 : ∀ o : Fin 64, V c main_arg8 (ix2 (0 : Fin 1) o) = Cert.Spec.row p.b4 o.val)

include hX in
/-- The image block at point `t` holds images `8 t … 8 t + 7`. -/
theorem iblk0_0_apply (t : Fin cfg0.N) (b : Fin 8) (h : Fin 45) (w : Fin 16) :
    iblk0 V c 0 t (ix3 b h w) = Cert.Spec.xN p (8 * t.val + b.val) h.val w.val := by
  obtain ⟨e0, e1, e2, -⟩ := idx_facts t
  show V c main_call0_v1 (((cfg0.win 0).blk t).view.emb (ix3 b h w)) = _
  have hb : 8 * t.val + b.val < 8192 := by have := t.isLt; have : t.val < 1024 := this; omega
  have hi : ((cfg0.win 0).blk t).view.emb (ix3 b h w) = ix3 (⟨8 * t.val + b.val, hb⟩ : Fin 8192) h w := by
    funext a; apply Fin.ext
    match a with
    | ⟨0, _⟩ => show win0_0.index t (0 : Fin 3) * 8 + 1 * b.val = 8 * t.val + b.val; omega
    | ⟨1, _⟩ => show win0_0.index t (1 : Fin 3) * 45 + 1 * h.val = h.val; omega
    | ⟨2, _⟩ => show win0_0.index t (2 : Fin 3) * 16 + 1 * w.val = w.val; omega
  rw [hi, hX]
include hW1 in
theorem iblk0_1_apply (t : Fin cfg0.N) (k : Fin 5) (o : Fin 64) :
    iblk0 V c 1 t (ix2 k o) = Cert.Spec.mat p.w1 k.val o.val := by
  obtain ⟨-, -, -, -, -, -, e0, e1, -, -, -, -, -, -, -, -, -, -, -, -, -, -⟩ := idx_facts t
  show V c main_arg1 (((cfg0.win 1).blk t).view.emb (ix2 k o)) = _
  have hi : ((cfg0.win 1).blk t).view.emb (ix2 k o) = ix2 k o := by
    funext a; apply Fin.ext
    match a with
    | ⟨0, _⟩ => show win0_1.index t (0 : Fin 2) * 5 + 1 * k.val = k.val; omega
    | ⟨1, _⟩ => show win0_1.index t (1 : Fin 2) * 64 + 1 * o.val = o.val; omega
  rw [hi, hW1]

include hB1 in
theorem iblk0_2_apply (t : Fin cfg0.N) (o : Fin 64) :
    iblk0 V c 2 t (ix2 (0 : Fin 1) o) = Cert.Spec.row p.b1 o.val := by
  obtain ⟨-, -, -, -, -, -, -, -, e0, e1, -, -, -, -, -, -, -, -, -, -, -, -⟩ := idx_facts t
  show V c main_arg2 (((cfg0.win 2).blk t).view.emb (ix2 (0 : Fin 1) o)) = _
  have hi : ((cfg0.win 2).blk t).view.emb (ix2 (0 : Fin 1) o) = ix2 (0 : Fin 1) o := by
    funext a; apply Fin.ext
    match a with
    | ⟨0, _⟩ => show win0_2.index t (0 : Fin 2) * 1 + 1 * (0 : Fin 1).val = (0 : Fin 1).val; simp [e0]
    | ⟨1, _⟩ => show win0_2.index t (1 : Fin 2) * 64 + 1 * o.val = o.val; omega
  rw [hi, hB1]

include hW2 in
theorem iblk0_3_apply (t : Fin cfg0.N) (k : Fin 320) (o : Fin 64) :
    iblk0 V c 3 t (ix2 k o) = Cert.Spec.mat p.w2 k.val o.val := by
  obtain ⟨-, -, -, -, -, -, -, -, -, -, e0, e1, -, -, -, -, -, -, -, -, -, -⟩ := idx_facts t
  show V c main_arg3 (((cfg0.win 3).blk t).view.emb (ix2 k o)) = _
  have hi : ((cfg0.win 3).blk t).view.emb (ix2 k o) = ix2 k o := by
    funext a; apply Fin.ext
    match a with
    | ⟨0, _⟩ => show win0_3.index t (0 : Fin 2) * 320 + 1 * k.val = k.val; omega
    | ⟨1, _⟩ => show win0_3.index t (1 : Fin 2) * 64 + 1 * o.val = o.val; omega
  rw [hi, hW2]

include hB2 in
theorem iblk0_4_apply (t : Fin cfg0.N) (o : Fin 64) :
    iblk0 V c 4 t (ix2 (0 : Fin 1) o) = Cert.Spec.row p.b2 o.val := by
  obtain ⟨-, -, -, -, -, -, -, -, -, -, -, -, e0, e1, -, -, -, -, -, -, -, -⟩ := idx_facts t
  show V c main_arg4 (((cfg0.win 4).blk t).view.emb (ix2 (0 : Fin 1) o)) = _
  have hi : ((cfg0.win 4).blk t).view.emb (ix2 (0 : Fin 1) o) = ix2 (0 : Fin 1) o := by
    funext a; apply Fin.ext
    match a with
    | ⟨0, _⟩ => show win0_4.index t (0 : Fin 2) * 1 + 1 * (0 : Fin 1).val = (0 : Fin 1).val; simp [e0]
    | ⟨1, _⟩ => show win0_4.index t (1 : Fin 2) * 64 + 1 * o.val = o.val; omega
  rw [hi, hB2]

include hW3 in
theorem iblk0_5_apply (t : Fin cfg0.N) (k : Fin 320) (o : Fin 64) :
    iblk0 V c 5 t (ix2 k o) = Cert.Spec.mat p.w3 k.val o.val := by
  obtain ⟨-, -, -, -, -, -, -, -, -, -, -, -, -, -, e0, e1, -, -, -, -, -, -⟩ := idx_facts t
  show V c main_arg5 (((cfg0.win 5).blk t).view.emb (ix2 k o)) = _
  have hi : ((cfg0.win 5).blk t).view.emb (ix2 k o) = ix2 k o := by
    funext a; apply Fin.ext
    match a with
    | ⟨0, _⟩ => show win0_5.index t (0 : Fin 2) * 320 + 1 * k.val = k.val; omega
    | ⟨1, _⟩ => show win0_5.index t (1 : Fin 2) * 64 + 1 * o.val = o.val; omega
  rw [hi, hW3]

include hB3 in
theorem iblk0_6_apply (t : Fin cfg0.N) (o : Fin 64) :
    iblk0 V c 6 t (ix2 (0 : Fin 1) o) = Cert.Spec.row p.b3 o.val := by
  obtain ⟨-, -, -, -, -, -, -, -, -, -, -, -, -, -, -, -, e0, e1, -, -, -, -⟩ := idx_facts t
  show V c main_arg6 (((cfg0.win 6).blk t).view.emb (ix2 (0 : Fin 1) o)) = _
  have hi : ((cfg0.win 6).blk t).view.emb (ix2 (0 : Fin 1) o) = ix2 (0 : Fin 1) o := by
    funext a; apply Fin.ext
    match a with
    | ⟨0, _⟩ => show win0_6.index t (0 : Fin 2) * 1 + 1 * (0 : Fin 1).val = (0 : Fin 1).val; simp [e0]
    | ⟨1, _⟩ => show win0_6.index t (1 : Fin 2) * 64 + 1 * o.val = o.val; omega
  rw [hi, hB3]

include hW4 in
theorem iblk0_7_apply (t : Fin cfg0.N) (k : Fin 320) (o : Fin 64) :
    iblk0 V c 7 t (ix2 k o) = Cert.Spec.mat p.w4 k.val o.val := by
  obtain ⟨-, -, -, -, -, -, -, -, -, -, -, -, -, -, -, -, -, -, e0, e1, -, -⟩ := idx_facts t
  show V c main_arg7 (((cfg0.win 7).blk t).view.emb (ix2 k o)) = _
  have hi : ((cfg0.win 7).blk t).view.emb (ix2 k o) = ix2 k o := by
    funext a; apply Fin.ext
    match a with
    | ⟨0, _⟩ => show win0_7.index t (0 : Fin 2) * 320 + 1 * k.val = k.val; omega
    | ⟨1, _⟩ => show win0_7.index t (1 : Fin 2) * 64 + 1 * o.val = o.val; omega
  rw [hi, hW4]

include hB4 in
theorem iblk0_8_apply (t : Fin cfg0.N) (o : Fin 64) :
    iblk0 V c 8 t (ix2 (0 : Fin 1) o) = Cert.Spec.row p.b4 o.val := by
  obtain ⟨-, -, -, -, -, -, -, -, -, -, -, -, -, -, -, -, -, -, -, -, e0, e1⟩ := idx_facts t
  show V c main_arg8 (((cfg0.win 8).blk t).view.emb (ix2 (0 : Fin 1) o)) = _
  have hi : ((cfg0.win 8).blk t).view.emb (ix2 (0 : Fin 1) o) = ix2 (0 : Fin 1) o := by
    funext a; apply Fin.ext
    match a with
    | ⟨0, _⟩ => show win0_8.index t (0 : Fin 2) * 1 + 1 * (0 : Fin 1).val = (0 : Fin 1).val; simp [e0]
    | ⟨1, _⟩ => show win0_8.index t (1 : Fin 2) * 64 + 1 * o.val = o.val; omega
  rw [hi, hB4]

/-- An index of the output array is in point `t`'s block iff each coordinate is in the block's range on its axis. -/
theorem mem_blk9 (t : Fin cfg0.N) (i : S8192x29x768.Idx) :
    i ∈ ((cfg0.win 9).blk t).view.set ↔ ∀ a : Fin 3, win0_9.index t a * S8x29x768.size a ≤ (i a).val ∧ (i a).val < win0_9.index t a * S8x29x768.size a + S8x29x768.size a := by
  show i ∈ ((View.whole main_call0_v2).slice (win0_9.rect t)).set ↔ _
  rw [View.set_slice_whole, Rect.mem_set_unit]
  exact Iff.rfl

include hX hW1 hB1 hW2 hB2 hW3 hB3 hW4 hB4 in
/-- What point `t` writes back is block `t` of `G9`. -/
theorem flushed9_eq (t : Fin cfg0.N) :
    (dat0 V c).flushed 9 t = ((cfg0.win 9).blk t).view.read (Elt Ideal) (G9 p) := by
  show (cfg0.win 9).cut (grid0.coords t) ((dat0 V c).after 9 t) = _
  rw [after0_9]
  obtain ⟨-, -, -, e0, e1, e2, -⟩ := idx_facts t
  funext j
  obtain ⟨b, h, q, rfl⟩ : ∃ (b : Fin 8) (h : Fin 29) (q : Fin 768), j = ix3 b h q := ⟨j 0, j 1, j 2, eq_ix3 j⟩
  show rout (iblk0 V c 0 t) (iblk0 V c 1 t) (iblk0 V c 2 t) (iblk0 V c 3 t) (iblk0 V c 4 t) (iblk0 V c 5 t) (iblk0 V c 6 t) (iblk0 V c 7 t) (iblk0 V c 8 t) (ix3 b h q)
    = G9 p (((cfg0.win 9).blk t).view.emb (ix3 b h q))
  rw [rout_val (p := p) (n0 := 8 * t.val) (iblk0_0_apply V c p hX t) (iblk0_1_apply V c p hW1 t) (iblk0_2_apply V c p hB1 t)
    (iblk0_3_apply V c p hW2 t) (iblk0_4_apply V c p hB2 t) (iblk0_5_apply V c p hW3 t) (iblk0_6_apply V c p hB3 t)
    (iblk0_7_apply V c p hW4 t) (iblk0_8_apply V c p hB4 t) b h q]
  have a0 : ((((cfg0.win 9).blk t).view.emb (ix3 b h q)) 0).val = 8 * t.val + b.val := by
    show win0_9.index t (0 : Fin 3) * 8 + 1 * b.val = _; omega
  have a1 : ((((cfg0.win 9).blk t).view.emb (ix3 b h q)) 1).val = h.val := by
    show win0_9.index t (1 : Fin 3) * 29 + 1 * h.val = _; omega
  have a2 : ((((cfg0.win 9).blk t).view.emb (ix3 b h q)) 2).val = q.val := by
    show win0_9.index t (2 : Fin 3) * 768 + 1 * q.val = _; omega
  show _ = Cert.Spec.c4 p _ _ (_ / 64) (_ % 64)
  rw [a0, a1, a2]

include hX hW1 hB1 hW2 hB2 hW3 hB3 hW4 hB4 in
/-- The output array after the region: the fourth layer's activation of every image (the blocks tile it). -/
theorem arr0_final : (dat0 V c).arrAt 9 cfg0.N = G9 p :=
  (dat0 V c).arrAt_eq_of_cover 9 _ (fun t _ => flushed9_eq V c p hX hW1 hB1 hW2 hB2 hW3 hB3 hW4 hB4 t) (fun i => by
    have h0 : (i 0).val < 8192 := (i 0).isLt
    have h1 : (i 1).val < 29 := (i 1).isLt
    have h2 : (i 2).val < 768 := (i 2).isLt
    refine ⟨⟨(i 0).val / 8, by show (i 0).val / 8 < 1024; omega⟩, flush0_9 _, ?_⟩
    rw [mem_blk9]
    obtain ⟨-, -, -, e0, e1, e2, -⟩ := idx_facts ⟨(i 0).val / 8, by show (i 0).val / 8 < 1024; omega⟩
    intro a
    match a with
    | ⟨0, _⟩ => show win0_9.index _ (0 : Fin 3) * 8 ≤ (i 0).val ∧ (i 0).val < win0_9.index _ (0 : Fin 3) * 8 + 8; rw [e0]; show (i 0).val / 8 * 8 ≤ _ ∧ _ < (i 0).val / 8 * 8 + 8; omega
    | ⟨1, _⟩ => show win0_9.index _ (1 : Fin 3) * 29 ≤ (i 1).val ∧ (i 1).val < win0_9.index _ (1 : Fin 3) * 29 + 29; rw [e1]; omega
    | ⟨2, _⟩ => show win0_9.index _ (2 : Fin 3) * 768 ≤ (i 2).val ∧ (i 2).val < win0_9.index _ (2 : Fin 3) * 768 + 768; rw [e2]; omega)

include hX hW1 hB1 hW2 hB2 hW3 hB3 hW4 hB4 in
theorem arr0_value (n : Fin 8192) (h : Fin 29) (q : Fin 768) :
    (dat0 V c).arrAt 9 cfg0.N (ix3 n h q) = Cert.Spec.c4 p n.val h.val (q.val / 64) (q.val % 64) := by
  rw [arr0_final V c p hX hW1 hB1 hW2 hB2 hW3 hB3 hW4 hB4]

end Arr

/-! ## The same, read off the buffer contents after the region -/

section W2
variable (m : (ℓ : Loc nD τ sig) → Buf (Elt Ideal) ℓ) (c : Dev nD) (p : Cert.Spec.Args)
    (hX : ∀ (n : Fin 8192) (h : Fin 45) (w : Fin 16), V1 m c main_call0_v1 (ix3 n h w) = Cert.Spec.xN p n.val h.val w.val)
    (hW1 : ∀ (k : Fin 5) (o : Fin 64), V1 m c main_arg1 (ix2 k o) = Cert.Spec.mat p.w1 k.val o.val)
    (hB1 : ∀ o : Fin 64, V1 m c main_arg2 (ix2 (0 : Fin 1) o) = Cert.Spec.row p.b1 o.val)
    (hW2 : ∀ (k : Fin 320) (o : Fin 64), V1 m c main_arg3 (ix2 k o) = Cert.Spec.mat p.w2 k.val o.val)
    (hB2 : ∀ o : Fin 64, V1 m c main_arg4 (ix2 (0 : Fin 1) o) = Cert.Spec.row p.b2 o.val)
    (hW3 : ∀ (k : Fin 320) (o : Fin 64), V1 m c main_arg5 (ix2 k o) = Cert.Spec.mat p.w3 k.val o.val)
    (hB3 : ∀ o : Fin 64, V1 m c main_arg6 (ix2 (0 : Fin 1) o) = Cert.Spec.row p.b3 o.val)
    (hW4 : ∀ (k : Fin 320) (o : Fin 64), V1 m c main_arg7 (ix2 k o) = Cert.Spec.mat p.w4 k.val o.val)
    (hB4 : ∀ o : Fin 64, V1 m c main_arg8 (ix2 (0 : Fin 1) o) = Cert.Spec.row p.b4 o.val)

include hX hW1 hB1 hW2 hB2 hW3 hB3 hW4 hB4 in
/-- After the region the output array holds the fourth layer's activation of every image. -/
theorem W2_value (n : Fin 8192) (h : Fin 29) (q : Fin 768) :
    W2 m c (Proc.devRef .tc main_call0_v2) (ix3 n h q) = Cert.Spec.c4 p n.val h.val (q.val / 64) (q.val % 64) := by
  rw [show W2 m c (Proc.devRef .tc main_call0_v2) = (dat0 (V1 m) c).arrAt 9 cfg0.N from W2_arr m c 9]
  exact arr0_value (V1 m) c p hX hW1 hB1 hW2 hB2 hW3 hB3 hW4 hB4 n h q

end W2

end Cert.ReferenceIdeal.Hand

end
-- ==== Proof.RArgs.lean ====
/-
  The fifteen argument arrays of the program, read off a memory on one core, as the arguments of
  the network (Cert.Spec.Args): an f32 buffer at the ideal instance is an extended-real function of
  its multi-index.
-/
import proofs.«156904_g2000200884589374_pallasbulk_247_2_alg».proof.ReferenceIdeal
import proofs.«156904_g2000200884589374_pallasbulk_247_2_alg».proof.Proof.Spec
import Idealize.ShloMosaic.PureOps.Ideal

noncomputable section

namespace Cert.ReferenceIdeal.Hand

open Idealize.ShloMosaic Idealize.SL.Sem Cert.ReferenceIdeal

/-- Core c's argument arrays in the memory m. -/
def args (m : (ℓ : Loc nD τ sig) → Buf (Elt Ideal) ℓ) (c : Dev nD) : Cert.Spec.Args where
  x   := m ((c.tc : Thread nD τ).loc main_arg0)
  w1  := m ((c.tc : Thread nD τ).loc main_arg1)
  b1  := m ((c.tc : Thread nD τ).loc main_arg2)
  w2  := m ((c.tc : Thread nD τ).loc main_arg3)
  b2  := m ((c.tc : Thread nD τ).loc main_arg4)
  w3  := m ((c.tc : Thread nD τ).loc main_arg5)
  b3  := m ((c.tc : Thread nD τ).loc main_arg6)
  w4  := m ((c.tc : Thread nD τ).loc main_arg7)
  b4  := m ((c.tc : Thread nD τ).loc main_arg8)
  f1w := m ((c.tc : Thread nD τ).loc main_arg9)
  f1b := m ((c.tc : Thread nD τ).loc main_arg10)
  f2w := m ((c.tc : Thread nD τ).loc main_arg11)
  f2b := m ((c.tc : Thread nD τ).loc main_arg12)
  f3w := m ((c.tc : Thread nD τ).loc main_arg13)
  f3b := m ((c.tc : Thread nD τ).loc main_arg14)

/-- The statement the run is owed: the result array is the network of the arguments. -/
example (m : (ℓ : Loc nD τ sig) → Buf (Elt Ideal) ℓ) (c : Dev nD) : Prop :=
  m ((c.tc : Thread nD τ).loc main_v0) = Cert.Spec.net (args m c)

end Cert.ReferenceIdeal.Hand

end
-- ==== Proof.RRun.lean ====
/-
  The reference's whole run with values, at the ideal instance: the result array ends holding the network of
  the fifteen argument arrays, and every argument array ends as launched.

  Along the run: the first host stretch drops the input's unit axis and pads its width from 12 to 16 with the
  zero scalar, which is the zero extension of the input; the convolution region leaves the fourth layer's
  activations [8192, 29, 768]; the second host stretch flattens them to [8192, 22272], column
  768 h + 64 w + c being (height h, width w, channel c); the dense region leaves the last layer.
-/
import proofs.«156904_g2000200884589374_pallasbulk_247_2_alg».proof.Proof.RRunArgs
import proofs.«156904_g2000200884589374_pallasbulk_247_2_alg».proof.Proof.RDenseArr
import proofs.«156904_g2000200884589374_pallasbulk_247_2_alg».proof.Proof.RConvArr
import proofs.«156904_g2000200884589374_pallasbulk_247_2_alg».proof.Proof.RArgs
import Idealize.ShloMosaic.Lib.KernelVsHost
import Idealize.ShloMosaic.Lib.ValueLayout
import Idealize.ShloMosaic.Lib.IdealHost

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat)

/-! ## The padded input -/

/-- The two layout operations applied to the image array a, with padding scalar z: the unit axis dropped, the
    width padded from 12 to 16. -/
def xPad {α : Type} (a : S8192x1x45x12.Idx → α) (z : S_.Idx → α) : S8192x45x16.Idx → α :=
  pad S8192x45x16 ![0, 0, 0] ![0, 0, 4] ![0, 0, 0]
    (shapeCast S8192x45x12 a shapeCasts_S8192x1x45x12_S8192x45x12) z pads_S8192x45x12_S8192x45x16_000_000_040 h_S_

/-- Below width 12 the operand holds the image entry. -/
theorem xPad_inside {α : Type} (a : S8192x1x45x12.Idx → α) (z : S_.Idx → α) (n : Fin 8192) (h : Fin 45) (w : Fin 16)
    (hw : w.val < 12) : xPad a z (ix3 n h w) = a (ix4 n (0 : Fin 1) h (⟨w.val, hw⟩ : Fin 12)) := by
  unfold xPad
  refine (pad_apply_of_inside _ _ _ _ z _ h_S_ (ix3 n h w) (ix3 n h (⟨w.val, hw⟩ : Fin 12)) (fun b => ?_)).trans ?_
  · match b with
    | ⟨0, _⟩ => show n.val = 0 + n.val * (0 + 1); omega
    | ⟨1, _⟩ => show h.val = 0 + h.val * (0 + 1); omega
    | ⟨2, _⟩ => show w.val = 0 + w.val * (0 + 1); omega
  refine shapeCast_apply _ _ (ix3 n h (⟨w.val, hw⟩ : Fin 12)) (ix4 n (0 : Fin 1) h (⟨w.val, hw⟩ : Fin 12)) ?_
  rw [Shape.rowMajor_val_three, Shape.rowMajor_val_four]
  show ((n.val * 1 + 0) * 45 + h.val) * 12 + w.val = (n.val * 45 + h.val) * 12 + w.val
  omega

/-- From width 12 on it holds the padding scalar. -/
theorem xPad_outside {α : Type} (a : S8192x1x45x12.Idx → α) (z : S_.Idx → α) (n : Fin 8192) (h : Fin 45) (w : Fin 16)
    (hw : 12 ≤ w.val) : xPad a z (ix3 n h w) = z (Shape.Idx.first h_S_) := by
  unfold xPad
  refine pad_apply_of_not_inside _ _ _ _ z _ h_S_ (ix3 n h w) (2 : Fin 3) (fun hin => ?_)
  have h3 : (w.val - 0) / (0 + 1) < 12 := hin.2.2
  omega

/-- The scalar the pad fills with: the integer zero converted. -/
abbrev zpadR {F : FTy → Type} [FloatOps F] : S_.Idx → F .f32 := sitofp .f32 (constantI S_ 32 0#32)

/-- At the extended reals the padding scalar is zero. -/
theorem zpadR_apply (i : S_.Idx) : (zpadR (F := Ideal)) i = 0 := by
  show (((0#32 : BitVec 32).toInt : ℝ) : EReal) = 0
  simp

section Host
variable {F : FTy → Type} [FloatOps F]
variable (m : (ℓ : Loc nD τ sig) → Buf (Elt F) ℓ)

set_option maxHeartbeats 1000000 in
/-- The convolution's input operand as the first host stretch leaves it. -/
theorem W1_x_eq (c : Dev nD) :
    (W1 m c (Proc.devRef .tc main_call0_v1) : S8192x45x16.Idx → F .f32) = xPad (m ((c : Thread nD τ).loc main_arg0)) zpadR := by
  show StableHlo.after hostOps0 (fun b => m (c, b)) (Proc.devRef .tc main_call0_v1) = _
  open StableHlo in after_results
  rfl

set_option maxHeartbeats 1000000 in
/-- The dense region's feature operand as the second host stretch leaves it: the activations flattened. -/
theorem W3_feats_eq (c : Dev nD) :
    (W3 m c (Proc.devRef .tc main_call0_v3) : S8192x22272.Idx → F .f32)
      = shapeCast S8192x22272 (W2 m c (Proc.devRef .tc main_call0_v2) : S8192x29x768.Idx → F .f32) shapeCasts_S8192x29x768_S8192x22272 := by
  show StableHlo.after hostOps1 (W2 m c) (Proc.devRef .tc main_call0_v3) = _
  open StableHlo in after_results
  rfl

end Host

/-! ## The arguments read as the network's -/

/-- A matrix argument read at an index is its zero extension there. -/
theorem mat_at {r k : Nat} (a : (⟨2, ![r, k]⟩ : Shape).Idx → EReal) (i : (⟨2, ![r, k]⟩ : Shape).Idx) :
    Cert.Spec.mat a (i 0).val (i 1).val = a i := by
  unfold Cert.Spec.mat
  rw [dif_pos ⟨(i 0).isLt, (i 1).isLt⟩]
  exact congrArg a (eq_ix2 i).symm

/-- A bias argument read at an index is its zero extension there. -/
theorem row_at {k : Nat} (a : (⟨2, ![1, k]⟩ : Shape).Idx → EReal) (i : (⟨2, ![1, k]⟩ : Shape).Idx) :
    Cert.Spec.row a (i 1).val = a i := by
  unfold Cert.Spec.row
  rw [dif_pos (show (i 1).val < k from (i 1).isLt)]
  refine congrArg a ?_
  funext d
  match d with
  | ⟨0, _⟩ =>
    apply Fin.ext
    have h0 : (i 0).val < 1 := (i 0).isLt
    show 0 = (i 0).val
    omega
  | ⟨1, _⟩ => rfl

section Values
variable (m : (ℓ : Loc nD τ sig) → Buf (Elt Ideal) ℓ) (c : Dev nD)

/-- The convolution's input operand at (n, h, w) is the zero-extended input. -/
theorem V1_x (n : Fin 8192) (h : Fin 45) (w : Fin 16) :
    V1 m c main_call0_v1 (ix3 n h w) = Cert.Spec.xN (args m c) n.val h.val w.val := by
  show (W1 m c (Proc.devRef .tc main_call0_v1) : S8192x45x16.Idx → EReal) (ix3 n h w) = _
  rw [W1_x_eq]
  unfold Cert.Spec.xN
  by_cases hw : w.val < 12
  · rw [xPad_inside _ _ n h w hw, dif_pos ⟨n.isLt, h.isLt, hw⟩]
    rfl
  · rw [xPad_outside _ _ n h w (by omega), zpadR_apply, dif_neg (fun hh => hw hh.2.2)]

/-- After the convolution region its output array holds the fourth layer's activations. -/
theorem W2_c4 (n : Fin 8192) (h : Fin 29) (q : Fin 768) :
    W2 m c (Proc.devRef .tc main_call0_v2) (ix3 n h q) = Cert.Spec.c4 (args m c) n.val h.val (q.val / 64) (q.val % 64) :=
  W2_value m c (args m c) (V1_x m c)
    (fun k o => (congrFun (W1_main_arg1 m c) (ix2 k o)).trans (mat_at (args m c).w1 (ix2 k o)).symm)
    (fun o => (congrFun (W1_main_arg2 m c) (ix2 (0 : Fin 1) o)).trans (row_at (args m c).b1 (ix2 (0 : Fin 1) o)).symm)
    (fun k o => (congrFun (W1_main_arg3 m c) (ix2 k o)).trans (mat_at (args m c).w2 (ix2 k o)).symm)
    (fun o => (congrFun (W1_main_arg4 m c) (ix2 (0 : Fin 1) o)).trans (row_at (args m c).b2 (ix2 (0 : Fin 1) o)).symm)
    (fun k o => (congrFun (W1_main_arg5 m c) (ix2 k o)).trans (mat_at (args m c).w3 (ix2 k o)).symm)
    (fun o => (congrFun (W1_main_arg6 m c) (ix2 (0 : Fin 1) o)).trans (row_at (args m c).b3 (ix2 (0 : Fin 1) o)).symm)
    (fun k o => (congrFun (W1_main_arg7 m c) (ix2 k o)).trans (mat_at (args m c).w4 (ix2 k o)).symm)
    (fun o => (congrFun (W1_main_arg8 m c) (ix2 (0 : Fin 1) o)).trans (row_at (args m c).b4 (ix2 (0 : Fin 1) o)).symm)
    n h q

/-- The dense region's feature operand at (n, Q) is the activation at height Q / 768, width (Q % 768) / 64 and
    channel Q % 64. -/
theorem V3_feats (i : S8192x22272.Idx) :
    (V3 m c main_call0_v3 : S8192x22272.Idx → EReal) i
      = Cert.Spec.c4 (args m c) (i 0).val ((i 1).val / 768) ((i 1).val % 768 / 64) ((i 1).val % 64) := by
  have hi1 : (i 1).val < 22272 := (i 1).isLt
  show (W3 m c (Proc.devRef .tc main_call0_v3) : S8192x22272.Idx → EReal) i = _
  rw [W3_feats_eq]
  refine (shapeCast_apply _ _ i (ix3 (i 0) (⟨(i 1).val / 768, by omega⟩ : Fin 29) (⟨(i 1).val % 768, by omega⟩ : Fin 768)) ?_).trans ?_
  · rw [Shape.rowMajor_val_three, Shape.rowMajor_val_two]
    show ((i 0).val * 29 + (i 1).val / 768) * 768 + (i 1).val % 768 = (i 0).val * 22272 + (i 1).val
    omega
  · refine (W2_c4 m c (i 0) (⟨(i 1).val / 768, by omega⟩ : Fin 29) (⟨(i 1).val % 768, by omega⟩ : Fin 768)).trans ?_
    show Cert.Spec.c4 (args m c) (i 0).val ((i 1).val / 768) ((i 1).val % 768 / 64) ((i 1).val % 768 % 64) = _
    rw [show (i 1).val % 768 % 64 = (i 1).val % 64 from by omega]

/-- THE RESULT ARRAY after the run's last region: the network of the arguments. -/
theorem out_value : (dat1 (V3 m) c).arrAt 7 cfg1.N = Cert.Spec.net (args m c) :=
  arr1_value (V3 m) c (args m c) (V3_feats m c)
    (fun i => (congrFun (W3_main_arg9 m c) i).trans (mat_at (args m c).f1w i).symm)
    (fun i => (congrFun (W3_main_arg10 m c) i).trans (row_at (args m c).f1b i).symm)
    (fun i => (congrFun (W3_main_arg11 m c) i).trans (mat_at (args m c).f2w i).symm)
    (fun i => (congrFun (W3_main_arg12 m c) i).trans (row_at (args m c).f2b i).symm)
    (fun i => (congrFun (W3_main_arg13 m c) i).trans (mat_at (args m c).f3w i).symm)
    (fun i => (congrFun (W3_main_arg14 m c) i).trans (row_at (args m c).f3b i).symm)

end Values

/-! ## The run with values -/

/-- From any memory with zero counters every weakly fair execution of the reference terminates, and every final
    state holds the network of the arguments in the result array and each argument array as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = Cert.Spec.net (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v0 (by decide))).trans ((W4_arr m c 7).trans (out_value m c)),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c),
      (h c _ (mem_uc main_arg11 (by decide))).trans (W4_main_arg11 m c),
      (h c _ (mem_uc main_arg12 (by decide))).trans (W4_main_arg12 m c),
      (h c _ (mem_uc main_arg13 (by decide))).trans (W4_main_arg13 m c),
      (h c _ (mem_uc main_arg14 (by decide))).trans (W4_main_arg14 m c)⟩)
    (run_W4 m ρ)

end Cert.ReferenceIdeal.Hand

end
-- ==== Proof.lean ====
/-
  Two arrangements of one small convolutional network agree on the extended reals.

  The network: four convolutions along the height of a one-channel 45 x 12 image (five taps, 64
  channels, a bias, a clip at zero), then three dense layers 22272 → 128 → 128 → 22 (the first two
  clipped at zero) — Cert.Spec.net, written index by index over zero-extended arrays.

  The kernel pads the HEIGHT 45 → 48 with zeros, keeps the activations as rows (width, image) by
  columns (four heights x 64 channels), and turns every convolution into products with banded
  matrices its host side builds from the weights (zero off the five taps); the first dense weight is
  re-ordered with zero rows at the padded heights, so the junk the extra heights carry meets only
  zeros. The reference pads the WIDTH 12 → 16 with zeros, computes each later convolution as five
  products added after a shift of the rows, slices the four extra columns away, and accumulates the
  first dense layer over two tiles of 11136 features in a scratch carried across two grid points.
  Both are the same formulas: a zero weight kills its term (0 · x = 0 for every extended real x) and
  finite sums may be regrouped (+ is commutative and associative), nothing else; no finiteness of
  the inputs is used.

  The three frames are the runs themselves with the result dropped; the idealization rewrote no
  operation, so its statement is trivial.
-/
import proofs.«156904_g2000200884589374_pallasbulk_247_2_alg».proof.Defs
import proofs.«156904_g2000200884589374_pallasbulk_247_2_alg».proof.Proof.Gen.Kernel
import proofs.«156904_g2000200884589374_pallasbulk_247_2_alg».proof.Proof.Gen.KernelIdeal
import proofs.«156904_g2000200884589374_pallasbulk_247_2_alg».proof.Proof.Gen.ReferenceIdeal
import proofs.«156904_g2000200884589374_pallasbulk_247_2_alg».proof.Proof.Gen.Pre_finite_inputs
import proofs.«156904_g2000200884589374_pallasbulk_247_2_alg».proof.Proof.KFrameBits
import proofs.«156904_g2000200884589374_pallasbulk_247_2_alg».proof.Proof.KRun
import proofs.«156904_g2000200884589374_pallasbulk_247_2_alg».proof.Proof.RRun

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ =>
  (θ_run (Cert.KernelIdeal.defs (F := Ideal)) _ _).mono (fun _ h c => (h c).2) (Cert.KernelIdeal.Hand.run_value m ρ)

theorem frame_referenceIdeal : Cert.frame_ReferenceIdeal := fun m ρ _ =>
  (θ_run (Cert.ReferenceIdeal.defs (F := Ideal)) _ _).mono (fun _ h c => (h c).2) (Cert.ReferenceIdeal.Hand.run_value m ρ)

/-- Arguments that agree array by array are the same arguments of the network. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Hand.args m' c = Cert.KernelIdeal.Hand.args m c := by
  obtain ⟨e0, e1, e2, e3, e4, e5, e6, e7, e8, e9, e10, e11, e12, e13, e14⟩ := h
  unfold Cert.ReferenceIdeal.Hand.args Cert.KernelIdeal.Hand.args
  rw [e0, e1, e2, e3, e4, e5, e6, e7, e8, e9, e10, e11, e12, e13, e14]

theorem algebraic : Cert.algebraic_KernelIdeal_ReferenceIdeal := by
  intro m ρ m' ρ' _ hagree
  refine ⟨fun c => Cert.Spec.net (Cert.KernelIdeal.Hand.args m c), Cert.KernelIdeal.Hand.run_value m ρ, ?_⟩
  refine (θ_run (Cert.ReferenceIdeal.defs (F := Ideal)) _ _).mono (fun _ h c => ⟨(h c).1.trans ?_, (h c).2⟩)
    (Cert.ReferenceIdeal.Hand.run_value m' ρ')
  exact congrArg Cert.Spec.net (args_eq m m' c (hagree c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
